-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_cst)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_cst) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_cst_9) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel

variable [Facts]

def fn {F : FTy → Type} [FloatOps F] (main_arg0 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  main_v3
-- ==== Kernel.lean ====
abbrev S4x2048x1024 : Shape := ⟨3, ![4, 2048, 1024]⟩
abbrev S2048x16x256 : Shape := ⟨3, ![2048, 16, 256]⟩
abbrev S256x16x256 : Shape := ⟨3, ![256, 16, 256]⟩
abbrev S256x1x1 : Shape := ⟨3, ![256, 1, 1]⟩
abbrev S1x16x256 : Shape := ⟨3, ![1, 16, 256]⟩
abbrev S1x2048x16x256 : Shape := ⟨4, ![1, 2048, 16, 256]⟩
abbrev S4x2048x16x256 : Shape := ⟨4, ![4, 2048, 16, 256]⟩
abbrev S_ : Shape := ⟨0, ![]⟩
abbrev S16x16x256 : Shape := ⟨3, ![16, 16, 256]⟩
abbrev S16 : Shape := ⟨1, ![16]⟩
abbrev S1x1x16 : Shape := ⟨3, ![1, 1, 16]⟩
abbrev S1x16x16x256 : Shape := ⟨4, ![1, 16, 16, 256]⟩

abbrev nBuf : Table → Nat
  | .hbm => 10
  | .local .tc .vmem => 2
  | .local .scVector .vmem => 1
  | _ => 0

abbrev bufTy : (tb : Table) → Fin (nBuf tb) → BufTy
  | .hbm, ⟨0, _⟩ => ⟨S4x2048x1024, .f32⟩
  | .hbm, ⟨1, _⟩ => ⟨S2048x16x256, .i8⟩
  | .hbm, ⟨2, _⟩ => ⟨S1x2048x16x256, .i8⟩
  | .hbm, ⟨3, _⟩ => ⟨S4x2048x16x256, .i8⟩
  | .hbm, ⟨4, _⟩ => ⟨S_, .i8⟩
  | .hbm, ⟨5, _⟩ => ⟨S4x2048x16x256, .i8⟩
  | .hbm, ⟨6, _⟩ => ⟨S4x2048x16x256, .i1⟩
  | .hbm, ⟨7, _⟩ => ⟨S4x2048x16x256, .i1⟩
  | .hbm, ⟨8, _⟩ => ⟨S4x2048x16x256, .f32⟩
  | .hbm, ⟨9, _⟩ => ⟨S_, .f32⟩
  | .local .tc .vmem, ⟨0, _⟩ => ⟨S256x16x256, .i8⟩
  | .local .tc .vmem, ⟨1, _⟩ => ⟨S256x16x256, .i8⟩
  | .local .scVector .vmem, ⟨0, _⟩ => ⟨S16x16x256, .f32⟩
  | _, _ => ⟨S4x2048x1024, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v6_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc1_scratch0 : Ref sig .scVector := ⟨.vmem, 0, rfl⟩
abbrev cc0_sem0_0 : DmaSem sig := 0
abbrev cc0_sem0_1 : DmaSem sig := 1
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x16x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨2, ![2, 16], ![false, false]⟩

@[reducible] def k1_t1_loop : Scf.Loop 32 :=
  let c0_i32_11 : BitVec 32 := 0#32
  let c256_i32_12 : BitVec 32 := 256#32
  let v31 : BitVec 32 := Scalar.addi c0_i32_11 c256_i32_12
  let c1_i32_13 : BitVec 32 := 1#32
  ⟨c0_i32_11, v31, c1_i32_13⟩
def k1_off1 (k1_t1 : Fin k1_t1_loop.trips) : Fin 3 → Nat :=
  let c0_i32_11 : BitVec 32 := 0#32
  let c1_i32_13 : BitVec 32 := 1#32
  let arg4 : BitVec 32 := Scf.iv c0_i32_11 c1_i32_13 k1_t1
  let c0_i32_580 : BitVec 32 := 0#32
  let v1701 : BitVec 1 := Scalar.cmpi .sgt arg4 c0_i32_580
  let v1702 : BitVec 32 := Scalar.extui v1701
  let c0_i32_581 : BitVec 32 := 0#32
  let v1703 : BitVec 1 := Scalar.cmpi .slt arg4 c0_i32_581
  let v1704 : BitVec 32 := Scalar.extui v1703
  let v1705 : BitVec 32 := Scalar.subi v1702 v1704
  let c16_i32_579 : BitVec 32 := 16#32
  let c0_i32_582 : BitVec 32 := 0#32
  let v1706 : BitVec 1 := Scalar.cmpi .sgt c16_i32_579 c0_i32_582
  let v1707 : BitVec 32 := Scalar.extui v1706
  let c0_i32_583 : BitVec 32 := 0#32
  let v1708 : BitVec 1 := Scalar.cmpi .slt c16_i32_579 c0_i32_583
  let v1709 : BitVec 32 := Scalar.extui v1708
  let v1710 : BitVec 32 := Scalar.subi v1707 v1709
  let v1711 : BitVec 1 := Scalar.cmpi .ne v1705 v1710
  let v1712 : BitVec 32 := Scalar.remsi arg4 c16_i32_579
  let c0_i32_584 : BitVec 32 := 0#32
  let v1713 : BitVec 1 := Scalar.cmpi .ne v1712 c0_i32_584
  let v1714 : BitVec 1 := Scalar.andi v1711 v1713
  let v1700 : BitVec 32 := Scalar.divsi arg4 c16_i32_579
  let c1_i32_585 : BitVec 32 := 1#32
  let v1715 : BitVec 32 := Scalar.subi v1700 c1_i32_585
  let v1716 : BitVec 32 := Scalar.select v1714 v1715 v1700
  let v1727 : Index := Scalar.indexCast v1716
  let c16_i32_586 : BitVec 32 := 16#32
  let c0_i32_587 : BitVec 32 := 0#32
  let v1717 : BitVec 1 := Scalar.cmpi .eq c16_i32_586 c0_i32_587
  let c1_i32_588 : BitVec 32 := 1#32
  let v1718 : BitVec 32 := Scalar.select v1717 c1_i32_588 c16_i32_586
  let v1719 : BitVec 32 := Scalar.remsi arg4 v1718
  let c0_i32_590 : BitVec 32 := 0#32
  let v1721 : BitVec 1 := Scalar.cmpi .slt v1719 c0_i32_590
  let c0_i32_591 : BitVec 32 := 0#32
  let v1722 : BitVec 1 := Scalar.cmpi .slt v1718 c0_i32_591
  let v1723 : BitVec 1 := Scalar.xori v1721 v1722
  let c0_i32_589 : BitVec 32 := 0#32
  let v1720 : BitVec 1 := Scalar.cmpi .ne v1719 c0_i32_589
  let v1724 : BitVec 1 := Scalar.andi v1723 v1720
  let v1725 : BitVec 32 := Scalar.addi v1719 v1718
  let v1726 : BitVec 32 := Scalar.select v1724 v1725 v1719
  let v1728 : Index := Scalar.indexCast v1726
  let c0 : Index := 0#32
  ![v1727.toNat, v1728.toNat, 0]
def k1_off2 (k1_t1 : Fin k1_t1_loop.trips) : Fin 3 → Nat :=
  let c0_i32_11 : BitVec 32 := 0#32
  let c1_i32_13 : BitVec 32 := 1#32
  let arg4 : BitVec 32 := Scf.iv c0_i32_11 c1_i32_13 k1_t1
  let c0_i32_580 : BitVec 32 := 0#32
  let v1701 : BitVec 1 := Scalar.cmpi .sgt arg4 c0_i32_580
  let v1702 : BitVec 32 := Scalar.extui v1701
  let c0_i32_581 : BitVec 32 := 0#32
  let v1703 : BitVec 1 := Scalar.cmpi .slt arg4 c0_i32_581
  let v1704 : BitVec 32 := Scalar.extui v1703
  let v1705 : BitVec 32 := Scalar.subi v1702 v1704
  let c16_i32_579 : BitVec 32 := 16#32
  let c0_i32_582 : BitVec 32 := 0#32
  let v1706 : BitVec 1 := Scalar.cmpi .sgt c16_i32_579 c0_i32_582
  let v1707 : BitVec 32 := Scalar.extui v1706
  let c0_i32_583 : BitVec 32 := 0#32
  let v1708 : BitVec 1 := Scalar.cmpi .slt c16_i32_579 c0_i32_583
  let v1709 : BitVec 32 := Scalar.extui v1708
  let v1710 : BitVec 32 := Scalar.subi v1707 v1709
  let v1711 : BitVec 1 := Scalar.cmpi .ne v1705 v1710
  let v1712 : BitVec 32 := Scalar.remsi arg4 c16_i32_579
  let c0_i32_584 : BitVec 32 := 0#32
  let v1713 : BitVec 1 := Scalar.cmpi .ne v1712 c0_i32_584
  let v1714 : BitVec 1 := Scalar.andi v1711 v1713
  let v1700 : BitVec 32 := Scalar.divsi arg4 c16_i32_579
  let c1_i32_585 : BitVec 32 := 1#32
  let v1715 : BitVec 32 := Scalar.subi v1700 c1_i32_585
  let v1716 : BitVec 32 := Scalar.select v1714 v1715 v1700
  let v1732 : Index := Scalar.indexCast v1716
  let c16_i32_586 : BitVec 32 := 16#32
  let c0_i32_587 : BitVec 32 := 0#32
  let v1717 : BitVec 1 := Scalar.cmpi .eq c16_i32_586 c0_i32_587
  let c1_i32_588 : BitVec 32 := 1#32
  let v1718 : BitVec 32 := Scalar.select v1717 c1_i32_588 c16_i32_586
  let v1719 : BitVec 32 := Scalar.remsi arg4 v1718
  let c0_i32_590 : BitVec 32 := 0#32
  let v1721 : BitVec 1 := Scalar.cmpi .slt v1719 c0_i32_590
  let c0_i32_591 : BitVec 32 := 0#32
  let v1722 : BitVec 1 := Scalar.cmpi .slt v1718 c0_i32_591
  let v1723 : BitVec 1 := Scalar.xori v1721 v1722
  let c0_i32_589 : BitVec 32 := 0#32
  let v1720 : BitVec 1 := Scalar.cmpi .ne v1719 c0_i32_589
  let v1724 : BitVec 1 := Scalar.andi v1723 v1720
  let v1725 : BitVec 32 := Scalar.addi v1719 v1718
  let v1726 : BitVec 32 := Scalar.select v1724 v1725 v1719
  let v1733 : Index := Scalar.indexCast v1726
  let c16 : Index := 16#32
  ![v1732.toNat, v1733.toNat, 16]
def k1_off3 (k1_t1 : Fin k1_t1_loop.trips) : Fin 3 → Nat :=
  let c0_i32_11 : BitVec 32 := 0#32
  let c1_i32_13 : BitVec 32 := 1#32
  let arg4 : BitVec 32 := Scf.iv c0_i32_11 c1_i32_13 k1_t1
  let c0_i32_580 : BitVec 32 := 0#32
  let v1701 : BitVec 1 := Scalar.cmpi .sgt arg4 c0_i32_580
  let v1702 : BitVec 32 := Scalar.extui v1701
  let c0_i32_581 : BitVec 32 := 0#32
  let v1703 : BitVec 1 := Scalar.cmpi .slt arg4 c0_i32_581
  let v1704 : BitVec 32 := Scalar.extui v1703
  let v1705 : BitVec 32 := Scalar.subi v1702 v1704
  let c16_i32_579 : BitVec 32 := 16#32
  let c0_i32_582 : BitVec 32 := 0#32
  let v1706 : BitVec 1 := Scalar.cmpi .sgt c16_i32_579 c0_i32_582
  let v1707 : BitVec 32 := Scalar.extui v1706
  let c0_i32_583 : BitVec 32 := 0#32
  let v1708 : BitVec 1 := Scalar.cmpi .slt c16_i32_579 c0_i32_583
  let v1709 : BitVec 32 := Scalar.extui v1708
  let v1710 : BitVec 32 := Scalar.subi v1707 v1709
  let v1711 : BitVec 1 := Scalar.cmpi .ne v1705 v1710
  let v1712 : BitVec 32 := Scalar.remsi arg4 c16_i32_579
  let c0_i32_584 : BitVec 32 := 0#32
  let v1713 : BitVec 1 := Scalar.cmpi .ne v1712 c0_i32_584
  let v1714 : BitVec 1 := Scalar.andi v1711 v1713
  let v1700 : BitVec 32 := Scalar.divsi arg4 c16_i32_579
  let c1_i32_585 : BitVec 32 := 1#32
  let v1715 : BitVec 32 := Scalar.subi v1700 c1_i32_585
  let v1716 : BitVec 32 := Scalar.select v1714 v1715 v1700
  let v1737 : Index := Scalar.indexCast v1716
  let c16_i32_586 : BitVec 32 := 16#32
  let c0_i32_587 : BitVec 32 := 0#32
  let v1717 : BitVec 1 := Scalar.cmpi .eq c16_i32_586 c0_i32_587
  let c1_i32_588 : BitVec 32 := 1#32
  let v1718 : BitVec 32 := Scalar.select v1717 c1_i32_588 c16_i32_586
  let v1719 : BitVec 32 := Scalar.remsi arg4 v1718
  let c0_i32_590 : BitVec 32 := 0#32
  let v1721 : BitVec 1 := Scalar.cmpi .slt v1719 c0_i32_590
  let c0_i32_591 : BitVec 32 := 0#32
  let v1722 : BitVec 1 := Scalar.cmpi .slt v1718 c0_i32_591
  let v1723 : BitVec 1 := Scalar.xori v1721 v1722
  let c0_i32_589 : BitVec 32 := 0#32
  let v1720 : BitVec 1 := Scalar.cmpi .ne v1719 c0_i32_589
  let v1724 : BitVec 1 := Scalar.andi v1723 v1720
  let v1725 : BitVec 32 := Scalar.addi v1719 v1718
  let v1726 : BitVec 32 := Scalar.select v1724 v1725 v1719
  let v1738 : Index := Scalar.indexCast v1726
  let c32 : Index := 32#32
  ![v1737.toNat, v1738.toNat, 32]
def k1_off4 (k1_t1 : Fin k1_t1_loop.trips) : Fin 3 → Nat :=
  let c0_i32_11 : BitVec 32 := 0#32
  let c1_i32_13 : BitVec 32 := 1#32
  let arg4 : BitVec 32 := Scf.iv c0_i32_11 c1_i32_13 k1_t1
  let c0_i32_580 : BitVec 32 := 0#32
  let v1701 : BitVec 1 := Scalar.cmpi .sgt arg4 c0_i32_580
  let v1702 : BitVec 32 := Scalar.extui v1701
  let c0_i32_581 : BitVec 32 := 0#32
  let v1703 : BitVec 1 := Scalar.cmpi .slt arg4 c0_i32_581
  let v1704 : BitVec 32 := Scalar.extui v1703
  let v1705 : BitVec 32 := Scalar.subi v1702 v1704
  let c16_i32_579 : BitVec 32 := 16#32
  let c0_i32_582 : BitVec 32 := 0#32
  let v1706 : BitVec 1 := Scalar.cmpi .sgt c16_i32_579 c0_i32_582
  let v1707 : BitVec 32 := Scalar.extui v1706
  let c0_i32_583 : BitVec 32 := 0#32
  let v1708 : BitVec 1 := Scalar.cmpi .slt c16_i32_579 c0_i32_583
  let v1709 : BitVec 32 := Scalar.extui v1708
  let v1710 : BitVec 32 := Scalar.subi v1707 v1709
  let v1711 : BitVec 1 := Scalar.cmpi .ne v1705 v1710
  let v1712 : BitVec 32 := Scalar.remsi arg4 c16_i32_579
  let c0_i32_584 : BitVec 32 := 0#32
  let v1713 : BitVec 1 := Scalar.cmpi .ne v1712 c0_i32_584
  let v1714 : BitVec 1 := Scalar.andi v1711 v1713
  let v1700 : BitVec 32 := Scalar.divsi arg4 c16_i32_579
  let c1_i32_585 : BitVec 32 := 1#32
  let v1715 : BitVec 32 := Scalar.subi v1700 c1_i32_585
  let v1716 : BitVec 32 := Scalar.select v1714 v1715 v1700
  let v1742 : Index := Scalar.indexCast v1716
  let c16_i32_586 : BitVec 32 := 16#32
  let c0_i32_587 : BitVec 32 := 0#32
  let v1717 : BitVec 1 := Scalar.cmpi .eq c16_i32_586 c0_i32_587
  let c1_i32_588 : BitVec 32 := 1#32
  let v1718 : BitVec 32 := Scalar.select v1717 c1_i32_588 c16_i32_586
  let v1719 : BitVec 32 := Scalar.remsi arg4 v1718
  let c0_i32_590 : BitVec 32 := 0#32
  let v1721 : BitVec 1 := Scalar.cmpi .slt v1719 c0_i32_590
  let c0_i32_591 : BitVec 32 := 0#32
  let v1722 : BitVec 1 := Scalar.cmpi .slt v1718 c0_i32_591
  let v1723 : BitVec 1 := Scalar.xori v1721 v1722
  let c0_i32_589 : BitVec 32 := 0#32
  let v1720 : BitVec 1 := Scalar.cmpi .ne v1719 c0_i32_589
  let v1724 : BitVec 1 := Scalar.andi v1723 v1720
  let v1725 : BitVec 32 := Scalar.addi v1719 v1718
  let v1726 : BitVec 32 := Scalar.select v1724 v1725 v1719
  let v1743 : Index := Scalar.indexCast v1726
  let c48 : Index := 48#32
  ![v1742.toNat, v1743.toNat, 48]
def k1_off5 (k1_t1 : Fin k1_t1_loop.trips) : Fin 3 → Nat :=
  let c0_i32_11 : BitVec 32 := 0#32
  let c1_i32_13 : BitVec 32 := 1#32
  let arg4 : BitVec 32 := Scf.iv c0_i32_11 c1_i32_13 k1_t1
  let c0_i32_580 : BitVec 32 := 0#32
  let v1701 : BitVec 1 := Scalar.cmpi .sgt arg4 c0_i32_580
  let v1702 : BitVec 32 := Scalar.extui v1701
  let c0_i32_581 : BitVec 32 := 0#32
  let v1703 : BitVec 1 := Scalar.cmpi .slt arg4 c0_i32_581
  let v1704 : BitVec 32 := Scalar.extui v1703
  let v1705 : BitVec 32 := Scalar.subi v1702 v1704
  let c16_i32_579 : BitVec 32 := 16#32
  let c0_i32_582 : BitVec 32 := 0#32
  let v1706 : BitVec 1 := Scalar.cmpi .sgt c16_i32_579 c0_i32_582
  let v1707 : BitVec 32 := Scalar.extui v1706
  let c0_i32_583 : BitVec 32 := 0#32
  let v1708 : BitVec 1 := Scalar.cmpi .slt c16_i32_579 c0_i32_583
  let v1709 : BitVec 32 := Scalar.extui v1708
  let v1710 : BitVec 32 := Scalar.subi v1707 v1709
  let v1711 : BitVec 1 := Scalar.cmpi .ne v1705 v1710
  let v1712 : BitVec 32 := Scalar.remsi arg4 c16_i32_579
  let c0_i32_584 : BitVec 32 := 0#32
  let v1713 : BitVec 1 := Scalar.cmpi .ne v1712 c0_i32_584
  let v1714 : BitVec 1 := Scalar.andi v1711 v1713
  let v1700 : BitVec 32 := Scalar.divsi arg4 c16_i32_579
  let c1_i32_585 : BitVec 32 := 1#32
  let v1715 : BitVec 32 := Scalar.subi v1700 c1_i32_585
  let v1716 : BitVec 32 := Scalar.select v1714 v1715 v1700
  let v1747 : Index := Scalar.indexCast v1716
  let c16_i32_586 : BitVec 32 := 16#32
  let c0_i32_587 : BitVec 32 := 0#32
  let v1717 : BitVec 1 := Scalar.cmpi .eq c16_i32_586 c0_i32_587
  let c1_i32_588 : BitVec 32 := 1#32
  let v1718 : BitVec 32 := Scalar.select v1717 c1_i32_588 c16_i32_586
  let v1719 : BitVec 32 := Scalar.remsi arg4 v1718
  let c0_i32_590 : BitVec 32 := 0#32
  let v1721 : BitVec 1 := Scalar.cmpi .slt v1719 c0_i32_590
  let c0_i32_591 : BitVec 32 := 0#32
  let v1722 : BitVec 1 := Scalar.cmpi .slt v1718 c0_i32_591
  let v1723 : BitVec 1 := Scalar.xori v1721 v1722
  let c0_i32_589 : BitVec 32 := 0#32
  let v1720 : BitVec 1 := Scalar.cmpi .ne v1719 c0_i32_589
  let v1724 : BitVec 1 := Scalar.andi v1723 v1720
  let v1725 : BitVec 32 := Scalar.addi v1719 v1718
  let v1726 : BitVec 32 := Scalar.select v1724 v1725 v1719
  let v1748 : Index := Scalar.indexCast v1726
  let c64 : Index := 64#32
  ![v1747.toNat, v1748.toNat, 64]
def k1_off6 (k1_t1 : Fin k1_t1_loop.trips) : Fin 3 → Nat :=
  let c0_i32_11 : BitVec 32 := 0#32
  let c1_i32_13 : BitVec 32 := 1#32
  let arg4 : BitVec 32 := Scf.iv c0_i32_11 c1_i32_13 k1_t1
  let c0_i32_580 : BitVec 32 := 0#32
  let v1701 : BitVec 1 := Scalar.cmpi .sgt arg4 c0_i32_580
  let v1702 : BitVec 32 := Scalar.extui v1701
  let c0_i32_581 : BitVec 32 := 0#32
  let v1703 : BitVec 1 := Scalar.cmpi .slt arg4 c0_i32_581
  let v1704 : BitVec 32 := Scalar.extui v1703
  let v1705 : BitVec 32 := Scalar.subi v1702 v1704
  let c16_i32_579 : BitVec 32 := 16#32
  let c0_i32_582 : BitVec 32 := 0#32
  let v1706 : BitVec 1 := Scalar.cmpi .sgt c16_i32_579 c0_i32_582
  let v1707 : BitVec 32 := Scalar.extui v1706
  let c0_i32_583 : BitVec 32 := 0#32
  let v1708 : BitVec 1 := Scalar.cmpi .slt c16_i32_579 c0_i32_583
  let v1709 : BitVec 32 := Scalar.extui v1708
  let v1710 : BitVec 32 := Scalar.subi v1707 v1709
  let v1711 : BitVec 1 := Scalar.cmpi .ne v1705 v1710
  let v1712 : BitVec 32 := Scalar.remsi arg4 c16_i32_579
  let c0_i32_584 : BitVec 32 := 0#32
  let v1713 : BitVec 1 := Scalar.cmpi .ne v1712 c0_i32_584
  let v1714 : BitVec 1 := Scalar.andi v1711 v1713
  let v1700 : BitVec 32 := Scalar.divsi arg4 c16_i32_579
  let c1_i32_585 : BitVec 32 := 1#32
  let v1715 : BitVec 32 := Scalar.subi v1700 c1_i32_585
  let v1716 : BitVec 32 := Scalar.select v1714 v1715 v1700
  let v1752 : Index := Scalar.indexCast v1716
  let c16_i32_586 : BitVec 32 := 16#32
  let c0_i32_587 : BitVec 32 := 0#32
  let v1717 : BitVec 1 := Scalar.cmpi .eq c16_i32_586 c0_i32_587
  let c1_i32_588 : BitVec 32 := 1#32
  let v1718 : BitVec 32 := Scalar.select v1717 c1_i32_588 c16_i32_586
  let v1719 : BitVec 32 := Scalar.remsi arg4 v1718
  let c0_i32_590 : BitVec 32 := 0#32
  let v1721 : BitVec 1 := Scalar.cmpi .slt v1719 c0_i32_590
  let c0_i32_591 : BitVec 32 := 0#32
  let v1722 : BitVec 1 := Scalar.cmpi .slt v1718 c0_i32_591
  let v1723 : BitVec 1 := Scalar.xori v1721 v1722
  let c0_i32_589 : BitVec 32 := 0#32
  let v1720 : BitVec 1 := Scalar.cmpi .ne v1719 c0_i32_589
  let v1724 : BitVec 1 := Scalar.andi v1723 v1720
  let v1725 : BitVec 32 := Scalar.addi v1719 v1718
  let v1726 : BitVec 32 := Scalar.select v1724 v1725 v1719
  let v1753 : Index := Scalar.indexCast v1726
  let c80 : Index := 80#32
  ![v1752.toNat, v1753.toNat, 80]
def k1_off7 (k1_t1 : Fin k1_t1_loop.trips) : Fin 3 → Nat :=
  let c0_i32_11 : BitVec 32 := 0#32
  let c1_i32_13 : BitVec 32 := 1#32
  let arg4 : BitVec 32 := Scf.iv c0_i32_11 c1_i32_13 k1_t1
  let c0_i32_580 : BitVec 32 := 0#32
  let v1701 : BitVec 1 := Scalar.cmpi .sgt arg4 c0_i32_580
  let v1702 : BitVec 32 := Scalar.extui v1701
  let c0_i32_581 : BitVec 32 := 0#32
  let v1703 : BitVec 1 := Scalar.cmpi .slt arg4 c0_i32_581
  let v1704 : BitVec 32 := Scalar.extui v1703
  let v1705 : BitVec 32 := Scalar.subi v1702 v1704
  let c16_i32_579 : BitVec 32 := 16#32
  let c0_i32_582 : BitVec 32 := 0#32
  let v1706 : BitVec 1 := Scalar.cmpi .sgt c16_i32_579 c0_i32_582
  let v1707 : BitVec 32 := Scalar.extui v1706
  let c0_i32_583 : BitVec 32 := 0#32
  let v1708 : BitVec 1 := Scalar.cmpi .slt c16_i32_579 c0_i32_583
  let v1709 : BitVec 32 := Scalar.extui v1708
  let v1710 : BitVec 32 := Scalar.subi v1707 v1709
  let v1711 : BitVec 1 := Scalar.cmpi .ne v1705 v1710
  let v1712 : BitVec 32 := Scalar.remsi arg4 c16_i32_579
  let c0_i32_584 : BitVec 32 := 0#32
  let v1713 : BitVec 1 := Scalar.cmpi .ne v1712 c0_i32_584
  let v1714 : BitVec 1 := Scalar.andi v1711 v1713
  let v1700 : BitVec 32 := Scalar.divsi arg4 c16_i32_579
  let c1_i32_585 : BitVec 32 := 1#32
  let v1715 : BitVec 32 := Scalar.subi v1700 c1_i32_585
  let v1716 : BitVec 32 := Scalar.select v1714 v1715 v1700
  let v1757 : Index := Scalar.indexCast v1716
  let c16_i32_586 : BitVec 32 := 16#32
  let c0_i32_587 : BitVec 32 := 0#32
  let v1717 : BitVec 1 := Scalar.cmpi .eq c16_i32_586 c0_i32_587
  let c1_i32_588 : BitVec 32 := 1#32
  let v1718 : BitVec 32 := Scalar.select v1717 c1_i32_588 c16_i32_586
  let v1719 : BitVec 32 := Scalar.remsi arg4 v1718
  let c0_i32_590 : BitVec 32 := 0#32
  let v1721 : BitVec 1 := Scalar.cmpi .slt v1719 c0_i32_590
  let c0_i32_591 : BitVec 32 := 0#32
  let v1722 : BitVec 1 := Scalar.cmpi .slt v1718 c0_i32_591
  let v1723 : BitVec 1 := Scalar.xori v1721 v1722
  let c0_i32_589 : BitVec 32 := 0#32
  let v1720 : BitVec 1 := Scalar.cmpi .ne v1719 c0_i32_589
  let v1724 : BitVec 1 := Scalar.andi v1723 v1720
  let v1725 : BitVec 32 := Scalar.addi v1719 v1718
  let v1726 : BitVec 32 := Scalar.select v1724 v1725 v1719
  let v1758 : Index := Scalar.indexCast v1726
  let c96 : Index := 96#32
  ![v1757.toNat, v1758.toNat, 96]
def k1_off8 (k1_t1 : Fin k1_t1_loop.trips) : Fin 3 → Nat :=
  let c0_i32_11 : BitVec 32 := 0#32
  let c1_i32_13 : BitVec 32 := 1#32
  let arg4 : BitVec 32 := Scf.iv c0_i32_11 c1_i32_13 k1_t1
  let c0_i32_580 : BitVec 32 := 0#32
  let v1701 : BitVec 1 := Scalar.cmpi .sgt arg4 c0_i32_580
  let v1702 : BitVec 32 := Scalar.extui v1701
  let c0_i32_581 : BitVec 32 := 0#32
  let v1703 : BitVec 1 := Scalar.cmpi .slt arg4 c0_i32_581
  let v1704 : BitVec 32 := Scalar.extui v1703
  let v1705 : BitVec 32 := Scalar.subi v1702 v1704
  let c16_i32_579 : BitVec 32 := 16#32
  let c0_i32_582 : BitVec 32 := 0#32
  let v1706 : BitVec 1 := Scalar.cmpi .sgt c16_i32_579 c0_i32_582
  let v1707 : BitVec 32 := Scalar.extui v1706
  let c0_i32_583 : BitVec 32 := 0#32
  let v1708 : BitVec 1 := Scalar.cmpi .slt c16_i32_579 c0_i32_583
  let v1709 : BitVec 32 := Scalar.extui v1708
  let v1710 : BitVec 32 := Scalar.subi v1707 v1709
  let v1711 : BitVec 1 := Scalar.cmpi .ne v1705 v1710
  let v1712 : BitVec 32 := Scalar.remsi arg4 c16_i32_579
  let c0_i32_584 : BitVec 32 := 0#32
  let v1713 : BitVec 1 := Scalar.cmpi .ne v1712 c0_i32_584
  let v1714 : BitVec 1 := Scalar.andi v1711 v1713
  let v1700 : BitVec 32 := Scalar.divsi arg4 c16_i32_579
  let c1_i32_585 : BitVec 32 := 1#32
  let v1715 : BitVec 32 := Scalar.subi v1700 c1_i32_585
  let v1716 : BitVec 32 := Scalar.select v1714 v1715 v1700
  let v1762 : Index := Scalar.indexCast v1716
  let c16_i32_586 : BitVec 32 := 16#32
  let c0_i32_587 : BitVec 32 := 0#32
  let v1717 : BitVec 1 := Scalar.cmpi .eq c16_i32_586 c0_i32_587
  let c1_i32_588 : BitVec 32 := 1#32
  let v1718 : BitVec 32 := Scalar.select v1717 c1_i32_588 c16_i32_586
  let v1719 : BitVec 32 := Scalar.remsi arg4 v1718
  let c0_i32_590 : BitVec 32 := 0#32
  let v1721 : BitVec 1 := Scalar.cmpi .slt v1719 c0_i32_590
  let c0_i32_591 : BitVec 32 := 0#32
  let v1722 : BitVec 1 := Scalar.cmpi .slt v1718 c0_i32_591
  let v1723 : BitVec 1 := Scalar.xori v1721 v1722
  let c0_i32_589 : BitVec 32 := 0#32
  let v1720 : BitVec 1 := Scalar.cmpi .ne v1719 c0_i32_589
  let v1724 : BitVec 1 := Scalar.andi v1723 v1720
  let v1725 : BitVec 32 := Scalar.addi v1719 v1718
  let v1726 : BitVec 32 := Scalar.select v1724 v1725 v1719
  let v1763 : Index := Scalar.indexCast v1726
  let c112 : Index := 112#32
  ![v1762.toNat, v1763.toNat, 112]
def k1_off9 (k1_t1 : Fin k1_t1_loop.trips) : Fin 3 → Nat :=
  let c0_i32_11 : BitVec 32 := 0#32
  let c1_i32_13 : BitVec 32 := 1#32
  let arg4 : BitVec 32 := Scf.iv c0_i32_11 c1_i32_13 k1_t1
  let c0_i32_580 : BitVec 32 := 0#32
  let v1701 : BitVec 1 := Scalar.cmpi .sgt arg4 c0_i32_580
  let v1702 : BitVec 32 := Scalar.extui v1701
  let c0_i32_581 : BitVec 32 := 0#32
  let v1703 : BitVec 1 := Scalar.cmpi .slt arg4 c0_i32_581
  let v1704 : BitVec 32 := Scalar.extui v1703
  let v1705 : BitVec 32 := Scalar.subi v1702 v1704
  let c16_i32_579 : BitVec 32 := 16#32
  let c0_i32_582 : BitVec 32 := 0#32
  let v1706 : BitVec 1 := Scalar.cmpi .sgt c16_i32_579 c0_i32_582
  let v1707 : BitVec 32 := Scalar.extui v1706
  let c0_i32_583 : BitVec 32 := 0#32
  let v1708 : BitVec 1 := Scalar.cmpi .slt c16_i32_579 c0_i32_583
  let v1709 : BitVec 32 := Scalar.extui v1708
  let v1710 : BitVec 32 := Scalar.subi v1707 v1709
  let v1711 : BitVec 1 := Scalar.cmpi .ne v1705 v1710
  let v1712 : BitVec 32 := Scalar.remsi arg4 c16_i32_579
  let c0_i32_584 : BitVec 32 := 0#32
  let v1713 : BitVec 1 := Scalar.cmpi .ne v1712 c0_i32_584
  let v1714 : BitVec 1 := Scalar.andi v1711 v1713
  let v1700 : BitVec 32 := Scalar.divsi arg4 c16_i32_579
  let c1_i32_585 : BitVec 32 := 1#32
  let v1715 : BitVec 32 := Scalar.subi v1700 c1_i32_585
  let v1716 : BitVec 32 := Scalar.select v1714 v1715 v1700
  let v1767 : Index := Scalar.indexCast v1716
  let c16_i32_586 : BitVec 32 := 16#32
  let c0_i32_587 : BitVec 32 := 0#32
  let v1717 : BitVec 1 := Scalar.cmpi .eq c16_i32_586 c0_i32_587
  let c1_i32_588 : BitVec 32 := 1#32
  let v1718 : BitVec 32 := Scalar.select v1717 c1_i32_588 c16_i32_586
  let v1719 : BitVec 32 := Scalar.remsi arg4 v1718
  let c0_i32_590 : BitVec 32 := 0#32
  let v1721 : BitVec 1 := Scalar.cmpi .slt v1719 c0_i32_590
  let c0_i32_591 : BitVec 32 := 0#32
  let v1722 : BitVec 1 := Scalar.cmpi .slt v1718 c0_i32_591
  let v1723 : BitVec 1 := Scalar.xori v1721 v1722
  let c0_i32_589 : BitVec 32 := 0#32
  let v1720 : BitVec 1 := Scalar.cmpi .ne v1719 c0_i32_589
  let v1724 : BitVec 1 := Scalar.andi v1723 v1720
  let v1725 : BitVec 32 := Scalar.addi v1719 v1718
  let v1726 : BitVec 32 := Scalar.select v1724 v1725 v1719
  let v1768 : Index := Scalar.indexCast v1726
  let c128 : Index := 128#32
  ![v1767.toNat, v1768.toNat, 128]
def k1_off10 (k1_t1 : Fin k1_t1_loop.trips) : Fin 3 → Nat :=
  let c0_i32_11 : BitVec 32 := 0#32
  let c1_i32_13 : BitVec 32 := 1#32
  let arg4 : BitVec 32 := Scf.iv c0_i32_11 c1_i32_13 k1_t1
  let c0_i32_580 : BitVec 32 := 0#32
  let v1701 : BitVec 1 := Scalar.cmpi .sgt arg4 c0_i32_580
  let v1702 : BitVec 32 := Scalar.extui v1701
  let c0_i32_581 : BitVec 32 := 0#32
  let v1703 : BitVec 1 := Scalar.cmpi .slt arg4 c0_i32_581
  let v1704 : BitVec 32 := Scalar.extui v1703
  let v1705 : BitVec 32 := Scalar.subi v1702 v1704
  let c16_i32_579 : BitVec 32 := 16#32
  let c0_i32_582 : BitVec 32 := 0#32
  let v1706 : BitVec 1 := Scalar.cmpi .sgt c16_i32_579 c0_i32_582
  let v1707 : BitVec 32 := Scalar.extui v1706
  let c0_i32_583 : BitVec 32 := 0#32
  let v1708 : BitVec 1 := Scalar.cmpi .slt c16_i32_579 c0_i32_583
  let v1709 : BitVec 32 := Scalar.extui v1708
  let v1710 : BitVec 32 := Scalar.subi v1707 v1709
  let v1711 : BitVec 1 := Scalar.cmpi .ne v1705 v1710
  let v1712 : BitVec 32 := Scalar.remsi arg4 c16_i32_579
  let c0_i32_584 : BitVec 32 := 0#32
  let v1713 : BitVec 1 := Scalar.cmpi .ne v1712 c0_i32_584
  let v1714 : BitVec 1 := Scalar.andi v1711 v1713
  let v1700 : BitVec 32 := Scalar.divsi arg4 c16_i32_579
  let c1_i32_585 : BitVec 32 := 1#32
  let v1715 : BitVec 32 := Scalar.subi v1700 c1_i32_585
  let v1716 : BitVec 32 := Scalar.select v1714 v1715 v1700
  let v1772 : Index := Scalar.indexCast v1716
  let c16_i32_586 : BitVec 32 := 16#32
  let c0_i32_587 : BitVec 32 := 0#32
  let v1717 : BitVec 1 := Scalar.cmpi .eq c16_i32_586 c0_i32_587
  let c1_i32_588 : BitVec 32 := 1#32
  let v1718 : BitVec 32 := Scalar.select v1717 c1_i32_588 c16_i32_586
  let v1719 : BitVec 32 := Scalar.remsi arg4 v1718
  let c0_i32_590 : BitVec 32 := 0#32
  let v1721 : BitVec 1 := Scalar.cmpi .slt v1719 c0_i32_590
  let c0_i32_591 : BitVec 32 := 0#32
  let v1722 : BitVec 1 := Scalar.cmpi .slt v1718 c0_i32_591
  let v1723 : BitVec 1 := Scalar.xori v1721 v1722
  let c0_i32_589 : BitVec 32 := 0#32
  let v1720 : BitVec 1 := Scalar.cmpi .ne v1719 c0_i32_589
  let v1724 : BitVec 1 := Scalar.andi v1723 v1720
  let v1725 : BitVec 32 := Scalar.addi v1719 v1718
  let v1726 : BitVec 32 := Scalar.select v1724 v1725 v1719
  let v1773 : Index := Scalar.indexCast v1726
  let c144 : Index := 144#32
  ![v1772.toNat, v1773.toNat, 144]
def k1_off11 (k1_t1 : Fin k1_t1_loop.trips) : Fin 3 → Nat :=
  let c0_i32_11 : BitVec 32 := 0#32
  let c1_i32_13 : BitVec 32 := 1#32
  let arg4 : BitVec 32 := Scf.iv c0_i32_11 c1_i32_13 k1_t1
  let c0_i32_580 : BitVec 32 := 0#32
  let v1701 : BitVec 1 := Scalar.cmpi .sgt arg4 c0_i32_580
  let v1702 : BitVec 32 := Scalar.extui v1701
  let c0_i32_581 : BitVec 32 := 0#32
  let v1703 : BitVec 1 := Scalar.cmpi .slt arg4 c0_i32_581
  let v1704 : BitVec 32 := Scalar.extui v1703
  let v1705 : BitVec 32 := Scalar.subi v1702 v1704
  let c16_i32_579 : BitVec 32 := 16#32
  let c0_i32_582 : BitVec 32 := 0#32
  let v1706 : BitVec 1 := Scalar.cmpi .sgt c16_i32_579 c0_i32_582
  let v1707 : BitVec 32 := Scalar.extui v1706
  let c0_i32_583 : BitVec 32 := 0#32
  let v1708 : BitVec 1 := Scalar.cmpi .slt c16_i32_579 c0_i32_583
  let v1709 : BitVec 32 := Scalar.extui v1708
  let v1710 : BitVec 32 := Scalar.subi v1707 v1709
  let v1711 : BitVec 1 := Scalar.cmpi .ne v1705 v1710
  let v1712 : BitVec 32 := Scalar.remsi arg4 c16_i32_579
  let c0_i32_584 : BitVec 32 := 0#32
  let v1713 : BitVec 1 := Scalar.cmpi .ne v1712 c0_i32_584
  let v1714 : BitVec 1 := Scalar.andi v1711 v1713
  let v1700 : BitVec 32 := Scalar.divsi arg4 c16_i32_579
  let c1_i32_585 : BitVec 32 := 1#32
  let v1715 : BitVec 32 := Scalar.subi v1700 c1_i32_585
  let v1716 : BitVec 32 := Scalar.select v1714 v1715 v1700
  let v1777 : Index := Scalar.indexCast v1716
  let c16_i32_586 : BitVec 32 := 16#32
  let c0_i32_587 : BitVec 32 := 0#32
  let v1717 : BitVec 1 := Scalar.cmpi .eq c16_i32_586 c0_i32_587
  let c1_i32_588 : BitVec 32 := 1#32
  let v1718 : BitVec 32 := Scalar.select v1717 c1_i32_588 c16_i32_586
  let v1719 : BitVec 32 := Scalar.remsi arg4 v1718
  let c0_i32_590 : BitVec 32 := 0#32
  let v1721 : BitVec 1 := Scalar.cmpi .slt v1719 c0_i32_590
  let c0_i32_591 : BitVec 32 := 0#32
  let v1722 : BitVec 1 := Scalar.cmpi .slt v1718 c0_i32_591
  let v1723 : BitVec 1 := Scalar.xori v1721 v1722
  let c0_i32_589 : BitVec 32 := 0#32
  let v1720 : BitVec 1 := Scalar.cmpi .ne v1719 c0_i32_589
  let v1724 : BitVec 1 := Scalar.andi v1723 v1720
  let v1725 : BitVec 32 := Scalar.addi v1719 v1718
  let v1726 : BitVec 32 := Scalar.select v1724 v1725 v1719
  let v1778 : Index := Scalar.indexCast v1726
  let c160 : Index := 160#32
  ![v1777.toNat, v1778.toNat, 160]
def k1_off12 (k1_t1 : Fin k1_t1_loop.trips) : Fin 3 → Nat :=
  let c0_i32_11 : BitVec 32 := 0#32
  let c1_i32_13 : BitVec 32 := 1#32
  let arg4 : BitVec 32 := Scf.iv c0_i32_11 c1_i32_13 k1_t1
  let c0_i32_580 : BitVec 32 := 0#32
  let v1701 : BitVec 1 := Scalar.cmpi .sgt arg4 c0_i32_580
  let v1702 : BitVec 32 := Scalar.extui v1701
  let c0_i32_581 : BitVec 32 := 0#32
  let v1703 : BitVec 1 := Scalar.cmpi .slt arg4 c0_i32_581
  let v1704 : BitVec 32 := Scalar.extui v1703
  let v1705 : BitVec 32 := Scalar.subi v1702 v1704
  let c16_i32_579 : BitVec 32 := 16#32
  let c0_i32_582 : BitVec 32 := 0#32
  let v1706 : BitVec 1 := Scalar.cmpi .sgt c16_i32_579 c0_i32_582
  let v1707 : BitVec 32 := Scalar.extui v1706
  let c0_i32_583 : BitVec 32 := 0#32
  let v1708 : BitVec 1 := Scalar.cmpi .slt c16_i32_579 c0_i32_583
  let v1709 : BitVec 32 := Scalar.extui v1708
  let v1710 : BitVec 32 := Scalar.subi v1707 v1709
  let v1711 : BitVec 1 := Scalar.cmpi .ne v1705 v1710
  let v1712 : BitVec 32 := Scalar.remsi arg4 c16_i32_579
  let c0_i32_584 : BitVec 32 := 0#32
  let v1713 : BitVec 1 := Scalar.cmpi .ne v1712 c0_i32_584
  let v1714 : BitVec 1 := Scalar.andi v1711 v1713
  let v1700 : BitVec 32 := Scalar.divsi arg4 c16_i32_579
  let c1_i32_585 : BitVec 32 := 1#32
  let v1715 : BitVec 32 := Scalar.subi v1700 c1_i32_585
  let v1716 : BitVec 32 := Scalar.select v1714 v1715 v1700
  let v1782 : Index := Scalar.indexCast v1716
  let c16_i32_586 : BitVec 32 := 16#32
  let c0_i32_587 : BitVec 32 := 0#32
  let v1717 : BitVec 1 := Scalar.cmpi .eq c16_i32_586 c0_i32_587
  let c1_i32_588 : BitVec 32 := 1#32
  let v1718 : BitVec 32 := Scalar.select v1717 c1_i32_588 c16_i32_586
  let v1719 : BitVec 32 := Scalar.remsi arg4 v1718
  let c0_i32_590 : BitVec 32 := 0#32
  let v1721 : BitVec 1 := Scalar.cmpi .slt v1719 c0_i32_590
  let c0_i32_591 : BitVec 32 := 0#32
  let v1722 : BitVec 1 := Scalar.cmpi .slt v1718 c0_i32_591
  let v1723 : BitVec 1 := Scalar.xori v1721 v1722
  let c0_i32_589 : BitVec 32 := 0#32
  let v1720 : BitVec 1 := Scalar.cmpi .ne v1719 c0_i32_589
  let v1724 : BitVec 1 := Scalar.andi v1723 v1720
  let v1725 : BitVec 32 := Scalar.addi v1719 v1718
  let v1726 : BitVec 32 := Scalar.select v1724 v1725 v1719
  let v1783 : Index := Scalar.indexCast v1726
  let c176 : Index := 176#32
  ![v1782.toNat, v1783.toNat, 176]
def k1_off13 (k1_t1 : Fin k1_t1_loop.trips) : Fin 3 → Nat :=
  let c0_i32_11 : BitVec 32 := 0#32
  let c1_i32_13 : BitVec 32 := 1#32
  let arg4 : BitVec 32 := Scf.iv c0_i32_11 c1_i32_13 k1_t1
  let c0_i32_580 : BitVec 32 := 0#32
  let v1701 : BitVec 1 := Scalar.cmpi .sgt arg4 c0_i32_580
  let v1702 : BitVec 32 := Scalar.extui v1701
  let c0_i32_581 : BitVec 32 := 0#32
  let v1703 : BitVec 1 := Scalar.cmpi .slt arg4 c0_i32_581
  let v1704 : BitVec 32 := Scalar.extui v1703
  let v1705 : BitVec 32 := Scalar.subi v1702 v1704
  let c16_i32_579 : BitVec 32 := 16#32
  let c0_i32_582 : BitVec 32 := 0#32
  let v1706 : BitVec 1 := Scalar.cmpi .sgt c16_i32_579 c0_i32_582
  let v1707 : BitVec 32 := Scalar.extui v1706
  let c0_i32_583 : BitVec 32 := 0#32
  let v1708 : BitVec 1 := Scalar.cmpi .slt c16_i32_579 c0_i32_583
  let v1709 : BitVec 32 := Scalar.extui v1708
  let v1710 : BitVec 32 := Scalar.subi v1707 v1709
  let v1711 : BitVec 1 := Scalar.cmpi .ne v1705 v1710
  let v1712 : BitVec 32 := Scalar.remsi arg4 c16_i32_579
  let c0_i32_584 : BitVec 32 := 0#32
  let v1713 : BitVec 1 := Scalar.cmpi .ne v1712 c0_i32_584
  let v1714 : BitVec 1 := Scalar.andi v1711 v1713
  let v1700 : BitVec 32 := Scalar.divsi arg4 c16_i32_579
  let c1_i32_585 : BitVec 32 := 1#32
  let v1715 : BitVec 32 := Scalar.subi v1700 c1_i32_585
  let v1716 : BitVec 32 := Scalar.select v1714 v1715 v1700
  let v1787 : Index := Scalar.indexCast v1716
  let c16_i32_586 : BitVec 32 := 16#32
  let c0_i32_587 : BitVec 32 := 0#32
  let v1717 : BitVec 1 := Scalar.cmpi .eq c16_i32_586 c0_i32_587
  let c1_i32_588 : BitVec 32 := 1#32
  let v1718 : BitVec 32 := Scalar.select v1717 c1_i32_588 c16_i32_586
  let v1719 : BitVec 32 := Scalar.remsi arg4 v1718
  let c0_i32_590 : BitVec 32 := 0#32
  let v1721 : BitVec 1 := Scalar.cmpi .slt v1719 c0_i32_590
  let c0_i32_591 : BitVec 32 := 0#32
  let v1722 : BitVec 1 := Scalar.cmpi .slt v1718 c0_i32_591
  let v1723 : BitVec 1 := Scalar.xori v1721 v1722
  let c0_i32_589 : BitVec 32 := 0#32
  let v1720 : BitVec 1 := Scalar.cmpi .ne v1719 c0_i32_589
  let v1724 : BitVec 1 := Scalar.andi v1723 v1720
  let v1725 : BitVec 32 := Scalar.addi v1719 v1718
  let v1726 : BitVec 32 := Scalar.select v1724 v1725 v1719
  let v1788 : Index := Scalar.indexCast v1726
  let c192 : Index := 192#32
  ![v1787.toNat, v1788.toNat, 192]
def k1_off14 (k1_t1 : Fin k1_t1_loop.trips) : Fin 3 → Nat :=
  let c0_i32_11 : BitVec 32 := 0#32
  let c1_i32_13 : BitVec 32 := 1#32
  let arg4 : BitVec 32 := Scf.iv c0_i32_11 c1_i32_13 k1_t1
  let c0_i32_580 : BitVec 32 := 0#32
  let v1701 : BitVec 1 := Scalar.cmpi .sgt arg4 c0_i32_580
  let v1702 : BitVec 32 := Scalar.extui v1701
  let c0_i32_581 : BitVec 32 := 0#32
  let v1703 : BitVec 1 := Scalar.cmpi .slt arg4 c0_i32_581
  let v1704 : BitVec 32 := Scalar.extui v1703
  let v1705 : BitVec 32 := Scalar.subi v1702 v1704
  let c16_i32_579 : BitVec 32 := 16#32
  let c0_i32_582 : BitVec 32 := 0#32
  let v1706 : BitVec 1 := Scalar.cmpi .sgt c16_i32_579 c0_i32_582
  let v1707 : BitVec 32 := Scalar.extui v1706
  let c0_i32_583 : BitVec 32 := 0#32
  let v1708 : BitVec 1 := Scalar.cmpi .slt c16_i32_579 c0_i32_583
  let v1709 : BitVec 32 := Scalar.extui v1708
  let v1710 : BitVec 32 := Scalar.subi v1707 v1709
  let v1711 : BitVec 1 := Scalar.cmpi .ne v1705 v1710
  let v1712 : BitVec 32 := Scalar.remsi arg4 c16_i32_579
  let c0_i32_584 : BitVec 32 := 0#32
  let v1713 : BitVec 1 := Scalar.cmpi .ne v1712 c0_i32_584
  let v1714 : BitVec 1 := Scalar.andi v1711 v1713
  let v1700 : BitVec 32 := Scalar.divsi arg4 c16_i32_579
  let c1_i32_585 : BitVec 32 := 1#32
  let v1715 : BitVec 32 := Scalar.subi v1700 c1_i32_585
  let v1716 : BitVec 32 := Scalar.select v1714 v1715 v1700
  let v1792 : Index := Scalar.indexCast v1716
  let c16_i32_586 : BitVec 32 := 16#32
  let c0_i32_587 : BitVec 32 := 0#32
  let v1717 : BitVec 1 := Scalar.cmpi .eq c16_i32_586 c0_i32_587
  let c1_i32_588 : BitVec 32 := 1#32
  let v1718 : BitVec 32 := Scalar.select v1717 c1_i32_588 c16_i32_586
  let v1719 : BitVec 32 := Scalar.remsi arg4 v1718
  let c0_i32_590 : BitVec 32 := 0#32
  let v1721 : BitVec 1 := Scalar.cmpi .slt v1719 c0_i32_590
  let c0_i32_591 : BitVec 32 := 0#32
  let v1722 : BitVec 1 := Scalar.cmpi .slt v1718 c0_i32_591
  let v1723 : BitVec 1 := Scalar.xori v1721 v1722
  let c0_i32_589 : BitVec 32 := 0#32
  let v1720 : BitVec 1 := Scalar.cmpi .ne v1719 c0_i32_589
  let v1724 : BitVec 1 := Scalar.andi v1723 v1720
  let v1725 : BitVec 32 := Scalar.addi v1719 v1718
  let v1726 : BitVec 32 := Scalar.select v1724 v1725 v1719
  let v1793 : Index := Scalar.indexCast v1726
  let c208 : Index := 208#32
  ![v1792.toNat, v1793.toNat, 208]
def k1_off15 (k1_t1 : Fin k1_t1_loop.trips) : Fin 3 → Nat :=
  let c0_i32_11 : BitVec 32 := 0#32
  let c1_i32_13 : BitVec 32 := 1#32
  let arg4 : BitVec 32 := Scf.iv c0_i32_11 c1_i32_13 k1_t1
  let c0_i32_580 : BitVec 32 := 0#32
  let v1701 : BitVec 1 := Scalar.cmpi .sgt arg4 c0_i32_580
  let v1702 : BitVec 32 := Scalar.extui v1701
  let c0_i32_581 : BitVec 32 := 0#32
  let v1703 : BitVec 1 := Scalar.cmpi .slt arg4 c0_i32_581
  let v1704 : BitVec 32 := Scalar.extui v1703
  let v1705 : BitVec 32 := Scalar.subi v1702 v1704
  let c16_i32_579 : BitVec 32 := 16#32
  let c0_i32_582 : BitVec 32 := 0#32
  let v1706 : BitVec 1 := Scalar.cmpi .sgt c16_i32_579 c0_i32_582
  let v1707 : BitVec 32 := Scalar.extui v1706
  let c0_i32_583 : BitVec 32 := 0#32
  let v1708 : BitVec 1 := Scalar.cmpi .slt c16_i32_579 c0_i32_583
  let v1709 : BitVec 32 := Scalar.extui v1708
  let v1710 : BitVec 32 := Scalar.subi v1707 v1709
  let v1711 : BitVec 1 := Scalar.cmpi .ne v1705 v1710
  let v1712 : BitVec 32 := Scalar.remsi arg4 c16_i32_579
  let c0_i32_584 : BitVec 32 := 0#32
  let v1713 : BitVec 1 := Scalar.cmpi .ne v1712 c0_i32_584
  let v1714 : BitVec 1 := Scalar.andi v1711 v1713
  let v1700 : BitVec 32 := Scalar.divsi arg4 c16_i32_579
  let c1_i32_585 : BitVec 32 := 1#32
  let v1715 : BitVec 32 := Scalar.subi v1700 c1_i32_585
  let v1716 : BitVec 32 := Scalar.select v1714 v1715 v1700
  let v1797 : Index := Scalar.indexCast v1716
  let c16_i32_586 : BitVec 32 := 16#32
  let c0_i32_587 : BitVec 32 := 0#32
  let v1717 : BitVec 1 := Scalar.cmpi .eq c16_i32_586 c0_i32_587
  let c1_i32_588 : BitVec 32 := 1#32
  let v1718 : BitVec 32 := Scalar.select v1717 c1_i32_588 c16_i32_586
  let v1719 : BitVec 32 := Scalar.remsi arg4 v1718
  let c0_i32_590 : BitVec 32 := 0#32
  let v1721 : BitVec 1 := Scalar.cmpi .slt v1719 c0_i32_590
  let c0_i32_591 : BitVec 32 := 0#32
  let v1722 : BitVec 1 := Scalar.cmpi .slt v1718 c0_i32_591
  let v1723 : BitVec 1 := Scalar.xori v1721 v1722
  let c0_i32_589 : BitVec 32 := 0#32
  let v1720 : BitVec 1 := Scalar.cmpi .ne v1719 c0_i32_589
  let v1724 : BitVec 1 := Scalar.andi v1723 v1720
  let v1725 : BitVec 32 := Scalar.addi v1719 v1718
  let v1726 : BitVec 32 := Scalar.select v1724 v1725 v1719
  let v1798 : Index := Scalar.indexCast v1726
  let c224 : Index := 224#32
  ![v1797.toNat, v1798.toNat, 224]
def k1_off16 (k1_t1 : Fin k1_t1_loop.trips) : Fin 3 → Nat :=
  let c0_i32_11 : BitVec 32 := 0#32
  let c1_i32_13 : BitVec 32 := 1#32
  let arg4 : BitVec 32 := Scf.iv c0_i32_11 c1_i32_13 k1_t1
  let c0_i32_580 : BitVec 32 := 0#32
  let v1701 : BitVec 1 := Scalar.cmpi .sgt arg4 c0_i32_580
  let v1702 : BitVec 32 := Scalar.extui v1701
  let c0_i32_581 : BitVec 32 := 0#32
  let v1703 : BitVec 1 := Scalar.cmpi .slt arg4 c0_i32_581
  let v1704 : BitVec 32 := Scalar.extui v1703
  let v1705 : BitVec 32 := Scalar.subi v1702 v1704
  let c16_i32_579 : BitVec 32 := 16#32
  let c0_i32_582 : BitVec 32 := 0#32
  let v1706 : BitVec 1 := Scalar.cmpi .sgt c16_i32_579 c0_i32_582
  let v1707 : BitVec 32 := Scalar.extui v1706
  let c0_i32_583 : BitVec 32 := 0#32
  let v1708 : BitVec 1 := Scalar.cmpi .slt c16_i32_579 c0_i32_583
  let v1709 : BitVec 32 := Scalar.extui v1708
  let v1710 : BitVec 32 := Scalar.subi v1707 v1709
  let v1711 : BitVec 1 := Scalar.cmpi .ne v1705 v1710
  let v1712 : BitVec 32 := Scalar.remsi arg4 c16_i32_579
  let c0_i32_584 : BitVec 32 := 0#32
  let v1713 : BitVec 1 := Scalar.cmpi .ne v1712 c0_i32_584
  let v1714 : BitVec 1 := Scalar.andi v1711 v1713
  let v1700 : BitVec 32 := Scalar.divsi arg4 c16_i32_579
  let c1_i32_585 : BitVec 32 := 1#32
  let v1715 : BitVec 32 := Scalar.subi v1700 c1_i32_585
  let v1716 : BitVec 32 := Scalar.select v1714 v1715 v1700
  let v1802 : Index := Scalar.indexCast v1716
  let c16_i32_586 : BitVec 32 := 16#32
  let c0_i32_587 : BitVec 32 := 0#32
  let v1717 : BitVec 1 := Scalar.cmpi .eq c16_i32_586 c0_i32_587
  let c1_i32_588 : BitVec 32 := 1#32
  let v1718 : BitVec 32 := Scalar.select v1717 c1_i32_588 c16_i32_586
  let v1719 : BitVec 32 := Scalar.remsi arg4 v1718
  let c0_i32_590 : BitVec 32 := 0#32
  let v1721 : BitVec 1 := Scalar.cmpi .slt v1719 c0_i32_590
  let c0_i32_591 : BitVec 32 := 0#32
  let v1722 : BitVec 1 := Scalar.cmpi .slt v1718 c0_i32_591
  let v1723 : BitVec 1 := Scalar.xori v1721 v1722
  let c0_i32_589 : BitVec 32 := 0#32
  let v1720 : BitVec 1 := Scalar.cmpi .ne v1719 c0_i32_589
  let v1724 : BitVec 1 := Scalar.andi v1723 v1720
  let v1725 : BitVec 32 := Scalar.addi v1719 v1718
  let v1726 : BitVec 32 := Scalar.select v1724 v1725 v1719
  let v1803 : Index := Scalar.indexCast v1726
  let c240 : Index := 240#32
  ![v1802.toNat, v1803.toNat, 240]
def k1_off17 (i : grid1.Coords) : Fin 3 → Nat :=
  let c0_i32_32 : BitVec 32 := 0#32
  let v73 : Index := Scalar.indexCast c0_i32_32
  let c0_i32_33 : BitVec 32 := 0#32
  let v74 : Index := Scalar.indexCast c0_i32_33
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_15 : BitVec 32 := 0#32
  let v33 : BitVec 1 := Scalar.cmpi .sgt v29 c0_i32_15
  let v34 : BitVec 32 := Scalar.extui v33
  let c0_i32_16 : BitVec 32 := 0#32
  let v35 : BitVec 1 := Scalar.cmpi .slt v29 c0_i32_16
  let v36 : BitVec 32 := Scalar.extui v35
  let v37 : BitVec 32 := Scalar.subi v34 v36
  let c16_i32 : BitVec 32 := 16#32
  let c0_i32_17 : BitVec 32 := 0#32
  let v38 : BitVec 1 := Scalar.cmpi .sgt c16_i32 c0_i32_17
  let v39 : BitVec 32 := Scalar.extui v38
  let c0_i32_18 : BitVec 32 := 0#32
  let v40 : BitVec 1 := Scalar.cmpi .slt c16_i32 c0_i32_18
  let v41 : BitVec 32 := Scalar.extui v40
  let v42 : BitVec 32 := Scalar.subi v39 v41
  let v43 : BitVec 1 := Scalar.cmpi .ne v37 v42
  let v44 : BitVec 32 := Scalar.remsi v29 c16_i32
  let c0_i32_19 : BitVec 32 := 0#32
  let v45 : BitVec 1 := Scalar.cmpi .ne v44 c0_i32_19
  let v46 : BitVec 1 := Scalar.andi v43 v45
  let v32 : BitVec 32 := Scalar.divsi v29 c16_i32
  let c1_i32_20 : BitVec 32 := 1#32
  let v47 : BitVec 32 := Scalar.subi v32 c1_i32_20
  let v48 : BitVec 32 := Scalar.select v46 v47 v32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c16_i32_21 : BitVec 32 := 16#32
  let c0_i32_24 : BitVec 32 := 0#32
  let v55 : BitVec 1 := Scalar.cmpi .sgt c16_i32_21 c0_i32_24
  let v56 : BitVec 32 := Scalar.extui v55
  let c0_i32_25 : BitVec 32 := 0#32
  let v57 : BitVec 1 := Scalar.cmpi .slt c16_i32_21 c0_i32_25
  let v58 : BitVec 32 := Scalar.extui v57
  let v59 : BitVec 32 := Scalar.subi v56 v58
  let v60 : BitVec 1 := Scalar.cmpi .ne v54 v59
  let v61 : BitVec 32 := Scalar.remsi v48 c16_i32_21
  let c0_i32_26 : BitVec 32 := 0#32
  let v62 : BitVec 1 := Scalar.cmpi .ne v61 c0_i32_26
  let v63 : BitVec 1 := Scalar.andi v60 v62
  let v49 : BitVec 32 := Scalar.divsi v48 c16_i32_21
  let c1_i32_27 : BitVec 32 := 1#32
  let v64 : BitVec 32 := Scalar.subi v49 c1_i32_27
  let v65 : BitVec 32 := Scalar.select v63 v64 v49
  let c16_i32_28 : BitVec 32 := 16#32
  let v66 : BitVec 32 := Scalar.muli v65 c16_i32_28
  let v75 : Index := Scalar.indexCast v66
  ![0, 0, v75.toNat]
def k1_off18 (i : grid1.Coords) : Fin 3 → Nat :=
  let c1_i32_34 : BitVec 32 := 1#32
  let v79 : Index := Scalar.indexCast c1_i32_34
  let c1_i32_35 : BitVec 32 := 1#32
  let v80 : Index := Scalar.indexCast c1_i32_35
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_15 : BitVec 32 := 0#32
  let v33 : BitVec 1 := Scalar.cmpi .sgt v29 c0_i32_15
  let v34 : BitVec 32 := Scalar.extui v33
  let c0_i32_16 : BitVec 32 := 0#32
  let v35 : BitVec 1 := Scalar.cmpi .slt v29 c0_i32_16
  let v36 : BitVec 32 := Scalar.extui v35
  let v37 : BitVec 32 := Scalar.subi v34 v36
  let c16_i32 : BitVec 32 := 16#32
  let c0_i32_17 : BitVec 32 := 0#32
  let v38 : BitVec 1 := Scalar.cmpi .sgt c16_i32 c0_i32_17
  let v39 : BitVec 32 := Scalar.extui v38
  let c0_i32_18 : BitVec 32 := 0#32
  let v40 : BitVec 1 := Scalar.cmpi .slt c16_i32 c0_i32_18
  let v41 : BitVec 32 := Scalar.extui v40
  let v42 : BitVec 32 := Scalar.subi v39 v41
  let v43 : BitVec 1 := Scalar.cmpi .ne v37 v42
  let v44 : BitVec 32 := Scalar.remsi v29 c16_i32
  let c0_i32_19 : BitVec 32 := 0#32
  let v45 : BitVec 1 := Scalar.cmpi .ne v44 c0_i32_19
  let v46 : BitVec 1 := Scalar.andi v43 v45
  let v32 : BitVec 32 := Scalar.divsi v29 c16_i32
  let c1_i32_20 : BitVec 32 := 1#32
  let v47 : BitVec 32 := Scalar.subi v32 c1_i32_20
  let v48 : BitVec 32 := Scalar.select v46 v47 v32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c16_i32_21 : BitVec 32 := 16#32
  let c0_i32_24 : BitVec 32 := 0#32
  let v55 : BitVec 1 := Scalar.cmpi .sgt c16_i32_21 c0_i32_24
  let v56 : BitVec 32 := Scalar.extui v55
  let c0_i32_25 : BitVec 32 := 0#32
  let v57 : BitVec 1 := Scalar.cmpi .slt c16_i32_21 c0_i32_25
  let v58 : BitVec 32 := Scalar.extui v57
  let v59 : BitVec 32 := Scalar.subi v56 v58
  let v60 : BitVec 1 := Scalar.cmpi .ne v54 v59
  let v61 : BitVec 32 := Scalar.remsi v48 c16_i32_21
  let c0_i32_26 : BitVec 32 := 0#32
  let v62 : BitVec 1 := Scalar.cmpi .ne v61 c0_i32_26
  let v63 : BitVec 1 := Scalar.andi v60 v62
  let v49 : BitVec 32 := Scalar.divsi v48 c16_i32_21
  let c1_i32_27 : BitVec 32 := 1#32
  let v64 : BitVec 32 := Scalar.subi v49 c1_i32_27
  let v65 : BitVec 32 := Scalar.select v63 v64 v49
  let c16_i32_28 : BitVec 32 := 16#32
  let v66 : BitVec 32 := Scalar.muli v65 c16_i32_28
  let v81 : Index := Scalar.indexCast v66
  ![1, 1, v81.toNat]
def k1_off19 (i : grid1.Coords) : Fin 3 → Nat :=
  let c2_i32_36 : BitVec 32 := 2#32
  let v85 : Index := Scalar.indexCast c2_i32_36
  let c2_i32_37 : BitVec 32 := 2#32
  let v86 : Index := Scalar.indexCast c2_i32_37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_15 : BitVec 32 := 0#32
  let v33 : BitVec 1 := Scalar.cmpi .sgt v29 c0_i32_15
  let v34 : BitVec 32 := Scalar.extui v33
  let c0_i32_16 : BitVec 32 := 0#32
  let v35 : BitVec 1 := Scalar.cmpi .slt v29 c0_i32_16
  let v36 : BitVec 32 := Scalar.extui v35
  let v37 : BitVec 32 := Scalar.subi v34 v36
  let c16_i32 : BitVec 32 := 16#32
  let c0_i32_17 : BitVec 32 := 0#32
  let v38 : BitVec 1 := Scalar.cmpi .sgt c16_i32 c0_i32_17
  let v39 : BitVec 32 := Scalar.extui v38
  let c0_i32_18 : BitVec 32 := 0#32
  let v40 : BitVec 1 := Scalar.cmpi .slt c16_i32 c0_i32_18
  let v41 : BitVec 32 := Scalar.extui v40
  let v42 : BitVec 32 := Scalar.subi v39 v41
  let v43 : BitVec 1 := Scalar.cmpi .ne v37 v42
  let v44 : BitVec 32 := Scalar.remsi v29 c16_i32
  let c0_i32_19 : BitVec 32 := 0#32
  let v45 : BitVec 1 := Scalar.cmpi .ne v44 c0_i32_19
  let v46 : BitVec 1 := Scalar.andi v43 v45
  let v32 : BitVec 32 := Scalar.divsi v29 c16_i32
  let c1_i32_20 : BitVec 32 := 1#32
  let v47 : BitVec 32 := Scalar.subi v32 c1_i32_20
  let v48 : BitVec 32 := Scalar.select v46 v47 v32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c16_i32_21 : BitVec 32 := 16#32
  let c0_i32_24 : BitVec 32 := 0#32
  let v55 : BitVec 1 := Scalar.cmpi .sgt c16_i32_21 c0_i32_24
  let v56 : BitVec 32 := Scalar.extui v55
  let c0_i32_25 : BitVec 32 := 0#32
  let v57 : BitVec 1 := Scalar.cmpi .slt c16_i32_21 c0_i32_25
  let v58 : BitVec 32 := Scalar.extui v57
  let v59 : BitVec 32 := Scalar.subi v56 v58
  let v60 : BitVec 1 := Scalar.cmpi .ne v54 v59
  let v61 : BitVec 32 := Scalar.remsi v48 c16_i32_21
  let c0_i32_26 : BitVec 32 := 0#32
  let v62 : BitVec 1 := Scalar.cmpi .ne v61 c0_i32_26
  let v63 : BitVec 1 := Scalar.andi v60 v62
  let v49 : BitVec 32 := Scalar.divsi v48 c16_i32_21
  let c1_i32_27 : BitVec 32 := 1#32
  let v64 : BitVec 32 := Scalar.subi v49 c1_i32_27
  let v65 : BitVec 32 := Scalar.select v63 v64 v49
  let c16_i32_28 : BitVec 32 := 16#32
  let v66 : BitVec 32 := Scalar.muli v65 c16_i32_28
  let v87 : Index := Scalar.indexCast v66
  ![2, 2, v87.toNat]
def k1_off20 (i : grid1.Coords) : Fin 3 → Nat :=
  let c3_i32 : BitVec 32 := 3#32
  let v91 : Index := Scalar.indexCast c3_i32
  let c3_i32_38 : BitVec 32 := 3#32
  let v92 : Index := Scalar.indexCast c3_i32_38
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_15 : BitVec 32 := 0#32
  let v33 : BitVec 1 := Scalar.cmpi .sgt v29 c0_i32_15
  let v34 : BitVec 32 := Scalar.extui v33
  let c0_i32_16 : BitVec 32 := 0#32
  let v35 : BitVec 1 := Scalar.cmpi .slt v29 c0_i32_16
  let v36 : BitVec 32 := Scalar.extui v35
  let v37 : BitVec 32 := Scalar.subi v34 v36
  let c16_i32 : BitVec 32 := 16#32
  let c0_i32_17 : BitVec 32 := 0#32
  let v38 : BitVec 1 := Scalar.cmpi .sgt c16_i32 c0_i32_17
  let v39 : BitVec 32 := Scalar.extui v38
  let c0_i32_18 : BitVec 32 := 0#32
  let v40 : BitVec 1 := Scalar.cmpi .slt c16_i32 c0_i32_18
  let v41 : BitVec 32 := Scalar.extui v40
  let v42 : BitVec 32 := Scalar.subi v39 v41
  let v43 : BitVec 1 := Scalar.cmpi .ne v37 v42
  let v44 : BitVec 32 := Scalar.remsi v29 c16_i32
  let c0_i32_19 : BitVec 32 := 0#32
  let v45 : BitVec 1 := Scalar.cmpi .ne v44 c0_i32_19
  let v46 : BitVec 1 := Scalar.andi v43 v45
  let v32 : BitVec 32 := Scalar.divsi v29 c16_i32
  let c1_i32_20 : BitVec 32 := 1#32
  let v47 : BitVec 32 := Scalar.subi v32 c1_i32_20
  let v48 : BitVec 32 := Scalar.select v46 v47 v32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c16_i32_21 : BitVec 32 := 16#32
  let c0_i32_24 : BitVec 32 := 0#32
  let v55 : BitVec 1 := Scalar.cmpi .sgt c16_i32_21 c0_i32_24
  let v56 : BitVec 32 := Scalar.extui v55
  let c0_i32_25 : BitVec 32 := 0#32
  let v57 : BitVec 1 := Scalar.cmpi .slt c16_i32_21 c0_i32_25
  let v58 : BitVec 32 := Scalar.extui v57
  let v59 : BitVec 32 := Scalar.subi v56 v58
  let v60 : BitVec 1 := Scalar.cmpi .ne v54 v59
  let v61 : BitVec 32 := Scalar.remsi v48 c16_i32_21
  let c0_i32_26 : BitVec 32 := 0#32
  let v62 : BitVec 1 := Scalar.cmpi .ne v61 c0_i32_26
  let v63 : BitVec 1 := Scalar.andi v60 v62
  let v49 : BitVec 32 := Scalar.divsi v48 c16_i32_21
  let c1_i32_27 : BitVec 32 := 1#32
  let v64 : BitVec 32 := Scalar.subi v49 c1_i32_27
  let v65 : BitVec 32 := Scalar.select v63 v64 v49
  let c16_i32_28 : BitVec 32 := 16#32
  let v66 : BitVec 32 := Scalar.muli v65 c16_i32_28
  let v93 : Index := Scalar.indexCast v66
  ![3, 3, v93.toNat]
def k1_off21 (i : grid1.Coords) : Fin 3 → Nat :=
  let c4_i32 : BitVec 32 := 4#32
  let v97 : Index := Scalar.indexCast c4_i32
  let c4_i32_39 : BitVec 32 := 4#32
  let v98 : Index := Scalar.indexCast c4_i32_39
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_15 : BitVec 32 := 0#32
  let v33 : BitVec 1 := Scalar.cmpi .sgt v29 c0_i32_15
  let v34 : BitVec 32 := Scalar.extui v33
  let c0_i32_16 : BitVec 32 := 0#32
  let v35 : BitVec 1 := Scalar.cmpi .slt v29 c0_i32_16
  let v36 : BitVec 32 := Scalar.extui v35
  let v37 : BitVec 32 := Scalar.subi v34 v36
  let c16_i32 : BitVec 32 := 16#32
  let c0_i32_17 : BitVec 32 := 0#32
  let v38 : BitVec 1 := Scalar.cmpi .sgt c16_i32 c0_i32_17
  let v39 : BitVec 32 := Scalar.extui v38
  let c0_i32_18 : BitVec 32 := 0#32
  let v40 : BitVec 1 := Scalar.cmpi .slt c16_i32 c0_i32_18
  let v41 : BitVec 32 := Scalar.extui v40
  let v42 : BitVec 32 := Scalar.subi v39 v41
  let v43 : BitVec 1 := Scalar.cmpi .ne v37 v42
  let v44 : BitVec 32 := Scalar.remsi v29 c16_i32
  let c0_i32_19 : BitVec 32 := 0#32
  let v45 : BitVec 1 := Scalar.cmpi .ne v44 c0_i32_19
  let v46 : BitVec 1 := Scalar.andi v43 v45
  let v32 : BitVec 32 := Scalar.divsi v29 c16_i32
  let c1_i32_20 : BitVec 32 := 1#32
  let v47 : BitVec 32 := Scalar.subi v32 c1_i32_20
  let v48 : BitVec 32 := Scalar.select v46 v47 v32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c16_i32_21 : BitVec 32 := 16#32
  let c0_i32_24 : BitVec 32 := 0#32
  let v55 : BitVec 1 := Scalar.cmpi .sgt c16_i32_21 c0_i32_24
  let v56 : BitVec 32 := Scalar.extui v55
  let c0_i32_25 : BitVec 32 := 0#32
  let v57 : BitVec 1 := Scalar.cmpi .slt c16_i32_21 c0_i32_25
  let v58 : BitVec 32 := Scalar.extui v57
  let v59 : BitVec 32 := Scalar.subi v56 v58
  let v60 : BitVec 1 := Scalar.cmpi .ne v54 v59
  let v61 : BitVec 32 := Scalar.remsi v48 c16_i32_21
  let c0_i32_26 : BitVec 32 := 0#32
  let v62 : BitVec 1 := Scalar.cmpi .ne v61 c0_i32_26
  let v63 : BitVec 1 := Scalar.andi v60 v62
  let v49 : BitVec 32 := Scalar.divsi v48 c16_i32_21
  let c1_i32_27 : BitVec 32 := 1#32
  let v64 : BitVec 32 := Scalar.subi v49 c1_i32_27
  let v65 : BitVec 32 := Scalar.select v63 v64 v49
  let c16_i32_28 : BitVec 32 := 16#32
  let v66 : BitVec 32 := Scalar.muli v65 c16_i32_28
  let v99 : Index := Scalar.indexCast v66
  ![4, 4, v99.toNat]
def k1_off22 (i : grid1.Coords) : Fin 3 → Nat :=
  let c5_i32 : BitVec 32 := 5#32
  let v103 : Index := Scalar.indexCast c5_i32
  let c5_i32_40 : BitVec 32 := 5#32
  let v104 : Index := Scalar.indexCast c5_i32_40
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_15 : BitVec 32 := 0#32
  let v33 : BitVec 1 := Scalar.cmpi .sgt v29 c0_i32_15
  let v34 : BitVec 32 := Scalar.extui v33
  let c0_i32_16 : BitVec 32 := 0#32
  let v35 : BitVec 1 := Scalar.cmpi .slt v29 c0_i32_16
  let v36 : BitVec 32 := Scalar.extui v35
  let v37 : BitVec 32 := Scalar.subi v34 v36
  let c16_i32 : BitVec 32 := 16#32
  let c0_i32_17 : BitVec 32 := 0#32
  let v38 : BitVec 1 := Scalar.cmpi .sgt c16_i32 c0_i32_17
  let v39 : BitVec 32 := Scalar.extui v38
  let c0_i32_18 : BitVec 32 := 0#32
  let v40 : BitVec 1 := Scalar.cmpi .slt c16_i32 c0_i32_18
  let v41 : BitVec 32 := Scalar.extui v40
  let v42 : BitVec 32 := Scalar.subi v39 v41
  let v43 : BitVec 1 := Scalar.cmpi .ne v37 v42
  let v44 : BitVec 32 := Scalar.remsi v29 c16_i32
  let c0_i32_19 : BitVec 32 := 0#32
  let v45 : BitVec 1 := Scalar.cmpi .ne v44 c0_i32_19
  let v46 : BitVec 1 := Scalar.andi v43 v45
  let v32 : BitVec 32 := Scalar.divsi v29 c16_i32
  let c1_i32_20 : BitVec 32 := 1#32
  let v47 : BitVec 32 := Scalar.subi v32 c1_i32_20
  let v48 : BitVec 32 := Scalar.select v46 v47 v32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c16_i32_21 : BitVec 32 := 16#32
  let c0_i32_24 : BitVec 32 := 0#32
  let v55 : BitVec 1 := Scalar.cmpi .sgt c16_i32_21 c0_i32_24
  let v56 : BitVec 32 := Scalar.extui v55
  let c0_i32_25 : BitVec 32 := 0#32
  let v57 : BitVec 1 := Scalar.cmpi .slt c16_i32_21 c0_i32_25
  let v58 : BitVec 32 := Scalar.extui v57
  let v59 : BitVec 32 := Scalar.subi v56 v58
  let v60 : BitVec 1 := Scalar.cmpi .ne v54 v59
  let v61 : BitVec 32 := Scalar.remsi v48 c16_i32_21
  let c0_i32_26 : BitVec 32 := 0#32
  let v62 : BitVec 1 := Scalar.cmpi .ne v61 c0_i32_26
  let v63 : BitVec 1 := Scalar.andi v60 v62
  let v49 : BitVec 32 := Scalar.divsi v48 c16_i32_21
  let c1_i32_27 : BitVec 32 := 1#32
  let v64 : BitVec 32 := Scalar.subi v49 c1_i32_27
  let v65 : BitVec 32 := Scalar.select v63 v64 v49
  let c16_i32_28 : BitVec 32 := 16#32
  let v66 : BitVec 32 := Scalar.muli v65 c16_i32_28
  let v105 : Index := Scalar.indexCast v66
  ![5, 5, v105.toNat]
def k1_off23 (i : grid1.Coords) : Fin 3 → Nat :=
  let c6_i32 : BitVec 32 := 6#32
  let v109 : Index := Scalar.indexCast c6_i32
  let c6_i32_41 : BitVec 32 := 6#32
  let v110 : Index := Scalar.indexCast c6_i32_41
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_15 : BitVec 32 := 0#32
  let v33 : BitVec 1 := Scalar.cmpi .sgt v29 c0_i32_15
  let v34 : BitVec 32 := Scalar.extui v33
  let c0_i32_16 : BitVec 32 := 0#32
  let v35 : BitVec 1 := Scalar.cmpi .slt v29 c0_i32_16
  let v36 : BitVec 32 := Scalar.extui v35
  let v37 : BitVec 32 := Scalar.subi v34 v36
  let c16_i32 : BitVec 32 := 16#32
  let c0_i32_17 : BitVec 32 := 0#32
  let v38 : BitVec 1 := Scalar.cmpi .sgt c16_i32 c0_i32_17
  let v39 : BitVec 32 := Scalar.extui v38
  let c0_i32_18 : BitVec 32 := 0#32
  let v40 : BitVec 1 := Scalar.cmpi .slt c16_i32 c0_i32_18
  let v41 : BitVec 32 := Scalar.extui v40
  let v42 : BitVec 32 := Scalar.subi v39 v41
  let v43 : BitVec 1 := Scalar.cmpi .ne v37 v42
  let v44 : BitVec 32 := Scalar.remsi v29 c16_i32
  let c0_i32_19 : BitVec 32 := 0#32
  let v45 : BitVec 1 := Scalar.cmpi .ne v44 c0_i32_19
  let v46 : BitVec 1 := Scalar.andi v43 v45
  let v32 : BitVec 32 := Scalar.divsi v29 c16_i32
  let c1_i32_20 : BitVec 32 := 1#32
  let v47 : BitVec 32 := Scalar.subi v32 c1_i32_20
  let v48 : BitVec 32 := Scalar.select v46 v47 v32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c16_i32_21 : BitVec 32 := 16#32
  let c0_i32_24 : BitVec 32 := 0#32
  let v55 : BitVec 1 := Scalar.cmpi .sgt c16_i32_21 c0_i32_24
  let v56 : BitVec 32 := Scalar.extui v55
  let c0_i32_25 : BitVec 32 := 0#32
  let v57 : BitVec 1 := Scalar.cmpi .slt c16_i32_21 c0_i32_25
  let v58 : BitVec 32 := Scalar.extui v57
  let v59 : BitVec 32 := Scalar.subi v56 v58
  let v60 : BitVec 1 := Scalar.cmpi .ne v54 v59
  let v61 : BitVec 32 := Scalar.remsi v48 c16_i32_21
  let c0_i32_26 : BitVec 32 := 0#32
  let v62 : BitVec 1 := Scalar.cmpi .ne v61 c0_i32_26
  let v63 : BitVec 1 := Scalar.andi v60 v62
  let v49 : BitVec 32 := Scalar.divsi v48 c16_i32_21
  let c1_i32_27 : BitVec 32 := 1#32
  let v64 : BitVec 32 := Scalar.subi v49 c1_i32_27
  let v65 : BitVec 32 := Scalar.select v63 v64 v49
  let c16_i32_28 : BitVec 32 := 16#32
  let v66 : BitVec 32 := Scalar.muli v65 c16_i32_28
  let v111 : Index := Scalar.indexCast v66
  ![6, 6, v111.toNat]
def k1_off24 (i : grid1.Coords) : Fin 3 → Nat :=
  let c7_i32 : BitVec 32 := 7#32
  let v115 : Index := Scalar.indexCast c7_i32
  let c7_i32_42 : BitVec 32 := 7#32
  let v116 : Index := Scalar.indexCast c7_i32_42
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_15 : BitVec 32 := 0#32
  let v33 : BitVec 1 := Scalar.cmpi .sgt v29 c0_i32_15
  let v34 : BitVec 32 := Scalar.extui v33
  let c0_i32_16 : BitVec 32 := 0#32
  let v35 : BitVec 1 := Scalar.cmpi .slt v29 c0_i32_16
  let v36 : BitVec 32 := Scalar.extui v35
  let v37 : BitVec 32 := Scalar.subi v34 v36
  let c16_i32 : BitVec 32 := 16#32
  let c0_i32_17 : BitVec 32 := 0#32
  let v38 : BitVec 1 := Scalar.cmpi .sgt c16_i32 c0_i32_17
  let v39 : BitVec 32 := Scalar.extui v38
  let c0_i32_18 : BitVec 32 := 0#32
  let v40 : BitVec 1 := Scalar.cmpi .slt c16_i32 c0_i32_18
  let v41 : BitVec 32 := Scalar.extui v40
  let v42 : BitVec 32 := Scalar.subi v39 v41
  let v43 : BitVec 1 := Scalar.cmpi .ne v37 v42
  let v44 : BitVec 32 := Scalar.remsi v29 c16_i32
  let c0_i32_19 : BitVec 32 := 0#32
  let v45 : BitVec 1 := Scalar.cmpi .ne v44 c0_i32_19
  let v46 : BitVec 1 := Scalar.andi v43 v45
  let v32 : BitVec 32 := Scalar.divsi v29 c16_i32
  let c1_i32_20 : BitVec 32 := 1#32
  let v47 : BitVec 32 := Scalar.subi v32 c1_i32_20
  let v48 : BitVec 32 := Scalar.select v46 v47 v32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c16_i32_21 : BitVec 32 := 16#32
  let c0_i32_24 : BitVec 32 := 0#32
  let v55 : BitVec 1 := Scalar.cmpi .sgt c16_i32_21 c0_i32_24
  let v56 : BitVec 32 := Scalar.extui v55
  let c0_i32_25 : BitVec 32 := 0#32
  let v57 : BitVec 1 := Scalar.cmpi .slt c16_i32_21 c0_i32_25
  let v58 : BitVec 32 := Scalar.extui v57
  let v59 : BitVec 32 := Scalar.subi v56 v58
  let v60 : BitVec 1 := Scalar.cmpi .ne v54 v59
  let v61 : BitVec 32 := Scalar.remsi v48 c16_i32_21
  let c0_i32_26 : BitVec 32 := 0#32
  let v62 : BitVec 1 := Scalar.cmpi .ne v61 c0_i32_26
  let v63 : BitVec 1 := Scalar.andi v60 v62
  let v49 : BitVec 32 := Scalar.divsi v48 c16_i32_21
  let c1_i32_27 : BitVec 32 := 1#32
  let v64 : BitVec 32 := Scalar.subi v49 c1_i32_27
  let v65 : BitVec 32 := Scalar.select v63 v64 v49
  let c16_i32_28 : BitVec 32 := 16#32
  let v66 : BitVec 32 := Scalar.muli v65 c16_i32_28
  let v117 : Index := Scalar.indexCast v66
  ![7, 7, v117.toNat]
def k1_off25 (i : grid1.Coords) : Fin 3 → Nat :=
  let c8_i32_43 : BitVec 32 := 8#32
  let v121 : Index := Scalar.indexCast c8_i32_43
  let c8_i32_44 : BitVec 32 := 8#32
  let v122 : Index := Scalar.indexCast c8_i32_44
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_15 : BitVec 32 := 0#32
  let v33 : BitVec 1 := Scalar.cmpi .sgt v29 c0_i32_15
  let v34 : BitVec 32 := Scalar.extui v33
  let c0_i32_16 : BitVec 32 := 0#32
  let v35 : BitVec 1 := Scalar.cmpi .slt v29 c0_i32_16
  let v36 : BitVec 32 := Scalar.extui v35
  let v37 : BitVec 32 := Scalar.subi v34 v36
  let c16_i32 : BitVec 32 := 16#32
  let c0_i32_17 : BitVec 32 := 0#32
  let v38 : BitVec 1 := Scalar.cmpi .sgt c16_i32 c0_i32_17
  let v39 : BitVec 32 := Scalar.extui v38
  let c0_i32_18 : BitVec 32 := 0#32
  let v40 : BitVec 1 := Scalar.cmpi .slt c16_i32 c0_i32_18
  let v41 : BitVec 32 := Scalar.extui v40
  let v42 : BitVec 32 := Scalar.subi v39 v41
  let v43 : BitVec 1 := Scalar.cmpi .ne v37 v42
  let v44 : BitVec 32 := Scalar.remsi v29 c16_i32
  let c0_i32_19 : BitVec 32 := 0#32
  let v45 : BitVec 1 := Scalar.cmpi .ne v44 c0_i32_19
  let v46 : BitVec 1 := Scalar.andi v43 v45
  let v32 : BitVec 32 := Scalar.divsi v29 c16_i32
  let c1_i32_20 : BitVec 32 := 1#32
  let v47 : BitVec 32 := Scalar.subi v32 c1_i32_20
  let v48 : BitVec 32 := Scalar.select v46 v47 v32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c16_i32_21 : BitVec 32 := 16#32
  let c0_i32_24 : BitVec 32 := 0#32
  let v55 : BitVec 1 := Scalar.cmpi .sgt c16_i32_21 c0_i32_24
  let v56 : BitVec 32 := Scalar.extui v55
  let c0_i32_25 : BitVec 32 := 0#32
  let v57 : BitVec 1 := Scalar.cmpi .slt c16_i32_21 c0_i32_25
  let v58 : BitVec 32 := Scalar.extui v57
  let v59 : BitVec 32 := Scalar.subi v56 v58
  let v60 : BitVec 1 := Scalar.cmpi .ne v54 v59
  let v61 : BitVec 32 := Scalar.remsi v48 c16_i32_21
  let c0_i32_26 : BitVec 32 := 0#32
  let v62 : BitVec 1 := Scalar.cmpi .ne v61 c0_i32_26
  let v63 : BitVec 1 := Scalar.andi v60 v62
  let v49 : BitVec 32 := Scalar.divsi v48 c16_i32_21
  let c1_i32_27 : BitVec 32 := 1#32
  let v64 : BitVec 32 := Scalar.subi v49 c1_i32_27
  let v65 : BitVec 32 := Scalar.select v63 v64 v49
  let c16_i32_28 : BitVec 32 := 16#32
  let v66 : BitVec 32 := Scalar.muli v65 c16_i32_28
  let v123 : Index := Scalar.indexCast v66
  ![8, 8, v123.toNat]
def k1_off26 (i : grid1.Coords) : Fin 3 → Nat :=
  let c9_i32 : BitVec 32 := 9#32
  let v127 : Index := Scalar.indexCast c9_i32
  let c9_i32_45 : BitVec 32 := 9#32
  let v128 : Index := Scalar.indexCast c9_i32_45
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_15 : BitVec 32 := 0#32
  let v33 : BitVec 1 := Scalar.cmpi .sgt v29 c0_i32_15
  let v34 : BitVec 32 := Scalar.extui v33
  let c0_i32_16 : BitVec 32 := 0#32
  let v35 : BitVec 1 := Scalar.cmpi .slt v29 c0_i32_16
  let v36 : BitVec 32 := Scalar.extui v35
  let v37 : BitVec 32 := Scalar.subi v34 v36
  let c16_i32 : BitVec 32 := 16#32
  let c0_i32_17 : BitVec 32 := 0#32
  let v38 : BitVec 1 := Scalar.cmpi .sgt c16_i32 c0_i32_17
  let v39 : BitVec 32 := Scalar.extui v38
  let c0_i32_18 : BitVec 32 := 0#32
  let v40 : BitVec 1 := Scalar.cmpi .slt c16_i32 c0_i32_18
  let v41 : BitVec 32 := Scalar.extui v40
  let v42 : BitVec 32 := Scalar.subi v39 v41
  let v43 : BitVec 1 := Scalar.cmpi .ne v37 v42
  let v44 : BitVec 32 := Scalar.remsi v29 c16_i32
  let c0_i32_19 : BitVec 32 := 0#32
  let v45 : BitVec 1 := Scalar.cmpi .ne v44 c0_i32_19
  let v46 : BitVec 1 := Scalar.andi v43 v45
  let v32 : BitVec 32 := Scalar.divsi v29 c16_i32
  let c1_i32_20 : BitVec 32 := 1#32
  let v47 : BitVec 32 := Scalar.subi v32 c1_i32_20
  let v48 : BitVec 32 := Scalar.select v46 v47 v32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c16_i32_21 : BitVec 32 := 16#32
  let c0_i32_24 : BitVec 32 := 0#32
  let v55 : BitVec 1 := Scalar.cmpi .sgt c16_i32_21 c0_i32_24
  let v56 : BitVec 32 := Scalar.extui v55
  let c0_i32_25 : BitVec 32 := 0#32
  let v57 : BitVec 1 := Scalar.cmpi .slt c16_i32_21 c0_i32_25
  let v58 : BitVec 32 := Scalar.extui v57
  let v59 : BitVec 32 := Scalar.subi v56 v58
  let v60 : BitVec 1 := Scalar.cmpi .ne v54 v59
  let v61 : BitVec 32 := Scalar.remsi v48 c16_i32_21
  let c0_i32_26 : BitVec 32 := 0#32
  let v62 : BitVec 1 := Scalar.cmpi .ne v61 c0_i32_26
  let v63 : BitVec 1 := Scalar.andi v60 v62
  let v49 : BitVec 32 := Scalar.divsi v48 c16_i32_21
  let c1_i32_27 : BitVec 32 := 1#32
  let v64 : BitVec 32 := Scalar.subi v49 c1_i32_27
  let v65 : BitVec 32 := Scalar.select v63 v64 v49
  let c16_i32_28 : BitVec 32 := 16#32
  let v66 : BitVec 32 := Scalar.muli v65 c16_i32_28
  let v129 : Index := Scalar.indexCast v66
  ![9, 9, v129.toNat]
def k1_off27 (i : grid1.Coords) : Fin 3 → Nat :=
  let c10_i32 : BitVec 32 := 10#32
  let v133 : Index := Scalar.indexCast c10_i32
  let c10_i32_46 : BitVec 32 := 10#32
  let v134 : Index := Scalar.indexCast c10_i32_46
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_15 : BitVec 32 := 0#32
  let v33 : BitVec 1 := Scalar.cmpi .sgt v29 c0_i32_15
  let v34 : BitVec 32 := Scalar.extui v33
  let c0_i32_16 : BitVec 32 := 0#32
  let v35 : BitVec 1 := Scalar.cmpi .slt v29 c0_i32_16
  let v36 : BitVec 32 := Scalar.extui v35
  let v37 : BitVec 32 := Scalar.subi v34 v36
  let c16_i32 : BitVec 32 := 16#32
  let c0_i32_17 : BitVec 32 := 0#32
  let v38 : BitVec 1 := Scalar.cmpi .sgt c16_i32 c0_i32_17
  let v39 : BitVec 32 := Scalar.extui v38
  let c0_i32_18 : BitVec 32 := 0#32
  let v40 : BitVec 1 := Scalar.cmpi .slt c16_i32 c0_i32_18
  let v41 : BitVec 32 := Scalar.extui v40
  let v42 : BitVec 32 := Scalar.subi v39 v41
  let v43 : BitVec 1 := Scalar.cmpi .ne v37 v42
  let v44 : BitVec 32 := Scalar.remsi v29 c16_i32
  let c0_i32_19 : BitVec 32 := 0#32
  let v45 : BitVec 1 := Scalar.cmpi .ne v44 c0_i32_19
  let v46 : BitVec 1 := Scalar.andi v43 v45
  let v32 : BitVec 32 := Scalar.divsi v29 c16_i32
  let c1_i32_20 : BitVec 32 := 1#32
  let v47 : BitVec 32 := Scalar.subi v32 c1_i32_20
  let v48 : BitVec 32 := Scalar.select v46 v47 v32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c16_i32_21 : BitVec 32 := 16#32
  let c0_i32_24 : BitVec 32 := 0#32
  let v55 : BitVec 1 := Scalar.cmpi .sgt c16_i32_21 c0_i32_24
  let v56 : BitVec 32 := Scalar.extui v55
  let c0_i32_25 : BitVec 32 := 0#32
  let v57 : BitVec 1 := Scalar.cmpi .slt c16_i32_21 c0_i32_25
  let v58 : BitVec 32 := Scalar.extui v57
  let v59 : BitVec 32 := Scalar.subi v56 v58
  let v60 : BitVec 1 := Scalar.cmpi .ne v54 v59
  let v61 : BitVec 32 := Scalar.remsi v48 c16_i32_21
  let c0_i32_26 : BitVec 32 := 0#32
  let v62 : BitVec 1 := Scalar.cmpi .ne v61 c0_i32_26
  let v63 : BitVec 1 := Scalar.andi v60 v62
  let v49 : BitVec 32 := Scalar.divsi v48 c16_i32_21
  let c1_i32_27 : BitVec 32 := 1#32
  let v64 : BitVec 32 := Scalar.subi v49 c1_i32_27
  let v65 : BitVec 32 := Scalar.select v63 v64 v49
  let c16_i32_28 : BitVec 32 := 16#32
  let v66 : BitVec 32 := Scalar.muli v65 c16_i32_28
  let v135 : Index := Scalar.indexCast v66
  ![10, 10, v135.toNat]
def k1_off28 (i : grid1.Coords) : Fin 3 → Nat :=
  let c11_i32 : BitVec 32 := 11#32
  let v139 : Index := Scalar.indexCast c11_i32
  let c11_i32_47 : BitVec 32 := 11#32
  let v140 : Index := Scalar.indexCast c11_i32_47
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_15 : BitVec 32 := 0#32
  let v33 : BitVec 1 := Scalar.cmpi .sgt v29 c0_i32_15
  let v34 : BitVec 32 := Scalar.extui v33
  let c0_i32_16 : BitVec 32 := 0#32
  let v35 : BitVec 1 := Scalar.cmpi .slt v29 c0_i32_16
  let v36 : BitVec 32 := Scalar.extui v35
  let v37 : BitVec 32 := Scalar.subi v34 v36
  let c16_i32 : BitVec 32 := 16#32
  let c0_i32_17 : BitVec 32 := 0#32
  let v38 : BitVec 1 := Scalar.cmpi .sgt c16_i32 c0_i32_17
  let v39 : BitVec 32 := Scalar.extui v38
  let c0_i32_18 : BitVec 32 := 0#32
  let v40 : BitVec 1 := Scalar.cmpi .slt c16_i32 c0_i32_18
  let v41 : BitVec 32 := Scalar.extui v40
  let v42 : BitVec 32 := Scalar.subi v39 v41
  let v43 : BitVec 1 := Scalar.cmpi .ne v37 v42
  let v44 : BitVec 32 := Scalar.remsi v29 c16_i32
  let c0_i32_19 : BitVec 32 := 0#32
  let v45 : BitVec 1 := Scalar.cmpi .ne v44 c0_i32_19
  let v46 : BitVec 1 := Scalar.andi v43 v45
  let v32 : BitVec 32 := Scalar.divsi v29 c16_i32
  let c1_i32_20 : BitVec 32 := 1#32
  let v47 : BitVec 32 := Scalar.subi v32 c1_i32_20
  let v48 : BitVec 32 := Scalar.select v46 v47 v32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c16_i32_21 : BitVec 32 := 16#32
  let c0_i32_24 : BitVec 32 := 0#32
  let v55 : BitVec 1 := Scalar.cmpi .sgt c16_i32_21 c0_i32_24
  let v56 : BitVec 32 := Scalar.extui v55
  let c0_i32_25 : BitVec 32 := 0#32
  let v57 : BitVec 1 := Scalar.cmpi .slt c16_i32_21 c0_i32_25
  let v58 : BitVec 32 := Scalar.extui v57
  let v59 : BitVec 32 := Scalar.subi v56 v58
  let v60 : BitVec 1 := Scalar.cmpi .ne v54 v59
  let v61 : BitVec 32 := Scalar.remsi v48 c16_i32_21
  let c0_i32_26 : BitVec 32 := 0#32
  let v62 : BitVec 1 := Scalar.cmpi .ne v61 c0_i32_26
  let v63 : BitVec 1 := Scalar.andi v60 v62
  let v49 : BitVec 32 := Scalar.divsi v48 c16_i32_21
  let c1_i32_27 : BitVec 32 := 1#32
  let v64 : BitVec 32 := Scalar.subi v49 c1_i32_27
  let v65 : BitVec 32 := Scalar.select v63 v64 v49
  let c16_i32_28 : BitVec 32 := 16#32
  let v66 : BitVec 32 := Scalar.muli v65 c16_i32_28
  let v141 : Index := Scalar.indexCast v66
  ![11, 11, v141.toNat]
def k1_off29 (i : grid1.Coords) : Fin 3 → Nat :=
  let c12_i32 : BitVec 32 := 12#32
  let v145 : Index := Scalar.indexCast c12_i32
  let c12_i32_48 : BitVec 32 := 12#32
  let v146 : Index := Scalar.indexCast c12_i32_48
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_15 : BitVec 32 := 0#32
  let v33 : BitVec 1 := Scalar.cmpi .sgt v29 c0_i32_15
  let v34 : BitVec 32 := Scalar.extui v33
  let c0_i32_16 : BitVec 32 := 0#32
  let v35 : BitVec 1 := Scalar.cmpi .slt v29 c0_i32_16
  let v36 : BitVec 32 := Scalar.extui v35
  let v37 : BitVec 32 := Scalar.subi v34 v36
  let c16_i32 : BitVec 32 := 16#32
  let c0_i32_17 : BitVec 32 := 0#32
  let v38 : BitVec 1 := Scalar.cmpi .sgt c16_i32 c0_i32_17
  let v39 : BitVec 32 := Scalar.extui v38
  let c0_i32_18 : BitVec 32 := 0#32
  let v40 : BitVec 1 := Scalar.cmpi .slt c16_i32 c0_i32_18
  let v41 : BitVec 32 := Scalar.extui v40
  let v42 : BitVec 32 := Scalar.subi v39 v41
  let v43 : BitVec 1 := Scalar.cmpi .ne v37 v42
  let v44 : BitVec 32 := Scalar.remsi v29 c16_i32
  let c0_i32_19 : BitVec 32 := 0#32
  let v45 : BitVec 1 := Scalar.cmpi .ne v44 c0_i32_19
  let v46 : BitVec 1 := Scalar.andi v43 v45
  let v32 : BitVec 32 := Scalar.divsi v29 c16_i32
  let c1_i32_20 : BitVec 32 := 1#32
  let v47 : BitVec 32 := Scalar.subi v32 c1_i32_20
  let v48 : BitVec 32 := Scalar.select v46 v47 v32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c16_i32_21 : BitVec 32 := 16#32
  let c0_i32_24 : BitVec 32 := 0#32
  let v55 : BitVec 1 := Scalar.cmpi .sgt c16_i32_21 c0_i32_24
  let v56 : BitVec 32 := Scalar.extui v55
  let c0_i32_25 : BitVec 32 := 0#32
  let v57 : BitVec 1 := Scalar.cmpi .slt c16_i32_21 c0_i32_25
  let v58 : BitVec 32 := Scalar.extui v57
  let v59 : BitVec 32 := Scalar.subi v56 v58
  let v60 : BitVec 1 := Scalar.cmpi .ne v54 v59
  let v61 : BitVec 32 := Scalar.remsi v48 c16_i32_21
  let c0_i32_26 : BitVec 32 := 0#32
  let v62 : BitVec 1 := Scalar.cmpi .ne v61 c0_i32_26
  let v63 : BitVec 1 := Scalar.andi v60 v62
  let v49 : BitVec 32 := Scalar.divsi v48 c16_i32_21
  let c1_i32_27 : BitVec 32 := 1#32
  let v64 : BitVec 32 := Scalar.subi v49 c1_i32_27
  let v65 : BitVec 32 := Scalar.select v63 v64 v49
  let c16_i32_28 : BitVec 32 := 16#32
  let v66 : BitVec 32 := Scalar.muli v65 c16_i32_28
  let v147 : Index := Scalar.indexCast v66
  ![12, 12, v147.toNat]
def k1_off30 (i : grid1.Coords) : Fin 3 → Nat :=
  let c13_i32 : BitVec 32 := 13#32
  let v151 : Index := Scalar.indexCast c13_i32
  let c13_i32_49 : BitVec 32 := 13#32
  let v152 : Index := Scalar.indexCast c13_i32_49
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_15 : BitVec 32 := 0#32
  let v33 : BitVec 1 := Scalar.cmpi .sgt v29 c0_i32_15
  let v34 : BitVec 32 := Scalar.extui v33
  let c0_i32_16 : BitVec 32 := 0#32
  let v35 : BitVec 1 := Scalar.cmpi .slt v29 c0_i32_16
  let v36 : BitVec 32 := Scalar.extui v35
  let v37 : BitVec 32 := Scalar.subi v34 v36
  let c16_i32 : BitVec 32 := 16#32
  let c0_i32_17 : BitVec 32 := 0#32
  let v38 : BitVec 1 := Scalar.cmpi .sgt c16_i32 c0_i32_17
  let v39 : BitVec 32 := Scalar.extui v38
  let c0_i32_18 : BitVec 32 := 0#32
  let v40 : BitVec 1 := Scalar.cmpi .slt c16_i32 c0_i32_18
  let v41 : BitVec 32 := Scalar.extui v40
  let v42 : BitVec 32 := Scalar.subi v39 v41
  let v43 : BitVec 1 := Scalar.cmpi .ne v37 v42
  let v44 : BitVec 32 := Scalar.remsi v29 c16_i32
  let c0_i32_19 : BitVec 32 := 0#32
  let v45 : BitVec 1 := Scalar.cmpi .ne v44 c0_i32_19
  let v46 : BitVec 1 := Scalar.andi v43 v45
  let v32 : BitVec 32 := Scalar.divsi v29 c16_i32
  let c1_i32_20 : BitVec 32 := 1#32
  let v47 : BitVec 32 := Scalar.subi v32 c1_i32_20
  let v48 : BitVec 32 := Scalar.select v46 v47 v32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c16_i32_21 : BitVec 32 := 16#32
  let c0_i32_24 : BitVec 32 := 0#32
  let v55 : BitVec 1 := Scalar.cmpi .sgt c16_i32_21 c0_i32_24
  let v56 : BitVec 32 := Scalar.extui v55
  let c0_i32_25 : BitVec 32 := 0#32
  let v57 : BitVec 1 := Scalar.cmpi .slt c16_i32_21 c0_i32_25
  let v58 : BitVec 32 := Scalar.extui v57
  let v59 : BitVec 32 := Scalar.subi v56 v58
  let v60 : BitVec 1 := Scalar.cmpi .ne v54 v59
  let v61 : BitVec 32 := Scalar.remsi v48 c16_i32_21
  let c0_i32_26 : BitVec 32 := 0#32
  let v62 : BitVec 1 := Scalar.cmpi .ne v61 c0_i32_26
  let v63 : BitVec 1 := Scalar.andi v60 v62
  let v49 : BitVec 32 := Scalar.divsi v48 c16_i32_21
  let c1_i32_27 : BitVec 32 := 1#32
  let v64 : BitVec 32 := Scalar.subi v49 c1_i32_27
  let v65 : BitVec 32 := Scalar.select v63 v64 v49
  let c16_i32_28 : BitVec 32 := 16#32
  let v66 : BitVec 32 := Scalar.muli v65 c16_i32_28
  let v153 : Index := Scalar.indexCast v66
  ![13, 13, v153.toNat]
def k1_off31 (i : grid1.Coords) : Fin 3 → Nat :=
  let c14_i32 : BitVec 32 := 14#32
  let v157 : Index := Scalar.indexCast c14_i32
  let c14_i32_50 : BitVec 32 := 14#32
  let v158 : Index := Scalar.indexCast c14_i32_50
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_15 : BitVec 32 := 0#32
  let v33 : BitVec 1 := Scalar.cmpi .sgt v29 c0_i32_15
  let v34 : BitVec 32 := Scalar.extui v33
  let c0_i32_16 : BitVec 32 := 0#32
  let v35 : BitVec 1 := Scalar.cmpi .slt v29 c0_i32_16
  let v36 : BitVec 32 := Scalar.extui v35
  let v37 : BitVec 32 := Scalar.subi v34 v36
  let c16_i32 : BitVec 32 := 16#32
  let c0_i32_17 : BitVec 32 := 0#32
  let v38 : BitVec 1 := Scalar.cmpi .sgt c16_i32 c0_i32_17
  let v39 : BitVec 32 := Scalar.extui v38
  let c0_i32_18 : BitVec 32 := 0#32
  let v40 : BitVec 1 := Scalar.cmpi .slt c16_i32 c0_i32_18
  let v41 : BitVec 32 := Scalar.extui v40
  let v42 : BitVec 32 := Scalar.subi v39 v41
  let v43 : BitVec 1 := Scalar.cmpi .ne v37 v42
  let v44 : BitVec 32 := Scalar.remsi v29 c16_i32
  let c0_i32_19 : BitVec 32 := 0#32
  let v45 : BitVec 1 := Scalar.cmpi .ne v44 c0_i32_19
  let v46 : BitVec 1 := Scalar.andi v43 v45
  let v32 : BitVec 32 := Scalar.divsi v29 c16_i32
  let c1_i32_20 : BitVec 32 := 1#32
  let v47 : BitVec 32 := Scalar.subi v32 c1_i32_20
  let v48 : BitVec 32 := Scalar.select v46 v47 v32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c16_i32_21 : BitVec 32 := 16#32
  let c0_i32_24 : BitVec 32 := 0#32
  let v55 : BitVec 1 := Scalar.cmpi .sgt c16_i32_21 c0_i32_24
  let v56 : BitVec 32 := Scalar.extui v55
  let c0_i32_25 : BitVec 32 := 0#32
  let v57 : BitVec 1 := Scalar.cmpi .slt c16_i32_21 c0_i32_25
  let v58 : BitVec 32 := Scalar.extui v57
  let v59 : BitVec 32 := Scalar.subi v56 v58
  let v60 : BitVec 1 := Scalar.cmpi .ne v54 v59
  let v61 : BitVec 32 := Scalar.remsi v48 c16_i32_21
  let c0_i32_26 : BitVec 32 := 0#32
  let v62 : BitVec 1 := Scalar.cmpi .ne v61 c0_i32_26
  let v63 : BitVec 1 := Scalar.andi v60 v62
  let v49 : BitVec 32 := Scalar.divsi v48 c16_i32_21
  let c1_i32_27 : BitVec 32 := 1#32
  let v64 : BitVec 32 := Scalar.subi v49 c1_i32_27
  let v65 : BitVec 32 := Scalar.select v63 v64 v49
  let c16_i32_28 : BitVec 32 := 16#32
  let v66 : BitVec 32 := Scalar.muli v65 c16_i32_28
  let v159 : Index := Scalar.indexCast v66
  ![14, 14, v159.toNat]
def k1_off32 (i : grid1.Coords) : Fin 3 → Nat :=
  let c15_i32 : BitVec 32 := 15#32
  let v163 : Index := Scalar.indexCast c15_i32
  let c15_i32_51 : BitVec 32 := 15#32
  let v164 : Index := Scalar.indexCast c15_i32_51
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_15 : BitVec 32 := 0#32
  let v33 : BitVec 1 := Scalar.cmpi .sgt v29 c0_i32_15
  let v34 : BitVec 32 := Scalar.extui v33
  let c0_i32_16 : BitVec 32 := 0#32
  let v35 : BitVec 1 := Scalar.cmpi .slt v29 c0_i32_16
  let v36 : BitVec 32 := Scalar.extui v35
  let v37 : BitVec 32 := Scalar.subi v34 v36
  let c16_i32 : BitVec 32 := 16#32
  let c0_i32_17 : BitVec 32 := 0#32
  let v38 : BitVec 1 := Scalar.cmpi .sgt c16_i32 c0_i32_17
  let v39 : BitVec 32 := Scalar.extui v38
  let c0_i32_18 : BitVec 32 := 0#32
  let v40 : BitVec 1 := Scalar.cmpi .slt c16_i32 c0_i32_18
  let v41 : BitVec 32 := Scalar.extui v40
  let v42 : BitVec 32 := Scalar.subi v39 v41
  let v43 : BitVec 1 := Scalar.cmpi .ne v37 v42
  let v44 : BitVec 32 := Scalar.remsi v29 c16_i32
  let c0_i32_19 : BitVec 32 := 0#32
  let v45 : BitVec 1 := Scalar.cmpi .ne v44 c0_i32_19
  let v46 : BitVec 1 := Scalar.andi v43 v45
  let v32 : BitVec 32 := Scalar.divsi v29 c16_i32
  let c1_i32_20 : BitVec 32 := 1#32
  let v47 : BitVec 32 := Scalar.subi v32 c1_i32_20
  let v48 : BitVec 32 := Scalar.select v46 v47 v32
  let c0_i32_22 : BitVec 32 := 0#32
  let v50 : BitVec 1 := Scalar.cmpi .sgt v48 c0_i32_22
  let v51 : BitVec 32 := Scalar.extui v50
  let c0_i32_23 : BitVec 32 := 0#32
  let v52 : BitVec 1 := Scalar.cmpi .slt v48 c0_i32_23
  let v53 : BitVec 32 := Scalar.extui v52
  let v54 : BitVec 32 := Scalar.subi v51 v53
  let c16_i32_21 : BitVec 32 := 16#32
  let c0_i32_24 : BitVec 32 := 0#32
  let v55 : BitVec 1 := Scalar.cmpi .sgt c16_i32_21 c0_i32_24
  let v56 : BitVec 32 := Scalar.extui v55
  let c0_i32_25 : BitVec 32 := 0#32
  let v57 : BitVec 1 := Scalar.cmpi .slt c16_i32_21 c0_i32_25
  let v58 : BitVec 32 := Scalar.extui v57
  let v59 : BitVec 32 := Scalar.subi v56 v58
  let v60 : BitVec 1 := Scalar.cmpi .ne v54 v59
  let v61 : BitVec 32 := Scalar.remsi v48 c16_i32_21
  let c0_i32_26 : BitVec 32 := 0#32
  let v62 : BitVec 1 := Scalar.cmpi .ne v61 c0_i32_26
  let v63 : BitVec 1 := Scalar.andi v60 v62
  let v49 : BitVec 32 := Scalar.divsi v48 c16_i32_21
  let c1_i32_27 : BitVec 32 := 1#32
  let v64 : BitVec 32 := Scalar.subi v49 c1_i32_27
  let v65 : BitVec 32 := Scalar.select v63 v64 v49
  let c16_i32_28 : BitVec 32 := 16#32
  let v66 : BitVec 32 := Scalar.muli v65 c16_i32_28
  let v165 : Index := Scalar.indexCast v66
  ![15, 15, v165.toNat]
def k1_off33 (i : grid1.Coords) (c0_i32_52 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let v169 : BitVec 32 := Scalar.addi v29 c0_i32_52
  let c0_i32_579_r0 : BitVec 32 := 0#32
  let c0_i32_580_r0 : BitVec 32 := 0#32
  ![v18.toNat, v169.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S256x1x1_d0_w32 : S256x1x1.Iotas .tc 32 [0]
  broadcasts_S256x1x1_S256x1x1 : S256x1x1.Broadcasts S256x1x1
  natLt_1_32 : 1 < 32
  iota_S1x16x256_d1_w32 : S1x16x256.Iotas .tc 32 [1]
  iota_S1x16x256_d2_w32 : S1x16x256.Iotas .tc 32 [2]
  broadcasts_S256x1x1_S256x16x256 : S256x1x1.Broadcasts S256x16x256
  broadcasts_S1x16x256_S256x16x256 : S1x16x256.Broadcasts S256x16x256
  natLt_1_8 : 1 < 8
  inb_S256x16x256_S256x16x256_0_0_0 : ∀ a, (![0, 0, 0] : Fin 3 → Nat) a + S256x16x256.size a ≤ S256x16x256.size a
  h_S256x16x256 : 0 < S256x16x256.numel
  packedi8_S256x16x256_S256x16x256_0_0_0 : (Rect.unit (s := S256x16x256) ![0, 0, 0] S256x16x256.size inb_S256x16x256_S256x16x256_0_0_0).PackedRows (EltTy.packing .i8)
  bcast_S2048x16x256_S1x2048x16x256_1_2_3 : S2048x16x256.BroadcastsInDim S1x2048x16x256 (![1, 2, 3] : Fin 3 → Fin S1x2048x16x256.rank)
  bcast_S1x2048x16x256_S4x2048x16x256_0_1_2_3 : S1x2048x16x256.BroadcastsInDim S4x2048x16x256 (![0, 1, 2, 3] : Fin 4 → Fin S4x2048x16x256.rank)
  bcast_S_S4x2048x16x256 : S_.BroadcastsInDim S4x2048x16x256 (![] : Fin 0 → Fin S4x2048x16x256.rank)
  h_S1x1x16 : 0 < S1x1x16.numel
  shapeCasts_S1x1x16_S16 : S1x1x16.ShapeCasts S16
  shapeCasts_S16_S1x1x16 : S16.ShapeCasts S1x1x16
  iota_S16_d0_w32_scVector : S16.Iotas .scVector 32 [0]
  squeezes_S1x16x16x256_S16x16x256 : S1x16x16x256.Squeezes S16x16x256
  hcc1_scoped0 : 2 + S_.numel ≤ 18
  hcc1_scoped1 : 3 + S_.numel ≤ 18
  hcc1_scoped2 : 4 + S_.numel ≤ 18
  hcc1_scoped3 : 5 + S_.numel ≤ 18
  hcc1_scoped4 : 6 + S_.numel ≤ 18
  hcc1_scoped5 : 7 + S_.numel ≤ 18
  hcc1_scoped6 : 8 + S_.numel ≤ 18
  hcc1_scoped7 : 9 + S_.numel ≤ 18
  hcc1_scoped8 : 10 + S_.numel ≤ 18
  hcc1_scoped9 : 11 + S_.numel ≤ 18
  hcc1_scoped10 : 12 + S_.numel ≤ 18
  hcc1_scoped11 : 13 + S_.numel ≤ 18
  hcc1_scoped12 : 14 + S_.numel ≤ 18
  hcc1_scoped13 : 15 + S_.numel ≤ 18
  hcc1_scoped14 : 16 + S_.numel ≤ 18
  hcc1_scoped15 : 17 + S_.numel ≤ 18
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x256.size a ≤ S2048x16x256.size a
  hwx0_0 : ∀ i : grid0.Coords, EltTy.bits .i8 = 32 ∨ (Rect.block (s := S2048x16x256) S256x16x256.size (cc0_transform_0 i) (hinb0_0 i)).WholeWords (EltTy.packing .i8)
  hcore1 : grid1.bound 0 ≤ τ.nSC
  hsub1 : grid1.bound 1 ≤ τ.nSub
  k1_t1_ok : k1_t1_loop.OK
  k1_off1_inb : ∀ k1_t1 : Fin k1_t1_loop.trips, ∀ a, (k1_off1 k1_t1) a + S1x1x16.size a ≤ S16x16x256.size a
  k1_off2_inb : ∀ k1_t1 : Fin k1_t1_loop.trips, ∀ a, (k1_off2 k1_t1) a + S1x1x16.size a ≤ S16x16x256.size a
  k1_off3_inb : ∀ k1_t1 : Fin k1_t1_loop.trips, ∀ a, (k1_off3 k1_t1) a + S1x1x16.size a ≤ S16x16x256.size a
  k1_off4_inb : ∀ k1_t1 : Fin k1_t1_loop.trips, ∀ a, (k1_off4 k1_t1) a + S1x1x16.size a ≤ S16x16x256.size a
  k1_off5_inb : ∀ k1_t1 : Fin k1_t1_loop.trips, ∀ a, (k1_off5 k1_t1) a + S1x1x16.size a ≤ S16x16x256.size a
  k1_off6_inb : ∀ k1_t1 : Fin k1_t1_loop.trips, ∀ a, (k1_off6 k1_t1) a + S1x1x16.size a ≤ S16x16x256.size a
  k1_off7_inb : ∀ k1_t1 : Fin k1_t1_loop.trips, ∀ a, (k1_off7 k1_t1) a + S1x1x16.size a ≤ S16x16x256.size a
  k1_off8_inb : ∀ k1_t1 : Fin k1_t1_loop.trips, ∀ a, (k1_off8 k1_t1) a + S1x1x16.size a ≤ S16x16x256.size a
  k1_off9_inb : ∀ k1_t1 : Fin k1_t1_loop.trips, ∀ a, (k1_off9 k1_t1) a + S1x1x16.size a ≤ S16x16x256.size a
  k1_off10_inb : ∀ k1_t1 : Fin k1_t1_loop.trips, ∀ a, (k1_off10 k1_t1) a + S1x1x16.size a ≤ S16x16x256.size a
  k1_off11_inb : ∀ k1_t1 : Fin k1_t1_loop.trips, ∀ a, (k1_off11 k1_t1) a + S1x1x16.size a ≤ S16x16x256.size a
  k1_off12_inb : ∀ k1_t1 : Fin k1_t1_loop.trips, ∀ a, (k1_off12 k1_t1) a + S1x1x16.size a ≤ S16x16x256.size a
  k1_off13_inb : ∀ k1_t1 : Fin k1_t1_loop.trips, ∀ a, (k1_off13 k1_t1) a + S1x1x16.size a ≤ S16x16x256.size a
  k1_off14_inb : ∀ k1_t1 : Fin k1_t1_loop.trips, ∀ a, (k1_off14 k1_t1) a + S1x1x16.size a ≤ S16x16x256.size a
  k1_off15_inb : ∀ k1_t1 : Fin k1_t1_loop.trips, ∀ a, (k1_off15 k1_t1) a + S1x1x16.size a ≤ S16x16x256.size a
  k1_off16_inb : ∀ k1_t1 : Fin k1_t1_loop.trips, ∀ a, (k1_off16 k1_t1) a + S1x1x16.size a ≤ S16x16x256.size a
  k1_off17_inb : ∀ i : grid1.Coords, ∀ a, (k1_off17 i) a + S1x1x16.size a ≤ S16x16x256.size a
  k1_off18_inb : ∀ i : grid1.Coords, ∀ a, (k1_off18 i) a + S1x1x16.size a ≤ S16x16x256.size a
  k1_off19_inb : ∀ i : grid1.Coords, ∀ a, (k1_off19 i) a + S1x1x16.size a ≤ S16x16x256.size a
  k1_off20_inb : ∀ i : grid1.Coords, ∀ a, (k1_off20 i) a + S1x1x16.size a ≤ S16x16x256.size a
  k1_off21_inb : ∀ i : grid1.Coords, ∀ a, (k1_off21 i) a + S1x1x16.size a ≤ S16x16x256.size a
  k1_off22_inb : ∀ i : grid1.Coords, ∀ a, (k1_off22 i) a + S1x1x16.size a ≤ S16x16x256.size a
  k1_off23_inb : ∀ i : grid1.Coords, ∀ a, (k1_off23 i) a + S1x1x16.size a ≤ S16x16x256.size a
  k1_off24_inb : ∀ i : grid1.Coords, ∀ a, (k1_off24 i) a + S1x1x16.size a ≤ S16x16x256.size a
  k1_off25_inb : ∀ i : grid1.Coords, ∀ a, (k1_off25 i) a + S1x1x16.size a ≤ S16x16x256.size a
  k1_off26_inb : ∀ i : grid1.Coords, ∀ a, (k1_off26 i) a + S1x1x16.size a ≤ S16x16x256.size a
  k1_off27_inb : ∀ i : grid1.Coords, ∀ a, (k1_off27 i) a + S1x1x16.size a ≤ S16x16x256.size a
  k1_off28_inb : ∀ i : grid1.Coords, ∀ a, (k1_off28 i) a + S1x1x16.size a ≤ S16x16x256.size a
  k1_off29_inb : ∀ i : grid1.Coords, ∀ a, (k1_off29 i) a + S1x1x16.size a ≤ S16x16x256.size a
  k1_off30_inb : ∀ i : grid1.Coords, ∀ a, (k1_off30 i) a + S1x1x16.size a ≤ S16x16x256.size a
  k1_off31_inb : ∀ i : grid1.Coords, ∀ a, (k1_off31 i) a + S1x1x16.size a ≤ S16x16x256.size a
  k1_off32_inb : ∀ i : grid1.Coords, ∀ a, (k1_off32 i) a + S1x1x16.size a ≤ S16x16x256.size a
  k1_off33_inb : ∀ i : grid1.Coords, ∀ (r : Fin 16), ∀ a, (k1_off33 i (BitVec.ofNat 32 (16 * r.val))) a + S1x16x16x256.size a ≤ S4x2048x16x256.size a

variable [Facts₀]

abbrev cc1_scoped0 : DmaSems sig S_ := SemArray.consecutive 2 S_ hcc1_scoped0
abbrev cc1_scoped1 : DmaSems sig S_ := SemArray.consecutive 3 S_ hcc1_scoped1
abbrev cc1_scoped2 : DmaSems sig S_ := SemArray.consecutive 4 S_ hcc1_scoped2
abbrev cc1_scoped3 : DmaSems sig S_ := SemArray.consecutive 5 S_ hcc1_scoped3
abbrev cc1_scoped4 : DmaSems sig S_ := SemArray.consecutive 6 S_ hcc1_scoped4
abbrev cc1_scoped5 : DmaSems sig S_ := SemArray.consecutive 7 S_ hcc1_scoped5
abbrev cc1_scoped6 : DmaSems sig S_ := SemArray.consecutive 8 S_ hcc1_scoped6
abbrev cc1_scoped7 : DmaSems sig S_ := SemArray.consecutive 9 S_ hcc1_scoped7
abbrev cc1_scoped8 : DmaSems sig S_ := SemArray.consecutive 10 S_ hcc1_scoped8
abbrev cc1_scoped9 : DmaSems sig S_ := SemArray.consecutive 11 S_ hcc1_scoped9
abbrev cc1_scoped10 : DmaSems sig S_ := SemArray.consecutive 12 S_ hcc1_scoped10
abbrev cc1_scoped11 : DmaSems sig S_ := SemArray.consecutive 13 S_ hcc1_scoped11
abbrev cc1_scoped12 : DmaSems sig S_ := SemArray.consecutive 14 S_ hcc1_scoped12
abbrev cc1_scoped13 : DmaSems sig S_ := SemArray.consecutive 15 S_ hcc1_scoped13
abbrev cc1_scoped14 : DmaSems sig S_ := SemArray.consecutive 16 S_ hcc1_scoped14
abbrev cc1_scoped15 : DmaSems sig S_ := SemArray.consecutive 17 S_ hcc1_scoped15

abbrev win0_0 : Pipeline.Window sig grid0 :=
  Pipeline.Window.ofSpec (Memref.whole main_v0) S256x16x256.size cc0_transform_0 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S2048 : Shape := ⟨1, ![2048]⟩
abbrev S_ : Shape := ⟨0, ![]⟩
abbrev S4x2048x16x256 : Shape := ⟨4, ![4, 2048, 16, 256]⟩
abbrev S2048x1 : Shape := ⟨2, ![2048, 1]⟩
abbrev S2048x3 : Shape := ⟨2, ![2048, 3]⟩
abbrev S4x2048 : Shape := ⟨2, ![4, 2048]⟩

abbrev nBuf : Space → Nat
  | .hbm => 77
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S_, .i32⟩
  | .hbm, ⟨17, _⟩ => ⟨S_, .i1⟩
  | .hbm, ⟨18, _⟩ => ⟨S2048, .i1⟩
  | .hbm, ⟨19, _⟩ => ⟨S2048, .i1⟩
  | .hbm, ⟨20, _⟩ => ⟨S2048, .i1⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S2048, .i1⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .i32⟩
  | .hbm, ⟨42, _⟩ => ⟨S_, .f32⟩
  | .hbm, ⟨43, _⟩ => ⟨S4x2048x16x256, .f32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S2048, .i32⟩
  | .hbm, ⟨58, _⟩ => ⟨S_, .i32⟩
  | .hbm, ⟨59, _⟩ => ⟨S2048, .i32⟩
  | .hbm, ⟨60, _⟩ => ⟨S2048, .i1⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S2048, .i32⟩
  | .hbm, ⟨65, _⟩ => ⟨S2048x1, .i32⟩
  | .hbm, ⟨66, _⟩ => ⟨S2048x1, .i32⟩
  | .hbm, ⟨67, _⟩ => ⟨S2048x1, .i32⟩
  | .hbm, ⟨68, _⟩ => ⟨S2048x3, .i32⟩
  | .hbm, ⟨69, _⟩ => ⟨S_, .f32⟩
  | .hbm, ⟨70, _⟩ => ⟨S4x2048, .f32⟩
  | .hbm, ⟨71, _⟩ => ⟨S4x2048x16x256, .f32⟩
  | .hbm, ⟨72, _⟩ => ⟨S_, .f32⟩
  | .hbm, ⟨73, _⟩ => ⟨S4x2048x16x256, .f32⟩
  | .hbm, ⟨74, _⟩ => ⟨S4x2048x16x256, .i1⟩
  | .hbm, ⟨75, _⟩ => ⟨S4x2048x16x256, .i1⟩
  | .hbm, ⟨76, _⟩ => ⟨S_, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v1 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v2 : Ref sig .tc := ⟨.hbm, 41, rfl⟩
abbrev main_cst : Ref sig .tc := ⟨.hbm, 42, rfl⟩
abbrev main_v3 : Ref sig .tc := ⟨.hbm, 43, rfl⟩
abbrev main_c_1 : Ref sig .tc := ⟨.hbm, 44, rfl⟩
abbrev main_v4 : Ref sig .tc := ⟨.hbm, 45, rfl⟩
abbrev main_v5 : Ref sig .tc := ⟨.hbm, 46, rfl⟩
abbrev main_c_2 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_c_3 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_c_5 : Ref sig .tc := ⟨.hbm, 58, rfl⟩
abbrev main_v14 : Ref sig .tc := ⟨.hbm, 59, rfl⟩
abbrev main_v15 : Ref sig .tc := ⟨.hbm, 60, rfl⟩
abbrev main_c_6 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_7 : Ref sig .tc := ⟨.hbm, 69, rfl⟩
abbrev main_v23 : Ref sig .tc := ⟨.hbm, 70, rfl⟩
abbrev main_v24 : Ref sig .tc := ⟨.hbm, 71, rfl⟩
abbrev main_cst_8 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_cst_9 : Ref sig .tc := ⟨.hbm, 76, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S_S4x2048x16x256 : S_.BroadcastsInDim S4x2048x16x256 (![] : Fin 0 → Fin S4x2048x16x256.rank)
  bcast_S2048_S2048x1_0 : S2048.BroadcastsInDim S2048x1 (![0] : Fin 1 → Fin S2048x1.rank)
  concatenates_S2048x1_S2048x1_S2048x1_S2048x3_d1 : Shape.Concatenates [S2048x1, S2048x1, S2048x1] S2048x3 1
  bcast_S_S4x2048 : S_.BroadcastsInDim S4x2048 (![] : Fin 0 → Fin S4x2048.rank)
  scatter_S4x2048x16x256_S2048x3_S4x2048_0_123_123_1_wf : ScatterDims.WF S4x2048x16x256 S2048x3 S4x2048 [0] [1, 2, 3] [1, 2, 3] 1

variable [Facts₀]

def scatter_S4x2048x16x256_S2048x3_S4x2048_0_123_123_1 : ScatterDims S4x2048x16x256 S2048x3 S4x2048 where
  updateWindowDims := [0]
  insertedWindowDims := [1, 2, 3]
  scatterDimsToOperandDims := [1, 2, 3]
  indexVectorDim := 1
  wf := scatter_S4x2048x16x256_S2048x3_S4x2048_0_123_123_1_wf

class Facts : Prop extends Facts₀ where

variable [Facts]
-- ==== Proof.Spec.lean ====
/-
  The function both programs compute, stated once over the literal result shape.
  Tokens are dispatched round-robin: token `i` (the index along axis 1) goes to expert `i % 16` and takes
  slot `i / 16` of that expert, in every group (axis 0).  The float mask holds the word of 1.0 at
  `(g, i, i % 16, i / 16)` and the word of 0.0 elsewhere; the boolean mask holds the bit 1 at the same places;
  the third result is the scalar 0.0.
-/
import Idealize.ShloMosaic.PureOps.Ideal
import Idealize.ShloMosaic.Lib.ValueIdx

noncomputable section

namespace Cert.Spec

open Idealize.ShloMosaic

/-- The masks' shape: groups × tokens × experts × slots. -/
abbrev SOut : Shape := ⟨4, ![4, 2048, 16, 256]⟩
abbrev S0 : Shape := ⟨0, ![]⟩

/-- The place token `j 1` is dispatched to: expert `(j 1) % 16`, slot `(j 1) / 16`. -/
def Hit (j : SOut.Idx) : Prop := (j 2).val = (j 1).val % 16 ∧ (j 3).val = (j 1).val / 16

instance (j : SOut.Idx) : Decidable (Hit j) := by unfold Hit; infer_instance

variable {F : FTy → Type} [FloatOps F]

/-- The float mask: the word of 1.0 at a token's place, the word of 0.0 elsewhere. -/
def maskF : FVec F SOut .f32 := fun j =>
  if Hit j then (constant S0 .f32 0x3F800000#32 : FVec F S0 .f32) ValueIdx.ix0
  else (constant S0 .f32 0x00000000#32 : FVec F S0 .f32) ValueIdx.ix0

/-- The boolean mask: bit 1 at a token's place. -/
def maskB : IVec SOut 1 := fun j => if Hit j then 1#1 else 0#1

/-- The scalar result 0.0. -/
def zeroS : FVec F S0 .f32 := constant S0 .f32 0x00000000#32

end Cert.Spec

end
-- ==== Proof.KICommon.lean ====
/-
  The kernel program as the launch theorem of a SparseCore program sees it, and the ghost state shared by every
  part of the kernel-side proof: the handshakes' rounds, the rounds of the TensorCore pipeline's staging cells, and
  the counters of the tiles' own copies (each tile issues one copy at a time on a semaphore of its own and waits
  for it, so its copies need no schedule).
-/
import proofs.«214985_g80496277062245_cont_9to1_m_1082_20_alg».proof.Defs
import proofs.«214985_g80496277062245_cont_9to1_m_1082_20_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic
import proofs.«214985_g80496277062245_cont_9to1_m_1082_20_alg».proof.Proof.Gen.KernelIdeal
import proofs.«214985_g80496277062245_cont_9to1_m_1082_20_alg».proof.Proof.Gen.KernelIdeal.Skeleton
import proofs.«214985_g80496277062245_cont_9to1_m_1082_20_alg».proof.Proof.Gen.KernelIdeal.Launch
import proofs.«214985_g80496277062245_cont_9to1_m_1082_20_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes' rounds × (pipeline cells' rounds × the copies' counters) -/

abbrev UH : Type := URounds (GSem nD τ sig) ℕ
abbrev UP : Type := URounds (GSem nD τ sig) Unit
abbrev UU : Type := UH × (UP × Counters)

/-- The handshakes' rounds: the left factor. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The TensorCore pipeline's staging cells' rounds: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by
  unfold EH; infer_instance
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## Locations of device `d`'s arrays -/

abbrev aLoc (d : Dev nD) : Loc nD τ sig := (SparseCore.T d).loc main_arg0
/-- The TensorCore kernel's result: the byte mask over tokens × experts × slots. -/
abbrev pLoc (d : Dev nD) : Loc nD τ sig := (SparseCore.T d).loc main_v0
/-- The boolean result. -/
abbrev bLoc (d : Dev nD) : Loc nD τ sig := (SparseCore.T d).loc main_v5
/-- The float result, written by the tiles. -/
abbrev oLoc (d : Dev nD) : Loc nD τ sig := (SparseCore.T d).loc main_v6
/-- The scalar result. -/
abbrev zLoc (d : Dev nD) : Loc nD τ sig := (SparseCore.T d).loc main_cst

/-- The float result and a tile's scratch as the tiles' body table passes them. -/
abbrev oV : Memref sig .scVector .hbm S4x2048x16x256 .f32 := Memref.whole main_v6_scv
abbrev sB : Memref sig .scVector .vmem S16x16x256 .f32 := Memref.whole cc1_scratch0

/-! ## A tile, and the sixteen chunks of the float result it writes -/

/-- The SparseCore and the vector subcore of the grid point `L`. -/
abbrev cV (L : grid1.Coords) : Fin τ.nSC := (L 0).castLE hcore1
abbrev jV (L : grid1.Coords) : Fin τ.nSub := (L 1).castLE hsub1

/-- Chunk `r` of tile `L`: sixteen consecutive tokens of one group, every expert and slot, as the body slices it
    for its `r`-th copy. -/
abbrev chunkRect (L : grid1.Coords) (r : Fin 16) : Rect S4x2048x16x256 :=
  Rect.unit (s := S4x2048x16x256) (k1_off33 L (BitVec.ofNat 32 (16 * r.val))) S1x16x16x256.size (k1_off33_inb L r)
abbrev chunkRef (L : grid1.Coords) (r : Fin 16) : Memref sig .scVector .hbm S16x16x256 .f32 :=
  ((oV : Memref sig .scVector .hbm S4x2048x16x256 .f32).slice (chunkRect L r) (fun _ => rfl)).squeeze S16x16x256 squeezes_S1x16x16x256_S16x16x256
abbrev chunkSet (L : grid1.Coords) (r : Fin 16) : Finset S4x2048x16x256.Idx := (chunkRef L r).view.set

variable [FloatOps F]

/-- The three results' values as contents of device `d`'s buffers. -/
def outF (d : Dev nD) : Buf (Elt F) (oLoc d) := (Cert.Spec.maskF (F := F) : FVec F Cert.Spec.SOut .f32)
def outB (d : Dev nD) : Buf (Elt F) (bLoc d) := (Cert.Spec.maskB : IVec Cert.Spec.SOut 1)
def outZ (d : Dev nD) : Buf (Elt F) (zLoc d) := (Cert.Spec.zeroS (F := F) : FVec F Cert.Spec.S0 .f32)

end Cert.Proof.KI

end
-- ==== Proof.KIPay.lean ====
/-
  What the one SparseCore call carries.  The float result is cut into 2 × 16 × 16 chunks: tile `(c, s)` writes sixteen
  chunks, chunk `r` being sixteen consecutive tokens of one group.  The call hands every SparseCore the chunks of its
  tiles at the launch contents and takes them back at the specification's function; a tile is handed its sixteen
  chunks and hands them back.  Nothing else is carried: the tiles signal nobody but their sequencer.
-/
import proofs.«214985_g80496277062245_cont_9to1_m_1082_20_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The grid point of SparseCore `c`, vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

theorem bound_zero : grid1.bound 0 = 2 := rfl
theorem bound_one : grid1.bound 1 = 16 := rfl

variable (m : (ℓ : Loc nD τ sig) → Buf (Elt F) ℓ)

/-- A tile's sixteen chunks of the float result, at contents `f`. -/
def tileChunks (d : Dev nD) (L : grid1.Coords) (f : Buf (Elt F) (oLoc d)) : sProp 𝕄 :=
  bigSep Finset.univ fun r : Fin 16 => (oLoc d ↦[chunkSet L r]{fullShare} f : sProp 𝕄)

/-- A SparseCore's tiles' chunks, at contents `f`. -/
def coreChunks (d : Dev nD) (c : Fin 2) (f : Buf (Elt F) (oLoc d)) : sProp 𝕄 :=
  bigSep Finset.univ fun s : Fin 16 => tileChunks (F := F) d (coordsV (Fin.cast bound_zero.symm c) (Fin.cast bound_one.symm s)) f

variable [FloatOps F]

def P : (K (F := F)).Pay (nD := nD) (Val := Elt F) (Name := ℕ) (U := UU) where
  st := fun q d c => match q with | 0 => coreChunks (F := F) d (Fin.cast nCore_zero c) (m (oLoc d))
  dn := fun q d c => match q with | 0 => coreChunks (F := F) d (Fin.cast nCore_zero c) (outF d)
  go := fun q d c i => match q with
    | 0 => tileChunks (F := F) d (coordsV (Fin.cast bound_zero.symm (Fin.cast nCore_zero c)) (Fin.cast bound_one.symm (Fin.cast nSub_zero i))) (m (oLoc d))
  td := fun q d c i => match q with
    | 0 => tileChunks (F := F) d (coordsV (Fin.cast bound_zero.symm (Fin.cast nCore_zero c)) (Fin.cast bound_one.symm (Fin.cast nSub_zero i))) (outF d)
  x := fun _ _ => iprop(emp)

instance P_storable : (P (F := F) m).IsStorable where
  st q d c := match q with | 0 => by unfold P coreChunks tileChunks; infer_instance
  dn q d c := match q with | 0 => by unfold P coreChunks tileChunks; infer_instance
  go q d c i := match q with | 0 => by unfold P tileChunks; infer_instance
  td q d c i := match q with | 0 => by unfold P tileChunks; infer_instance

end Cert.Proof.KI

end
-- ==== Proof.KIOffsets33.lean ====
/-
  The closed form of the offset at which a tile slices the float result for its `r`-th copy.  Worker number
  `w = 2 * subcore + core` handles group `w / 8` and, in it, the 256 tokens from `(w % 8) * 256`; its `r`-th chunk
  is the sixteen tokens from `(w % 8) * 256 + 16 * r`.  The printed offset computes this with 32-bit words and
  the sign corrections of floor division, none of which fires on these small non-negative numbers; the closed
  form is decided over the 32 grid points and the 16 chunks.
-/
import proofs.«214985_g80496277062245_cont_9to1_m_1082_20_alg».proof.Proof.KICommon

namespace Cert.Proof.KI

open Cert.KernelIdeal Cert.KernelIdeal.Gen
open Idealize.ShloMosaic

/-- The worker number of grid point `L`. -/
def wid (L : grid1.Coords) : Nat := 2 * (L 1).val + (L 0).val

theorem wid_lt (L : grid1.Coords) : wid L < 32 := by
  have h0 : (L 0).val < 2 := (L 0).isLt
  have h1 : (L 1).val < 16 := (L 1).isLt
  unfold wid; omega

theorem off33_eq : ∀ (L : grid1.Coords) (r : Fin 16),
    k1_off33 L (BitVec.ofNat 32 (16 * r.val)) = ![(2 * (L 1).val + (L 0).val) / 8, ((2 * (L 1).val + (L 0).val) % 8) * 256 + 16 * r.val, 0, 0] := by
  decide +kernel

end Cert.Proof.KI
-- ==== Proof.KICover.lean ====
/-
  The 512 chunks tile the float result.  Number the rows of the result (a group and a token) `256 * 8 * g + i`;
  sixteen consecutive rows make a chunk, and chunk `r` of worker `w` is chunk number `16 * w + r` (the worker's
  group is `w / 8` and its first token `(w % 8) * 256`, so its first row is `256 * w`).  An index lies in exactly
  the chunk numbered by its row divided by sixteen; the numbering `(core, subcore, r) ↦ 16 * (2 * subcore + core) + r`
  is a bijection onto the 512 numbers.  So the whole array held at one function is the chunks held at it.
-/
import proofs.«214985_g80496277062245_cont_9to1_m_1082_20_alg».proof.Proof.KIPay
import proofs.«214985_g80496277062245_cont_9to1_m_1082_20_alg».proof.Proof.KIOffsets33

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A chunk's element set is its rectangle's. -/
theorem chunkSet_eq (L : grid1.Coords) (r : Fin 16) : chunkSet L r = (chunkRect L r).set := by
  show (((View.whole (main_v6_scv : Ref sig .scVector)).slice (chunkRect L r)).reshape S16x16x256 squeezes_S1x16x16x256_S16x16x256.numel_eq).set = _
  rw [View.set_reshape, View.set_slice]; exact Finset.map_refl

/-- An index lies in chunk `r` of worker `wid L` iff its row's chunk number is `16 * wid L + r`. -/
theorem mem_chunkSet (L : grid1.Coords) (r : Fin 16) (j : S4x2048x16x256.Idx) :
    j ∈ chunkSet L r ↔ ((j 0).val * 2048 + (j 1).val) / 16 = 16 * wid L + r.val := by
  rw [chunkSet_eq, Rect.mem_set_unit, off33_eq]
  have h0 : (j 0).val < 4 := (j 0).isLt
  have h1 : (j 1).val < 2048 := (j 1).isLt
  have h2 : (j 2).val < 16 := (j 2).isLt
  have h3 : (j 3).val < 256 := (j 3).isLt
  have hw := wid_lt L
  have hr := r.isLt
  unfold wid at *
  constructor
  · intro h
    have a0 := h 0
    have a1 := h 1
    simp only [Matrix.cons_val_zero, Matrix.cons_val_one, Matrix.head_cons] at a0 a1
    omega
  · intro h a
    have e : S1x16x16x256.size = ![1, 16, 16, 256] := rfl
    rw [e]
    fin_cases a <;> simp <;> omega

/-! ## The chunks indexed by (core, subcore, chunk) -/

abbrev CIx : Type := Fin 2 × Fin 16 × Fin 16

/-- The grid point of core `c`, subcore `s`. -/
abbrev tileOf (c : Fin 2) (s : Fin 16) : grid1.Coords := coordsV (Fin.cast bound_zero.symm c) (Fin.cast bound_one.symm s)

theorem wid_tileOf (c : Fin 2) (s : Fin 16) : wid (tileOf c s) = 2 * s.val + c.val := rfl

def chunkOf (t : CIx) : Finset S4x2048x16x256.Idx := chunkSet (tileOf t.1 t.2.1) t.2.2

theorem mem_chunkOf (t : CIx) (j : S4x2048x16x256.Idx) :
    j ∈ chunkOf t ↔ ((j 0).val * 2048 + (j 1).val) / 16 = 16 * (2 * t.2.1.val + t.1.val) + t.2.2.val := by
  unfold chunkOf; rw [mem_chunkSet, wid_tileOf]

/-- Different chunks share no index: an index determines its chunk number, and the number its (core, subcore, chunk). -/
theorem chunks_disjoint : ∀ t ∈ (Finset.univ : Finset CIx), ∀ t' ∈ (Finset.univ : Finset CIx), t ≠ t' → Disjoint (chunkOf t) (chunkOf t') := by
  intro t _ t' _ hne
  refine Finset.disjoint_left.mpr fun j h h' => hne ?_
  rw [mem_chunkOf] at h h'
  obtain ⟨c, s, r⟩ := t
  obtain ⟨c', s', r'⟩ := t'
  have := c.isLt; have := c'.isLt; have := s.isLt; have := s'.isLt; have := r.isLt; have := r'.isLt
  simp only at h h'
  have hc : c.val = c'.val := by omega
  have hs : s.val = s'.val := by omega
  have hr : r.val = r'.val := by omega
  exact Prod.ext (Fin.ext hc) (Prod.ext (Fin.ext hs) (Fin.ext hr))

/-- Every index lies in a chunk: the one numbered by its row divided by sixteen. -/
theorem chunks_cover : (Finset.univ : Finset CIx).biUnion chunkOf = Finset.univ := by
  refine Finset.eq_univ_iff_forall.mpr fun j => Finset.mem_biUnion.mpr ?_
  have h0 : (j 0).val < 4 := (j 0).isLt
  have h1 : (j 1).val < 2048 := (j 1).isLt
  have hn512 : ((j 0).val * 2048 + (j 1).val) / 16 < 512 := by omega
  refine ⟨(⟨(((j 0).val * 2048 + (j 1).val) / 16 / 16) % 2, by omega⟩, ⟨(((j 0).val * 2048 + (j 1).val) / 16 / 16) / 2, by omega⟩,
    ⟨(((j 0).val * 2048 + (j 1).val) / 16) % 16, by omega⟩), Finset.mem_univ _, ?_⟩
  rw [mem_chunkOf]; simp only; omega

/-- The whole float result at `f` is its 512 chunks at `f`. -/
theorem whole_chunks (d : Dev nD) (f : Buf (Elt F) (oLoc d)) :
    (oLoc d ↦{fullShare} f : sProp 𝕄) = bigSep Finset.univ fun t : CIx => (oLoc d ↦[chunkOf t]{fullShare} f : sProp 𝕄) := by
  rw [← pointsTo_biUnion Finset.univ (ℓ := oLoc d) chunkOf chunks_disjoint, chunks_cover]; try rfl

theorem chunks_nested (d : Dev nD) (f : Buf (Elt F) (oLoc d)) :
    (bigSep Finset.univ fun t : CIx => (oLoc d ↦[chunkOf t]{fullShare} f : sProp 𝕄)) = bigSep Finset.univ fun c : Fin 2 => coreChunks (F := F) d c f := by
  rw [bigSep_univ_prod]; refine bigSep_congr fun c _ => ?_
  rw [bigSep_univ_prod]; rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F] (m : (ℓ : Loc nD τ sig) → Buf (Elt F) ℓ)

theorem st_eq (d : Dev nD) :
    (bigSep Finset.univ fun c : Fin ((K (F := F)).nCore 0) => (P (F := F) m).st 0 d c) = (oLoc d ↦{fullShare} m (oLoc d) : sProp 𝕄) := by
  rw [whole_chunks, chunks_nested]
  exact bigSep_cores (F := F) (fun c => coreChunks (F := F) d c (m (oLoc d)))

theorem dn_eq (d : Dev nD) :
    (bigSep Finset.univ fun c : Fin ((K (F := F)).nCore 0) => (P (F := F) m).dn 0 d c) = (oLoc d ↦{fullShare} outF d : sProp 𝕄) := by
  rw [whole_chunks, chunks_nested]
  exact bigSep_cores (F := F) (fun c => coreChunks (F := F) d c (outF d))

/-- The whole float result at the launch contents is what the call hands the SparseCores. -/
theorem st_intro (d : Dev nD) :
    (oLoc d ↦{fullShare} m (oLoc d) : sProp 𝕄) ⊢ bigSep Finset.univ fun c : Fin ((K (F := F)).nCore 0) => (P (F := F) m).st 0 d c :=
  Entails.of_eq (st_eq m d).symm

/-- What the call takes back from the SparseCores is the whole float result at the specification's function. -/
theorem dn_elim (d : Dev nD) :
    (bigSep Finset.univ fun c : Fin ((K (F := F)).nCore 0) => (P (F := F) m).dn 0 d c) ⊢ (oLoc d ↦{fullShare} outF d : sProp 𝕄) :=
  Entails.of_eq (dn_eq m d)

end Cert.Proof.KI

end
-- ==== Proof.KILaunch.lean ====
/-
  The launch: from the tile's body obligation and @main's proof on the TensorCore to the run of the whole
  family of threads, with the argument unchanged and the three results at the specification's functions.
  The split of a SparseCore's chunks among its tiles is the identity (the call already hands chunks); the
  ghost state's launch element is the handshakes' rounds, the pipeline's staging cells' rounds, and nothing for the
  tiles' own copies.
-/
import proofs.«214985_g80496277062245_cont_9to1_m_1082_20_alg».proof.Proof.KICover

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] (m : (ℓ : Loc nD τ sig) → Buf (Elt F) ℓ) (ρ : Dev nD → PrngReg)

/-! ## The tile's obligation, from its body at a symbolic grid point -/

/-- The body of a tile at grid point `L`: from its sixteen chunks at any contents, its scoped storage and what it
    owes, to the chunks at the specification's function. -/
def TileBody : Prop :=
  ∀ (hF : (K (F := F)).Facts) (d : Dev nD) (L : grid1.Coords) (f0 : Buf (Elt F) (oLoc d)) (O : CellTallies nD τ sig (HIx 1)) (W : Waits sig (HIx 1)),
    (∀ g, O g none = 0) →
    iprop(levAts (K (F := F)).L (K (F := F)).lev ∗ tileChunks (F := F) d L f0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L oV (Memref.isWhole_whole _) sB (Memref.isWhole_whole _) cc1_scoped0 cc1_scoped1 cc1_scoped2 cc1_scoped3 cc1_scoped4 cc1_scoped5 cc1_scoped6 cc1_scoped7
            cc1_scoped8 cc1_scoped9 cc1_scoped10 cc1_scoped11 cc1_scoped12 cc1_scoped13 cc1_scoped14 cc1_scoped15)
          fun _ => iprop(tileChunks (F := F) d L (outF d) ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 1 ()
      = SparseCore.onTile hcore1 hsub1 (fun c s => cc1_k (coordsV c s)
          oV (Memref.isWhole_whole _) sB (Memref.isWhole_whole _) cc1_scoped0 cc1_scoped1 cc1_scoped2 cc1_scoped3 cc1_scoped4 cc1_scoped5 cc1_scoped6 cc1_scoped7
            cc1_scoped8 cc1_scoped9 cc1_scoped10 cc1_scoped11 cc1_scoped12 cc1_scoped13 cc1_scoped14 cc1_scoped15) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem drop_emp {A R : sProp 𝕄} : iprop(A ∗ emp ∗ R) ⊢ iprop(A ∗ R) := by
  iintro ⟨HA, -, HR⟩
  isplitl [HA]; · iexact HA
  iexact HR

theorem tileObl (hb : TileBody (F := F)) (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hgo : (P m).go 0 d c i = tileChunks (F := F) d (coordsV ⟨_, hc.1⟩ ⟨_, hc.2⟩) (m (oLoc d)) := rfl
  have htd : (P m).td 0 d c i = tileChunks (F := F) d (coordsV ⟨_, hc.1⟩ ⟨_, hc.2⟩) (outF d) := rfl
  have hx : (P m).x 0 (V d ((K (F := F)).core 0 c) ((K (F := F)).sub 0 i)) = iprop(emp) := rfl
  rw [hgo, htd, hx]
  exact drop_emp.trans ((hb hF d _ (m (oLoc d)) O W hO).trans (wp_mono frame _ _ fun _ => obl_post))

/-! ## A SparseCore's chunks are its tiles' chunks -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show coreChunks (F := F) d (Fin.cast nCore_zero c) (m (oLoc d)) ⊢ |={Set.univ}=> iprop(
      (bigSep Finset.univ fun i : Fin ((K (F := F)).nSub 0) =>
        tileChunks (F := F) d (coordsV (Fin.cast bound_zero.symm (Fin.cast nCore_zero c)) (Fin.cast bound_one.symm (Fin.cast nSub_zero i))) (m (oLoc d)))
      ∗ ((bigSep Finset.univ fun i : Fin ((K (F := F)).nSub 0) =>
          tileChunks (F := F) d (coordsV (Fin.cast bound_zero.symm (Fin.cast nCore_zero c)) (Fin.cast bound_one.symm (Fin.cast nSub_zero i))) (outF d))
          -∗ coreChunks (F := F) d (Fin.cast nCore_zero c) (outF d)))
  rw [bigSep_tasks (F := F) (fun s => tileChunks (F := F) d (coordsV (Fin.cast bound_zero.symm (Fin.cast nCore_zero c)) (Fin.cast bound_one.symm s)) (m (oLoc d))),
    bigSep_tasks (F := F) (fun s => tileChunks (F := F) d (coordsV (Fin.cast bound_zero.symm (Fin.cast nCore_zero c)) (Fin.cast bound_one.symm s)) (outF d))]
  unfold coreChunks
  iintro H; imodintro
  isplitl [H]; · iexact H
  iintro H; iexact H

/-! ## The launch element -/

def u₀ (uP₀ : UP) : UU := (initOf (K (F := F)).hsCells (K (F := F)).hsToks, (uP₀, 1))

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

omit [FloatOps F] in
theorem bigSep_emp' {I : Type} (s : Finset I) : (bigSep s fun _ => iprop(emp)) = (iprop(emp) : sProp 𝕄) := bigSep_emp_const s

theorem hu₀ (Gp : Dev nD → sProp 𝕄) (uP₀ : UP) (fundP : (BI.own (EP (F := F) uP₀) : sProp 𝕄) ⊢ |={Set.univ}=> bigSep Finset.univ Gp) :
    (ownU (u₀ (F := F) uP₀) : sProp 𝕄)
    ⊢ |={Set.univ}=> iprop(BI.own (EH (initOf (K (F := F)).hsCells (K (F := F)).hsToks)) ∗ bigSep Finset.univ Gp
        ∗ bigSep Finset.univ fun thr : Thread nD τ => bigSep Finset.univ fun q : Fin 1 => (P m).x q thr) := by
  unfold u₀
  iintro Hu
  ihave H := (ownU_split _ _) $$ Hu
  icases H with ⟨HH, HP⟩
  imod fundP $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main keeps, and how the final memory reads it -/

/-- The argument unchanged and the three results at the specification's functions. -/
abbrev FIN (d : Dev nD) : sProp 𝕄 :=
  iprop((aLoc d ↦{fullShare} m (aLoc d)) ∗ (zLoc d ↦{fullShare} outZ d) ∗ (oLoc d ↦{fullShare} outF d) ∗ (bLoc d ↦{fullShare} outB d))

def fq (d : Dev nD) (s' : Phys nD τ sig (Elt F)) : Prop :=
  s'.mem.mem (zLoc d) = outZ d ∧ s'.mem.mem (oLoc d) = outF d ∧ s'.mem.mem (bLoc d) = outB d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hz, Ho, Hb⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := zLoc d) (I := Finset.univ) (q := fullShare) (f := outZ d))) $$ [HSI Hz]
  · isplitl [HSI] <;> iassumption
  icases H with ⟨%h2, HSI, -⟩
  ihave H := (persistent_entails_right (SI_pointsTo_agree (st := s') (ℓ := oLoc d) (I := Finset.univ) (q := fullShare) (f := outF d))) $$ [HSI Ho]
  · isplitl [HSI] <;> iassumption
  icases H with ⟨%h3, HSI, -⟩
  ihave H := (SI_pointsTo_agree (st := s') (ℓ := bLoc d) (I := Finset.univ) (q := fullShare) (f := outB d)) $$ [HSI Hb]
  · isplitl [HSI] <;> iassumption
  icases H with %h4
  ipureintro
  exact ⟨funext fun i => h2 i (Finset.mem_univ i), funext fun i => h3 i (Finset.mem_univ i), funext fun i => h4 i (Finset.mem_univ i),
    funext fun i => h1 i (Finset.mem_univ i)⟩

/-! ## The program's run -/

/-- Every final memory has the three results at the specification's functions and the argument unchanged. -/
def QC : PUnit × MemSt nD τ sig (Elt F) → Prop := fun r => ∀ c : Dev nD,
  r.2.mem (zLoc c) = outZ c ∧ r.2.mem (oLoc c) = outF c ∧ r.2.mem (bLoc c) = outB c ∧ r.2.mem (aLoc c) = m (aLoc c)

theorem run_main [∀ e, Nonempty (Elt F e)] (Gp : Dev nD → sProp 𝕄) (uP₀ : UP) (hb : TileBody (F := F))
    (fundP : (BI.own (EP (F := F) uP₀) : sProp 𝕄) ⊢ |={Set.univ}=> bigSep Finset.univ Gp)
    (hmain : ∀ (κ : GSem nD τ sig → ℕ) (d : Dev nD),
      iprop((K (F := F)).ctx EH (P m) κ ∗ (K (F := F)).tcSt EH d 0 ∗ (K (F := F)).tcRes m ρ d ∗ Gp d)
        ⊢ wp frame (wpE ((K (F := F)).defs (D (F := F))) 𝒱 (SparseCore.T d) none) Set.univ (main d)
            fun _ => iprop((K (F := F)).tcSt EH d 1 ∗ FIN m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb facts)
    (fun q _ => match q with | 0 => SparseCore.Cfg.VecSplit.of_plain (vecSplit m))
    m ρ main Gp (FIN m) (u₀ (F := F) uP₀) (sep_elim_left.trans (hu₀ m Gp uP₀ fundP)) hmain (fq m) (hfin m) (QC m) (fun _ h => h)

end Cert.Proof.KI

end
-- ==== Proof.KIMainDefs.lean ====
/-
  The interface between the TensorCore kernel's region and the rest of @main: the byte mask the kernel leaves
  (1 at a token's place, 0 elsewhere), the TensorCore's arrays after the region, and the region's statement.
-/
import proofs.«214985_g80496277062245_cont_9to1_m_1082_20_alg».proof.Proof.KILaunch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-- The byte mask the TensorCore kernel leaves: 1 at (token, token % 16, token / 16), 0 elsewhere. -/
def proxy (d : Dev nD) : Buf (Elt F) (pLoc d) :=
  (fun j => if (j 1).val = (j 0).val % 16 ∧ (j 2).val = (j 0).val / 16 then 1#8 else 0#8 : IVec S2048x16x256 8)

variable (m : (ℓ : Loc nD τ sig) → Buf (Elt F) ℓ) (ρ : Dev nD → PrngReg)

/-- The TensorCore's arrays after the pallas_call: the launch contents, the byte mask in place. -/
def W1 (d : Dev nD) : (b : Ref sig .tc) → Buf (Elt F) ((SparseCore.T d : Thread nD τ).loc b) :=
  Function.update (fun b => m ((SparseCore.T d : Thread nD τ).loc b)) main_v0 (proxy (F := F) d)

variable [FloatOps F]

/-- The pallas_call's region inside @main: from what the launch deals the TensorCore (and the pipeline's ghost state `Gp d`)
    to the region's boundary again, the handshake state untouched, the arrays at `W1`. -/
def RegionStmt (Gp : Dev nD → sProp 𝕄) : Prop :=
  ∀ (κ : GSem nD τ sig → ℕ) (d : Dev nD),
    iprop((K (F := F)).ctx EH (P m) κ ∗ (K (F := F)).tcSt EH d 0 ∗ (K (F := F)).tcRes m ρ d ∗ Gp d)
      ⊢ wp frame (wpE ((K (F := F)).defs (D (F := F))) 𝒱 (SparseCore.T d) none) Set.univ
          (Prog.lift (.customCall (SparseCore.inner (Pipeline.entry 0)) ()))
          fun _ => iprop((K (F := F)).tcSt EH d 0 ∗ boundary (SparseCore.T d) ∗ unscopedBufs d (W1 (F := F) m d))

end Cert.Proof.KI

end
-- ==== Proof.KITail.lean ====
/-
  @main on the TensorCore after its pallas_call: two broadcasts of the byte mask over the groups, a comparison
  with zero, the SparseCore call, and the scalar constant.  The byte mask holds 1 exactly at a token's place, so its
  broadcast compared with zero is the boolean mask; the call turns the float result into the float mask.
-/
import proofs.«214985_g80496277062245_cont_9to1_m_1082_20_alg».proof.Proof.KIMainDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_sdiff_result wp_hlo_within)

variable {F : FTy → Type}

local notation "𝕄" => MT nD τ sig (HIx 1) (Elt F) ℕ UU ℕ

/-! ## The TensorCore's arrays -/

abbrev a' : DevRef τ sig := Proc.devRef .tc (main_arg0 : Ref sig .tc)
abbrev p' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev c' : DevRef τ sig := Proc.devRef .tc (main_c : Ref sig .tc)
abbrev v3' : DevRef τ sig := Proc.devRef .tc (main_v3 : Ref sig .tc)
abbrev v4' : DevRef τ sig := Proc.devRef .tc (main_v4 : Ref sig .tc)
abbrev b' : DevRef τ sig := Proc.devRef .tc (main_v5 : Ref sig .tc)
abbrev o' : DevRef τ sig := Proc.devRef .tc (main_v6 : Ref sig .tc)
abbrev z' : DevRef τ sig := Proc.devRef .tc (main_cst : Ref sig .tc)

/-- All of them: every unscoped buffer of the TensorCore. -/
abbrev SALL : Finset (DevRef τ sig) := {a', p', v1', v2', c', v3', v4', b', o', z'}

theorem unscopedBufs_all (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_v0 ↦{fullShare} W main_v0)
      ∗ ((SparseCore.T d).loc main_v1 ↦{fullShare} W main_v1) ∗ ((SparseCore.T d).loc main_v2 ↦{fullShare} W main_v2)
      ∗ ((SparseCore.T d).loc main_c ↦{fullShare} W main_c) ∗ ((SparseCore.T d).loc main_v3 ↦{fullShare} W main_v3)
      ∗ ((SparseCore.T d).loc main_v4 ↦{fullShare} W main_v4) ∗ ((SparseCore.T d).loc main_v5 ↦{fullShare} W main_v5)
      ∗ ((SparseCore.T d).loc main_v6 ↦{fullShare} W main_v6) ∗ ((SparseCore.T d).loc main_cst ↦{fullShare} W main_cst)) := by
  unfold unscopedBufs
  rw [show (Finset.univ.filter fun b : Ref sig .tc => ¬ b.isScoped) = {main_arg0, main_v0, main_v1, main_v2, main_c, main_v3, main_v4, main_v5, main_v6, main_cst} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem held_SALL (d : Dev nD) (W : Valuation τ sig (Elt F)) :
    (held (T d) SALL W : sProp 𝕄) = iprop(((SparseCore.T d).loc main_arg0 ↦{fullShare} W a') ∗ ((SparseCore.T d).loc main_v0 ↦{fullShare} W p')
      ∗ ((SparseCore.T d).loc main_v1 ↦{fullShare} W v1') ∗ ((SparseCore.T d).loc main_v2 ↦{fullShare} W v2')
      ∗ ((SparseCore.T d).loc main_c ↦{fullShare} W c') ∗ ((SparseCore.T d).loc main_v3 ↦{fullShare} W v3')
      ∗ ((SparseCore.T d).loc main_v4 ↦{fullShare} W v4') ∗ ((SparseCore.T d).loc main_v5 ↦{fullShare} W b')
      ∗ ((SparseCore.T d).loc main_v6 ↦{fullShare} W o') ∗ ((SparseCore.T d).loc main_cst ↦{fullShare} W z')) := by
  unfold held SALL
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-! ## The host operations, as @main prints them -/

variable [FloatOps F]

abbrev op1 : HloOp τ sig (Elt F) := StableHlo.unary main_v0 main_v1 (broadcastInDim S1x2048x16x256 ![1, 2, 3] bcast_S2048x16x256_S1x2048x16x256_1_2_3 : (⟨S2048x16x256, .i8⟩ : BufTy).Contents (Elt F) → (⟨S1x2048x16x256, .i8⟩ : BufTy).Contents (Elt F))
abbrev op2 : HloOp τ sig (Elt F) := StableHlo.unary main_v1 main_v2 (broadcastInDim S4x2048x16x256 ![0, 1, 2, 3] bcast_S1x2048x16x256_S4x2048x16x256_0_1_2_3 : (⟨S1x2048x16x256, .i8⟩ : BufTy).Contents (Elt F) → (⟨S4x2048x16x256, .i8⟩ : BufTy).Contents (Elt F))
abbrev op3 : HloOp τ sig (Elt F) := StableHlo.nullary main_c (constantI S_ 8 0#8)
abbrev op4 : HloOp τ sig (Elt F) := StableHlo.unary main_c main_v3 (broadcastInDim S4x2048x16x256 ![] bcast_S_S4x2048x16x256 : (⟨S_, .i8⟩ : BufTy).Contents (Elt F) → (⟨S4x2048x16x256, .i8⟩ : BufTy).Contents (Elt F))
abbrev op5 : HloOp τ sig (Elt F) := StableHlo.binary main_v2 main_v3 main_v4 (cmpi .ne : (⟨S4x2048x16x256, .i8⟩ : BufTy).Contents (Elt F) → (⟨S4x2048x16x256, .i8⟩ : BufTy).Contents (Elt F) → (⟨S4x2048x16x256, .i1⟩ : BufTy).Contents (Elt F))
abbrev op6 : HloOp τ sig (Elt F) := StableHlo.unary main_v4 main_v5 (id : (⟨S4x2048x16x256, .i1⟩ : BufTy).Contents (Elt F) → (⟨S4x2048x16x256, .i1⟩ : BufTy).Contents (Elt F))
abbrev op7 : HloOp τ sig (Elt F) := StableHlo.nullary main_cst (constant S_ .f32 0x00000000#32)

/-- The byte mask broadcast over the groups and compared with zero is the boolean mask: the byte at
    `(j 1, j 2, j 3)` is 1 exactly where token `j 1` is dispatched. -/
theorem bool_value (d : Dev nD) :
    (cmpi .ne (broadcastInDim S4x2048x16x256 ![0, 1, 2, 3] bcast_S1x2048x16x256_S4x2048x16x256_0_1_2_3
        (broadcastInDim S1x2048x16x256 ![1, 2, 3] bcast_S2048x16x256_S1x2048x16x256_1_2_3 (proxy (F := F) d : IVec S2048x16x256 8)))
      (broadcastInDim S4x2048x16x256 ![] bcast_S_S4x2048x16x256 (constantI S_ 8 0#8)) : IVec S4x2048x16x256 1) = outB (F := F) d := by
  funext j
  simp only [cmpi, broadcastInDim, constantI, proxy, outB, Cert.Spec.maskB, Cert.Spec.Hit, IntOp.cmpi]
  have hs : (pLoc d).ty.shape.size = ![2048, 16, 256] := rfl
  simp [hs]
  by_cases hc : (j 2).val = (j 1).val % 16 ∧ (j 3).val = (j 1).val / 16 <;> simp [hc]

/-! ## The valuations -/

variable (m : (ℓ : Loc nD τ sig) → Buf (Elt F) ℓ) (ρ : Dev nD → PrngReg)

/-- The launch valuation; after the pallas_call, the byte mask in place. -/
def tailV0 (d : Dev nD) : Valuation τ sig (Elt F) := fun b => m (d, b)
def tailV1 (d : Dev nD) : Valuation τ sig (Elt F) := Function.update (tailV0 m d) p' (proxy (F := F) d)
/-- After the six operations before the call. -/
def R6 (d : Dev nD) : Valuation τ sig (Elt F) :=
  StableHlo.after [op1 (F := F), op2, op3, op4, op5, op6] (tailV1 m d)

theorem unscoped_held (d : Dev nD) : (unscopedBufs d (W1 (F := F) m d) : sProp 𝕄) = held (T d) SALL (tailV1 m d) := by
  rw [unscopedBufs_all, held_SALL]; rfl

/-- @main after its first line. -/
def tailProg (d : Dev nD) : Prog (TpuEff nD τ sig (Elt F) (SparseCore.Sig (Pipeline.Sig Λ₀ (Fin 1) fun p => (pcfgs (F := F) p).Adm) 1) .tc) PUnit := do
  hlo rfl (op1 (F := F)) (fun _ => .ret ⟨⟩)
  hlo rfl (op2 (F := F)) (fun _ => .ret ⟨⟩)
  hlo rfl (op3 (F := F)) (fun _ => .ret ⟨⟩)
  hlo rfl (op4 (F := F)) (fun _ => .ret ⟨⟩)
  hlo rfl (op5 (F := F)) (fun _ => .ret ⟨⟩)
  hlo rfl (op6 (F := F)) (fun _ => .ret ⟨⟩)
  sc.run d 0
  hlo rfl (op7 (F := F)) (fun _ => .ret ⟨⟩)
  pure ⟨⟩

theorem main_eq (d : Dev nD) :
    main (F := F) d = (Prog.lift (.customCall (SparseCore.inner (Pipeline.entry 0)) ()) >>= fun _ => tailProg (F := F) d) := rfl

/-! ## What the valuations hold -/

theorem R6_o (d : Dev nD) : R6 (F := F) m d o' = m (oLoc d) := by
  unfold R6; after_results
  exact Function.update_of_ne (show o' ≠ p' by decide) _ _
theorem R6_a (d : Dev nD) : R6 (F := F) m d a' = m (aLoc d) := by
  unfold R6; after_results
  exact Function.update_of_ne (show a' ≠ p' by decide) _ _
theorem R6_b (d : Dev nD) : R6 (F := F) m d b' = outB (F := F) d := by
  unfold R6; after_results
  rw [show tailV1 (F := F) m d p' = proxy (F := F) d from Function.update_self _ _ _]
  exact bool_value d

/-! ## The tail of @main -/

omit [FloatOps F] in
theorem held_single (d : Dev nD) (b : DevRef τ sig) (W : Valuation τ sig (Elt F)) :
    (held (T d) {b} W : sProp 𝕄) = ((d, b) ↦{fullShare} W b) := by
  unfold held; rw [bigSep_singleton]

/-- The rest of the arrays after the last constant: the argument, the scalar, the boolean mask, and the others. -/
theorem held_fin (d : Dev nD) :
    (held (T d) (SALL \ {o'}) ((op7 (F := F)).result (R6 m d)) : sProp 𝕄)
      = iprop((aLoc d ↦{fullShare} m (aLoc d)) ∗ (zLoc d ↦{fullShare} outZ d) ∗ (bLoc d ↦{fullShare} outB d)
          ∗ held (T d) ((((SALL \ {o'}) \ {a'}) \ {z'}) \ {b'}) ((op7 (F := F)).result (R6 m d))) := by
  unfold held
  rw [show (SALL \ {o'} : Finset (DevRef τ sig)) = insert a' (insert z' (insert b' ((((SALL \ {o'}) \ {a'}) \ {z'}) \ {b'}))) by decide,
    SparseCore.bigSep_insert' (by decide), SparseCore.bigSep_insert' (by decide), SparseCore.bigSep_insert' (by decide)]
  have ea : (op7 (F := F)).result (R6 m d) a' = m (aLoc d) := by
    show StableHlo.after [op1 (F := F), op2, op3, op4, op5, op6, op7] (tailV1 m d) a' = _
    after_results
    exact Function.update_of_ne (show a' ≠ p' by decide) _ _
  have ez : (op7 (F := F)).result (R6 m d) z' = outZ (F := F) d := by
    show StableHlo.after [op1 (F := F), op2, op3, op4, op5, op6, op7] (tailV1 m d) z' = _
    after_results
    rfl
  have eb : (op7 (F := F)).result (R6 m d) b' = outB (F := F) d := by
    show StableHlo.after [op1 (F := F), op2, op3, op4, op5, op6, op7] (tailV1 m d) b' = _
    after_results
    rw [show tailV1 (F := F) m d p' = proxy (F := F) d from Function.update_self _ _ _]
    exact bool_value d
  rw [ea, ez, eb]
  rfl

theorem hop1 : (op1 (F := F)).bufs ⊆ SALL := show ({p', v1'} : Finset (DevRef τ sig)) ⊆ SALL by decide
theorem hop2 : (op2 (F := F)).bufs ⊆ SALL := show ({v1', v2'} : Finset (DevRef τ sig)) ⊆ SALL by decide
theorem hop3 : (op3 (F := F)).bufs ⊆ SALL := show ({c'} : Finset (DevRef τ sig)) ⊆ SALL by decide
theorem hop4 : (op4 (F := F)).bufs ⊆ SALL := show ({c', v3'} : Finset (DevRef τ sig)) ⊆ SALL by decide
theorem hop5 : (op5 (F := F)).bufs ⊆ SALL := show ({v2', v3', v4'} : Finset (DevRef τ sig)) ⊆ SALL by decide
theorem hop6 : (op6 (F := F)).bufs ⊆ SALL := show ({v4', b'} : Finset (DevRef τ sig)) ⊆ SALL by decide
theorem hop7 : (op7 (F := F)).bufs ⊆ SALL \ {o'} := show ({z'} : Finset (DevRef τ sig)) ⊆ SALL \ {o'} by decide

theorem tail (κ : GSem nD τ sig → ℕ) (d : Dev nD) :
    iprop((K (F := F)).ctx EH (P m) κ ∗ ((K (F := F)).tcSt EH d 0 ∗ boundary (SparseCore.T d) ∗ unscopedBufs d (W1 (F := F) m d)))
      ⊢ wp frame (wpE ((K (F := F)).defs (D (F := F))) 𝒱 (SparseCore.T d) none) Set.univ (tailProg (F := F) d)
          fun _ => iprop((K (F := F)).tcSt EH d 1 ∗ FIN m d) := by
  rw [unscoped_held]
  simp only [tailProg, wp_bind, wp_pure]
  iintro ⟨#Hctx, Hst, Hb, Hheld⟩
  iapply (wp_hlo_within 𝒱 (SparseCore.T d) none Set.univ (op := op1) (S := SALL) hop1 (V := tailV1 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := SALL) hop2 (V := StableHlo.after [op1 (F := F)] (tailV1 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := SALL) hop3 (V := StableHlo.after [op1 (F := F), op2] (tailV1 m d))) $$ [Hb Hheld]
  · isplitl [Hb]; · iexact Hb
    iexact Hheld
  iintro ⟨Hb, Hheld⟩
  rw [wp_ret]; imodintro
  iapply (wp_hlo_within 𝒱 (SparseCore.T d) none Set.univ (op := op4) (S := SALL) hop4 (V := StableHlo.after [op1 (F := F), op2, op3] (tailV1 m d))) $$ [Hb Hheld]
  · isplitl [Hb]; · iexact Hb
    iexact Hheld
  iintro ⟨Hb, Hheld⟩
  rw [wp_ret]; imodintro
  iapply (wp_hlo_within 𝒱 (SparseCore.T d) none Set.univ (op := op5) (S := SALL) hop5 (V := StableHlo.after [op1 (F := F), op2, op3, op4] (tailV1 m d))) $$ [Hb Hheld]
  · isplitl [Hb]; · iexact Hb
    iexact Hheld
  iintro ⟨Hb, Hheld⟩
  rw [wp_ret]; imodintro
  iapply (wp_hlo_within 𝒱 (SparseCore.T d) none Set.univ (op := op6) (S := SALL) hop6 (V := StableHlo.after [op1 (F := F), op2, op3, op4, op5] (tailV1 m d))) $$ [Hb Hheld]
  · isplitl [Hb]; · iexact Hb
    iexact Hheld
  iintro ⟨Hb, Hheld⟩
  rw [wp_ret]; imodintro
  -- the float result out of the held arrays, to the SparseCores and back
  ihave Hheld := (Entails.of_eq (show (held (T d) SALL ((op6 (F := F)).result (StableHlo.after [op1 (F := F), op2, op3, op4, op5] (tailV1 m d))) : sProp 𝕄)
      = held (T d) SALL (R6 m d) from rfl)) $$ Hheld
  ihave Hh := (Entails.of_eq (held_sub_split (T d) (T := {o'}) (S := SALL) (by decide) (R6 m d))) $$ Hheld
  icases Hh with ⟨Ho, Hrest⟩
  ihave Ho := (Entails.of_eq ((held_single (F := F) d o' (R6 m d)).trans (by rw [R6_o]))) $$ Ho
  iapply ((K (F := F)).wp_run (D (F := F)) 𝒱 (EH := EH) (P := P m) κ d 0) $$ [Hst Ho Hb Hrest]
  isplitr; · iexact Hctx
  isplitl [Hst]; · iexact Hst
  isplitl [Ho]; · iapply (st_intro m d); iexact Ho
  iintro ⟨Hst, Hdn⟩
  ihave Ho := (dn_elim m d) $$ Hdn
  -- the scalar constant
  iapply (wp_hlo_within 𝒱 (SparseCore.T d) none Set.univ (op := op7) (S := SALL \ {o'}) hop7 (V := R6 m d)) $$ [Hb Hrest]
  · isplitl [Hb]; · iexact Hb
    iexact Hrest
  iintro ⟨Hb, Hrest⟩
  ihave Hh := (Entails.of_eq (held_fin m d)) $$ Hrest
  icases Hh with ⟨Ha, Hz, Hbm, -⟩
  rw [wp_ret]; imodintro; imodintro
  isplitl [Hst]; · iexact Hst
  isplitl [Ha]; · iexact Ha
  isplitl [Hz]; · iexact Hz
  isplitl [Ho]; · iexact Ho
  iexact Hbm

/-! ## @main: the region, then the tail -/

theorem hmain_of_region (Gp : Dev nD → sProp 𝕄) (hreg : RegionStmt (F := F) m ρ Gp) (κ : GSem nD τ sig → ℕ) (d : Dev nD) :
    iprop((K (F := F)).ctx EH (P m) κ ∗ (K (F := F)).tcSt EH d 0 ∗ (K (F := F)).tcRes m ρ d ∗ Gp d)
      ⊢ wp frame (wpE ((K (F := F)).defs (D (F := F))) 𝒱 (SparseCore.T d) none) Set.univ (main d)
          fun _ => iprop((K (F := F)).tcSt EH d 1 ∗ FIN m d) := by
  rw [main_eq, wp_bind]
  refine BIBase.Entails.trans ?_ ((wp_frame_l frame _ _ (R := (K (F := F)).ctx EH (P m) κ)).trans (wp_mono frame _ _ fun _ => tail m κ d))
  iintro ⟨#Hctx, H⟩
  isplitr; · iexact Hctx
  iapply (hreg κ d)
  isplitr; · iexact Hctx
  iexact H

end Cert.Proof.KI

end
-- ==== Proof.KIOffsets.lean ====
/-
  Closed forms of the offsets at which a tile addresses its scratch.  In the zeroing loop trip `t` addresses row
  `(t / 16, t % 16)` of the scratch, at the sixteen lanes from `16 * k` for the `k`-th store of the trip.  In a chunk
  the `l`-th store addresses row `(l, l)`, at the sixteen lanes from `16 * (w % 8)`, `w` the worker number.  The
  printed offsets compute these with 32-bit words and the sign corrections of floor division, none of which fires on
  these small non-negative numbers; each closed form is decided over the 256 trips or the 32 grid points.
-/
import proofs.«214985_g80496277062245_cont_9to1_m_1082_20_alg».proof.Proof.KICommon

namespace Cert.Proof.KI

open Cert.KernelIdeal Cert.KernelIdeal.Gen
open Idealize.ShloMosaic

/-! ## The zeroing loop -/

theorem trips_eq : k1_t1_loop.trips = 256 := by decide +kernel

theorem off1_eq : ∀ t : Fin k1_t1_loop.trips, k1_off1 t = ![t.val / 16, t.val % 16, 0] := by
  decide +kernel
theorem off2_eq : ∀ t : Fin k1_t1_loop.trips, k1_off2 t = ![t.val / 16, t.val % 16, 16] := by
  decide +kernel
theorem off3_eq : ∀ t : Fin k1_t1_loop.trips, k1_off3 t = ![t.val / 16, t.val % 16, 32] := by
  decide +kernel
theorem off4_eq : ∀ t : Fin k1_t1_loop.trips, k1_off4 t = ![t.val / 16, t.val % 16, 48] := by
  decide +kernel
theorem off5_eq : ∀ t : Fin k1_t1_loop.trips, k1_off5 t = ![t.val / 16, t.val % 16, 64] := by
  decide +kernel
theorem off6_eq : ∀ t : Fin k1_t1_loop.trips, k1_off6 t = ![t.val / 16, t.val % 16, 80] := by
  decide +kernel
theorem off7_eq : ∀ t : Fin k1_t1_loop.trips, k1_off7 t = ![t.val / 16, t.val % 16, 96] := by
  decide +kernel
theorem off8_eq : ∀ t : Fin k1_t1_loop.trips, k1_off8 t = ![t.val / 16, t.val % 16, 112] := by
  decide +kernel
theorem off9_eq : ∀ t : Fin k1_t1_loop.trips, k1_off9 t = ![t.val / 16, t.val % 16, 128] := by
  decide +kernel
theorem off10_eq : ∀ t : Fin k1_t1_loop.trips, k1_off10 t = ![t.val / 16, t.val % 16, 144] := by
  decide +kernel
theorem off11_eq : ∀ t : Fin k1_t1_loop.trips, k1_off11 t = ![t.val / 16, t.val % 16, 160] := by
  decide +kernel
theorem off12_eq : ∀ t : Fin k1_t1_loop.trips, k1_off12 t = ![t.val / 16, t.val % 16, 176] := by
  decide +kernel
theorem off13_eq : ∀ t : Fin k1_t1_loop.trips, k1_off13 t = ![t.val / 16, t.val % 16, 192] := by
  decide +kernel
theorem off14_eq : ∀ t : Fin k1_t1_loop.trips, k1_off14 t = ![t.val / 16, t.val % 16, 208] := by
  decide +kernel
theorem off15_eq : ∀ t : Fin k1_t1_loop.trips, k1_off15 t = ![t.val / 16, t.val % 16, 224] := by
  decide +kernel
theorem off16_eq : ∀ t : Fin k1_t1_loop.trips, k1_off16 t = ![t.val / 16, t.val % 16, 240] := by
  decide +kernel

/-! ## A chunk's sixteen stores -/

theorem off17_eq : ∀ L : grid1.Coords, k1_off17 L = ![0, 0, 16 * ((2 * (L 1).val + (L 0).val) % 8)] := by
  decide +kernel
theorem off18_eq : ∀ L : grid1.Coords, k1_off18 L = ![1, 1, 16 * ((2 * (L 1).val + (L 0).val) % 8)] := by
  decide +kernel
theorem off19_eq : ∀ L : grid1.Coords, k1_off19 L = ![2, 2, 16 * ((2 * (L 1).val + (L 0).val) % 8)] := by
  decide +kernel
theorem off20_eq : ∀ L : grid1.Coords, k1_off20 L = ![3, 3, 16 * ((2 * (L 1).val + (L 0).val) % 8)] := by
  decide +kernel
theorem off21_eq : ∀ L : grid1.Coords, k1_off21 L = ![4, 4, 16 * ((2 * (L 1).val + (L 0).val) % 8)] := by
  decide +kernel
theorem off22_eq : ∀ L : grid1.Coords, k1_off22 L = ![5, 5, 16 * ((2 * (L 1).val + (L 0).val) % 8)] := by
  decide +kernel
theorem off23_eq : ∀ L : grid1.Coords, k1_off23 L = ![6, 6, 16 * ((2 * (L 1).val + (L 0).val) % 8)] := by
  decide +kernel
theorem off24_eq : ∀ L : grid1.Coords, k1_off24 L = ![7, 7, 16 * ((2 * (L 1).val + (L 0).val) % 8)] := by
  decide +kernel
theorem off25_eq : ∀ L : grid1.Coords, k1_off25 L = ![8, 8, 16 * ((2 * (L 1).val + (L 0).val) % 8)] := by
  decide +kernel
theorem off26_eq : ∀ L : grid1.Coords, k1_off26 L = ![9, 9, 16 * ((2 * (L 1).val + (L 0).val) % 8)] := by
  decide +kernel
theorem off27_eq : ∀ L : grid1.Coords, k1_off27 L = ![10, 10, 16 * ((2 * (L 1).val + (L 0).val) % 8)] := by
  decide +kernel
theorem off28_eq : ∀ L : grid1.Coords, k1_off28 L = ![11, 11, 16 * ((2 * (L 1).val + (L 0).val) % 8)] := by
  decide +kernel
theorem off29_eq : ∀ L : grid1.Coords, k1_off29 L = ![12, 12, 16 * ((2 * (L 1).val + (L 0).val) % 8)] := by
  decide +kernel
theorem off30_eq : ∀ L : grid1.Coords, k1_off30 L = ![13, 13, 16 * ((2 * (L 1).val + (L 0).val) % 8)] := by
  decide +kernel
theorem off31_eq : ∀ L : grid1.Coords, k1_off31 L = ![14, 14, 16 * ((2 * (L 1).val + (L 0).val) % 8)] := by
  decide +kernel
theorem off32_eq : ∀ L : grid1.Coords, k1_off32 L = ![15, 15, 16 * ((2 * (L 1).val + (L 0).val) % 8)] := by
  decide +kernel

end Cert.Proof.KI
-- ==== Proof.KIClosed.lean ====
/-
  The closed forms of the scratch offsets, as instances: the offset of the `N`-th store of trip `t` of the zeroing loop
  is `(t / 16, t % 16, 16 * (N - 1))`, and the offset of the `l`-th store of a chunk is `(l, l, 16 * (w % 8))` with `w` the
  worker number.  Through them each store's rectangle is a vector of index terms instead of the printed word arithmetic.
-/
import proofs.«214985_g80496277062245_cont_9to1_m_1082_20_alg».proof.Proof.KIOffsets
import Idealize.ShloMosaic.Lib.Exec.Geometry

namespace Cert.Proof.KI

open Cert.KernelIdeal Cert.KernelIdeal.Gen
open Idealize.ShloMosaic

instance closedOff1 (t : Fin k1_t1_loop.trips) : ClosedOff (k1_off1 t) := ⟨![t.val / 16, t.val % 16, 0], off1_eq t⟩
instance closedOff2 (t : Fin k1_t1_loop.trips) : ClosedOff (k1_off2 t) := ⟨![t.val / 16, t.val % 16, 16], off2_eq t⟩
instance closedOff3 (t : Fin k1_t1_loop.trips) : ClosedOff (k1_off3 t) := ⟨![t.val / 16, t.val % 16, 32], off3_eq t⟩
instance closedOff4 (t : Fin k1_t1_loop.trips) : ClosedOff (k1_off4 t) := ⟨![t.val / 16, t.val % 16, 48], off4_eq t⟩
instance closedOff5 (t : Fin k1_t1_loop.trips) : ClosedOff (k1_off5 t) := ⟨![t.val / 16, t.val % 16, 64], off5_eq t⟩
instance closedOff6 (t : Fin k1_t1_loop.trips) : ClosedOff (k1_off6 t) := ⟨![t.val / 16, t.val % 16, 80], off6_eq t⟩
instance closedOff7 (t : Fin k1_t1_loop.trips) : ClosedOff (k1_off7 t) := ⟨![t.val / 16, t.val % 16, 96], off7_eq t⟩
instance closedOff8 (t : Fin k1_t1_loop.trips) : ClosedOff (k1_off8 t) := ⟨![t.val / 16, t.val % 16, 112], off8_eq t⟩
instance closedOff9 (t : Fin k1_t1_loop.trips) : ClosedOff (k1_off9 t) := ⟨![t.val / 16, t.val % 16, 128], off9_eq t⟩
instance closedOff10 (t : Fin k1_t1_loop.trips) : ClosedOff (k1_off10 t) := ⟨![t.val / 16, t.val % 16, 144], off10_eq t⟩
instance closedOff11 (t : Fin k1_t1_loop.trips) : ClosedOff (k1_off11 t) := ⟨![t.val / 16, t.val % 16, 160], off11_eq t⟩
instance closedOff12 (t : Fin k1_t1_loop.trips) : ClosedOff (k1_off12 t) := ⟨![t.val / 16, t.val % 16, 176], off12_eq t⟩
instance closedOff13 (t : Fin k1_t1_loop.trips) : ClosedOff (k1_off13 t) := ⟨![t.val / 16, t.val % 16, 192], off13_eq t⟩
instance closedOff14 (t : Fin k1_t1_loop.trips) : ClosedOff (k1_off14 t) := ⟨![t.val / 16, t.val % 16, 208], off14_eq t⟩
instance closedOff15 (t : Fin k1_t1_loop.trips) : ClosedOff (k1_off15 t) := ⟨![t.val / 16, t.val % 16, 224], off15_eq t⟩
instance closedOff16 (t : Fin k1_t1_loop.trips) : ClosedOff (k1_off16 t) := ⟨![t.val / 16, t.val % 16, 240], off16_eq t⟩
instance closedOff17 (L : grid1.Coords) : ClosedOff (k1_off17 L) := ⟨![0, 0, 16 * ((2 * (L 1).val + (L 0).val) % 8)], off17_eq L⟩
instance closedOff18 (L : grid1.Coords) : ClosedOff (k1_off18 L) := ⟨![1, 1, 16 * ((2 * (L 1).val + (L 0).val) % 8)], off18_eq L⟩
instance closedOff19 (L : grid1.Coords) : ClosedOff (k1_off19 L) := ⟨![2, 2, 16 * ((2 * (L 1).val + (L 0).val) % 8)], off19_eq L⟩
instance closedOff20 (L : grid1.Coords) : ClosedOff (k1_off20 L) := ⟨![3, 3, 16 * ((2 * (L 1).val + (L 0).val) % 8)], off20_eq L⟩
instance closedOff21 (L : grid1.Coords) : ClosedOff (k1_off21 L) := ⟨![4, 4, 16 * ((2 * (L 1).val + (L 0).val) % 8)], off21_eq L⟩
instance closedOff22 (L : grid1.Coords) : ClosedOff (k1_off22 L) := ⟨![5, 5, 16 * ((2 * (L 1).val + (L 0).val) % 8)], off22_eq L⟩
instance closedOff23 (L : grid1.Coords) : ClosedOff (k1_off23 L) := ⟨![6, 6, 16 * ((2 * (L 1).val + (L 0).val) % 8)], off23_eq L⟩
instance closedOff24 (L : grid1.Coords) : ClosedOff (k1_off24 L) := ⟨![7, 7, 16 * ((2 * (L 1).val + (L 0).val) % 8)], off24_eq L⟩
instance closedOff25 (L : grid1.Coords) : ClosedOff (k1_off25 L) := ⟨![8, 8, 16 * ((2 * (L 1).val + (L 0).val) % 8)], off25_eq L⟩
instance closedOff26 (L : grid1.Coords) : ClosedOff (k1_off26 L) := ⟨![9, 9, 16 * ((2 * (L 1).val + (L 0).val) % 8)], off26_eq L⟩
instance closedOff27 (L : grid1.Coords) : ClosedOff (k1_off27 L) := ⟨![10, 10, 16 * ((2 * (L 1).val + (L 0).val) % 8)], off27_eq L⟩
instance closedOff28 (L : grid1.Coords) : ClosedOff (k1_off28 L) := ⟨![11, 11, 16 * ((2 * (L 1).val + (L 0).val) % 8)], off28_eq L⟩
instance closedOff29 (L : grid1.Coords) : ClosedOff (k1_off29 L) := ⟨![12, 12, 16 * ((2 * (L 1).val + (L 0).val) % 8)], off29_eq L⟩
instance closedOff30 (L : grid1.Coords) : ClosedOff (k1_off30 L) := ⟨![13, 13, 16 * ((2 * (L 1).val + (L 0).val) % 8)], off30_eq L⟩
instance closedOff31 (L : grid1.Coords) : ClosedOff (k1_off31 L) := ⟨![14, 14, 16 * ((2 * (L 1).val + (L 0).val) % 8)], off31_eq L⟩
instance closedOff32 (L : grid1.Coords) : ClosedOff (k1_off32 L) := ⟨![15, 15, 16 * ((2 * (L 1).val + (L 0).val) % 8)], off32_eq L⟩

end Cert.Proof.KI
-- ==== Proof.KIWrites.lean ====
/-
  What the stores into a tile's scratch leave there, as closed functions of the scratch's index.
  The zeroing loop's trip `k` stores the zero vector over row `(k / 16, k % 16)`, sixteen lanes at a time: after it
  the rows before `k + 1` (in row-major order of the two leading axes) are zero.  A chunk's sixteen stores put the
  chunk's one-hot vector at the sixteen lanes from `cb` of each diagonal row `(l, l)`: over a scratch that is zero off
  those places, the scratch then holds the word of 1.0 exactly at `(l, l, cb + m)` and the word of 0.0 elsewhere.
-/
import proofs.«214985_g80496277062245_cont_9to1_m_1082_20_alg».proof.Proof.KIClosed
import Idealize.ShloMosaic.Lib.Writes
import Idealize.ShloMosaic.Lib.Pipeline.Value

noncomputable section

namespace Cert.Proof.KI

open Cert.KernelIdeal Cert.KernelIdeal.Gen
open Idealize.ShloMosaic

variable {F : FTy → Type} [FloatOps F]

/-- The words of 0.0 and of 1.0. -/
abbrev Zw : F .f32 := FloatOps.ofBits .f32 0x00000000#32
abbrev Ow : F .f32 := FloatOps.ofBits .f32 0x3F800000#32

/-- The scratch as the body addresses it. -/
abbrev sV : View sig .scVector .vmem S16x16x256 .f32 := (sB : Memref sig .scVector .vmem S16x16x256 .f32).view

/-- A one-row, sixteen-lane rectangle of the scratch holds the indices of its row at its sixteen lanes. -/
theorem mem_unit3 {off : Fin 3 → Nat} {o0 o1 o2 : Nat} (hoff : off = ![o0, o1, o2])
    (inb : ∀ a, off a + S1x1x16.size a ≤ S16x16x256.size a) (y : S16x16x256.Idx) :
    y ∈ (Rect.unit (s := S16x16x256) off S1x1x16.size inb).set
      ↔ (y 0).val = o0 ∧ (y 1).val = o1 ∧ o2 ≤ (y 2).val ∧ (y 2).val < o2 + 16 := by
  subst hoff
  rw [Rect.mem_set_unit]
  constructor
  · intro h
    have h0 : o0 ≤ (y 0).val ∧ (y 0).val < o0 + 1 := h 0
    have h1 : o1 ≤ (y 1).val ∧ (y 1).val < o1 + 1 := h 1
    have h2 : o2 ≤ (y 2).val ∧ (y 2).val < o2 + 16 := h 2
    omega
  · rintro ⟨e0, e1, l2, u2⟩ a
    have h0 : o0 ≤ (y 0).val ∧ (y 0).val < o0 + 1 := by omega
    have h1 : o1 ≤ (y 1).val ∧ (y 1).val < o1 + 1 := by omega
    have h2 : o2 ≤ (y 2).val ∧ (y 2).val < o2 + 16 := by omega
    match a with
    | 0 => exact h0
    | 1 => exact h1
    | 2 => exact h2

/-- Where such a rectangle places its own index `x`. -/
theorem emb_unit3 {off : Fin 3 → Nat} {o0 o1 o2 : Nat} (hoff : off = ![o0, o1, o2])
    (inb : ∀ a, off a + S1x1x16.size a ≤ S16x16x256.size a) (x : S1x1x16.Idx) :
    (((Rect.unit (s := S16x16x256) off S1x1x16.size inb).emb x) 0).val = o0
      ∧ (((Rect.unit (s := S16x16x256) off S1x1x16.size inb).emb x) 1).val = o1
      ∧ (((Rect.unit (s := S16x16x256) off S1x1x16.size inb).emb x) 2).val = o2 + (x 2).val := by
  subst hoff
  have x0 : (x 0).val = 0 := by have := (x 0).isLt; change (x 0).val < 1 at this; omega
  have x1 : (x 1).val = 0 := by have := (x 1).isLt; change (x 1).val < 1 at this; omega
  refine ⟨?_, ?_, ?_⟩
  · show o0 + 1 * (x 0).val = o0; omega
  · show o1 + 1 * (x 1).val = o1; omega
  · show o2 + 1 * (x 2).val = o2 + (x 2).val; omega

/-- Writes through the whole scratch whose payloads are blocks of one function `G`, covering exactly the indices
    where `C` holds, leave `G` there and the former contents elsewhere. -/
theorem sV_writes_eq (f : (sV).ty.Contents (Elt F)) (G : S16x16x256.Idx → F .f32) (C : S16x16x256.Idx → Prop) [DecidablePred C]
    (Lst : List (View.Piece (Elt F) S16x16x256 .f32))
    (hpay : ∀ p ∈ Lst, ∀ x : p.1.shape.Idx, p.2 x = G (p.1.emb x))
    (hcov : ∀ y, (∃ p ∈ Lst, y ∈ p.1.set) ↔ C y) :
    (sV).writes (Elt F) f Lst = fun y => if C y then G y else f y := by
  funext y
  by_cases hy : C y
  · rw [if_pos hy]
    exact View.read_writes_apply_of_pieces (sV) f G Lst hpay y ((hcov y).mpr hy)
  · rw [if_neg hy]
    exact View.read_writes_apply_of_forall_not_mem (sV) f y Lst fun p hp hm => hy ((hcov y).mp ⟨p, hp, hm⟩)

/-- The scratch with its first `k` rows (in row-major order of the two leading axes) zeroed. -/
def zfill (fs : S16x16x256.Idx → F .f32) (k : Nat) : S16x16x256.Idx → F .f32 :=
  fun y => if 16 * (y 0).val + (y 1).val < k then Zw else fs y

theorem zfill_all (fs : S16x16x256.Idx → F .f32) : zfill fs 256 = fun _ => Zw := by
  funext y
  have h0 := (y 0).isLt; have h1 := (y 1).isLt
  change (y 0).val < 16 at h0; change (y 1).val < 16 at h1
  unfold zfill; rw [if_pos (by omega)]

/-- One trip of the zeroing loop. -/
theorem zero_writes (fs : S16x16x256.Idx → F .f32) (k : Nat) (Lst : List (View.Piece (Elt F) S16x16x256 .f32))
    (hpay : ∀ p ∈ Lst, ∀ x : p.1.shape.Idx, p.2 x = (Zw : F .f32))
    (hcov : ∀ y : S16x16x256.Idx, (∃ p ∈ Lst, y ∈ p.1.set) ↔ 16 * (y 0).val + (y 1).val = k) :
    (sV).writes (Elt F) (zfill fs k) Lst = zfill fs (k + 1) := by
  rw [sV_writes_eq (zfill fs k) (fun _ => Zw) (fun y => 16 * (y 0).val + (y 1).val = k) Lst hpay hcov]
  funext y
  unfold zfill
  by_cases h : 16 * (y 0).val + (y 1).val = k
  · rw [if_pos h, if_pos (by omega)]
  · rw [if_neg h]
    by_cases h' : 16 * (y 0).val + (y 1).val < k
    · rw [if_pos h', if_pos (by omega)]
    · rw [if_neg h', if_neg (by omega)]

/-- The scratch after chunk `m`: the word of 1.0 at `(l, l, cb + m)`, the word of 0.0 elsewhere. -/
def hotBuf (cb m : Nat) : S16x16x256.Idx → F .f32 :=
  fun y => if (y 0).val = (y 1).val ∧ (y 2).val = cb + m then Ow else Zw

/-- The places a chunk's stores write: the sixteen lanes from `cb` of the diagonal rows. -/
def Diag (cb : Nat) (y : S16x16x256.Idx) : Prop := (y 0).val = (y 1).val ∧ cb ≤ (y 2).val ∧ (y 2).val < cb + 16

instance (cb : Nat) : DecidablePred (Diag cb) := fun y => by unfold Diag; infer_instance

/-- A chunk's sixteen stores, over a scratch that is zero off the places they write. -/
theorem chunk_writes (cb m : Nat) (hm : m < 16) (B : S16x16x256.Idx → F .f32) (hB : ∀ y, ¬ Diag cb y → B y = Zw)
    (Lst : List (View.Piece (Elt F) S16x16x256 .f32))
    (hpay : ∀ p ∈ Lst, ∀ x : p.1.shape.Idx, p.2 x = hotBuf (F := F) cb m (p.1.emb x))
    (hcov : ∀ y : S16x16x256.Idx, (∃ p ∈ Lst, y ∈ p.1.set) ↔ Diag cb y) :
    (sV).writes (Elt F) B Lst = hotBuf cb m := by
  rw [sV_writes_eq B (hotBuf cb m) (Diag cb) Lst hpay hcov]
  funext y
  by_cases h : Diag cb y
  · rw [if_pos h]
  · rw [if_neg h, hB y h]
    unfold hotBuf
    rw [if_neg]
    rintro ⟨e, e2⟩
    exact h ⟨e, by omega, by omega⟩

theorem hotBuf_off (cb m : Nat) (hm : m < 16) (y : S16x16x256.Idx) (h : ¬ Diag cb y) : hotBuf (F := F) cb m y = Zw := by
  unfold hotBuf
  rw [if_neg]
  rintro ⟨e, e2⟩
  exact h ⟨e, by omega, by omega⟩

end Cert.Proof.KI

end
-- ==== Proof.KIChunk.lean ====
/-
  The stores of the tile's body as explicit lists, what they leave in the scratch, and where a chunk lands.
  A trip of the zeroing loop is sixteen stores of one vector over one row of the scratch; a chunk is sixteen stores
  of the chunk's one-hot vector over the diagonal rows.  The one-hot vector of chunk `m` holds the word of 1.0 at
  lane `m` and the word of 0.0 at the other lanes.  Chunk `r` of worker `w` is the sixteen tokens from
  `(w % 8) * 256 + 16 * r` of group `w / 8`: scratch index `(a, e, c)` lands at `(w / 8, (w % 8) * 256 + 16 * r + a, e, c)`,
  whose token has remainder `a` and quotient `16 * (w % 8) + r` by sixteen; so the scratch holding 1.0 exactly at
  `(l, l, 16 * (w % 8) + r)` lands the specification's mask on the chunk.
-/
import proofs.«214985_g80496277062245_cont_9to1_m_1082_20_alg».proof.Proof.KIWrites
import proofs.«214985_g80496277062245_cont_9to1_m_1082_20_alg».proof.Proof.KIOffsets33

noncomputable section

namespace Cert.Proof.KI

open Cert.KernelIdeal Cert.KernelIdeal.Gen
open Idealize.ShloMosaic

variable {F : FTy → Type} [FloatOps F]

/-! ## The one-hot vectors -/

/-- The vector chunk `m` stores: 1.0 where the lane number equals `m`, else 0.0. -/
def hotVec (m : Nat) : FVec F S16 .f32 :=
  select (cmpi .eq (iota .scVector S16 32 [0] iota_S16_d0_w32_scVector) (broadcast S16 (BitVec.ofNat 32 m)))
    (broadcast S16 (Scalar.ofBits .f32 0x3F800000#32)) (broadcast S16 (Scalar.ofBits .f32 0x00000000#32))

/-- The zero vector. -/
def zeroVec : FVec F S16 .f32 := broadcast S16 (Scalar.ofBits .f32 0x00000000#32)

theorem cmpi_eq_ofNat (a b : Nat) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · have hne : BitVec.ofNat 32 a ≠ BitVec.ofNat 32 b := by
      intro e
      have := congrArg BitVec.toNat e
      simp only [BitVec.toNat_ofNat] at this
      omega
    have hb' : (BitVec.ofNat 32 a == BitVec.ofNat 32 b) = false := beq_eq_false_iff_ne.mpr hne
    rw [if_neg h, hb']; rfl

theorem hot_lane (m : Nat) (hm : m < 16) (j : S16.Idx) :
    (hotVec m : FVec F S16 .f32) j = if (j 0).val = m then Ow else Zw := by
  have hj : (j 0).val < 16 := (j 0).isLt
  have e : (hotVec m : FVec F S16 .f32) j
      = Scalar.select (IntOp.cmpi .eq (BitVec.ofNat 32 (0 * 16 + (j 0).val)) (BitVec.ofNat 32 m)) Ow Zw := rfl
  have hlt : 0 * 16 + (j 0).val < 2 ^ 32 := by omega
  have hmlt : m < 2 ^ 32 := by omega
  rw [e, cmpi_eq_ofNat (0 * 16 + (j 0).val) m hlt hmlt]
  unfold Scalar.select
  by_cases h : (j 0).val = m
  · have h' : 0 * 16 + (j 0).val = m := by omega
    rw [if_pos h', if_pos h]; simp
  · have h' : ¬ 0 * 16 + (j 0).val = m := by omega
    rw [if_neg h', if_neg h]; simp

/-- The one-hot vector as a one-row block: lane `x 2`. -/
theorem shapeCast_hot (m : Nat) (hm : m < 16) (x : S1x1x16.Idx) :
    (shapeCast S1x1x16 (hotVec m : FVec F S16 .f32) shapeCasts_S16_S1x1x16 : FVec F S1x1x16 .f32) x
      = if (x 2).val = m then Ow else Zw := by
  have x0 : (x 0).val < 1 := (x 0).isLt
  have x1 : (x 1).val < 1 := (x 1).isLt
  have e1 : (S16.rowMajor (Shape.reshapeEquiv shapeCasts_S16_S1x1x16 x)).val = ((Shape.reshapeEquiv shapeCasts_S16_S1x1x16 x) 0).val :=
    Shape.rowMajor_val_one _
  have e3 : (S1x1x16.rowMajor x).val = ((x 0).val * 1 + (x 1).val) * 16 + (x 2).val := Shape.rowMajor_val_three x
  have er : (S16.rowMajor (Shape.reshapeEquiv shapeCasts_S16_S1x1x16 x)).val = (S1x1x16.rowMajor x).val :=
    Shape.rowMajor_reshapeEquiv shapeCasts_S16_S1x1x16 x
  have ek : ((Shape.reshapeEquiv shapeCasts_S16_S1x1x16 x) 0).val = (x 2).val := by omega
  show (hotVec m : FVec F S16 .f32) (Shape.reshapeEquiv shapeCasts_S16_S1x1x16 x) = _
  rw [hot_lane m hm, ek]

/-- The zero vector as a one-row block. -/
theorem shapeCast_zero (x : S1x1x16.Idx) :
    (shapeCast S1x1x16 (zeroVec : FVec F S16 .f32) shapeCasts_S16_S1x1x16 : FVec F S1x1x16 .f32) x = Zw := rfl

/-- The one-hot block stored at row `(l, l)`, lanes from `cb`, is the chunk's closed form there. -/
theorem hot_pay {off : Fin 3 → Nat} (l cb m : Nat) (hm : m < 16) (hoff : off = ![l, l, cb])
    (inb : ∀ a, off a + S1x1x16.size a ≤ S16x16x256.size a) (x : S1x1x16.Idx) :
    (shapeCast S1x1x16 (hotVec m : FVec F S16 .f32) shapeCasts_S16_S1x1x16 : FVec F S1x1x16 .f32) x
      = hotBuf (F := F) cb m ((Rect.unit (s := S16x16x256) off S1x1x16.size inb).emb x) := by
  obtain ⟨a0, a1, a2⟩ := emb_unit3 hoff inb x
  rw [shapeCast_hot m hm]; unfold hotBuf; rw [a0, a1, a2]
  by_cases hx : (x 2).val = m
  · have hc : l = l ∧ cb + (x 2).val = cb + m := ⟨rfl, by omega⟩
    rw [if_pos hx, if_pos hc]
  · have hc : ¬ (l = l ∧ cb + (x 2).val = cb + m) := fun h => hx (by omega)
    rw [if_neg hx, if_neg hc]

/-! ## The stores, listed (the last store first) -/

/-- Trip `k` of the zeroing loop: sixteen stores of `h` over row `(k / 16, k % 16)`. -/
def zeroPieces (k : Fin k1_t1_loop.trips) (h : FVec F S16 .f32) : List (View.Piece (Elt F) S16x16x256 .f32) :=
  [⟨Rect.unit (s := S16x16x256) (k1_off16 k) S1x1x16.size (k1_off16_inb k), (shapeCast S1x1x16 h shapeCasts_S16_S1x1x16 : FVec F S1x1x16 .f32)⟩,
   ⟨Rect.unit (s := S16x16x256) (k1_off15 k) S1x1x16.size (k1_off15_inb k), (shapeCast S1x1x16 h shapeCasts_S16_S1x1x16 : FVec F S1x1x16 .f32)⟩,
   ⟨Rect.unit (s := S16x16x256) (k1_off14 k) S1x1x16.size (k1_off14_inb k), (shapeCast S1x1x16 h shapeCasts_S16_S1x1x16 : FVec F S1x1x16 .f32)⟩,
   ⟨Rect.unit (s := S16x16x256) (k1_off13 k) S1x1x16.size (k1_off13_inb k), (shapeCast S1x1x16 h shapeCasts_S16_S1x1x16 : FVec F S1x1x16 .f32)⟩,
   ⟨Rect.unit (s := S16x16x256) (k1_off12 k) S1x1x16.size (k1_off12_inb k), (shapeCast S1x1x16 h shapeCasts_S16_S1x1x16 : FVec F S1x1x16 .f32)⟩,
   ⟨Rect.unit (s := S16x16x256) (k1_off11 k) S1x1x16.size (k1_off11_inb k), (shapeCast S1x1x16 h shapeCasts_S16_S1x1x16 : FVec F S1x1x16 .f32)⟩,
   ⟨Rect.unit (s := S16x16x256) (k1_off10 k) S1x1x16.size (k1_off10_inb k), (shapeCast S1x1x16 h shapeCasts_S16_S1x1x16 : FVec F S1x1x16 .f32)⟩,
   ⟨Rect.unit (s := S16x16x256) (k1_off9 k) S1x1x16.size (k1_off9_inb k), (shapeCast S1x1x16 h shapeCasts_S16_S1x1x16 : FVec F S1x1x16 .f32)⟩,
   ⟨Rect.unit (s := S16x16x256) (k1_off8 k) S1x1x16.size (k1_off8_inb k), (shapeCast S1x1x16 h shapeCasts_S16_S1x1x16 : FVec F S1x1x16 .f32)⟩,
   ⟨Rect.unit (s := S16x16x256) (k1_off7 k) S1x1x16.size (k1_off7_inb k), (shapeCast S1x1x16 h shapeCasts_S16_S1x1x16 : FVec F S1x1x16 .f32)⟩,
   ⟨Rect.unit (s := S16x16x256) (k1_off6 k) S1x1x16.size (k1_off6_inb k), (shapeCast S1x1x16 h shapeCasts_S16_S1x1x16 : FVec F S1x1x16 .f32)⟩,
   ⟨Rect.unit (s := S16x16x256) (k1_off5 k) S1x1x16.size (k1_off5_inb k), (shapeCast S1x1x16 h shapeCasts_S16_S1x1x16 : FVec F S1x1x16 .f32)⟩,
   ⟨Rect.unit (s := S16x16x256) (k1_off4 k) S1x1x16.size (k1_off4_inb k), (shapeCast S1x1x16 h shapeCasts_S16_S1x1x16 : FVec F S1x1x16 .f32)⟩,
   ⟨Rect.unit (s := S16x16x256) (k1_off3 k) S1x1x16.size (k1_off3_inb k), (shapeCast S1x1x16 h shapeCasts_S16_S1x1x16 : FVec F S1x1x16 .f32)⟩,
   ⟨Rect.unit (s := S16x16x256) (k1_off2 k) S1x1x16.size (k1_off2_inb k), (shapeCast S1x1x16 h shapeCasts_S16_S1x1x16 : FVec F S1x1x16 .f32)⟩,
   ⟨Rect.unit (s := S16x16x256) (k1_off1 k) S1x1x16.size (k1_off1_inb k), (shapeCast S1x1x16 h shapeCasts_S16_S1x1x16 : FVec F S1x1x16 .f32)⟩]

/-- A chunk: sixteen stores of `h` over the diagonal rows. -/
def chunkPieces (L : grid1.Coords) (h : FVec F S16 .f32) : List (View.Piece (Elt F) S16x16x256 .f32) :=
  [⟨Rect.unit (s := S16x16x256) (k1_off32 L) S1x1x16.size (k1_off32_inb L), (shapeCast S1x1x16 h shapeCasts_S16_S1x1x16 : FVec F S1x1x16 .f32)⟩,
   ⟨Rect.unit (s := S16x16x256) (k1_off31 L) S1x1x16.size (k1_off31_inb L), (shapeCast S1x1x16 h shapeCasts_S16_S1x1x16 : FVec F S1x1x16 .f32)⟩,
   ⟨Rect.unit (s := S16x16x256) (k1_off30 L) S1x1x16.size (k1_off30_inb L), (shapeCast S1x1x16 h shapeCasts_S16_S1x1x16 : FVec F S1x1x16 .f32)⟩,
   ⟨Rect.unit (s := S16x16x256) (k1_off29 L) S1x1x16.size (k1_off29_inb L), (shapeCast S1x1x16 h shapeCasts_S16_S1x1x16 : FVec F S1x1x16 .f32)⟩,
   ⟨Rect.unit (s := S16x16x256) (k1_off28 L) S1x1x16.size (k1_off28_inb L), (shapeCast S1x1x16 h shapeCasts_S16_S1x1x16 : FVec F S1x1x16 .f32)⟩,
   ⟨Rect.unit (s := S16x16x256) (k1_off27 L) S1x1x16.size (k1_off27_inb L), (shapeCast S1x1x16 h shapeCasts_S16_S1x1x16 : FVec F S1x1x16 .f32)⟩,
   ⟨Rect.unit (s := S16x16x256) (k1_off26 L) S1x1x16.size (k1_off26_inb L), (shapeCast S1x1x16 h shapeCasts_S16_S1x1x16 : FVec F S1x1x16 .f32)⟩,
   ⟨Rect.unit (s := S16x16x256) (k1_off25 L) S1x1x16.size (k1_off25_inb L), (shapeCast S1x1x16 h shapeCasts_S16_S1x1x16 : FVec F S1x1x16 .f32)⟩,
   ⟨Rect.unit (s := S16x16x256) (k1_off24 L) S1x1x16.size (k1_off24_inb L), (shapeCast S1x1x16 h shapeCasts_S16_S1x1x16 : FVec F S1x1x16 .f32)⟩,
   ⟨Rect.unit (s := S16x16x256) (k1_off23 L) S1x1x16.size (k1_off23_inb L), (shapeCast S1x1x16 h shapeCasts_S16_S1x1x16 : FVec F S1x1x16 .f32)⟩,
   ⟨Rect.unit (s := S16x16x256) (k1_off22 L) S1x1x16.size (k1_off22_inb L), (shapeCast S1x1x16 h shapeCasts_S16_S1x1x16 : FVec F S1x1x16 .f32)⟩,
   ⟨Rect.unit (s := S16x16x256) (k1_off21 L) S1x1x16.size (k1_off21_inb L), (shapeCast S1x1x16 h shapeCasts_S16_S1x1x16 : FVec F S1x1x16 .f32)⟩,
   ⟨Rect.unit (s := S16x16x256) (k1_off20 L) S1x1x16.size (k1_off20_inb L), (shapeCast S1x1x16 h shapeCasts_S16_S1x1x16 : FVec F S1x1x16 .f32)⟩,
   ⟨Rect.unit (s := S16x16x256) (k1_off19 L) S1x1x16.size (k1_off19_inb L), (shapeCast S1x1x16 h shapeCasts_S16_S1x1x16 : FVec F S1x1x16 .f32)⟩,
   ⟨Rect.unit (s := S16x16x256) (k1_off18 L) S1x1x16.size (k1_off18_inb L), (shapeCast S1x1x16 h shapeCasts_S16_S1x1x16 : FVec F S1x1x16 .f32)⟩,
   ⟨Rect.unit (s := S16x16x256) (k1_off17 L) S1x1x16.size (k1_off17_inb L), (shapeCast S1x1x16 h shapeCasts_S16_S1x1x16 : FVec F S1x1x16 .f32)⟩]

/-- The first of the sixteen lanes a tile's chunks write. -/
@[reducible] def cbOf (L : grid1.Coords) : Nat := 16 * ((2 * (L 1).val + (L 0).val) % 8)

theorem zero_step (fs : S16x16x256.Idx → F .f32) (k : Fin k1_t1_loop.trips) :
    (sV).writes (Elt F) (zfill fs k.val) (zeroPieces k (zeroVec (F := F))) = zfill fs (k.val + 1) := by
  refine zero_writes fs k.val _ ?hpay ?hcov
  case hpay =>
    intro p hp x
    simp only [zeroPieces, List.mem_cons, List.not_mem_nil, or_false] at hp
    rcases hp with rfl | rfl | rfl | rfl | rfl | rfl | rfl | rfl | rfl | rfl | rfl | rfl | rfl | rfl | rfl | rfl
    all_goals exact shapeCast_zero x
  case hcov =>
    intro y
    have h1 : (y 1).val < 16 := (y 1).isLt
    have h2 : (y 2).val < 256 := (y 2).isLt
    simp only [zeroPieces, List.mem_cons, List.not_mem_nil, or_false, exists_eq_or_imp, exists_eq_left,
      mem_unit3 (off1_eq k), mem_unit3 (off2_eq k), mem_unit3 (off3_eq k), mem_unit3 (off4_eq k), mem_unit3 (off5_eq k), mem_unit3 (off6_eq k), mem_unit3 (off7_eq k), mem_unit3 (off8_eq k), mem_unit3 (off9_eq k), mem_unit3 (off10_eq k), mem_unit3 (off11_eq k), mem_unit3 (off12_eq k), mem_unit3 (off13_eq k), mem_unit3 (off14_eq k), mem_unit3 (off15_eq k), mem_unit3 (off16_eq k)]
    omega

theorem chunk_step (L : grid1.Coords) (m : Nat) (hm : m < 16) (B : S16x16x256.Idx → F .f32)
    (hB : ∀ y, ¬ Diag (cbOf L) y → B y = Zw) :
    (sV).writes (Elt F) B (chunkPieces L (hotVec (F := F) m)) = hotBuf (cbOf L) m := by
  refine chunk_writes (cbOf L) m hm B hB _ ?hpay ?hcov
  case hpay =>
    intro p hp x
    simp only [chunkPieces, List.mem_cons, List.not_mem_nil, or_false] at hp
    rcases hp with rfl | rfl | rfl | rfl | rfl | rfl | rfl | rfl | rfl | rfl | rfl | rfl | rfl | rfl | rfl | rfl
    · exact hot_pay 15 (cbOf L) m hm (off32_eq L) (k1_off32_inb L) x
    · exact hot_pay 14 (cbOf L) m hm (off31_eq L) (k1_off31_inb L) x
    · exact hot_pay 13 (cbOf L) m hm (off30_eq L) (k1_off30_inb L) x
    · exact hot_pay 12 (cbOf L) m hm (off29_eq L) (k1_off29_inb L) x
    · exact hot_pay 11 (cbOf L) m hm (off28_eq L) (k1_off28_inb L) x
    · exact hot_pay 10 (cbOf L) m hm (off27_eq L) (k1_off27_inb L) x
    · exact hot_pay 9 (cbOf L) m hm (off26_eq L) (k1_off26_inb L) x
    · exact hot_pay 8 (cbOf L) m hm (off25_eq L) (k1_off25_inb L) x
    · exact hot_pay 7 (cbOf L) m hm (off24_eq L) (k1_off24_inb L) x
    · exact hot_pay 6 (cbOf L) m hm (off23_eq L) (k1_off23_inb L) x
    · exact hot_pay 5 (cbOf L) m hm (off22_eq L) (k1_off22_inb L) x
    · exact hot_pay 4 (cbOf L) m hm (off21_eq L) (k1_off21_inb L) x
    · exact hot_pay 3 (cbOf L) m hm (off20_eq L) (k1_off20_inb L) x
    · exact hot_pay 2 (cbOf L) m hm (off19_eq L) (k1_off19_inb L) x
    · exact hot_pay 1 (cbOf L) m hm (off18_eq L) (k1_off18_inb L) x
    · exact hot_pay 0 (cbOf L) m hm (off17_eq L) (k1_off17_inb L) x
  case hcov =>
    intro y
    have h0 : (y 0).val < 16 := (y 0).isLt
    simp only [chunkPieces, List.mem_cons, List.not_mem_nil, or_false, exists_eq_or_imp, exists_eq_left,
      mem_unit3 (off17_eq L), mem_unit3 (off18_eq L), mem_unit3 (off19_eq L), mem_unit3 (off20_eq L), mem_unit3 (off21_eq L), mem_unit3 (off22_eq L), mem_unit3 (off23_eq L), mem_unit3 (off24_eq L), mem_unit3 (off25_eq L), mem_unit3 (off26_eq L), mem_unit3 (off27_eq L), mem_unit3 (off28_eq L), mem_unit3 (off29_eq L), mem_unit3 (off30_eq L), mem_unit3 (off31_eq L), mem_unit3 (off32_eq L)]
    unfold Diag cbOf
    generalize 16 * ((2 * (L 1).val + (L 0).val) % 8) = cb
    constructor
    · rintro (⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩)
      all_goals exact ⟨by omega, c, e⟩
    · rintro ⟨e, c, f⟩
      have h : (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 := by omega
      rcases h with h | h | h | h | h | h | h | h | h | h | h | h | h | h | h | h
      · exact Or.inr (Or.inr (Or.inr (Or.inr (Or.inr (Or.inr (Or.inr (Or.inr (Or.inr (Or.inr (Or.inr (Or.inr (Or.inr (Or.inr (Or.inr (⟨h, by omega, c, f⟩)))))))))))))))
      · exact Or.inr (Or.inr (Or.inr (Or.inr (Or.inr (Or.inr (Or.inr (Or.inr (Or.inr (Or.inr (Or.inr (Or.inr (Or.inr (Or.inr (Or.inl ⟨h, by omega, c, f⟩))))))))))))))
      · exact Or.inr (Or.inr (Or.inr (Or.inr (Or.inr (Or.inr (Or.inr (Or.inr (Or.inr (Or.inr (Or.inr (Or.inr (Or.inr (Or.inl ⟨h, by omega, c, f⟩)))))))))))))
      · exact Or.inr (Or.inr (Or.inr (Or.inr (Or.inr (Or.inr (Or.inr (Or.inr (Or.inr (Or.inr (Or.inr (Or.inr (Or.inl ⟨h, by omega, c, f⟩))))))))))))
      · exact Or.inr (Or.inr (Or.inr (Or.inr (Or.inr (Or.inr (Or.inr (Or.inr (Or.inr (Or.inr (Or.inr (Or.inl ⟨h, by omega, c, f⟩)))))))))))
      · exact Or.inr (Or.inr (Or.inr (Or.inr (Or.inr (Or.inr (Or.inr (Or.inr (Or.inr (Or.inr (Or.inl ⟨h, by omega, c, f⟩))))))))))
      · exact Or.inr (Or.inr (Or.inr (Or.inr (Or.inr (Or.inr (Or.inr (Or.inr (Or.inr (Or.inl ⟨h, by omega, c, f⟩)))))))))
      · exact Or.inr (Or.inr (Or.inr (Or.inr (Or.inr (Or.inr (Or.inr (Or.inr (Or.inl ⟨h, by omega, c, f⟩))))))))
      · exact Or.inr (Or.inr (Or.inr (Or.inr (Or.inr (Or.inr (Or.inr (Or.inl ⟨h, by omega, c, f⟩)))))))
      · exact Or.inr (Or.inr (Or.inr (Or.inr (Or.inr (Or.inr (Or.inl ⟨h, by omega, c, f⟩))))))
      · exact Or.inr (Or.inr (Or.inr (Or.inr (Or.inr (Or.inl ⟨h, by omega, c, f⟩)))))
      · exact Or.inr (Or.inr (Or.inr (Or.inr (Or.inl ⟨h, by omega, c, f⟩))))
      · exact Or.inr (Or.inr (Or.inr (Or.inl ⟨h, by omega, c, f⟩)))
      · exact Or.inr (Or.inr (Or.inl ⟨h, by omega, c, f⟩))
      · exact Or.inr (Or.inl ⟨h, by omega, c, f⟩)
      · exact Or.inl ⟨h, by omega, c, f⟩

/-! ## The scratch after the stores of the chunks up to `r`, over the zeroed scratch

Every chunk writes the same places, so the stores of chunk `r` over what the earlier chunks left leave the one-hot
pattern of chunk `r` alone. -/

theorem upto0 (L : grid1.Coords) :
    (sV).writes (Elt F) (fun _ => Zw) (chunkPieces L (hotVec (F := F) 0)) = hotBuf (cbOf L) 0 :=
  chunk_step L 0 (by decide) _ (fun _ _ => rfl)
theorem upto1 (L : grid1.Coords) :
    (sV).writes (Elt F) (fun _ => Zw) (chunkPieces L (hotVec (F := F) 1) ++ (chunkPieces L (hotVec (F := F) 0))) = hotBuf (cbOf L) 1 := by
  rw [View.writes_append, upto0]; exact chunk_step L 1 (by decide) _ (hotBuf_off (cbOf L) 0 (by decide))
theorem upto2 (L : grid1.Coords) :
    (sV).writes (Elt F) (fun _ => Zw) (chunkPieces L (hotVec (F := F) 2) ++ (chunkPieces L (hotVec (F := F) 1) ++ (chunkPieces L (hotVec (F := F) 0)))) = hotBuf (cbOf L) 2 := by
  rw [View.writes_append, upto1]; exact chunk_step L 2 (by decide) _ (hotBuf_off (cbOf L) 1 (by decide))
theorem upto3 (L : grid1.Coords) :
    (sV).writes (Elt F) (fun _ => Zw) (chunkPieces L (hotVec (F := F) 3) ++ (chunkPieces L (hotVec (F := F) 2) ++ (chunkPieces L (hotVec (F := F) 1) ++ (chunkPieces L (hotVec (F := F) 0))))) = hotBuf (cbOf L) 3 := by
  rw [View.writes_append, upto2]; exact chunk_step L 3 (by decide) _ (hotBuf_off (cbOf L) 2 (by decide))
theorem upto4 (L : grid1.Coords) :
    (sV).writes (Elt F) (fun _ => Zw) (chunkPieces L (hotVec (F := F) 4) ++ (chunkPieces L (hotVec (F := F) 3) ++ (chunkPieces L (hotVec (F := F) 2) ++ (chunkPieces L (hotVec (F := F) 1) ++ (chunkPieces L (hotVec (F := F) 0)))))) = hotBuf (cbOf L) 4 := by
  rw [View.writes_append, upto3]; exact chunk_step L 4 (by decide) _ (hotBuf_off (cbOf L) 3 (by decide))
theorem upto5 (L : grid1.Coords) :
    (sV).writes (Elt F) (fun _ => Zw) (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0))))))) = hotBuf (cbOf L) 5 := by
  rw [View.writes_append, upto4]; exact chunk_step L 5 (by decide) _ (hotBuf_off (cbOf L) 4 (by decide))
theorem upto6 (L : grid1.Coords) :
    (sV).writes (Elt F) (fun _ => Zw) (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0)))))))) = hotBuf (cbOf L) 6 := by
  rw [View.writes_append, upto5]; exact chunk_step L 6 (by decide) _ (hotBuf_off (cbOf L) 5 (by decide))
theorem upto7 (L : grid1.Coords) :
    (sV).writes (Elt F) (fun _ => Zw) (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0))))))))) = hotBuf (cbOf L) 7 := by
  rw [View.writes_append, upto6]; exact chunk_step L 7 (by decide) _ (hotBuf_off (cbOf L) 6 (by decide))
theorem upto8 (L : grid1.Coords) :
    (sV).writes (Elt F) (fun _ => Zw) (chunkPieces L (hotVec (F := F) 8) ++ (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0)))))))))) = hotBuf (cbOf L) 8 := by
  rw [View.writes_append, upto7]; exact chunk_step L 8 (by decide) _ (hotBuf_off (cbOf L) 7 (by decide))
theorem upto9 (L : grid1.Coords) :
    (sV).writes (Elt F) (fun _ => Zw) (chunkPieces L (hotVec (F := F) 9) ++ (chunkPieces L (hotVec (F := F) 8) ++ (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0))))))))))) = hotBuf (cbOf L) 9 := by
  rw [View.writes_append, upto8]; exact chunk_step L 9 (by decide) _ (hotBuf_off (cbOf L) 8 (by decide))
theorem upto10 (L : grid1.Coords) :
    (sV).writes (Elt F) (fun _ => Zw) (chunkPieces L (hotVec (F := F) 10) ++ (chunkPieces L (hotVec (F := F) 9) ++ (chunkPieces L (hotVec (F := F) 8) ++ (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0)))))))))))) = hotBuf (cbOf L) 10 := by
  rw [View.writes_append, upto9]; exact chunk_step L 10 (by decide) _ (hotBuf_off (cbOf L) 9 (by decide))
theorem upto11 (L : grid1.Coords) :
    (sV).writes (Elt F) (fun _ => Zw) (chunkPieces L (hotVec (F := F) 11) ++ (chunkPieces L (hotVec (F := F) 10) ++ (chunkPieces L (hotVec (F := F) 9) ++ (chunkPieces L (hotVec (F := F) 8) ++ (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0))))))))))))) = hotBuf (cbOf L) 11 := by
  rw [View.writes_append, upto10]; exact chunk_step L 11 (by decide) _ (hotBuf_off (cbOf L) 10 (by decide))
theorem upto12 (L : grid1.Coords) :
    (sV).writes (Elt F) (fun _ => Zw) (chunkPieces L (hotVec (F := F) 12) ++ (chunkPieces L (hotVec (F := F) 11) ++ (chunkPieces L (hotVec (F := F) 10) ++ (chunkPieces L (hotVec (F := F) 9) ++ (chunkPieces L (hotVec (F := F) 8) ++ (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0)))))))))))))) = hotBuf (cbOf L) 12 := by
  rw [View.writes_append, upto11]; exact chunk_step L 12 (by decide) _ (hotBuf_off (cbOf L) 11 (by decide))
theorem upto13 (L : grid1.Coords) :
    (sV).writes (Elt F) (fun _ => Zw) (chunkPieces L (hotVec (F := F) 13) ++ (chunkPieces L (hotVec (F := F) 12) ++ (chunkPieces L (hotVec (F := F) 11) ++ (chunkPieces L (hotVec (F := F) 10) ++ (chunkPieces L (hotVec (F := F) 9) ++ (chunkPieces L (hotVec (F := F) 8) ++ (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0))))))))))))))) = hotBuf (cbOf L) 13 := by
  rw [View.writes_append, upto12]; exact chunk_step L 13 (by decide) _ (hotBuf_off (cbOf L) 12 (by decide))
theorem upto14 (L : grid1.Coords) :
    (sV).writes (Elt F) (fun _ => Zw) (chunkPieces L (hotVec (F := F) 14) ++ (chunkPieces L (hotVec (F := F) 13) ++ (chunkPieces L (hotVec (F := F) 12) ++ (chunkPieces L (hotVec (F := F) 11) ++ (chunkPieces L (hotVec (F := F) 10) ++ (chunkPieces L (hotVec (F := F) 9) ++ (chunkPieces L (hotVec (F := F) 8) ++ (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0)))))))))))))))) = hotBuf (cbOf L) 14 := by
  rw [View.writes_append, upto13]; exact chunk_step L 14 (by decide) _ (hotBuf_off (cbOf L) 13 (by decide))
theorem upto15 (L : grid1.Coords) :
    (sV).writes (Elt F) (fun _ => Zw) (chunkPieces L (hotVec (F := F) 15) ++ (chunkPieces L (hotVec (F := F) 14) ++ (chunkPieces L (hotVec (F := F) 13) ++ (chunkPieces L (hotVec (F := F) 12) ++ (chunkPieces L (hotVec (F := F) 11) ++ (chunkPieces L (hotVec (F := F) 10) ++ (chunkPieces L (hotVec (F := F) 9) ++ (chunkPieces L (hotVec (F := F) 8) ++ (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0))))))))))))))))) = hotBuf (cbOf L) 15 := by
  rw [View.writes_append, upto14]; exact chunk_step L 15 (by decide) _ (hotBuf_off (cbOf L) 14 (by decide))

/-! ## Where a chunk lands -/

theorem whole_emb (s : Shape) (x : (Rect.whole s).shape.Idx) : (Rect.whole s).emb x = x := by
  funext a
  apply Fin.ext
  show 0 + 1 * (x a).val = (x a).val
  omega

/-- Scratch index `y` of chunk `r` in the float result. -/
theorem emb_chunk (L : grid1.Coords) (r : Fin 16) (y : S16x16x256.Idx) :
    (((chunkRef L r).view.emb y) 0).val = wid L / 8
      ∧ (((chunkRef L r).view.emb y) 1).val = (wid L % 8) * 256 + 16 * r.val + (y 0).val
      ∧ (((chunkRef L r).view.emb y) 2).val = (y 1).val
      ∧ (((chunkRef L r).view.emb y) 3).val = (y 2).val := by
  have y0 : (y 0).val < 16 := (y 0).isLt
  have y1 : (y 1).val < 16 := (y 1).isLt
  have y2 : (y 2).val < 256 := (y 2).isLt
  have hn := squeezes_S1x16x16x256_S16x16x256.numel_eq
  have z0 : ((Shape.reshapeEquiv hn y) 0).val < 1 := ((Shape.reshapeEquiv hn y) 0).isLt
  have z1 : ((Shape.reshapeEquiv hn y) 1).val < 16 := ((Shape.reshapeEquiv hn y) 1).isLt
  have z2 : ((Shape.reshapeEquiv hn y) 2).val < 16 := ((Shape.reshapeEquiv hn y) 2).isLt
  have z3 : ((Shape.reshapeEquiv hn y) 3).val < 256 := ((Shape.reshapeEquiv hn y) 3).isLt
  have e3 : (S16x16x256.rowMajor y).val = ((y 0).val * 16 + (y 1).val) * 256 + (y 2).val := Shape.rowMajor_val_three y
  have e4 : (S1x16x16x256.rowMajor (Shape.reshapeEquiv hn y)).val
      = ((((Shape.reshapeEquiv hn y) 0).val * 16 + ((Shape.reshapeEquiv hn y) 1).val) * 16 + ((Shape.reshapeEquiv hn y) 2).val) * 256
        + ((Shape.reshapeEquiv hn y) 3).val := Shape.rowMajor_val_four _
  have er : (S1x16x16x256.rowMajor (Shape.reshapeEquiv hn y)).val = (S16x16x256.rowMajor y).val := Shape.rowMajor_reshapeEquiv hn y
  have he : (chunkRef L r).view.emb y = (chunkRect L r).emb (Shape.reshapeEquiv hn y) := rfl
  have ho := off33_eq L r
  rw [he]
  generalize Shape.reshapeEquiv hn y = z at *
  refine ⟨?_, ?_, ?_, ?_⟩
  · show (k1_off33 L (BitVec.ofNat 32 (16 * r.val))) 0 + 1 * (z 0).val = _
    rw [ho]; show (2 * (L 1).val + (L 0).val) / 8 + 1 * (z 0).val = wid L / 8; unfold wid; omega
  · show (k1_off33 L (BitVec.ofNat 32 (16 * r.val))) 1 + 1 * (z 1).val = _
    rw [ho]; show ((2 * (L 1).val + (L 0).val) % 8) * 256 + 16 * r.val + 1 * (z 1).val = _; unfold wid; omega
  · show (k1_off33 L (BitVec.ofNat 32 (16 * r.val))) 2 + 1 * (z 2).val = _
    rw [ho]; show 0 + 1 * (z 2).val = _; omega
  · show (k1_off33 L (BitVec.ofNat 32 (16 * r.val))) 3 + 1 * (z 3).val = _
    rw [ho]; show 0 + 1 * (z 3).val = _; omega

/-- The scratch after chunk `r`'s stores, copied whole to the chunk, is the specification's mask there. -/
theorem chunk_lands (L : grid1.Coords) (r : Fin 16) (f0 : (chunkRef L r).view.ty.Contents (Elt F)) (j : S4x2048x16x256.Idx)
    (hj : j ∈ (chunkRef L r).view.set) :
    (chunkRef L r).view.writes (Elt F) f0 [⟨Rect.whole S16x16x256, hotBuf (F := F) (cbOf L) r.val⟩] j
      = (Cert.Spec.maskF (F := F) : FVec F Cert.Spec.SOut .f32) j := by
  obtain ⟨y, -, rfl⟩ := Finset.mem_map.mp hj
  have hw := wid_lt L
  have hr := r.isLt
  have y0 : (y 0).val < 16 := (y 0).isLt
  obtain ⟨a0, a1, a2, a3⟩ := emb_chunk L r y
  have hread := View.read_writes_cons_emb (chunkRef L r).view f0 (Rect.whole S16x16x256) (hotBuf (F := F) (cbOf L) r.val) [] y
  rw [whole_emb] at hread
  have hget : (chunkRef L r).view.writes (Elt F) f0 [⟨Rect.whole S16x16x256, hotBuf (F := F) (cbOf L) r.val⟩] ((chunkRef L r).view.emb y)
      = hotBuf (F := F) (cbOf L) r.val y := ((View.read_apply _ _).trans (cast_eq _ _)).symm.trans hread
  rw [hget]
  have hiff : Cert.Spec.Hit ((chunkRef L r).view.emb y) ↔ ((y 0).val = (y 1).val ∧ (y 2).val = cbOf L + r.val) := by
    unfold Cert.Spec.Hit cbOf; unfold wid at a1 hw; rw [a1, a2, a3]; omega
  unfold hotBuf Cert.Spec.maskF
  by_cases h : (y 0).val = (y 1).val ∧ (y 2).val = cbOf L + r.val
  · rw [if_pos h, if_pos (hiff.mpr h)]; rfl
  · rw [if_neg h, if_neg (fun hh => h (hiff.mp hh))]; rfl

end Cert.Proof.KI

end
-- ==== Proof.KITileRun.lean ====
/-
  The body of a tile, run once at a symbolic grid point with its value.  The tile's sixteen scoped semaphores, its
  scratch and its sixteen chunks of the float result are taken out of its scoped storage one by one; the zeroing loop
  goes by the invariant "the rows before the trip are zero"; each chunk's stores, copy and wait are steps of the
  symbolic run (one copy outstanding at a time, each on a semaphore of its own, nothing touching the scratch between
  the issue and the wait); what each copy moved is the scratch after that chunk's stores, the one-hot pattern of the
  chunk, which lands the specification's mask on the chunk.
-/
import proofs.«214985_g80496277062245_cont_9to1_m_1082_20_alg».proof.Proof.KIPay
import proofs.«214985_g80496277062245_cont_9to1_m_1082_20_alg».proof.Proof.KIChunk
import proofs.«214985_g80496277062245_cont_9to1_m_1082_20_alg».proof.Proof.KIOffsets33

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid1.Coords)

/-! ## The tile's own semaphores, scratch and chunks, one by one -/

/-- The sixteen DMA semaphores of the sixteen scoped regions. -/
abbrev semLocs : List (SemLoc sig) := [.dma cc1_scoped0.sem, .dma cc1_scoped1.sem, .dma cc1_scoped2.sem, .dma cc1_scoped3.sem, .dma cc1_scoped4.sem, .dma cc1_scoped5.sem, .dma cc1_scoped6.sem, .dma cc1_scoped7.sem, .dma cc1_scoped8.sem, .dma cc1_scoped9.sem, .dma cc1_scoped10.sem, .dma cc1_scoped11.sem, .dma cc1_scoped12.sem, .dma cc1_scoped13.sem, .dma cc1_scoped14.sem, .dma cc1_scoped15.sem]

theorem semLocs_nodup : semLocs.Nodup := by decide
theorem semLocs_scoped : ∀ s ∈ semLocs, (s : SemLoc sig).isScoped .scVector = true := by decide

/-- The tile's cells of those semaphores. -/
abbrev cells : List (GSem nD τ sig) := semLocs.map fun s => (V d (cV L) (jV L), s)

theorem cells_nodup : (cells d L).Nodup := semLocs_nodup.map fun _ _ h => (Prod.mk.inj h).2

theorem cells_sub : (cells d L).toFinset ⊆ ownCells (V d (cV L) (jV L)) := by
  intro g hg
  obtain ⟨s, hs, rfl⟩ := List.mem_map.mp (List.mem_toFinset.mp hg)
  exact mem_ownCells.mpr ⟨rfl, semLocs_scoped s hs⟩

theorem ownSems0_V :
    (ownSems0 (V d (cV L) (jV L)) : sProp 𝕄)
      = iprop((semVal (V d (cV L) (jV L), SemLoc.dma cc1_scoped0.sem) 0 ∗ semVal (V d (cV L) (jV L), SemLoc.dma cc1_scoped1.sem) 0 ∗ semVal (V d (cV L) (jV L), SemLoc.dma cc1_scoped2.sem) 0 ∗ semVal (V d (cV L) (jV L), SemLoc.dma cc1_scoped3.sem) 0 ∗ semVal (V d (cV L) (jV L), SemLoc.dma cc1_scoped4.sem) 0 ∗ semVal (V d (cV L) (jV L), SemLoc.dma cc1_scoped5.sem) 0 ∗ semVal (V d (cV L) (jV L), SemLoc.dma cc1_scoped6.sem) 0 ∗ semVal (V d (cV L) (jV L), SemLoc.dma cc1_scoped7.sem) 0 ∗ semVal (V d (cV L) (jV L), SemLoc.dma cc1_scoped8.sem) 0 ∗ semVal (V d (cV L) (jV L), SemLoc.dma cc1_scoped9.sem) 0 ∗ semVal (V d (cV L) (jV L), SemLoc.dma cc1_scoped10.sem) 0 ∗ semVal (V d (cV L) (jV L), SemLoc.dma cc1_scoped11.sem) 0 ∗ semVal (V d (cV L) (jV L), SemLoc.dma cc1_scoped12.sem) 0 ∗ semVal (V d (cV L) (jV L), SemLoc.dma cc1_scoped13.sem) 0 ∗ semVal (V d (cV L) (jV L), SemLoc.dma cc1_scoped14.sem) 0 ∗ semVal (V d (cV L) (jV L), SemLoc.dma cc1_scoped15.sem) 0)
          ∗ bigSep (ownCells (V d (cV L) (jV L)) \ (cells d L).toFinset) fun g => semVal g 0) := by
  unfold SparseCore.Cfg.ownSems0
  rw [SparseCore.bigSep_sdiff_split' (cells_sub d L), bigSep_eq_bigSepL _ (cells_nodup d L)]
  rfl

theorem ownBufs_V :
    (ownBufs (V d (cV L) (jV L)) : sProp 𝕄)
      = iprop((∃ f, (V d (cV L) (jV L)).loc cc1_scratch0 ↦{fullShare} f)
          ∗ bigSep ((ownRefs (τ := τ) (.scVector (cV L) (jV L))).erase ((Proc.scVector (cV L) (jV L)).devRef cc1_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc1_scratch0) rfl)

theorem tileChunks_eq (f : Buf (Elt F) (oLoc d)) :
    tileChunks (F := F) d L f
      = iprop((oLoc d ↦[chunkSet L 0]{fullShare} f) ∗ (oLoc d ↦[chunkSet L 1]{fullShare} f) ∗ (oLoc d ↦[chunkSet L 2]{fullShare} f) ∗ (oLoc d ↦[chunkSet L 3]{fullShare} f) ∗ (oLoc d ↦[chunkSet L 4]{fullShare} f) ∗ (oLoc d ↦[chunkSet L 5]{fullShare} f) ∗ (oLoc d ↦[chunkSet L 6]{fullShare} f) ∗ (oLoc d ↦[chunkSet L 7]{fullShare} f) ∗ (oLoc d ↦[chunkSet L 8]{fullShare} f) ∗ (oLoc d ↦[chunkSet L 9]{fullShare} f) ∗ (oLoc d ↦[chunkSet L 10]{fullShare} f) ∗ (oLoc d ↦[chunkSet L 11]{fullShare} f) ∗ (oLoc d ↦[chunkSet L 12]{fullShare} f) ∗ (oLoc d ↦[chunkSet L 13]{fullShare} f) ∗ (oLoc d ↦[chunkSet L 14]{fullShare} f) ∗ (oLoc d ↦[chunkSet L 15]{fullShare} f)) := by
  unfold tileChunks
  exact (bigSep_univ_eq_bigSepL [0, 1, 2, 3, 4, 5, 6, 7, 8, 9, 10, 11, 12, 13, 14, 15] (by decide) (by decide) _).trans rfl

/-- The scratch as the body addresses it. -/
theorem pts_sB (f : Buf (Elt F) ((V d (cV L) (jV L)).loc cc1_scratch0)) :
    ((sB : Memref sig .scVector .vmem S16x16x256 .f32).view.loc (V d (cV L) (jV L)) ↦{fullShare} f : sProp 𝕄)
      = (V d (cV L) (jV L)).loc cc1_scratch0 ↦{fullShare} f := rfl

/-- A chunk as the body addresses it. -/
theorem pts_chunk (r : Fin 16) (f : Buf (Elt F) (oLoc d)) :
    ((chunkRef L r).view.loc (V d (cV L) (jV L)) ↦[(chunkRef L r).view.set]{fullShare} f : sProp 𝕄)
      = oLoc d ↦[chunkSet L r]{fullShare} f := rfl

variable [FloatOps F]

/-- A chunk of the float result holding the scratch after the chunk's stores holds the specification's mask. -/
theorem land (r : Fin 16) (f0 : Buf (Elt F) (oLoc d)) (w : S16x16x256.Idx → F .f32) (hw : w = hotBuf (F := F) (cbOf L) r.val) :
    ((chunkRef L r).view.loc (V d (cV L) (jV L)) ↦[(chunkRef L r).view.set]{fullShare}
        (chunkRef L r).view.writes (Elt F) f0 [⟨Rect.whole S16x16x256, w⟩] : sProp 𝕄)
      = oLoc d ↦[chunkSet L r]{fullShare} outF d := by
  subst hw
  exact pointsTo_congr fun j hj => chunk_lands (F := F) L r f0 j hj

/-- What the scratch holds before trip `k` of the zeroing loop. -/
def inv (fs : Buf (Elt F) ((V d (cV L) (jV L)).loc cc1_scratch0)) (k : Nat) (_ : Unit) : sProp 𝕄 :=
  iprop((sB : Memref sig .scVector .vmem S16x16x256 .f32).view.loc (V d (cV L) (jV L)) ↦{fullShare} zfill (F := F) fs k)

/-- What a transfer out of the scratch moves is what the scratch holds. -/
theorem read_sV (g : (sV).ty.Contents (Elt F)) : ReadAs.same.apply ((sV).read (Elt F) g) = g := rfl

set_option maxHeartbeats 4000000 in
theorem tile_run (hF : (K (F := F)).Facts) (f0 : Buf (Elt F) (oLoc d)) (O : CellTallies nD τ sig (HIx 1)) (W : Waits sig (HIx 1)) (hO : ∀ g, O g none = 0) :
    iprop(levAts (K (F := F)).L (K (F := F)).lev ∗ tileChunks (F := F) d L f0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L oV (Memref.isWhole_whole _) sB (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15)
          fun _ => iprop(tileChunks (F := F) d L (outF d) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V,
    tileChunks_eq, tileChunks_eq]
  iintro ⟨#Hlv, ⟨Hc0, Hc1, Hc2, Hc3, Hc4, Hc5, Hc6, Hc7, Hc8, Hc9, Hc10, Hc11, Hc12, Hc13, Hc14, Hc15⟩, ⟨⟨%fs, Hs⟩, Hbufs⟩, ⟨⟨Hm0, Hm1, Hm2, Hm3, Hm4, Hm5, Hm6, Hm7, Hm8, Hm9, Hm10, Hm11, Hm12, Hm13, Hm14, Hm15⟩, Hsems⟩, HO⟩
  ihave Hmw := ((K (F := F)).mayWaits_none (thr := V d (cV L) (jV L)) hO) $$ Hlv
  ihave Hs' := (Entails.of_eq (pts_sB (F := F) d L _).symm) $$ Hs
  ihave Hc0' := (Entails.of_eq (pts_chunk (F := F) d L 0 _).symm) $$ Hc0
  ihave Hc1' := (Entails.of_eq (pts_chunk (F := F) d L 1 _).symm) $$ Hc1
  ihave Hc2' := (Entails.of_eq (pts_chunk (F := F) d L 2 _).symm) $$ Hc2
  ihave Hc3' := (Entails.of_eq (pts_chunk (F := F) d L 3 _).symm) $$ Hc3
  ihave Hc4' := (Entails.of_eq (pts_chunk (F := F) d L 4 _).symm) $$ Hc4
  ihave Hc5' := (Entails.of_eq (pts_chunk (F := F) d L 5 _).symm) $$ Hc5
  ihave Hc6' := (Entails.of_eq (pts_chunk (F := F) d L 6 _).symm) $$ Hc6
  ihave Hc7' := (Entails.of_eq (pts_chunk (F := F) d L 7 _).symm) $$ Hc7
  ihave Hc8' := (Entails.of_eq (pts_chunk (F := F) d L 8 _).symm) $$ Hc8
  ihave Hc9' := (Entails.of_eq (pts_chunk (F := F) d L 9 _).symm) $$ Hc9
  ihave Hc10' := (Entails.of_eq (pts_chunk (F := F) d L 10 _).symm) $$ Hc10
  ihave Hc11' := (Entails.of_eq (pts_chunk (F := F) d L 11 _).symm) $$ Hc11
  ihave Hc12' := (Entails.of_eq (pts_chunk (F := F) d L 12 _).symm) $$ Hc12
  ihave Hc13' := (Entails.of_eq (pts_chunk (F := F) d L 13 _).symm) $$ Hc13
  ihave Hc14' := (Entails.of_eq (pts_chunk (F := F) d L 14 _).symm) $$ Hc14
  ihave Hc15' := (Entails.of_eq (pts_chunk (F := F) d L 15 _).symm) $$ Hc15
  sl_exec_parts
  sl_for (inv (F := F) d L fs) $$ [Hs']
  case region =>
    intro k _
    unfold inv
    iintro Hs
    sl_exec_parts
    sl_step
    rw [← zero_step (F := F) fs k]
    iexact Hs
  · unfold inv
    iexact Hs'
  iintro %_ HI
  unfold inv
  rw [show Scf.trips k1_t1_loop.lb k1_t1_loop.ub k1_t1_loop.st = 256 from trips_eq, zfill_all]
  sl_exec_parts
  sl_step
  isplitl [Hc0' Hc1' Hc2' Hc3' Hc4' Hc5' Hc6' Hc7' Hc8' Hc9' Hc10' Hc11' Hc12' Hc13' Hc14' Hc15']
  · isplitl [Hc0']; · iapply (Entails.of_eq (land (F := F) d L 0 f0 _ (upto0 (F := F) L))); iexact Hc0'
    isplitl [Hc1']; · iapply (Entails.of_eq (land (F := F) d L 1 f0 _ (upto1 (F := F) L))); iexact Hc1'
    isplitl [Hc2']; · iapply (Entails.of_eq (land (F := F) d L 2 f0 _ (upto2 (F := F) L))); iexact Hc2'
    isplitl [Hc3']; · iapply (Entails.of_eq (land (F := F) d L 3 f0 _ (upto3 (F := F) L))); iexact Hc3'
    isplitl [Hc4']; · iapply (Entails.of_eq (land (F := F) d L 4 f0 _ (upto4 (F := F) L))); iexact Hc4'
    isplitl [Hc5']; · iapply (Entails.of_eq (land (F := F) d L 5 f0 _ (upto5 (F := F) L))); iexact Hc5'
    isplitl [Hc6']; · iapply (Entails.of_eq (land (F := F) d L 6 f0 _ (upto6 (F := F) L))); iexact Hc6'
    isplitl [Hc7']; · iapply (Entails.of_eq (land (F := F) d L 7 f0 _ (upto7 (F := F) L))); iexact Hc7'
    isplitl [Hc8']; · iapply (Entails.of_eq (land (F := F) d L 8 f0 _ (upto8 (F := F) L))); iexact Hc8'
    isplitl [Hc9']; · iapply (Entails.of_eq (land (F := F) d L 9 f0 _ (upto9 (F := F) L))); iexact Hc9'
    isplitl [Hc10']; · iapply (Entails.of_eq (land (F := F) d L 10 f0 _ (upto10 (F := F) L))); iexact Hc10'
    isplitl [Hc11']; · iapply (Entails.of_eq (land (F := F) d L 11 f0 _ (upto11 (F := F) L))); iexact Hc11'
    isplitl [Hc12']; · iapply (Entails.of_eq (land (F := F) d L 12 f0 _ (upto12 (F := F) L))); iexact Hc12'
    isplitl [Hc13']; · iapply (Entails.of_eq (land (F := F) d L 13 f0 _ (upto13 (F := F) L))); iexact Hc13'
    isplitl [Hc14']; · iapply (Entails.of_eq (land (F := F) d L 14 f0 _ (upto14 (F := F) L))); iexact Hc14'
    iapply (Entails.of_eq (land (F := F) d L 15 f0 _ (upto15 (F := F) L))); iexact Hc15'
  isplitl [HI Hbufs]
  · isplitl [HI]
    · iexists _; iexact HI
    · iexact Hbufs
  isplitl [Hm0 Hm1 Hm2 Hm3 Hm4 Hm5 Hm6 Hm7 Hm8 Hm9 Hm10 Hm11 Hm12 Hm13 Hm14 Hm15 Hsems]
  · isplitl [Hm0 Hm1 Hm2 Hm3 Hm4 Hm5 Hm6 Hm7 Hm8 Hm9 Hm10 Hm11 Hm12 Hm13 Hm14 Hm15]
    · isplitl [Hm0]; · iexact Hm0
      isplitl [Hm1]; · iexact Hm1
      isplitl [Hm2]; · iexact Hm2
      isplitl [Hm3]; · iexact Hm3
      isplitl [Hm4]; · iexact Hm4
      isplitl [Hm5]; · iexact Hm5
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      iexact Hm15
    · iexact Hsems
  iexists _; isplitr
  on_goal 2 => iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp

end Cert.Proof.KI

end
-- ==== Proof.KITile.lean ====
/-
  The tile's body obligation in the form the launch is built against.
-/
import proofs.«214985_g80496277062245_cont_9to1_m_1082_20_alg».proof.Proof.KITileRun
import proofs.«214985_g80496277062245_cont_9to1_m_1082_20_alg».proof.Proof.KILaunch

namespace Cert.Proof.KI

open Cert.KernelIdeal Cert.KernelIdeal.Gen
open Idealize.ShloMosaic

variable {F : FTy → Type} [FloatOps F]

theorem tile_body : TileBody (F := F) := fun hF d L f0 O W hO => tile_run d L hF f0 O W hO

end Cert.Proof.KI
-- ==== Proof.KIBoolValue.lean ====
/-
  The value the TensorCore body stores.  At grid point `i` the body writes one vector into its whole block of
  256 × 16 × 256 bytes: lane `(y0, e, c)` compares `(tok % 16) * 256 + tok / 16`, the token being `tok = 256 * i + y0`,
  with `e * 256 + c`, in 32-bit arithmetic, and widens the bit to a byte.  The remainder and the quotient are the
  signed ones followed by the corrections that turn them into the floor forms; for a token below 2048 nothing is
  negative and every correction is the identity, which is checked lane by lane over the 8 × 256 tokens.  Since the
  quotient is below 256, the two sides agree exactly when `e = tok % 16` and `c = tok / 16`.
-/
import proofs.«214985_g80496277062245_cont_9to1_m_1082_20_alg».proof.Proof.Gen.KernelIdeal.Skeleton
import Idealize.ShloMosaic.Lib.ValueIdx

noncomputable section

namespace Cert.Proof.KI

open Cert.KernelIdeal Cert.KernelIdeal.Gen
open Idealize.ShloMosaic

/-- The token side of the comparison at one lane: from the grid coordinate and the row of the block. -/
def tgtLane (t y0 : BitVec 32) : BitVec 32 :=
  let v3 := IntOp.addi y0 (Scalar.muli t 256#32)
  let v5 := Scalar.select (Scalar.cmpi .eq 16#32 0#32) 1#32 16#32
  let v7 := IntOp.remsi .vector v3 v5
  let v16 := IntOp.andi (IntOp.xori (IntOp.cmpi .slt v7 0#32) (Scalar.cmpi .slt v5 0#32)) (IntOp.cmpi .ne v7 0#32)
  let v21 := IntOp.muli (Scalar.select v16 (IntOp.addi v7 v5) v7) 256#32
  let v23 := IntOp.divsi .vector v3 16#32
  let v30 := IntOp.subi ((IntOp.cmpi .sgt v3 0#32).setWidth 32) ((IntOp.cmpi .slt v3 0#32).setWidth 32)
  let v35 := Scalar.subi (Scalar.extui (Scalar.cmpi .sgt 16#32 0#32)) (Scalar.extui (Scalar.cmpi .slt 16#32 0#32))
  let v42 := IntOp.andi (IntOp.cmpi .ne v30 v35) (IntOp.cmpi .ne (IntOp.remsi .vector v3 16#32) 0#32)
  IntOp.addi v21 (Scalar.select v42 (IntOp.subi v23 1#32) v23)

theorem pay1_lane (i : grid0.Coords) (y : S256x16x256.Idx) :
    k0_pay1 (k0_pay3 i) (k0_pay4 i) (k0_pay5 i) k0_pay6 y
      = (IntOp.cmpi .eq (tgtLane (BitVec.ofNat 32 (i 0).val) (BitVec.ofNat 32 (y 0).val))
          (IntOp.addi (IntOp.muli (BitVec.ofNat 32 (y 1).val) 256#32) (BitVec.ofNat 32 (y 2).val))).setWidth 8 := by
  simp only [k0_pay1, k0_pay2, k0_pay3, k0_pay4, k0_pay5, k0_pay6, tgtLane, extui, cmpi, addi, subi, muli, andi, xori, remsi, divsi, select, broadcast, broadcastTo, iota, List.foldl]
  have e0 : (⟨↑(0 : Fin 3) + (3 - 3), by decide⟩ : Fin 3) = 0 := rfl
  have e1 : (⟨↑(1 : Fin 3) + (3 - 3), by decide⟩ : Fin 3) = 1 := rfl
  have e2 : (⟨↑(2 : Fin 3) + (3 - 3), by decide⟩ : Fin 3) = 2 := rfl
  simp [e0, e1, e2]

/-- The token side, computed: for a token below 2048 every sign correction is the identity. -/
theorem tgtLane_eq : ∀ (t : Fin 8) (y0 : Fin 256),
    tgtLane (BitVec.ofNat 32 t.val) (BitVec.ofNat 32 y0.val)
      = BitVec.ofNat 32 (((256 * t.val + y0.val) % 16) * 256 + (256 * t.val + y0.val) / 16) := by
  decide +kernel

theorem ofNat32_eq_iff {a b : Nat} (ha : a < 4294967296) (hb : b < 4294967296) : (BitVec.ofNat 32 a = BitVec.ofNat 32 b) ↔ a = b := by
  constructor
  · intro h
    have := congrArg BitVec.toNat h
    simp only [BitVec.toNat_ofNat] at this
    omega
  · rintro rfl; rfl

/-- The value the body stores at index `y` of its block at grid point `i`: the byte 1 exactly where the expert is the
    token's residue mod 16 and the slot its quotient by 16, the token being `256 * i + y 0`. -/
theorem pay_value (i : grid0.Coords) (y : S256x16x256.Idx) :
    k0_pay1 (k0_pay3 i) (k0_pay4 i) (k0_pay5 i) k0_pay6 y
      = if (y 1).val = (256 * (i 0).val + (y 0).val) % 16 ∧ (y 2).val = (256 * (i 0).val + (y 0).val) / 16 then 1#8 else 0#8 := by
  rw [pay1_lane]
  have hi : (i 0).val < 8 := (i 0).isLt
  have h0 : (y 0).val < 256 := (y 0).isLt
  have h1 : (y 1).val < 16 := (y 1).isLt
  have h2 : (y 2).val < 256 := (y 2).isLt
  have ht := tgtLane_eq ⟨(i 0).val, hi⟩ ⟨(y 0).val, h0⟩
  simp only at ht
  rw [ht]
  have hr : IntOp.addi (IntOp.muli (BitVec.ofNat 32 (y 1).val) 256#32) (BitVec.ofNat 32 (y 2).val)
      = BitVec.ofNat 32 ((y 1).val * 256 + (y 2).val) := by
    simp [IntOp.addi, IntOp.muli, BitVec.ofNat_add, BitVec.ofNat_mul]
  rw [hr]
  unfold IntOp.cmpi
  simp only []
  by_cases h : (y 1).val = (256 * (i 0).val + (y 0).val) % 16 ∧ (y 2).val = (256 * (i 0).val + (y 0).val) / 16
  · rw [if_pos h]
    have : ((256 * (i 0).val + (y 0).val) % 16) * 256 + (256 * (i 0).val + (y 0).val) / 16 = (y 1).val * 256 + (y 2).val := by omega
    rw [this]; simp
  · rw [if_neg h]
    have hne : ¬ (BitVec.ofNat 32 (((256 * (i 0).val + (y 0).val) % 16) * 256 + (256 * (i 0).val + (y 0).val) / 16)
        = BitVec.ofNat 32 ((y 1).val * 256 + (y 2).val)) := by
      rw [ofNat32_eq_iff (by omega) (by omega)]
      omega
    rw [beq_eq_false_iff_ne.mpr hne]
    rfl

end Cert.Proof.KI
end
-- ==== Proof.KIBoolBody.lean ====
/-
  The TensorCore kernel's body at one grid point.  The body reads nothing it uses and makes one store, of one vector
  computed from the grid point alone, through the rectangle that is its whole block: whatever the staging buffer held,
  it ends holding that vector.
-/
import proofs.«214985_g80496277062245_cont_9to1_m_1082_20_alg».proof.Proof.KICommon
import proofs.«214985_g80496277062245_cont_9to1_m_1082_20_alg».proof.Proof.KIBoolValue
import Idealize.ShloMosaic.Lib.Pipeline.FrameBody
import Idealize.ShloMosaic.Lib.Pipeline.Value

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

variable [FloatOps F] [∀ e, Nonempty (Elt F e)]

/-- The body's one store: the whole block. -/
abbrev rW : Rect S256x16x256 := Rect.unit (s := S256x16x256) ![0, 0, 0] S256x16x256.size inb_S256x16x256_S256x16x256_0_0_0

theorem hzW : (![0, 0, 0] : Fin 3 → Nat) = fun _ => 0 := funext fun a => by fin_cases a <;> rfl

/-- What the body stores at grid point `i`. -/
def pay (i : grid0.Coords) : Vec F S256x16x256 .i8 := k0_pay1 (k0_pay3 i) (k0_pay4 i) (k0_pay5 i) k0_pay6

/-- The body on a whole staging memref held at anything: it runs to its return with the memref at `pay i`. -/
theorem bool_body (c : Dev nD) (i : grid0.Coords) (arg1 : Memref sig .tc .vmem S256x16x256 .i8) (harg1 : arg1.IsWhole)
    (Q : PUnit → sProp 𝕄) :
    iprop((∃ d, owns (c : Thread nD τ) arg1 fullShare d) ∗ (owns (c : Thread nD τ) arg1 fullShare (pay (F := F) i) -∗ Q ⟨⟩))
      ⊢ wp frame (wpE (defs₀ (F := F)) Variants.none c none) Set.univ (cc0__bool_body i arg1 harg1) Q := by
  simp only [cc0__bool_body_eq_skeleton]; unfold cc0__bool_body_skel
  unfold owns
  iintro ⟨⟨%d, %f, -, H⟩, Hk⟩
  sl_exec
  sl_step
  iapply Hk
  iexists _; isplitr
  swap; · iexact H
  ipureintro
  rw [View.read_writes_eq_canon _ _ _ (fun y => ⟨_, List.mem_singleton_self _, View.mem_set_unit_zero hzW inb_S256x16x256_S256x16x256_0_0_0 y⟩), View.canon_unit_zero hzW]
  rfl

end Cert.Proof.KI
end
-- ==== Proof.KIBoolDat.lean ====
/-
  The TensorCore pallas_call's proof data and the array it leaves.  The grid has 8 points; point `t` fills its staging
  block with one vector computed from `t` alone and the block is written back to rows `256 t … 256 t + 255` of the
  byte mask.  The blocks tile the mask, and the vector of point `t` at row `y` is the mask at token `256 t + y`:
  after the last point the mask holds 1 at (token, token % 16, token / 16) and 0 elsewhere.  While the pipeline runs
  the TensorCore goes on owing the start signals of the SparseCore call; its waits are the pipeline's own, at the
  lowest level.
-/
import proofs.«214985_g80496277062245_cont_9to1_m_1082_20_alg».proof.Proof.KIBoolBody
import proofs.«214985_g80496277062245_cont_9to1_m_1082_20_alg».proof.Proof.KIMainDefs
import Idealize.ShloMosaic.Lib.Pipeline.Value
import Idealize.ShloMosaic.Lib.Pipeline.Regions

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

variable [FloatOps F] [∀ e, Nonempty (Elt F e)]
variable (m : (ℓ : Loc nD τ sig) → Buf (Elt F) ℓ)

/-- The (semaphore, index) pairs of device `c`'s TensorCore at the lowest level: every pair its waits have recorded
    before and during the pallas_call is one. -/
def lowPairs (c : Dev nD) : Set (SemLoc sig × HIx 1) := {p | (K (F := F)).lev ((T c : Thread nD τ), p.1) p.2 ≤ 0}

/-- The proof data on device `c`: the mask's buffer as launched; after the body at point `t` the staging buffer at the
    body's vector; between points only the scoped buffers that are no staging buffer; the start signals of the
    SparseCore call owed throughout. -/
def dats (_ : Fin 1) (c : Dev nD) : Dat τ (Elt F) (HIx 1) ℕ UU ℕ cfg0 c where
  A w := m ((c : Thread nD τ).loc (Pipeline.arrRef spec0 w))
  after w t := match w with | ⟨0, _⟩ => pay (F := F) (grid0.coords t)
  Φ _ := Pipeline.scopedRest (Ix := HIx 1) (Name := ℕ) (U := UU) (Lvl := ℕ) (Val := Elt F) spec0 c
  q _ := fullShare
  owed _ := (K (F := F)).Otc c 0
  recorded _ := lowPairs (F := F) c

theorem after0 (c : Dev nD) (t : Fin cfg0.N) : (dats m 0 c).after 0 t = pay (F := F) (grid0.coords t) := by dsimp only [dats]

/-! ## The body obligation -/

theorem sound_body (c : Dev nD) (t : Fin cfg0.N) :
    iprop((dats m 0 c).Φ t.castSucc ∗ (dats m 0 c).owesAt none t.castSucc
        ∗ (∃ d, owns (c : Thread nD τ) (st0_0 t) fullShare ((dats m 0 c).before 0 t d)))
      ⊢ wp frame (wpE (defs₀ (F := F)) Variants.none c none) Set.univ (bodyAt0 t) (fun _ =>
          iprop((dats m 0 c).Φ t.succ ∗ (dats m 0 c).owesAt none t.succ
            ∗ owns (c : Thread nD τ) (st0_0 t) fullShare ((dats m 0 c).after 0 t))) := by
  rw [show (dats m 0 c).Φ t.succ = (dats m 0 c).Φ t.castSucc from rfl,
    show (dats m 0 c).owesAt none t.succ = (dats m 0 c).owesAt none t.castSucc from rfl, after0]
  iintro ⟨HΦ, Ho, ⟨%d0, H0⟩⟩
  unfold bodyAt0
  iapply (bool_body c (grid0.coords t) _ _ _)
  isplitl [H0]; · iexists _; iexact H0
  iintro H0
  isplitl [HΦ]; · iexact HΦ
  isplitl [Ho]; · iexact Ho
  iexact H0

theorem body_obligation (c : Dev nD) : BodyObligation (dats (F := F) m 0 c) (defs₀ (F := F)) Variants.none none Set.univ := fun t => by
  rw [bigSep_W0, bigSep_W0]
  exact sound_body m c t

/-! ## From the blocks to the mask -/

/-- The printed index map over the grid: point `t` writes block `t` of the first axis, block 0 of the others, and its
    grid coordinate is `t`. -/
theorem idx_facts : ∀ t : Fin cfg0.N, win0_0.index t (0 : Fin 3) = t.val ∧ win0_0.index t (1 : Fin 3) = 0
    ∧ win0_0.index t (2 : Fin 3) = 0 ∧ ((grid0.coords t) 0).val = t.val :=
  (by decide +kernel : ∀ t : Fin grid0.N, _)

/-- What point `t` writes back is block `t` of the mask. -/
theorem flushed_eq (c : Dev nD) (t : Fin cfg0.N) :
    (dats m 0 c).flushed 0 t = ((cfg0.win 0).blk t).view.read (Elt F) (proxy (F := F) c) := by
  show (cfg0.win 0).cut (grid0.coords t) ((dats m 0 c).after 0 t) = _
  rw [after0]
  obtain ⟨e0, e1, e2, e3⟩ := idx_facts t
  funext j
  show pay (F := F) (grid0.coords t) j = proxy (F := F) c (((cfg0.win 0).blk t).view.emb j)
  have h0 : ((((cfg0.win 0).blk t).view.emb j) 0).val = win0_0.index t (0 : Fin 3) * 256 + 1 * (j 0).val := rfl
  have h1 : ((((cfg0.win 0).blk t).view.emb j) 1).val = win0_0.index t (1 : Fin 3) * 16 + 1 * (j 1).val := rfl
  have h2 : ((((cfg0.win 0).blk t).view.emb j) 2).val = win0_0.index t (2 : Fin 3) * 256 + 1 * (j 2).val := rfl
  have hp : proxy (F := F) c (((cfg0.win 0).blk t).view.emb j)
      = if ((((cfg0.win 0).blk t).view.emb j) 1).val = ((((cfg0.win 0).blk t).view.emb j) 0).val % 16
          ∧ ((((cfg0.win 0).blk t).view.emb j) 2).val = ((((cfg0.win 0).blk t).view.emb j) 0).val / 16 then 1#8 else 0#8 := rfl
  rw [hp, h0, h1, h2, e0, e1, e2]
  unfold pay
  rw [pay_value, e3]
  have hj0 : (j 0).val < 256 := (j 0).isLt
  have hj1 : (j 1).val < 16 := (j 1).isLt
  have hj2 : (j 2).val < 256 := (j 2).isLt
  refine if_congr ?_ rfl rfl
  constructor <;> rintro ⟨a, b⟩ <;> constructor <;> omega

/-- An index of the mask is in point `t`'s block iff each coordinate is in the block's range on its axis. -/
theorem mem_blk (t : Fin cfg0.N) (i : S2048x16x256.Idx) :
    i ∈ ((cfg0.win 0).blk t).view.set ↔ ∀ a : Fin 3, win0_0.index t a * S256x16x256.size a ≤ (i a).val
      ∧ (i a).val < win0_0.index t a * S256x16x256.size a + S256x16x256.size a := by
  show i ∈ ((View.whole main_v0).slice (win0_0.rect t)).set ↔ _
  rw [View.set_slice_whole, Rect.mem_set_unit]
  exact Iff.rfl

/-- Every index of the mask is in the block of the point its token's row falls in. -/
theorem covered (i : S2048x16x256.Idx) :
    ∃ t : Fin cfg0.N, (cfg0.win 0).flush t = true ∧ i ∈ ((cfg0.win 0).blk t).view.set := by
  have hi0 : (i 0).val < 2048 := (i 0).isLt
  have hi1 : (i 1).val < 16 := (i 1).isLt
  have hi2 : (i 2).val < 256 := (i 2).isLt
  have hN : cfg0.N = 8 := N_0
  let t : Fin cfg0.N := ⟨(i 0).val / 256, by rw [hN]; omega⟩
  obtain ⟨e0, e1, e2, -⟩ := idx_facts t
  have et : t.val = (i 0).val / 256 := rfl
  refine ⟨t, flush0_0 t, ?_⟩
  rw [mem_blk]
  intro a
  match a with
  | ⟨0, _⟩ => show win0_0.index t (0 : Fin 3) * 256 ≤ (i 0).val ∧ (i 0).val < win0_0.index t (0 : Fin 3) * 256 + 256; omega
  | ⟨1, _⟩ => show win0_0.index t (1 : Fin 3) * 16 ≤ (i 1).val ∧ (i 1).val < win0_0.index t (1 : Fin 3) * 16 + 16; omega
  | ⟨2, _⟩ => show win0_0.index t (2 : Fin 3) * 256 ≤ (i 2).val ∧ (i 2).val < win0_0.index t (2 : Fin 3) * 256 + 256; omega

/-- The mask after the last point. -/
theorem final (c : Dev nD) : (dats m 0 c).arrAt 0 cfg0.N = proxy (F := F) c :=
  (dats m 0 c).arrAt_eq_of_cover 0 _ (fun t _ => flushed_eq m c t) covered

end Cert.Proof.KI
end
-- ==== Proof.KIRegion.lean ====
/-
  The TensorCore pallas_call as a region of @main.  The pipeline's staging cells are funded at the launch, in their own
  copy of the rounds algebra; the region is entered from the TensorCore's arrays as launched and from what the
  TensorCore owes — the start signals of the SparseCore call, which it goes on owing throughout —, and is left with
  the byte mask at (token, token % 16, token / 16), every other array as it was, the same debts, and every pair its
  waits recorded still at the lowest level.
-/
import proofs.«214985_g80496277062245_cont_9to1_m_1082_20_alg».proof.Proof.KIBoolDat

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

variable [FloatOps F] [∀ e, Nonempty (Elt F e)]
variable (m : (ℓ : Loc nD τ sig) → Buf (Elt F) ℓ) (ρ : Dev nD → PrngReg)

/-- No prefetched table. -/
abbrev adm : (p : Fin 1) → (pcfgs (F := F) p).Adm := fun p => (cfgs p).toPCfg_adm

/-! ## The launch element of the staging cells -/

/-- The staging cells' rounds at the launch: each cell at its launch state, a token per transfer the loop issues. -/
def uP₀ : UP := initOf (Pipeline.cells (nD := nD) (τ := τ) cfgs cellOf_inj) (Pipeline.launchToks (nD := nD) (τ := τ) cfgs cellOf_inj)

/-- What device `d`'s TensorCore is dealt of it: its cells' ghost state and its transfers' tokens. -/
def Gp (d : Dev nD) : sProp 𝕄 := iprop(Pipeline.cellsGhost cfgs (EP (F := F)) 0 d ∗ Pipeline.toksInit cfgs (EP (F := F)) 0 d)

omit [FloatOps F] [∀ e, Nonempty (Elt F e)] in
theorem fundP : (BI.own (EP (F := F) uP₀) : sProp 𝕄) ⊢ |={Set.univ}=> bigSep Finset.univ (Gp (F := F)) := by
  have h : iprop((bigSep Finset.univ fun c : Dev nD => bigSep Finset.univ fun p : Fin 1 => Pipeline.cellsGhost cfgs (EP (F := F)) p c)
        ∗ (bigSep Finset.univ fun c : Dev nD => bigSep Finset.univ fun p : Fin 1 => (Pipeline.toksInit cfgs (EP (F := F)) p c : sProp 𝕄)))
      ⊢ bigSep Finset.univ (Gp (F := F)) := by
    unfold Gp
    simp only [bigSep_W0]
    exact BI.Entails.refl _
  unfold uP₀
  exact ((Pipeline.fund_ghost cfgs (EP (F := F)) cellOf_inj).trans (Laws.bupd_mono h)).trans bupd_fupd

/-! ## What the TensorCore owes across the region -/

/-- The start signals of the SparseCore call, every pair its waits recorded at the lowest level. -/
abbrev owesTC (c : Dev nD) : sProp 𝕄 :=
  iprop(∃ W, ⌜(K (F := F)).WBelow (T c) W (8 * 0)⌝ ∗ owes (T c) ((K (F := F)).Otc c 0) W)

omit [FloatOps F] [∀ e, Nonempty (Elt F e)] in
/-- Nothing is owed at the kernels' own index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- The arrays as launched. -/
abbrev V0 (c : Dev nD) : (b : Ref sig .tc) → Buf (Elt F) ((c : Thread nD τ).loc b) := fun b => m ((c : Thread nD τ).loc b)

omit [FloatOps F] [∀ e, Nonempty (Elt F e)] in
/-- The unscoped buffers: the mask's, and the rest. -/
theorem unscopedBufs_eq (c : Dev nD) (W : (b : Ref sig .tc) → Buf (Elt F) ((c : Thread nD τ).loc b)) :
    (unscopedBufs c W : sProp 𝕄) = iprop(((c : Thread nD τ).loc main_v0 ↦{fullShare} W main_v0)
      ∗ Pipeline.unscopedRest spec0 c W) := by
  rw [Pipeline.unscopedBufs_split cfgs (0 : Fin 1) launch0.win.arr_unscoped launch0.win.arr_inj c W, bigSep_W0]

omit [FloatOps F] [∀ e, Nonempty (Elt F e)] in
/-- The rest does not hold the mask's buffer. -/
theorem unscopedRest_W1 (c : Dev nD) :
    (Pipeline.unscopedRest spec0 c (W1 (F := F) m c) : sProp 𝕄) = Pipeline.unscopedRest spec0 c (V0 m c) := by
  unfold Pipeline.unscopedRest
  refine bigSep_congr fun b hb => ?_
  have hne : b ≠ main_v0 := fun e => (Finset.mem_sdiff.mp hb).2 (Finset.mem_image.mpr ⟨0, Finset.mem_univ _, e.symm⟩)
  unfold W1
  rw [Function.update_of_ne hne]

set_option backward.isDefEq.respectTransparency.types false in
/-- THE REGION. -/
def reg0 : Pipeline.RegionSeg (pcfgs (F := F)) adm (dats m) none defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := (body_obligation m c).loose
  hwaits c := Pipeline.cellsWaits_intro cfgs (dats m) none 0 c fun w s t =>
    (K (F := F)).mayWait_none _ (Otc_none c 0)
  pre c := iprop(unscopedBufs c (V0 m c) ∗ owesTC (F := F) c)
  post c := iprop(unscopedBufs c (W1 (F := F) m c) ∗ owesTC (F := F) c)
  X c := iprop(emp)
  Y c := iprop(emp)
  Z c := Pipeline.unscopedRest spec0 c (V0 m c)
  hentry c := by
    have hsplit := Pipeline.arrays_of_unscopedBufs (pcfgs (F := F)) adm (dats m) launch0.win launch0.arr_whole c
      ((dats m 0 c).share_full fun _ => rfl) (V0 m c) fun _ => rfl
    iintro ⟨⟨Hub, ⟨%W, %hW, HO⟩⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hr
  hin c := by
    change iprop(_ ∗ _ ∗ Pipeline.scopedRest spec0 c) ⊢ Pipeline.scopedRest spec0 c
    iintro ⟨-, -, Hr⟩
    iexact Hr
  hout c := by
    change Pipeline.scopedRest spec0 c ⊢ iprop(_ ∗ _ ∗ Pipeline.scopedRest spec0 c)
    rw [Pipeline.ownSems0_none]
    iintro Hr
    isplitr; · iempintro
    isplitr; · iempintro
    iexact Hr
  hexit c := by
    rw [Pipeline.arrays_eq cfgs (dats m) (0 : Fin 1) c launch0.arr_whole ((dats m 0 c).share_full fun _ => rfl), bigSep_W0,
      final, unscopedBufs_eq, unscopedRest_W1]
    iintro ⟨Ha, HO, -, HZ⟩
    imodintro
    isplitl [Ha HZ]
    · isplitl [Ha]
      · rw [show W1 (F := F) m c main_v0 = proxy (F := F) c from Function.update_self _ _ _]; iexact Ha
      · iexact HZ
    · unfold Pipeline.Dat.owesAt Pipeline.owesWithin
      icases HO with ⟨%W, %hW, HO⟩
      iexists W; isplitr
      · ipureintro
        intro p hp
        rcases hW hp with h | ⟨w, s, rfl⟩
        · exact h
        · exact le_of_eq (SparseCore.Cfg.lev_none _ _)
      iexact HO

/-! ## The region inside @main -/

set_option backward.isDefEq.respectTransparency.types false in
/-- The region on device `d`, whatever else the TensorCore's handshake state holds (`R`). -/
theorem region_core (κ : GSem nD τ sig → ℕ) (d : Dev nD) (R : sProp 𝕄) :
    iprop((K (F := F)).ctx EH (P m) κ ∗ (owesTC (F := F) d ∗ R) ∗ (K (F := F)).tcRes m ρ d ∗ Gp (F := F) d)
      ⊢ wp frame (wpE ((K (F := F)).defs (D (F := F))) 𝒱 (SparseCore.T d) none) Set.univ
          (Prog.lift (.customCall (SparseCore.inner (Pipeline.entry 0)) ()))
          fun _ => iprop((owesTC (F := F) d ∗ R) ∗ boundary (SparseCore.T d) ∗ unscopedBufs d (W1 (F := F) m d)) := by
  have hreg := Pipeline.RegionSeg.wp (pcfgs (F := F)) adm (dats m) none cellOf_inj (EP (F := F)) defs₀ 𝒱₀ (K (F := F)).L (K (F := F)).lev
    (reg0 m) d none (fun _ h => nomatch h) (fun _ => Prog.ret PUnit.unit)
    (fun _ => iprop((owesTC (F := F) d ∗ R) ∗ boundary (SparseCore.T d) ∗ unscopedBufs d (W1 (F := F) m d)))
  have hlift := (K (F := F)).wp_liftProg (D (F := F)) 𝒱 (SparseCore.T d) Set.univ none (.op (.customCall (Pipeline.entry 0) ()) .ret)
    (fun _ => iprop((owesTC (F := F) d ∗ R) ∗ boundary (SparseCore.T d) ∗ unscopedBufs d (W1 (F := F) m d)))
  have key : iprop((K (F := F)).ctx EH (P m) κ ∗ (owesTC (F := F) d ∗ R) ∗ (K (F := F)).tcRes m ρ d ∗ Gp (F := F) d)
      ⊢ iprop((iprop(boundary (SparseCore.T d : Thread nD τ) ∗ (unscopedBufs d (W1 (F := F) m d) ∗ owesTC (F := F) d))
            -∗ wp frame (wpE (D (F := F)) 𝒱 (SparseCore.T d) none) Set.univ (Prog.ret PUnit.unit)
              (fun _ => iprop((owesTC (F := F) d ∗ R) ∗ boundary (SparseCore.T d) ∗ unscopedBufs d (W1 (F := F) m d))))
          ∗ boundary (SparseCore.T d : Thread nD τ) ∗ (unscopedBufs d (V0 m d) ∗ owesTC (F := F) d) ∗ levAts (K (F := F)).L (K (F := F)).lev
          ∗ Pipeline.cellsGhost cfgs (EP (F := F)) 0 d ∗ Pipeline.toksInit cfgs (EP (F := F)) 0 d) := by
    unfold SparseCore.Cfg.tcRes Gp
    iintro ⟨#Hctx, ⟨HO, HR⟩, ⟨Hb, Hub, -, -⟩, ⟨Hg, Ht⟩⟩
    ihave Hlev := (SparseCore.Cfg.ctx_levAts κ) $$ Hctx
    isplitl [HR]
    · iintro ⟨Hb, Hub, HO⟩
      rw [wp_ret]
      imodintro
      isplitl [HO HR]
      · isplitl [HO]; · iexact HO
        iexact HR
      isplitl [Hb]; · iexact Hb
      iexact Hub
    isplitl [Hb]; · iexact Hb
    isplitl [Hub HO]
    · isplitl [Hub]; · iexact Hub
      iexact HO
    isplitl [Hlev]; · iexact Hlev
    isplitl [Hg]; · iexact Hg
    iexact Ht
  exact (key.trans hreg).trans hlift

/-- THE REGION'S STATEMENT: the handshake state, the boundary and the arrays around the pallas_call. -/
theorem region : RegionStmt (F := F) m ρ (Gp (F := F)) := fun κ d => by
  unfold SparseCore.Cfg.tcSt
  exact region_core m ρ κ d _

end Cert.Proof.KI
end
-- ==== Proof.KIRun.lean ====
/-
  The kernel program's run: the launch theorem applied to the tile's body, the TensorCore kernel's region and the
  rest of @main.
-/
import proofs.«214985_g80496277062245_cont_9to1_m_1082_20_alg».proof.Proof.KITail
import proofs.«214985_g80496277062245_cont_9to1_m_1082_20_alg».proof.Proof.KITile
import proofs.«214985_g80496277062245_cont_9to1_m_1082_20_alg».proof.Proof.KIRegion

noncomputable section

namespace Cert.Proof.KI

open Cert.KernelIdeal Cert.KernelIdeal.Gen
open Idealize.ShloMosaic Idealize.SL.Sem

variable {F : FTy → Type} [FloatOps F] [∀ e, Nonempty (Elt F e)]

/-- Every weakly fair execution of the kernel program's threads terminates, nothing faulting, with the three results
    at the specification's functions and the argument unchanged. -/
theorem run (m : (ℓ : Loc nD τ sig) → Buf (Elt F) ℓ) (ρ : Dev nD → PrngReg) :
    θ_run (Cert.KernelIdeal.defs (F := F)) (Cert.KernelIdeal.threads (F := F)) ⟨m, fun _ => 0, ρ⟩ (QC m) :=
  run_main m ρ (Gp (F := F)) uP₀ tile_body fundP (hmain_of_region m ρ (Gp (F := F)) (region m ρ))

end Cert.Proof.KI

end
-- ==== Proof.KBCommon.lean ====
/-
  The kernel program as the launch theorem of a SparseCore program sees it, and the ghost state shared by every
  part of the kernel-side proof: the handshakes' rounds, the rounds of the TensorCore pipeline's staging cells, and
  the counters of the tiles' own copies (each tile issues one copy at a time on a semaphore of its own and waits
  for it, so its copies need no schedule).
-/
import proofs.«214985_g80496277062245_cont_9to1_m_1082_20_alg».proof.Defs
import proofs.«214985_g80496277062245_cont_9to1_m_1082_20_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic
import proofs.«214985_g80496277062245_cont_9to1_m_1082_20_alg».proof.Proof.Gen.Kernel
import proofs.«214985_g80496277062245_cont_9to1_m_1082_20_alg».proof.Proof.Gen.Kernel.Skeleton
import proofs.«214985_g80496277062245_cont_9to1_m_1082_20_alg».proof.Proof.Gen.Kernel.Launch
import proofs.«214985_g80496277062245_cont_9to1_m_1082_20_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes' rounds × (pipeline cells' rounds × the copies' counters) -/

abbrev UH : Type := URounds (GSem nD τ sig) ℕ
abbrev UP : Type := URounds (GSem nD τ sig) Unit
abbrev UU : Type := UH × (UP × Counters)

/-- The handshakes' rounds: the left factor. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The TensorCore pipeline's staging cells' rounds: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by
  unfold EH; infer_instance
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## Locations of device `d`'s arrays -/

abbrev aLoc (d : Dev nD) : Loc nD τ sig := (SparseCore.T d).loc main_arg0
/-- The TensorCore kernel's result: the byte mask over tokens × experts × slots. -/
abbrev pLoc (d : Dev nD) : Loc nD τ sig := (SparseCore.T d).loc main_v0
/-- The boolean result. -/
abbrev bLoc (d : Dev nD) : Loc nD τ sig := (SparseCore.T d).loc main_v5
/-- The float result, written by the tiles. -/
abbrev oLoc (d : Dev nD) : Loc nD τ sig := (SparseCore.T d).loc main_v6
/-- The scalar result. -/
abbrev zLoc (d : Dev nD) : Loc nD τ sig := (SparseCore.T d).loc main_cst

/-- The float result and a tile's scratch as the tiles' body table passes them. -/
abbrev oV : Memref sig .scVector .hbm S4x2048x16x256 .f32 := Memref.whole main_v6_scv
abbrev sB : Memref sig .scVector .vmem S16x16x256 .f32 := Memref.whole cc1_scratch0

/-! ## A tile, and the sixteen chunks of the float result it writes -/

/-- The SparseCore and the vector subcore of the grid point `L`. -/
abbrev cV (L : grid1.Coords) : Fin τ.nSC := (L 0).castLE hcore1
abbrev jV (L : grid1.Coords) : Fin τ.nSub := (L 1).castLE hsub1

/-- Chunk `r` of tile `L`: sixteen consecutive tokens of one group, every expert and slot, as the body slices it
    for its `r`-th copy. -/
abbrev chunkRect (L : grid1.Coords) (r : Fin 16) : Rect S4x2048x16x256 :=
  Rect.unit (s := S4x2048x16x256) (k1_off33 L (BitVec.ofNat 32 (16 * r.val))) S1x16x16x256.size (k1_off33_inb L r)
abbrev chunkRef (L : grid1.Coords) (r : Fin 16) : Memref sig .scVector .hbm S16x16x256 .f32 :=
  ((oV : Memref sig .scVector .hbm S4x2048x16x256 .f32).slice (chunkRect L r) (fun _ => rfl)).squeeze S16x16x256 squeezes_S1x16x16x256_S16x16x256
abbrev chunkSet (L : grid1.Coords) (r : Fin 16) : Finset S4x2048x16x256.Idx := (chunkRef L r).view.set

variable [FloatOps F]

/-- The three results' values as contents of device `d`'s buffers. -/
def outF (d : Dev nD) : Buf (Elt F) (oLoc d) := (Cert.Spec.maskF (F := F) : FVec F Cert.Spec.SOut .f32)
def outB (d : Dev nD) : Buf (Elt F) (bLoc d) := (Cert.Spec.maskB : IVec Cert.Spec.SOut 1)
def outZ (d : Dev nD) : Buf (Elt F) (zLoc d) := (Cert.Spec.zeroS (F := F) : FVec F Cert.Spec.S0 .f32)

end Cert.Proof.KB

end
-- ==== Proof.KBPay.lean ====
/-
  What the one SparseCore call carries.  The float result is cut into 2 × 16 × 16 chunks: tile `(c, s)` writes sixteen
  chunks, chunk `r` being sixteen consecutive tokens of one group.  The call hands every SparseCore the chunks of its
  tiles at the launch contents and takes them back at the specification's function; a tile is handed its sixteen
  chunks and hands them back.  Nothing else is carried: the tiles signal nobody but their sequencer.
-/
import proofs.«214985_g80496277062245_cont_9to1_m_1082_20_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The grid point of SparseCore `c`, vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

theorem bound_zero : grid1.bound 0 = 2 := rfl
theorem bound_one : grid1.bound 1 = 16 := rfl

variable (m : (ℓ : Loc nD τ sig) → Buf (Elt F) ℓ)

/-- A tile's sixteen chunks of the float result, at contents `f`. -/
def tileChunks (d : Dev nD) (L : grid1.Coords) (f : Buf (Elt F) (oLoc d)) : sProp 𝕄 :=
  bigSep Finset.univ fun r : Fin 16 => (oLoc d ↦[chunkSet L r]{fullShare} f : sProp 𝕄)

/-- A SparseCore's tiles' chunks, at contents `f`. -/
def coreChunks (d : Dev nD) (c : Fin 2) (f : Buf (Elt F) (oLoc d)) : sProp 𝕄 :=
  bigSep Finset.univ fun s : Fin 16 => tileChunks (F := F) d (coordsV (Fin.cast bound_zero.symm c) (Fin.cast bound_one.symm s)) f

variable [FloatOps F]

def P : (K (F := F)).Pay (nD := nD) (Val := Elt F) (Name := ℕ) (U := UU) where
  st := fun q d c => match q with | 0 => coreChunks (F := F) d (Fin.cast nCore_zero c) (m (oLoc d))
  dn := fun q d c => match q with | 0 => coreChunks (F := F) d (Fin.cast nCore_zero c) (outF d)
  go := fun q d c i => match q with
    | 0 => tileChunks (F := F) d (coordsV (Fin.cast bound_zero.symm (Fin.cast nCore_zero c)) (Fin.cast bound_one.symm (Fin.cast nSub_zero i))) (m (oLoc d))
  td := fun q d c i => match q with
    | 0 => tileChunks (F := F) d (coordsV (Fin.cast bound_zero.symm (Fin.cast nCore_zero c)) (Fin.cast bound_one.symm (Fin.cast nSub_zero i))) (outF d)
  x := fun _ _ => iprop(emp)

instance P_storable : (P (F := F) m).IsStorable where
  st q d c := match q with | 0 => by unfold P coreChunks tileChunks; infer_instance
  dn q d c := match q with | 0 => by unfold P coreChunks tileChunks; infer_instance
  go q d c i := match q with | 0 => by unfold P tileChunks; infer_instance
  td q d c i := match q with | 0 => by unfold P tileChunks; infer_instance

end Cert.Proof.KB

end
-- ==== Proof.KBOffsets33.lean ====
/-
  The closed form of the offset at which a tile slices the float result for its `r`-th copy.  Worker number
  `w = 2 * subcore + core` handles group `w / 8` and, in it, the 256 tokens from `(w % 8) * 256`; its `r`-th chunk
  is the sixteen tokens from `(w % 8) * 256 + 16 * r`.  The printed offset computes this with 32-bit words and
  the sign corrections of floor division, none of which fires on these small non-negative numbers; the closed
  form is decided over the 32 grid points and the 16 chunks.
-/
import proofs.«214985_g80496277062245_cont_9to1_m_1082_20_alg».proof.Proof.KBCommon

namespace Cert.Proof.KB

open Cert.Kernel Cert.Kernel.Gen
open Idealize.ShloMosaic

/-- The worker number of grid point `L`. -/
def wid (L : grid1.Coords) : Nat := 2 * (L 1).val + (L 0).val

theorem wid_lt (L : grid1.Coords) : wid L < 32 := by
  have h0 : (L 0).val < 2 := (L 0).isLt
  have h1 : (L 1).val < 16 := (L 1).isLt
  unfold wid; omega

theorem off33_eq : ∀ (L : grid1.Coords) (r : Fin 16),
    k1_off33 L (BitVec.ofNat 32 (16 * r.val)) = ![(2 * (L 1).val + (L 0).val) / 8, ((2 * (L 1).val + (L 0).val) % 8) * 256 + 16 * r.val, 0, 0] := by
  decide +kernel

end Cert.Proof.KB
-- ==== Proof.KBCover.lean ====
/-
  The 512 chunks tile the float result.  Number the rows of the result (a group and a token) `256 * 8 * g + i`;
  sixteen consecutive rows make a chunk, and chunk `r` of worker `w` is chunk number `16 * w + r` (the worker's
  group is `w / 8` and its first token `(w % 8) * 256`, so its first row is `256 * w`).  An index lies in exactly
  the chunk numbered by its row divided by sixteen; the numbering `(core, subcore, r) ↦ 16 * (2 * subcore + core) + r`
  is a bijection onto the 512 numbers.  So the whole array held at one function is the chunks held at it.
-/
import proofs.«214985_g80496277062245_cont_9to1_m_1082_20_alg».proof.Proof.KBPay
import proofs.«214985_g80496277062245_cont_9to1_m_1082_20_alg».proof.Proof.KBOffsets33

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A chunk's element set is its rectangle's. -/
theorem chunkSet_eq (L : grid1.Coords) (r : Fin 16) : chunkSet L r = (chunkRect L r).set := by
  show (((View.whole (main_v6_scv : Ref sig .scVector)).slice (chunkRect L r)).reshape S16x16x256 squeezes_S1x16x16x256_S16x16x256.numel_eq).set = _
  rw [View.set_reshape, View.set_slice]; exact Finset.map_refl

/-- An index lies in chunk `r` of worker `wid L` iff its row's chunk number is `16 * wid L + r`. -/
theorem mem_chunkSet (L : grid1.Coords) (r : Fin 16) (j : S4x2048x16x256.Idx) :
    j ∈ chunkSet L r ↔ ((j 0).val * 2048 + (j 1).val) / 16 = 16 * wid L + r.val := by
  rw [chunkSet_eq, Rect.mem_set_unit, off33_eq]
  have h0 : (j 0).val < 4 := (j 0).isLt
  have h1 : (j 1).val < 2048 := (j 1).isLt
  have h2 : (j 2).val < 16 := (j 2).isLt
  have h3 : (j 3).val < 256 := (j 3).isLt
  have hw := wid_lt L
  have hr := r.isLt
  unfold wid at *
  constructor
  · intro h
    have a0 := h 0
    have a1 := h 1
    simp only [Matrix.cons_val_zero, Matrix.cons_val_one, Matrix.head_cons] at a0 a1
    omega
  · intro h a
    have e : S1x16x16x256.size = ![1, 16, 16, 256] := rfl
    rw [e]
    fin_cases a <;> simp <;> omega

/-! ## The chunks indexed by (core, subcore, chunk) -/

abbrev CIx : Type := Fin 2 × Fin 16 × Fin 16

/-- The grid point of core `c`, subcore `s`. -/
abbrev tileOf (c : Fin 2) (s : Fin 16) : grid1.Coords := coordsV (Fin.cast bound_zero.symm c) (Fin.cast bound_one.symm s)

theorem wid_tileOf (c : Fin 2) (s : Fin 16) : wid (tileOf c s) = 2 * s.val + c.val := rfl

def chunkOf (t : CIx) : Finset S4x2048x16x256.Idx := chunkSet (tileOf t.1 t.2.1) t.2.2

theorem mem_chunkOf (t : CIx) (j : S4x2048x16x256.Idx) :
    j ∈ chunkOf t ↔ ((j 0).val * 2048 + (j 1).val) / 16 = 16 * (2 * t.2.1.val + t.1.val) + t.2.2.val := by
  unfold chunkOf; rw [mem_chunkSet, wid_tileOf]

/-- Different chunks share no index: an index determines its chunk number, and the number its (core, subcore, chunk). -/
theorem chunks_disjoint : ∀ t ∈ (Finset.univ : Finset CIx), ∀ t' ∈ (Finset.univ : Finset CIx), t ≠ t' → Disjoint (chunkOf t) (chunkOf t') := by
  intro t _ t' _ hne
  refine Finset.disjoint_left.mpr fun j h h' => hne ?_
  rw [mem_chunkOf] at h h'
  obtain ⟨c, s, r⟩ := t
  obtain ⟨c', s', r'⟩ := t'
  have := c.isLt; have := c'.isLt; have := s.isLt; have := s'.isLt; have := r.isLt; have := r'.isLt
  simp only at h h'
  have hc : c.val = c'.val := by omega
  have hs : s.val = s'.val := by omega
  have hr : r.val = r'.val := by omega
  exact Prod.ext (Fin.ext hc) (Prod.ext (Fin.ext hs) (Fin.ext hr))

/-- Every index lies in a chunk: the one numbered by its row divided by sixteen. -/
theorem chunks_cover : (Finset.univ : Finset CIx).biUnion chunkOf = Finset.univ := by
  refine Finset.eq_univ_iff_forall.mpr fun j => Finset.mem_biUnion.mpr ?_
  have h0 : (j 0).val < 4 := (j 0).isLt
  have h1 : (j 1).val < 2048 := (j 1).isLt
  have hn512 : ((j 0).val * 2048 + (j 1).val) / 16 < 512 := by omega
  refine ⟨(⟨(((j 0).val * 2048 + (j 1).val) / 16 / 16) % 2, by omega⟩, ⟨(((j 0).val * 2048 + (j 1).val) / 16 / 16) / 2, by omega⟩,
    ⟨(((j 0).val * 2048 + (j 1).val) / 16) % 16, by omega⟩), Finset.mem_univ _, ?_⟩
  rw [mem_chunkOf]; simp only; omega

/-- The whole float result at `f` is its 512 chunks at `f`. -/
theorem whole_chunks (d : Dev nD) (f : Buf (Elt F) (oLoc d)) :
    (oLoc d ↦{fullShare} f : sProp 𝕄) = bigSep Finset.univ fun t : CIx => (oLoc d ↦[chunkOf t]{fullShare} f : sProp 𝕄) := by
  rw [← pointsTo_biUnion Finset.univ (ℓ := oLoc d) chunkOf chunks_disjoint, chunks_cover]; try rfl

theorem chunks_nested (d : Dev nD) (f : Buf (Elt F) (oLoc d)) :
    (bigSep Finset.univ fun t : CIx => (oLoc d ↦[chunkOf t]{fullShare} f : sProp 𝕄)) = bigSep Finset.univ fun c : Fin 2 => coreChunks (F := F) d c f := by
  rw [bigSep_univ_prod]; refine bigSep_congr fun c _ => ?_
  rw [bigSep_univ_prod]; rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F] (m : (ℓ : Loc nD τ sig) → Buf (Elt F) ℓ)

theorem st_eq (d : Dev nD) :
    (bigSep Finset.univ fun c : Fin ((K (F := F)).nCore 0) => (P (F := F) m).st 0 d c) = (oLoc d ↦{fullShare} m (oLoc d) : sProp 𝕄) := by
  rw [whole_chunks, chunks_nested]
  exact bigSep_cores (F := F) (fun c => coreChunks (F := F) d c (m (oLoc d)))

theorem dn_eq (d : Dev nD) :
    (bigSep Finset.univ fun c : Fin ((K (F := F)).nCore 0) => (P (F := F) m).dn 0 d c) = (oLoc d ↦{fullShare} outF d : sProp 𝕄) := by
  rw [whole_chunks, chunks_nested]
  exact bigSep_cores (F := F) (fun c => coreChunks (F := F) d c (outF d))

/-- The whole float result at the launch contents is what the call hands the SparseCores. -/
theorem st_intro (d : Dev nD) :
    (oLoc d ↦{fullShare} m (oLoc d) : sProp 𝕄) ⊢ bigSep Finset.univ fun c : Fin ((K (F := F)).nCore 0) => (P (F := F) m).st 0 d c :=
  Entails.of_eq (st_eq m d).symm

/-- What the call takes back from the SparseCores is the whole float result at the specification's function. -/
theorem dn_elim (d : Dev nD) :
    (bigSep Finset.univ fun c : Fin ((K (F := F)).nCore 0) => (P (F := F) m).dn 0 d c) ⊢ (oLoc d ↦{fullShare} outF d : sProp 𝕄) :=
  Entails.of_eq (dn_eq m d)

end Cert.Proof.KB

end
-- ==== Proof.KBLaunch.lean ====
/-
  The launch: from the tile's body obligation and @main's proof on the TensorCore to the run of the whole
  family of threads, with the argument unchanged and the three results at the specification's functions.
  The split of a SparseCore's chunks among its tiles is the identity (the call already hands chunks); the
  ghost state's launch element is the handshakes' rounds, the pipeline's staging cells' rounds, and nothing for the
  tiles' own copies.
-/
import proofs.«214985_g80496277062245_cont_9to1_m_1082_20_alg».proof.Proof.KBCover

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] (m : (ℓ : Loc nD τ sig) → Buf (Elt F) ℓ) (ρ : Dev nD → PrngReg)

/-! ## The tile's obligation, from its body at a symbolic grid point -/

/-- The body of a tile at grid point `L`: from its sixteen chunks at any contents, its scoped storage and what it
    owes, to the chunks at the specification's function. -/
def TileBody : Prop :=
  ∀ (hF : (K (F := F)).Facts) (d : Dev nD) (L : grid1.Coords) (f0 : Buf (Elt F) (oLoc d)) (O : CellTallies nD τ sig (HIx 1)) (W : Waits sig (HIx 1)),
    (∀ g, O g none = 0) →
    iprop(levAts (K (F := F)).L (K (F := F)).lev ∗ tileChunks (F := F) d L f0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L oV (Memref.isWhole_whole _) sB (Memref.isWhole_whole _) cc1_scoped0 cc1_scoped1 cc1_scoped2 cc1_scoped3 cc1_scoped4 cc1_scoped5 cc1_scoped6 cc1_scoped7
            cc1_scoped8 cc1_scoped9 cc1_scoped10 cc1_scoped11 cc1_scoped12 cc1_scoped13 cc1_scoped14 cc1_scoped15)
          fun _ => iprop(tileChunks (F := F) d L (outF d) ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 1 ()
      = SparseCore.onTile hcore1 hsub1 (fun c s => cc1_k (coordsV c s)
          oV (Memref.isWhole_whole _) sB (Memref.isWhole_whole _) cc1_scoped0 cc1_scoped1 cc1_scoped2 cc1_scoped3 cc1_scoped4 cc1_scoped5 cc1_scoped6 cc1_scoped7
            cc1_scoped8 cc1_scoped9 cc1_scoped10 cc1_scoped11 cc1_scoped12 cc1_scoped13 cc1_scoped14 cc1_scoped15) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem drop_emp {A R : sProp 𝕄} : iprop(A ∗ emp ∗ R) ⊢ iprop(A ∗ R) := by
  iintro ⟨HA, -, HR⟩
  isplitl [HA]; · iexact HA
  iexact HR

theorem tileObl (hb : TileBody (F := F)) (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hgo : (P m).go 0 d c i = tileChunks (F := F) d (coordsV ⟨_, hc.1⟩ ⟨_, hc.2⟩) (m (oLoc d)) := rfl
  have htd : (P m).td 0 d c i = tileChunks (F := F) d (coordsV ⟨_, hc.1⟩ ⟨_, hc.2⟩) (outF d) := rfl
  have hx : (P m).x 0 (V d ((K (F := F)).core 0 c) ((K (F := F)).sub 0 i)) = iprop(emp) := rfl
  rw [hgo, htd, hx]
  exact drop_emp.trans ((hb hF d _ (m (oLoc d)) O W hO).trans (wp_mono frame _ _ fun _ => obl_post))

/-! ## A SparseCore's chunks are its tiles' chunks -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show coreChunks (F := F) d (Fin.cast nCore_zero c) (m (oLoc d)) ⊢ |={Set.univ}=> iprop(
      (bigSep Finset.univ fun i : Fin ((K (F := F)).nSub 0) =>
        tileChunks (F := F) d (coordsV (Fin.cast bound_zero.symm (Fin.cast nCore_zero c)) (Fin.cast bound_one.symm (Fin.cast nSub_zero i))) (m (oLoc d)))
      ∗ ((bigSep Finset.univ fun i : Fin ((K (F := F)).nSub 0) =>
          tileChunks (F := F) d (coordsV (Fin.cast bound_zero.symm (Fin.cast nCore_zero c)) (Fin.cast bound_one.symm (Fin.cast nSub_zero i))) (outF d))
          -∗ coreChunks (F := F) d (Fin.cast nCore_zero c) (outF d)))
  rw [bigSep_tasks (F := F) (fun s => tileChunks (F := F) d (coordsV (Fin.cast bound_zero.symm (Fin.cast nCore_zero c)) (Fin.cast bound_one.symm s)) (m (oLoc d))),
    bigSep_tasks (F := F) (fun s => tileChunks (F := F) d (coordsV (Fin.cast bound_zero.symm (Fin.cast nCore_zero c)) (Fin.cast bound_one.symm s)) (outF d))]
  unfold coreChunks
  iintro H; imodintro
  isplitl [H]; · iexact H
  iintro H; iexact H

/-! ## The launch element -/

def u₀ (uP₀ : UP) : UU := (initOf (K (F := F)).hsCells (K (F := F)).hsToks, (uP₀, 1))

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

omit [FloatOps F] in
theorem bigSep_emp' {I : Type} (s : Finset I) : (bigSep s fun _ => iprop(emp)) = (iprop(emp) : sProp 𝕄) := bigSep_emp_const s

theorem hu₀ (Gp : Dev nD → sProp 𝕄) (uP₀ : UP) (fundP : (BI.own (EP (F := F) uP₀) : sProp 𝕄) ⊢ |={Set.univ}=> bigSep Finset.univ Gp) :
    (ownU (u₀ (F := F) uP₀) : sProp 𝕄)
    ⊢ |={Set.univ}=> iprop(BI.own (EH (initOf (K (F := F)).hsCells (K (F := F)).hsToks)) ∗ bigSep Finset.univ Gp
        ∗ bigSep Finset.univ fun thr : Thread nD τ => bigSep Finset.univ fun q : Fin 1 => (P m).x q thr) := by
  unfold u₀
  iintro Hu
  ihave H := (ownU_split _ _) $$ Hu
  icases H with ⟨HH, HP⟩
  imod fundP $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main keeps, and how the final memory reads it -/

/-- The argument unchanged and the three results at the specification's functions. -/
abbrev FIN (d : Dev nD) : sProp 𝕄 :=
  iprop((aLoc d ↦{fullShare} m (aLoc d)) ∗ (zLoc d ↦{fullShare} outZ d) ∗ (oLoc d ↦{fullShare} outF d) ∗ (bLoc d ↦{fullShare} outB d))

def fq (d : Dev nD) (s' : Phys nD τ sig (Elt F)) : Prop :=
  s'.mem.mem (zLoc d) = outZ d ∧ s'.mem.mem (oLoc d) = outF d ∧ s'.mem.mem (bLoc d) = outB d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hz, Ho, Hb⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := zLoc d) (I := Finset.univ) (q := fullShare) (f := outZ d))) $$ [HSI Hz]
  · isplitl [HSI] <;> iassumption
  icases H with ⟨%h2, HSI, -⟩
  ihave H := (persistent_entails_right (SI_pointsTo_agree (st := s') (ℓ := oLoc d) (I := Finset.univ) (q := fullShare) (f := outF d))) $$ [HSI Ho]
  · isplitl [HSI] <;> iassumption
  icases H with ⟨%h3, HSI, -⟩
  ihave H := (SI_pointsTo_agree (st := s') (ℓ := bLoc d) (I := Finset.univ) (q := fullShare) (f := outB d)) $$ [HSI Hb]
  · isplitl [HSI] <;> iassumption
  icases H with %h4
  ipureintro
  exact ⟨funext fun i => h2 i (Finset.mem_univ i), funext fun i => h3 i (Finset.mem_univ i), funext fun i => h4 i (Finset.mem_univ i),
    funext fun i => h1 i (Finset.mem_univ i)⟩

/-! ## The program's run -/

/-- Every final memory has the three results at the specification's functions and the argument unchanged. -/
def QC : PUnit × MemSt nD τ sig (Elt F) → Prop := fun r => ∀ c : Dev nD,
  r.2.mem (zLoc c) = outZ c ∧ r.2.mem (oLoc c) = outF c ∧ r.2.mem (bLoc c) = outB c ∧ r.2.mem (aLoc c) = m (aLoc c)

theorem run_main [∀ e, Nonempty (Elt F e)] (Gp : Dev nD → sProp 𝕄) (uP₀ : UP) (hb : TileBody (F := F))
    (fundP : (BI.own (EP (F := F) uP₀) : sProp 𝕄) ⊢ |={Set.univ}=> bigSep Finset.univ Gp)
    (hmain : ∀ (κ : GSem nD τ sig → ℕ) (d : Dev nD),
      iprop((K (F := F)).ctx EH (P m) κ ∗ (K (F := F)).tcSt EH d 0 ∗ (K (F := F)).tcRes m ρ d ∗ Gp d)
        ⊢ wp frame (wpE ((K (F := F)).defs (D (F := F))) 𝒱 (SparseCore.T d) none) Set.univ (main d)
            fun _ => iprop((K (F := F)).tcSt EH d 1 ∗ FIN m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb facts)
    (fun q _ => match q with | 0 => SparseCore.Cfg.VecSplit.of_plain (vecSplit m))
    m ρ main Gp (FIN m) (u₀ (F := F) uP₀) (sep_elim_left.trans (hu₀ m Gp uP₀ fundP)) hmain (fq m) (hfin m) (QC m) (fun _ h => h)

end Cert.Proof.KB

end
-- ==== Proof.KBMainDefs.lean ====
/-
  The interface between the TensorCore kernel's region and the rest of @main: the byte mask the kernel leaves
  (1 at a token's place, 0 elsewhere), the TensorCore's arrays after the region, and the region's statement.
-/
import proofs.«214985_g80496277062245_cont_9to1_m_1082_20_alg».proof.Proof.KBLaunch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-- The byte mask the TensorCore kernel leaves: 1 at (token, token % 16, token / 16), 0 elsewhere. -/
def proxy (d : Dev nD) : Buf (Elt F) (pLoc d) :=
  (fun j => if (j 1).val = (j 0).val % 16 ∧ (j 2).val = (j 0).val / 16 then 1#8 else 0#8 : IVec S2048x16x256 8)

variable (m : (ℓ : Loc nD τ sig) → Buf (Elt F) ℓ) (ρ : Dev nD → PrngReg)

/-- The TensorCore's arrays after the pallas_call: the launch contents, the byte mask in place. -/
def W1 (d : Dev nD) : (b : Ref sig .tc) → Buf (Elt F) ((SparseCore.T d : Thread nD τ).loc b) :=
  Function.update (fun b => m ((SparseCore.T d : Thread nD τ).loc b)) main_v0 (proxy (F := F) d)

variable [FloatOps F]

/-- The pallas_call's region inside @main: from what the launch deals the TensorCore (and the pipeline's ghost state `Gp d`)
    to the region's boundary again, the handshake state untouched, the arrays at `W1`. -/
def RegionStmt (Gp : Dev nD → sProp 𝕄) : Prop :=
  ∀ (κ : GSem nD τ sig → ℕ) (d : Dev nD),
    iprop((K (F := F)).ctx EH (P m) κ ∗ (K (F := F)).tcSt EH d 0 ∗ (K (F := F)).tcRes m ρ d ∗ Gp d)
      ⊢ wp frame (wpE ((K (F := F)).defs (D (F := F))) 𝒱 (SparseCore.T d) none) Set.univ
          (Prog.lift (.customCall (SparseCore.inner (Pipeline.entry 0)) ()))
          fun _ => iprop((K (F := F)).tcSt EH d 0 ∗ boundary (SparseCore.T d) ∗ unscopedBufs d (W1 (F := F) m d))

end Cert.Proof.KB

end
-- ==== Proof.KBTail.lean ====
/-
  @main on the TensorCore after its pallas_call: two broadcasts of the byte mask over the groups, a comparison
  with zero, the SparseCore call, and the scalar constant.  The byte mask holds 1 exactly at a token's place, so its
  broadcast compared with zero is the boolean mask; the call turns the float result into the float mask.
-/
import proofs.«214985_g80496277062245_cont_9to1_m_1082_20_alg».proof.Proof.KBMainDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_sdiff_result wp_hlo_within)

variable {F : FTy → Type}

local notation "𝕄" => MT nD τ sig (HIx 1) (Elt F) ℕ UU ℕ

/-! ## The TensorCore's arrays -/

abbrev a' : DevRef τ sig := Proc.devRef .tc (main_arg0 : Ref sig .tc)
abbrev p' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev c' : DevRef τ sig := Proc.devRef .tc (main_c : Ref sig .tc)
abbrev v3' : DevRef τ sig := Proc.devRef .tc (main_v3 : Ref sig .tc)
abbrev v4' : DevRef τ sig := Proc.devRef .tc (main_v4 : Ref sig .tc)
abbrev b' : DevRef τ sig := Proc.devRef .tc (main_v5 : Ref sig .tc)
abbrev o' : DevRef τ sig := Proc.devRef .tc (main_v6 : Ref sig .tc)
abbrev z' : DevRef τ sig := Proc.devRef .tc (main_cst : Ref sig .tc)

/-- All of them: every unscoped buffer of the TensorCore. -/
abbrev SALL : Finset (DevRef τ sig) := {a', p', v1', v2', c', v3', v4', b', o', z'}

theorem unscopedBufs_all (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_v0 ↦{fullShare} W main_v0)
      ∗ ((SparseCore.T d).loc main_v1 ↦{fullShare} W main_v1) ∗ ((SparseCore.T d).loc main_v2 ↦{fullShare} W main_v2)
      ∗ ((SparseCore.T d).loc main_c ↦{fullShare} W main_c) ∗ ((SparseCore.T d).loc main_v3 ↦{fullShare} W main_v3)
      ∗ ((SparseCore.T d).loc main_v4 ↦{fullShare} W main_v4) ∗ ((SparseCore.T d).loc main_v5 ↦{fullShare} W main_v5)
      ∗ ((SparseCore.T d).loc main_v6 ↦{fullShare} W main_v6) ∗ ((SparseCore.T d).loc main_cst ↦{fullShare} W main_cst)) := by
  unfold unscopedBufs
  rw [show (Finset.univ.filter fun b : Ref sig .tc => ¬ b.isScoped) = {main_arg0, main_v0, main_v1, main_v2, main_c, main_v3, main_v4, main_v5, main_v6, main_cst} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem held_SALL (d : Dev nD) (W : Valuation τ sig (Elt F)) :
    (held (T d) SALL W : sProp 𝕄) = iprop(((SparseCore.T d).loc main_arg0 ↦{fullShare} W a') ∗ ((SparseCore.T d).loc main_v0 ↦{fullShare} W p')
      ∗ ((SparseCore.T d).loc main_v1 ↦{fullShare} W v1') ∗ ((SparseCore.T d).loc main_v2 ↦{fullShare} W v2')
      ∗ ((SparseCore.T d).loc main_c ↦{fullShare} W c') ∗ ((SparseCore.T d).loc main_v3 ↦{fullShare} W v3')
      ∗ ((SparseCore.T d).loc main_v4 ↦{fullShare} W v4') ∗ ((SparseCore.T d).loc main_v5 ↦{fullShare} W b')
      ∗ ((SparseCore.T d).loc main_v6 ↦{fullShare} W o') ∗ ((SparseCore.T d).loc main_cst ↦{fullShare} W z')) := by
  unfold held SALL
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-! ## The host operations, as @main prints them -/

variable [FloatOps F]

abbrev op1 : HloOp τ sig (Elt F) := StableHlo.unary main_v0 main_v1 (broadcastInDim S1x2048x16x256 ![1, 2, 3] bcast_S2048x16x256_S1x2048x16x256_1_2_3 : (⟨S2048x16x256, .i8⟩ : BufTy).Contents (Elt F) → (⟨S1x2048x16x256, .i8⟩ : BufTy).Contents (Elt F))
abbrev op2 : HloOp τ sig (Elt F) := StableHlo.unary main_v1 main_v2 (broadcastInDim S4x2048x16x256 ![0, 1, 2, 3] bcast_S1x2048x16x256_S4x2048x16x256_0_1_2_3 : (⟨S1x2048x16x256, .i8⟩ : BufTy).Contents (Elt F) → (⟨S4x2048x16x256, .i8⟩ : BufTy).Contents (Elt F))
abbrev op3 : HloOp τ sig (Elt F) := StableHlo.nullary main_c (constantI S_ 8 0#8)
abbrev op4 : HloOp τ sig (Elt F) := StableHlo.unary main_c main_v3 (broadcastInDim S4x2048x16x256 ![] bcast_S_S4x2048x16x256 : (⟨S_, .i8⟩ : BufTy).Contents (Elt F) → (⟨S4x2048x16x256, .i8⟩ : BufTy).Contents (Elt F))
abbrev op5 : HloOp τ sig (Elt F) := StableHlo.binary main_v2 main_v3 main_v4 (cmpi .ne : (⟨S4x2048x16x256, .i8⟩ : BufTy).Contents (Elt F) → (⟨S4x2048x16x256, .i8⟩ : BufTy).Contents (Elt F) → (⟨S4x2048x16x256, .i1⟩ : BufTy).Contents (Elt F))
abbrev op6 : HloOp τ sig (Elt F) := StableHlo.unary main_v4 main_v5 (id : (⟨S4x2048x16x256, .i1⟩ : BufTy).Contents (Elt F) → (⟨S4x2048x16x256, .i1⟩ : BufTy).Contents (Elt F))
abbrev op7 : HloOp τ sig (Elt F) := StableHlo.nullary main_cst (constant S_ .f32 0x00000000#32)

/-- The byte mask broadcast over the groups and compared with zero is the boolean mask: the byte at
    `(j 1, j 2, j 3)` is 1 exactly where token `j 1` is dispatched. -/
theorem bool_value (d : Dev nD) :
    (cmpi .ne (broadcastInDim S4x2048x16x256 ![0, 1, 2, 3] bcast_S1x2048x16x256_S4x2048x16x256_0_1_2_3
        (broadcastInDim S1x2048x16x256 ![1, 2, 3] bcast_S2048x16x256_S1x2048x16x256_1_2_3 (proxy (F := F) d : IVec S2048x16x256 8)))
      (broadcastInDim S4x2048x16x256 ![] bcast_S_S4x2048x16x256 (constantI S_ 8 0#8)) : IVec S4x2048x16x256 1) = outB (F := F) d := by
  funext j
  simp only [cmpi, broadcastInDim, constantI, proxy, outB, Cert.Spec.maskB, Cert.Spec.Hit, IntOp.cmpi]
  have hs : (pLoc d).ty.shape.size = ![2048, 16, 256] := rfl
  simp [hs]
  by_cases hc : (j 2).val = (j 1).val % 16 ∧ (j 3).val = (j 1).val / 16 <;> simp [hc]

/-! ## The valuations -/

variable (m : (ℓ : Loc nD τ sig) → Buf (Elt F) ℓ) (ρ : Dev nD → PrngReg)

/-- The launch valuation; after the pallas_call, the byte mask in place. -/
def tailV0 (d : Dev nD) : Valuation τ sig (Elt F) := fun b => m (d, b)
def tailV1 (d : Dev nD) : Valuation τ sig (Elt F) := Function.update (tailV0 m d) p' (proxy (F := F) d)
/-- After the six operations before the call. -/
def R6 (d : Dev nD) : Valuation τ sig (Elt F) :=
  StableHlo.after [op1 (F := F), op2, op3, op4, op5, op6] (tailV1 m d)

theorem unscoped_held (d : Dev nD) : (unscopedBufs d (W1 (F := F) m d) : sProp 𝕄) = held (T d) SALL (tailV1 m d) := by
  rw [unscopedBufs_all, held_SALL]; rfl

/-- @main after its first line. -/
def tailProg (d : Dev nD) : Prog (TpuEff nD τ sig (Elt F) (SparseCore.Sig (Pipeline.Sig Λ₀ (Fin 1) fun p => (pcfgs (F := F) p).Adm) 1) .tc) PUnit := do
  hlo rfl (op1 (F := F)) (fun _ => .ret ⟨⟩)
  hlo rfl (op2 (F := F)) (fun _ => .ret ⟨⟩)
  hlo rfl (op3 (F := F)) (fun _ => .ret ⟨⟩)
  hlo rfl (op4 (F := F)) (fun _ => .ret ⟨⟩)
  hlo rfl (op5 (F := F)) (fun _ => .ret ⟨⟩)
  hlo rfl (op6 (F := F)) (fun _ => .ret ⟨⟩)
  sc.run d 0
  hlo rfl (op7 (F := F)) (fun _ => .ret ⟨⟩)
  pure ⟨⟩

theorem main_eq (d : Dev nD) :
    main (F := F) d = (Prog.lift (.customCall (SparseCore.inner (Pipeline.entry 0)) ()) >>= fun _ => tailProg (F := F) d) := rfl

/-! ## What the valuations hold -/

theorem R6_o (d : Dev nD) : R6 (F := F) m d o' = m (oLoc d) := by
  unfold R6; after_results
  exact Function.update_of_ne (show o' ≠ p' by decide) _ _
theorem R6_a (d : Dev nD) : R6 (F := F) m d a' = m (aLoc d) := by
  unfold R6; after_results
  exact Function.update_of_ne (show a' ≠ p' by decide) _ _
theorem R6_b (d : Dev nD) : R6 (F := F) m d b' = outB (F := F) d := by
  unfold R6; after_results
  rw [show tailV1 (F := F) m d p' = proxy (F := F) d from Function.update_self _ _ _]
  exact bool_value d

/-! ## The tail of @main -/

omit [FloatOps F] in
theorem held_single (d : Dev nD) (b : DevRef τ sig) (W : Valuation τ sig (Elt F)) :
    (held (T d) {b} W : sProp 𝕄) = ((d, b) ↦{fullShare} W b) := by
  unfold held; rw [bigSep_singleton]

/-- The rest of the arrays after the last constant: the argument, the scalar, the boolean mask, and the others. -/
theorem held_fin (d : Dev nD) :
    (held (T d) (SALL \ {o'}) ((op7 (F := F)).result (R6 m d)) : sProp 𝕄)
      = iprop((aLoc d ↦{fullShare} m (aLoc d)) ∗ (zLoc d ↦{fullShare} outZ d) ∗ (bLoc d ↦{fullShare} outB d)
          ∗ held (T d) ((((SALL \ {o'}) \ {a'}) \ {z'}) \ {b'}) ((op7 (F := F)).result (R6 m d))) := by
  unfold held
  rw [show (SALL \ {o'} : Finset (DevRef τ sig)) = insert a' (insert z' (insert b' ((((SALL \ {o'}) \ {a'}) \ {z'}) \ {b'}))) by decide,
    SparseCore.bigSep_insert' (by decide), SparseCore.bigSep_insert' (by decide), SparseCore.bigSep_insert' (by decide)]
  have ea : (op7 (F := F)).result (R6 m d) a' = m (aLoc d) := by
    show StableHlo.after [op1 (F := F), op2, op3, op4, op5, op6, op7] (tailV1 m d) a' = _
    after_results
    exact Function.update_of_ne (show a' ≠ p' by decide) _ _
  have ez : (op7 (F := F)).result (R6 m d) z' = outZ (F := F) d := by
    show StableHlo.after [op1 (F := F), op2, op3, op4, op5, op6, op7] (tailV1 m d) z' = _
    after_results
    rfl
  have eb : (op7 (F := F)).result (R6 m d) b' = outB (F := F) d := by
    show StableHlo.after [op1 (F := F), op2, op3, op4, op5, op6, op7] (tailV1 m d) b' = _
    after_results
    rw [show tailV1 (F := F) m d p' = proxy (F := F) d from Function.update_self _ _ _]
    exact bool_value d
  rw [ea, ez, eb]
  rfl

theorem hop1 : (op1 (F := F)).bufs ⊆ SALL := show ({p', v1'} : Finset (DevRef τ sig)) ⊆ SALL by decide
theorem hop2 : (op2 (F := F)).bufs ⊆ SALL := show ({v1', v2'} : Finset (DevRef τ sig)) ⊆ SALL by decide
theorem hop3 : (op3 (F := F)).bufs ⊆ SALL := show ({c'} : Finset (DevRef τ sig)) ⊆ SALL by decide
theorem hop4 : (op4 (F := F)).bufs ⊆ SALL := show ({c', v3'} : Finset (DevRef τ sig)) ⊆ SALL by decide
theorem hop5 : (op5 (F := F)).bufs ⊆ SALL := show ({v2', v3', v4'} : Finset (DevRef τ sig)) ⊆ SALL by decide
theorem hop6 : (op6 (F := F)).bufs ⊆ SALL := show ({v4', b'} : Finset (DevRef τ sig)) ⊆ SALL by decide
theorem hop7 : (op7 (F := F)).bufs ⊆ SALL \ {o'} := show ({z'} : Finset (DevRef τ sig)) ⊆ SALL \ {o'} by decide

theorem tail (κ : GSem nD τ sig → ℕ) (d : Dev nD) :
    iprop((K (F := F)).ctx EH (P m) κ ∗ ((K (F := F)).tcSt EH d 0 ∗ boundary (SparseCore.T d) ∗ unscopedBufs d (W1 (F := F) m d)))
      ⊢ wp frame (wpE ((K (F := F)).defs (D (F := F))) 𝒱 (SparseCore.T d) none) Set.univ (tailProg (F := F) d)
          fun _ => iprop((K (F := F)).tcSt EH d 1 ∗ FIN m d) := by
  rw [unscoped_held]
  simp only [tailProg, wp_bind, wp_pure]
  iintro ⟨#Hctx, Hst, Hb, Hheld⟩
  iapply (wp_hlo_within 𝒱 (SparseCore.T d) none Set.univ (op := op1) (S := SALL) hop1 (V := tailV1 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := SALL) hop2 (V := StableHlo.after [op1 (F := F)] (tailV1 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := SALL) hop3 (V := StableHlo.after [op1 (F := F), op2] (tailV1 m d))) $$ [Hb Hheld]
  · isplitl [Hb]; · iexact Hb
    iexact Hheld
  iintro ⟨Hb, Hheld⟩
  rw [wp_ret]; imodintro
  iapply (wp_hlo_within 𝒱 (SparseCore.T d) none Set.univ (op := op4) (S := SALL) hop4 (V := StableHlo.after [op1 (F := F), op2, op3] (tailV1 m d))) $$ [Hb Hheld]
  · isplitl [Hb]; · iexact Hb
    iexact Hheld
  iintro ⟨Hb, Hheld⟩
  rw [wp_ret]; imodintro
  iapply (wp_hlo_within 𝒱 (SparseCore.T d) none Set.univ (op := op5) (S := SALL) hop5 (V := StableHlo.after [op1 (F := F), op2, op3, op4] (tailV1 m d))) $$ [Hb Hheld]
  · isplitl [Hb]; · iexact Hb
    iexact Hheld
  iintro ⟨Hb, Hheld⟩
  rw [wp_ret]; imodintro
  iapply (wp_hlo_within 𝒱 (SparseCore.T d) none Set.univ (op := op6) (S := SALL) hop6 (V := StableHlo.after [op1 (F := F), op2, op3, op4, op5] (tailV1 m d))) $$ [Hb Hheld]
  · isplitl [Hb]; · iexact Hb
    iexact Hheld
  iintro ⟨Hb, Hheld⟩
  rw [wp_ret]; imodintro
  -- the float result out of the held arrays, to the SparseCores and back
  ihave Hheld := (Entails.of_eq (show (held (T d) SALL ((op6 (F := F)).result (StableHlo.after [op1 (F := F), op2, op3, op4, op5] (tailV1 m d))) : sProp 𝕄)
      = held (T d) SALL (R6 m d) from rfl)) $$ Hheld
  ihave Hh := (Entails.of_eq (held_sub_split (T d) (T := {o'}) (S := SALL) (by decide) (R6 m d))) $$ Hheld
  icases Hh with ⟨Ho, Hrest⟩
  ihave Ho := (Entails.of_eq ((held_single (F := F) d o' (R6 m d)).trans (by rw [R6_o]))) $$ Ho
  iapply ((K (F := F)).wp_run (D (F := F)) 𝒱 (EH := EH) (P := P m) κ d 0) $$ [Hst Ho Hb Hrest]
  isplitr; · iexact Hctx
  isplitl [Hst]; · iexact Hst
  isplitl [Ho]; · iapply (st_intro m d); iexact Ho
  iintro ⟨Hst, Hdn⟩
  ihave Ho := (dn_elim m d) $$ Hdn
  -- the scalar constant
  iapply (wp_hlo_within 𝒱 (SparseCore.T d) none Set.univ (op := op7) (S := SALL \ {o'}) hop7 (V := R6 m d)) $$ [Hb Hrest]
  · isplitl [Hb]; · iexact Hb
    iexact Hrest
  iintro ⟨Hb, Hrest⟩
  ihave Hh := (Entails.of_eq (held_fin m d)) $$ Hrest
  icases Hh with ⟨Ha, Hz, Hbm, -⟩
  rw [wp_ret]; imodintro; imodintro
  isplitl [Hst]; · iexact Hst
  isplitl [Ha]; · iexact Ha
  isplitl [Hz]; · iexact Hz
  isplitl [Ho]; · iexact Ho
  iexact Hbm

/-! ## @main: the region, then the tail -/

theorem hmain_of_region (Gp : Dev nD → sProp 𝕄) (hreg : RegionStmt (F := F) m ρ Gp) (κ : GSem nD τ sig → ℕ) (d : Dev nD) :
    iprop((K (F := F)).ctx EH (P m) κ ∗ (K (F := F)).tcSt EH d 0 ∗ (K (F := F)).tcRes m ρ d ∗ Gp d)
      ⊢ wp frame (wpE ((K (F := F)).defs (D (F := F))) 𝒱 (SparseCore.T d) none) Set.univ (main d)
          fun _ => iprop((K (F := F)).tcSt EH d 1 ∗ FIN m d) := by
  rw [main_eq, wp_bind]
  refine BIBase.Entails.trans ?_ ((wp_frame_l frame _ _ (R := (K (F := F)).ctx EH (P m) κ)).trans (wp_mono frame _ _ fun _ => tail m κ d))
  iintro ⟨#Hctx, H⟩
  isplitr; · iexact Hctx
  iapply (hreg κ d)
  isplitr; · iexact Hctx
  iexact H

end Cert.Proof.KB

end
-- ==== Proof.KBOffsets.lean ====
/-
  Closed forms of the offsets at which a tile addresses its scratch.  In the zeroing loop trip `t` addresses row
  `(t / 16, t % 16)` of the scratch, at the sixteen lanes from `16 * k` for the `k`-th store of the trip.  In a chunk
  the `l`-th store addresses row `(l, l)`, at the sixteen lanes from `16 * (w % 8)`, `w` the worker number.  The
  printed offsets compute these with 32-bit words and the sign corrections of floor division, none of which fires on
  these small non-negative numbers; each closed form is decided over the 256 trips or the 32 grid points.
-/
import proofs.«214985_g80496277062245_cont_9to1_m_1082_20_alg».proof.Proof.KBCommon

namespace Cert.Proof.KB

open Cert.Kernel Cert.Kernel.Gen
open Idealize.ShloMosaic

/-! ## The zeroing loop -/

theorem trips_eq : k1_t1_loop.trips = 256 := by decide +kernel

theorem off1_eq : ∀ t : Fin k1_t1_loop.trips, k1_off1 t = ![t.val / 16, t.val % 16, 0] := by
  decide +kernel
theorem off2_eq : ∀ t : Fin k1_t1_loop.trips, k1_off2 t = ![t.val / 16, t.val % 16, 16] := by
  decide +kernel
theorem off3_eq : ∀ t : Fin k1_t1_loop.trips, k1_off3 t = ![t.val / 16, t.val % 16, 32] := by
  decide +kernel
theorem off4_eq : ∀ t : Fin k1_t1_loop.trips, k1_off4 t = ![t.val / 16, t.val % 16, 48] := by
  decide +kernel
theorem off5_eq : ∀ t : Fin k1_t1_loop.trips, k1_off5 t = ![t.val / 16, t.val % 16, 64] := by
  decide +kernel
theorem off6_eq : ∀ t : Fin k1_t1_loop.trips, k1_off6 t = ![t.val / 16, t.val % 16, 80] := by
  decide +kernel
theorem off7_eq : ∀ t : Fin k1_t1_loop.trips, k1_off7 t = ![t.val / 16, t.val % 16, 96] := by
  decide +kernel
theorem off8_eq : ∀ t : Fin k1_t1_loop.trips, k1_off8 t = ![t.val / 16, t.val % 16, 112] := by
  decide +kernel
theorem off9_eq : ∀ t : Fin k1_t1_loop.trips, k1_off9 t = ![t.val / 16, t.val % 16, 128] := by
  decide +kernel
theorem off10_eq : ∀ t : Fin k1_t1_loop.trips, k1_off10 t = ![t.val / 16, t.val % 16, 144] := by
  decide +kernel
theorem off11_eq : ∀ t : Fin k1_t1_loop.trips, k1_off11 t = ![t.val / 16, t.val % 16, 160] := by
  decide +kernel
theorem off12_eq : ∀ t : Fin k1_t1_loop.trips, k1_off12 t = ![t.val / 16, t.val % 16, 176] := by
  decide +kernel
theorem off13_eq : ∀ t : Fin k1_t1_loop.trips, k1_off13 t = ![t.val / 16, t.val % 16, 192] := by
  decide +kernel
theorem off14_eq : ∀ t : Fin k1_t1_loop.trips, k1_off14 t = ![t.val / 16, t.val % 16, 208] := by
  decide +kernel
theorem off15_eq : ∀ t : Fin k1_t1_loop.trips, k1_off15 t = ![t.val / 16, t.val % 16, 224] := by
  decide +kernel
theorem off16_eq : ∀ t : Fin k1_t1_loop.trips, k1_off16 t = ![t.val / 16, t.val % 16, 240] := by
  decide +kernel

/-! ## A chunk's sixteen stores -/

theorem off17_eq : ∀ L : grid1.Coords, k1_off17 L = ![0, 0, 16 * ((2 * (L 1).val + (L 0).val) % 8)] := by
  decide +kernel
theorem off18_eq : ∀ L : grid1.Coords, k1_off18 L = ![1, 1, 16 * ((2 * (L 1).val + (L 0).val) % 8)] := by
  decide +kernel
theorem off19_eq : ∀ L : grid1.Coords, k1_off19 L = ![2, 2, 16 * ((2 * (L 1).val + (L 0).val) % 8)] := by
  decide +kernel
theorem off20_eq : ∀ L : grid1.Coords, k1_off20 L = ![3, 3, 16 * ((2 * (L 1).val + (L 0).val) % 8)] := by
  decide +kernel
theorem off21_eq : ∀ L : grid1.Coords, k1_off21 L = ![4, 4, 16 * ((2 * (L 1).val + (L 0).val) % 8)] := by
  decide +kernel
theorem off22_eq : ∀ L : grid1.Coords, k1_off22 L = ![5, 5, 16 * ((2 * (L 1).val + (L 0).val) % 8)] := by
  decide +kernel
theorem off23_eq : ∀ L : grid1.Coords, k1_off23 L = ![6, 6, 16 * ((2 * (L 1).val + (L 0).val) % 8)] := by
  decide +kernel
theorem off24_eq : ∀ L : grid1.Coords, k1_off24 L = ![7, 7, 16 * ((2 * (L 1).val + (L 0).val) % 8)] := by
  decide +kernel
theorem off25_eq : ∀ L : grid1.Coords, k1_off25 L = ![8, 8, 16 * ((2 * (L 1).val + (L 0).val) % 8)] := by
  decide +kernel
theorem off26_eq : ∀ L : grid1.Coords, k1_off26 L = ![9, 9, 16 * ((2 * (L 1).val + (L 0).val) % 8)] := by
  decide +kernel
theorem off27_eq : ∀ L : grid1.Coords, k1_off27 L = ![10, 10, 16 * ((2 * (L 1).val + (L 0).val) % 8)] := by
  decide +kernel
theorem off28_eq : ∀ L : grid1.Coords, k1_off28 L = ![11, 11, 16 * ((2 * (L 1).val + (L 0).val) % 8)] := by
  decide +kernel
theorem off29_eq : ∀ L : grid1.Coords, k1_off29 L = ![12, 12, 16 * ((2 * (L 1).val + (L 0).val) % 8)] := by
  decide +kernel
theorem off30_eq : ∀ L : grid1.Coords, k1_off30 L = ![13, 13, 16 * ((2 * (L 1).val + (L 0).val) % 8)] := by
  decide +kernel
theorem off31_eq : ∀ L : grid1.Coords, k1_off31 L = ![14, 14, 16 * ((2 * (L 1).val + (L 0).val) % 8)] := by
  decide +kernel
theorem off32_eq : ∀ L : grid1.Coords, k1_off32 L = ![15, 15, 16 * ((2 * (L 1).val + (L 0).val) % 8)] := by
  decide +kernel

end Cert.Proof.KB
-- ==== Proof.KBClosed.lean ====
/-
  The closed forms of the scratch offsets, as instances: the offset of the `N`-th store of trip `t` of the zeroing loop
  is `(t / 16, t % 16, 16 * (N - 1))`, and the offset of the `l`-th store of a chunk is `(l, l, 16 * (w % 8))` with `w` the
  worker number.  Through them each store's rectangle is a vector of index terms instead of the printed word arithmetic.
-/
import proofs.«214985_g80496277062245_cont_9to1_m_1082_20_alg».proof.Proof.KBOffsets
import Idealize.ShloMosaic.Lib.Exec.Geometry

namespace Cert.Proof.KB

open Cert.Kernel Cert.Kernel.Gen
open Idealize.ShloMosaic

instance closedOff1 (t : Fin k1_t1_loop.trips) : ClosedOff (k1_off1 t) := ⟨![t.val / 16, t.val % 16, 0], off1_eq t⟩
instance closedOff2 (t : Fin k1_t1_loop.trips) : ClosedOff (k1_off2 t) := ⟨![t.val / 16, t.val % 16, 16], off2_eq t⟩
instance closedOff3 (t : Fin k1_t1_loop.trips) : ClosedOff (k1_off3 t) := ⟨![t.val / 16, t.val % 16, 32], off3_eq t⟩
instance closedOff4 (t : Fin k1_t1_loop.trips) : ClosedOff (k1_off4 t) := ⟨![t.val / 16, t.val % 16, 48], off4_eq t⟩
instance closedOff5 (t : Fin k1_t1_loop.trips) : ClosedOff (k1_off5 t) := ⟨![t.val / 16, t.val % 16, 64], off5_eq t⟩
instance closedOff6 (t : Fin k1_t1_loop.trips) : ClosedOff (k1_off6 t) := ⟨![t.val / 16, t.val % 16, 80], off6_eq t⟩
instance closedOff7 (t : Fin k1_t1_loop.trips) : ClosedOff (k1_off7 t) := ⟨![t.val / 16, t.val % 16, 96], off7_eq t⟩
instance closedOff8 (t : Fin k1_t1_loop.trips) : ClosedOff (k1_off8 t) := ⟨![t.val / 16, t.val % 16, 112], off8_eq t⟩
instance closedOff9 (t : Fin k1_t1_loop.trips) : ClosedOff (k1_off9 t) := ⟨![t.val / 16, t.val % 16, 128], off9_eq t⟩
instance closedOff10 (t : Fin k1_t1_loop.trips) : ClosedOff (k1_off10 t) := ⟨![t.val / 16, t.val % 16, 144], off10_eq t⟩
instance closedOff11 (t : Fin k1_t1_loop.trips) : ClosedOff (k1_off11 t) := ⟨![t.val / 16, t.val % 16, 160], off11_eq t⟩
instance closedOff12 (t : Fin k1_t1_loop.trips) : ClosedOff (k1_off12 t) := ⟨![t.val / 16, t.val % 16, 176], off12_eq t⟩
instance closedOff13 (t : Fin k1_t1_loop.trips) : ClosedOff (k1_off13 t) := ⟨![t.val / 16, t.val % 16, 192], off13_eq t⟩
instance closedOff14 (t : Fin k1_t1_loop.trips) : ClosedOff (k1_off14 t) := ⟨![t.val / 16, t.val % 16, 208], off14_eq t⟩
instance closedOff15 (t : Fin k1_t1_loop.trips) : ClosedOff (k1_off15 t) := ⟨![t.val / 16, t.val % 16, 224], off15_eq t⟩
instance closedOff16 (t : Fin k1_t1_loop.trips) : ClosedOff (k1_off16 t) := ⟨![t.val / 16, t.val % 16, 240], off16_eq t⟩
instance closedOff17 (L : grid1.Coords) : ClosedOff (k1_off17 L) := ⟨![0, 0, 16 * ((2 * (L 1).val + (L 0).val) % 8)], off17_eq L⟩
instance closedOff18 (L : grid1.Coords) : ClosedOff (k1_off18 L) := ⟨![1, 1, 16 * ((2 * (L 1).val + (L 0).val) % 8)], off18_eq L⟩
instance closedOff19 (L : grid1.Coords) : ClosedOff (k1_off19 L) := ⟨![2, 2, 16 * ((2 * (L 1).val + (L 0).val) % 8)], off19_eq L⟩
instance closedOff20 (L : grid1.Coords) : ClosedOff (k1_off20 L) := ⟨![3, 3, 16 * ((2 * (L 1).val + (L 0).val) % 8)], off20_eq L⟩
instance closedOff21 (L : grid1.Coords) : ClosedOff (k1_off21 L) := ⟨![4, 4, 16 * ((2 * (L 1).val + (L 0).val) % 8)], off21_eq L⟩
instance closedOff22 (L : grid1.Coords) : ClosedOff (k1_off22 L) := ⟨![5, 5, 16 * ((2 * (L 1).val + (L 0).val) % 8)], off22_eq L⟩
instance closedOff23 (L : grid1.Coords) : ClosedOff (k1_off23 L) := ⟨![6, 6, 16 * ((2 * (L 1).val + (L 0).val) % 8)], off23_eq L⟩
instance closedOff24 (L : grid1.Coords) : ClosedOff (k1_off24 L) := ⟨![7, 7, 16 * ((2 * (L 1).val + (L 0).val) % 8)], off24_eq L⟩
instance closedOff25 (L : grid1.Coords) : ClosedOff (k1_off25 L) := ⟨![8, 8, 16 * ((2 * (L 1).val + (L 0).val) % 8)], off25_eq L⟩
instance closedOff26 (L : grid1.Coords) : ClosedOff (k1_off26 L) := ⟨![9, 9, 16 * ((2 * (L 1).val + (L 0).val) % 8)], off26_eq L⟩
instance closedOff27 (L : grid1.Coords) : ClosedOff (k1_off27 L) := ⟨![10, 10, 16 * ((2 * (L 1).val + (L 0).val) % 8)], off27_eq L⟩
instance closedOff28 (L : grid1.Coords) : ClosedOff (k1_off28 L) := ⟨![11, 11, 16 * ((2 * (L 1).val + (L 0).val) % 8)], off28_eq L⟩
instance closedOff29 (L : grid1.Coords) : ClosedOff (k1_off29 L) := ⟨![12, 12, 16 * ((2 * (L 1).val + (L 0).val) % 8)], off29_eq L⟩
instance closedOff30 (L : grid1.Coords) : ClosedOff (k1_off30 L) := ⟨![13, 13, 16 * ((2 * (L 1).val + (L 0).val) % 8)], off30_eq L⟩
instance closedOff31 (L : grid1.Coords) : ClosedOff (k1_off31 L) := ⟨![14, 14, 16 * ((2 * (L 1).val + (L 0).val) % 8)], off31_eq L⟩
instance closedOff32 (L : grid1.Coords) : ClosedOff (k1_off32 L) := ⟨![15, 15, 16 * ((2 * (L 1).val + (L 0).val) % 8)], off32_eq L⟩

end Cert.Proof.KB
-- ==== Proof.KBWrites.lean ====
/-
  What the stores into a tile's scratch leave there, as closed functions of the scratch's index.
  The zeroing loop's trip `k` stores the zero vector over row `(k / 16, k % 16)`, sixteen lanes at a time: after it
  the rows before `k + 1` (in row-major order of the two leading axes) are zero.  A chunk's sixteen stores put the
  chunk's one-hot vector at the sixteen lanes from `cb` of each diagonal row `(l, l)`: over a scratch that is zero off
  those places, the scratch then holds the word of 1.0 exactly at `(l, l, cb + m)` and the word of 0.0 elsewhere.
-/
import proofs.«214985_g80496277062245_cont_9to1_m_1082_20_alg».proof.Proof.KBClosed
import Idealize.ShloMosaic.Lib.Writes
import Idealize.ShloMosaic.Lib.Pipeline.Value

noncomputable section

namespace Cert.Proof.KB

open Cert.Kernel Cert.Kernel.Gen
open Idealize.ShloMosaic

variable {F : FTy → Type} [FloatOps F]

/-- The words of 0.0 and of 1.0. -/
abbrev Zw : F .f32 := FloatOps.ofBits .f32 0x00000000#32
abbrev Ow : F .f32 := FloatOps.ofBits .f32 0x3F800000#32

/-- The scratch as the body addresses it. -/
abbrev sV : View sig .scVector .vmem S16x16x256 .f32 := (sB : Memref sig .scVector .vmem S16x16x256 .f32).view

/-- A one-row, sixteen-lane rectangle of the scratch holds the indices of its row at its sixteen lanes. -/
theorem mem_unit3 {off : Fin 3 → Nat} {o0 o1 o2 : Nat} (hoff : off = ![o0, o1, o2])
    (inb : ∀ a, off a + S1x1x16.size a ≤ S16x16x256.size a) (y : S16x16x256.Idx) :
    y ∈ (Rect.unit (s := S16x16x256) off S1x1x16.size inb).set
      ↔ (y 0).val = o0 ∧ (y 1).val = o1 ∧ o2 ≤ (y 2).val ∧ (y 2).val < o2 + 16 := by
  subst hoff
  rw [Rect.mem_set_unit]
  constructor
  · intro h
    have h0 : o0 ≤ (y 0).val ∧ (y 0).val < o0 + 1 := h 0
    have h1 : o1 ≤ (y 1).val ∧ (y 1).val < o1 + 1 := h 1
    have h2 : o2 ≤ (y 2).val ∧ (y 2).val < o2 + 16 := h 2
    omega
  · rintro ⟨e0, e1, l2, u2⟩ a
    have h0 : o0 ≤ (y 0).val ∧ (y 0).val < o0 + 1 := by omega
    have h1 : o1 ≤ (y 1).val ∧ (y 1).val < o1 + 1 := by omega
    have h2 : o2 ≤ (y 2).val ∧ (y 2).val < o2 + 16 := by omega
    match a with
    | 0 => exact h0
    | 1 => exact h1
    | 2 => exact h2

/-- Where such a rectangle places its own index `x`. -/
theorem emb_unit3 {off : Fin 3 → Nat} {o0 o1 o2 : Nat} (hoff : off = ![o0, o1, o2])
    (inb : ∀ a, off a + S1x1x16.size a ≤ S16x16x256.size a) (x : S1x1x16.Idx) :
    (((Rect.unit (s := S16x16x256) off S1x1x16.size inb).emb x) 0).val = o0
      ∧ (((Rect.unit (s := S16x16x256) off S1x1x16.size inb).emb x) 1).val = o1
      ∧ (((Rect.unit (s := S16x16x256) off S1x1x16.size inb).emb x) 2).val = o2 + (x 2).val := by
  subst hoff
  have x0 : (x 0).val = 0 := by have := (x 0).isLt; change (x 0).val < 1 at this; omega
  have x1 : (x 1).val = 0 := by have := (x 1).isLt; change (x 1).val < 1 at this; omega
  refine ⟨?_, ?_, ?_⟩
  · show o0 + 1 * (x 0).val = o0; omega
  · show o1 + 1 * (x 1).val = o1; omega
  · show o2 + 1 * (x 2).val = o2 + (x 2).val; omega

/-- Writes through the whole scratch whose payloads are blocks of one function `G`, covering exactly the indices
    where `C` holds, leave `G` there and the former contents elsewhere. -/
theorem sV_writes_eq (f : (sV).ty.Contents (Elt F)) (G : S16x16x256.Idx → F .f32) (C : S16x16x256.Idx → Prop) [DecidablePred C]
    (Lst : List (View.Piece (Elt F) S16x16x256 .f32))
    (hpay : ∀ p ∈ Lst, ∀ x : p.1.shape.Idx, p.2 x = G (p.1.emb x))
    (hcov : ∀ y, (∃ p ∈ Lst, y ∈ p.1.set) ↔ C y) :
    (sV).writes (Elt F) f Lst = fun y => if C y then G y else f y := by
  funext y
  by_cases hy : C y
  · rw [if_pos hy]
    exact View.read_writes_apply_of_pieces (sV) f G Lst hpay y ((hcov y).mpr hy)
  · rw [if_neg hy]
    exact View.read_writes_apply_of_forall_not_mem (sV) f y Lst fun p hp hm => hy ((hcov y).mp ⟨p, hp, hm⟩)

/-- The scratch with its first `k` rows (in row-major order of the two leading axes) zeroed. -/
def zfill (fs : S16x16x256.Idx → F .f32) (k : Nat) : S16x16x256.Idx → F .f32 :=
  fun y => if 16 * (y 0).val + (y 1).val < k then Zw else fs y

theorem zfill_all (fs : S16x16x256.Idx → F .f32) : zfill fs 256 = fun _ => Zw := by
  funext y
  have h0 := (y 0).isLt; have h1 := (y 1).isLt
  change (y 0).val < 16 at h0; change (y 1).val < 16 at h1
  unfold zfill; rw [if_pos (by omega)]

/-- One trip of the zeroing loop. -/
theorem zero_writes (fs : S16x16x256.Idx → F .f32) (k : Nat) (Lst : List (View.Piece (Elt F) S16x16x256 .f32))
    (hpay : ∀ p ∈ Lst, ∀ x : p.1.shape.Idx, p.2 x = (Zw : F .f32))
    (hcov : ∀ y : S16x16x256.Idx, (∃ p ∈ Lst, y ∈ p.1.set) ↔ 16 * (y 0).val + (y 1).val = k) :
    (sV).writes (Elt F) (zfill fs k) Lst = zfill fs (k + 1) := by
  rw [sV_writes_eq (zfill fs k) (fun _ => Zw) (fun y => 16 * (y 0).val + (y 1).val = k) Lst hpay hcov]
  funext y
  unfold zfill
  by_cases h : 16 * (y 0).val + (y 1).val = k
  · rw [if_pos h, if_pos (by omega)]
  · rw [if_neg h]
    by_cases h' : 16 * (y 0).val + (y 1).val < k
    · rw [if_pos h', if_pos (by omega)]
    · rw [if_neg h', if_neg (by omega)]

/-- The scratch after chunk `m`: the word of 1.0 at `(l, l, cb + m)`, the word of 0.0 elsewhere. -/
def hotBuf (cb m : Nat) : S16x16x256.Idx → F .f32 :=
  fun y => if (y 0).val = (y 1).val ∧ (y 2).val = cb + m then Ow else Zw

/-- The places a chunk's stores write: the sixteen lanes from `cb` of the diagonal rows. -/
def Diag (cb : Nat) (y : S16x16x256.Idx) : Prop := (y 0).val = (y 1).val ∧ cb ≤ (y 2).val ∧ (y 2).val < cb + 16

instance (cb : Nat) : DecidablePred (Diag cb) := fun y => by unfold Diag; infer_instance

/-- A chunk's sixteen stores, over a scratch that is zero off the places they write. -/
theorem chunk_writes (cb m : Nat) (hm : m < 16) (B : S16x16x256.Idx → F .f32) (hB : ∀ y, ¬ Diag cb y → B y = Zw)
    (Lst : List (View.Piece (Elt F) S16x16x256 .f32))
    (hpay : ∀ p ∈ Lst, ∀ x : p.1.shape.Idx, p.2 x = hotBuf (F := F) cb m (p.1.emb x))
    (hcov : ∀ y : S16x16x256.Idx, (∃ p ∈ Lst, y ∈ p.1.set) ↔ Diag cb y) :
    (sV).writes (Elt F) B Lst = hotBuf cb m := by
  rw [sV_writes_eq B (hotBuf cb m) (Diag cb) Lst hpay hcov]
  funext y
  by_cases h : Diag cb y
  · rw [if_pos h]
  · rw [if_neg h, hB y h]
    unfold hotBuf
    rw [if_neg]
    rintro ⟨e, e2⟩
    exact h ⟨e, by omega, by omega⟩

theorem hotBuf_off (cb m : Nat) (hm : m < 16) (y : S16x16x256.Idx) (h : ¬ Diag cb y) : hotBuf (F := F) cb m y = Zw := by
  unfold hotBuf
  rw [if_neg]
  rintro ⟨e, e2⟩
  exact h ⟨e, by omega, by omega⟩

end Cert.Proof.KB

end
-- ==== Proof.KBChunk.lean ====
/-
  The stores of the tile's body as explicit lists, what they leave in the scratch, and where a chunk lands.
  A trip of the zeroing loop is sixteen stores of one vector over one row of the scratch; a chunk is sixteen stores
  of the chunk's one-hot vector over the diagonal rows.  The one-hot vector of chunk `m` holds the word of 1.0 at
  lane `m` and the word of 0.0 at the other lanes.  Chunk `r` of worker `w` is the sixteen tokens from
  `(w % 8) * 256 + 16 * r` of group `w / 8`: scratch index `(a, e, c)` lands at `(w / 8, (w % 8) * 256 + 16 * r + a, e, c)`,
  whose token has remainder `a` and quotient `16 * (w % 8) + r` by sixteen; so the scratch holding 1.0 exactly at
  `(l, l, 16 * (w % 8) + r)` lands the specification's mask on the chunk.
-/
import proofs.«214985_g80496277062245_cont_9to1_m_1082_20_alg».proof.Proof.KBWrites
import proofs.«214985_g80496277062245_cont_9to1_m_1082_20_alg».proof.Proof.KBOffsets33

noncomputable section

namespace Cert.Proof.KB

open Cert.Kernel Cert.Kernel.Gen
open Idealize.ShloMosaic

variable {F : FTy → Type} [FloatOps F]

/-! ## The one-hot vectors -/

/-- The vector chunk `m` stores: 1.0 where the lane number equals `m`, else 0.0. -/
def hotVec (m : Nat) : FVec F S16 .f32 :=
  select (cmpi .eq (iota .scVector S16 32 [0] iota_S16_d0_w32_scVector) (broadcast S16 (BitVec.ofNat 32 m)))
    (broadcast S16 (Scalar.ofBits .f32 0x3F800000#32)) (broadcast S16 (Scalar.ofBits .f32 0x00000000#32))

/-- The zero vector. -/
def zeroVec : FVec F S16 .f32 := broadcast S16 (Scalar.ofBits .f32 0x00000000#32)

theorem cmpi_eq_ofNat (a b : Nat) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · have hne : BitVec.ofNat 32 a ≠ BitVec.ofNat 32 b := by
      intro e
      have := congrArg BitVec.toNat e
      simp only [BitVec.toNat_ofNat] at this
      omega
    have hb' : (BitVec.ofNat 32 a == BitVec.ofNat 32 b) = false := beq_eq_false_iff_ne.mpr hne
    rw [if_neg h, hb']; rfl

theorem hot_lane (m : Nat) (hm : m < 16) (j : S16.Idx) :
    (hotVec m : FVec F S16 .f32) j = if (j 0).val = m then Ow else Zw := by
  have hj : (j 0).val < 16 := (j 0).isLt
  have e : (hotVec m : FVec F S16 .f32) j
      = Scalar.select (IntOp.cmpi .eq (BitVec.ofNat 32 (0 * 16 + (j 0).val)) (BitVec.ofNat 32 m)) Ow Zw := rfl
  have hlt : 0 * 16 + (j 0).val < 2 ^ 32 := by omega
  have hmlt : m < 2 ^ 32 := by omega
  rw [e, cmpi_eq_ofNat (0 * 16 + (j 0).val) m hlt hmlt]
  unfold Scalar.select
  by_cases h : (j 0).val = m
  · have h' : 0 * 16 + (j 0).val = m := by omega
    rw [if_pos h', if_pos h]; simp
  · have h' : ¬ 0 * 16 + (j 0).val = m := by omega
    rw [if_neg h', if_neg h]; simp

/-- The one-hot vector as a one-row block: lane `x 2`. -/
theorem shapeCast_hot (m : Nat) (hm : m < 16) (x : S1x1x16.Idx) :
    (shapeCast S1x1x16 (hotVec m : FVec F S16 .f32) shapeCasts_S16_S1x1x16 : FVec F S1x1x16 .f32) x
      = if (x 2).val = m then Ow else Zw := by
  have x0 : (x 0).val < 1 := (x 0).isLt
  have x1 : (x 1).val < 1 := (x 1).isLt
  have e1 : (S16.rowMajor (Shape.reshapeEquiv shapeCasts_S16_S1x1x16 x)).val = ((Shape.reshapeEquiv shapeCasts_S16_S1x1x16 x) 0).val :=
    Shape.rowMajor_val_one _
  have e3 : (S1x1x16.rowMajor x).val = ((x 0).val * 1 + (x 1).val) * 16 + (x 2).val := Shape.rowMajor_val_three x
  have er : (S16.rowMajor (Shape.reshapeEquiv shapeCasts_S16_S1x1x16 x)).val = (S1x1x16.rowMajor x).val :=
    Shape.rowMajor_reshapeEquiv shapeCasts_S16_S1x1x16 x
  have ek : ((Shape.reshapeEquiv shapeCasts_S16_S1x1x16 x) 0).val = (x 2).val := by omega
  show (hotVec m : FVec F S16 .f32) (Shape.reshapeEquiv shapeCasts_S16_S1x1x16 x) = _
  rw [hot_lane m hm, ek]

/-- The zero vector as a one-row block. -/
theorem shapeCast_zero (x : S1x1x16.Idx) :
    (shapeCast S1x1x16 (zeroVec : FVec F S16 .f32) shapeCasts_S16_S1x1x16 : FVec F S1x1x16 .f32) x = Zw := rfl

/-- The one-hot block stored at row `(l, l)`, lanes from `cb`, is the chunk's closed form there. -/
theorem hot_pay {off : Fin 3 → Nat} (l cb m : Nat) (hm : m < 16) (hoff : off = ![l, l, cb])
    (inb : ∀ a, off a + S1x1x16.size a ≤ S16x16x256.size a) (x : S1x1x16.Idx) :
    (shapeCast S1x1x16 (hotVec m : FVec F S16 .f32) shapeCasts_S16_S1x1x16 : FVec F S1x1x16 .f32) x
      = hotBuf (F := F) cb m ((Rect.unit (s := S16x16x256) off S1x1x16.size inb).emb x) := by
  obtain ⟨a0, a1, a2⟩ := emb_unit3 hoff inb x
  rw [shapeCast_hot m hm]; unfold hotBuf; rw [a0, a1, a2]
  by_cases hx : (x 2).val = m
  · have hc : l = l ∧ cb + (x 2).val = cb + m := ⟨rfl, by omega⟩
    rw [if_pos hx, if_pos hc]
  · have hc : ¬ (l = l ∧ cb + (x 2).val = cb + m) := fun h => hx (by omega)
    rw [if_neg hx, if_neg hc]

/-! ## The stores, listed (the last store first) -/

/-- Trip `k` of the zeroing loop: sixteen stores of `h` over row `(k / 16, k % 16)`. -/
def zeroPieces (k : Fin k1_t1_loop.trips) (h : FVec F S16 .f32) : List (View.Piece (Elt F) S16x16x256 .f32) :=
  [⟨Rect.unit (s := S16x16x256) (k1_off16 k) S1x1x16.size (k1_off16_inb k), (shapeCast S1x1x16 h shapeCasts_S16_S1x1x16 : FVec F S1x1x16 .f32)⟩,
   ⟨Rect.unit (s := S16x16x256) (k1_off15 k) S1x1x16.size (k1_off15_inb k), (shapeCast S1x1x16 h shapeCasts_S16_S1x1x16 : FVec F S1x1x16 .f32)⟩,
   ⟨Rect.unit (s := S16x16x256) (k1_off14 k) S1x1x16.size (k1_off14_inb k), (shapeCast S1x1x16 h shapeCasts_S16_S1x1x16 : FVec F S1x1x16 .f32)⟩,
   ⟨Rect.unit (s := S16x16x256) (k1_off13 k) S1x1x16.size (k1_off13_inb k), (shapeCast S1x1x16 h shapeCasts_S16_S1x1x16 : FVec F S1x1x16 .f32)⟩,
   ⟨Rect.unit (s := S16x16x256) (k1_off12 k) S1x1x16.size (k1_off12_inb k), (shapeCast S1x1x16 h shapeCasts_S16_S1x1x16 : FVec F S1x1x16 .f32)⟩,
   ⟨Rect.unit (s := S16x16x256) (k1_off11 k) S1x1x16.size (k1_off11_inb k), (shapeCast S1x1x16 h shapeCasts_S16_S1x1x16 : FVec F S1x1x16 .f32)⟩,
   ⟨Rect.unit (s := S16x16x256) (k1_off10 k) S1x1x16.size (k1_off10_inb k), (shapeCast S1x1x16 h shapeCasts_S16_S1x1x16 : FVec F S1x1x16 .f32)⟩,
   ⟨Rect.unit (s := S16x16x256) (k1_off9 k) S1x1x16.size (k1_off9_inb k), (shapeCast S1x1x16 h shapeCasts_S16_S1x1x16 : FVec F S1x1x16 .f32)⟩,
   ⟨Rect.unit (s := S16x16x256) (k1_off8 k) S1x1x16.size (k1_off8_inb k), (shapeCast S1x1x16 h shapeCasts_S16_S1x1x16 : FVec F S1x1x16 .f32)⟩,
   ⟨Rect.unit (s := S16x16x256) (k1_off7 k) S1x1x16.size (k1_off7_inb k), (shapeCast S1x1x16 h shapeCasts_S16_S1x1x16 : FVec F S1x1x16 .f32)⟩,
   ⟨Rect.unit (s := S16x16x256) (k1_off6 k) S1x1x16.size (k1_off6_inb k), (shapeCast S1x1x16 h shapeCasts_S16_S1x1x16 : FVec F S1x1x16 .f32)⟩,
   ⟨Rect.unit (s := S16x16x256) (k1_off5 k) S1x1x16.size (k1_off5_inb k), (shapeCast S1x1x16 h shapeCasts_S16_S1x1x16 : FVec F S1x1x16 .f32)⟩,
   ⟨Rect.unit (s := S16x16x256) (k1_off4 k) S1x1x16.size (k1_off4_inb k), (shapeCast S1x1x16 h shapeCasts_S16_S1x1x16 : FVec F S1x1x16 .f32)⟩,
   ⟨Rect.unit (s := S16x16x256) (k1_off3 k) S1x1x16.size (k1_off3_inb k), (shapeCast S1x1x16 h shapeCasts_S16_S1x1x16 : FVec F S1x1x16 .f32)⟩,
   ⟨Rect.unit (s := S16x16x256) (k1_off2 k) S1x1x16.size (k1_off2_inb k), (shapeCast S1x1x16 h shapeCasts_S16_S1x1x16 : FVec F S1x1x16 .f32)⟩,
   ⟨Rect.unit (s := S16x16x256) (k1_off1 k) S1x1x16.size (k1_off1_inb k), (shapeCast S1x1x16 h shapeCasts_S16_S1x1x16 : FVec F S1x1x16 .f32)⟩]

/-- A chunk: sixteen stores of `h` over the diagonal rows. -/
def chunkPieces (L : grid1.Coords) (h : FVec F S16 .f32) : List (View.Piece (Elt F) S16x16x256 .f32) :=
  [⟨Rect.unit (s := S16x16x256) (k1_off32 L) S1x1x16.size (k1_off32_inb L), (shapeCast S1x1x16 h shapeCasts_S16_S1x1x16 : FVec F S1x1x16 .f32)⟩,
   ⟨Rect.unit (s := S16x16x256) (k1_off31 L) S1x1x16.size (k1_off31_inb L), (shapeCast S1x1x16 h shapeCasts_S16_S1x1x16 : FVec F S1x1x16 .f32)⟩,
   ⟨Rect.unit (s := S16x16x256) (k1_off30 L) S1x1x16.size (k1_off30_inb L), (shapeCast S1x1x16 h shapeCasts_S16_S1x1x16 : FVec F S1x1x16 .f32)⟩,
   ⟨Rect.unit (s := S16x16x256) (k1_off29 L) S1x1x16.size (k1_off29_inb L), (shapeCast S1x1x16 h shapeCasts_S16_S1x1x16 : FVec F S1x1x16 .f32)⟩,
   ⟨Rect.unit (s := S16x16x256) (k1_off28 L) S1x1x16.size (k1_off28_inb L), (shapeCast S1x1x16 h shapeCasts_S16_S1x1x16 : FVec F S1x1x16 .f32)⟩,
   ⟨Rect.unit (s := S16x16x256) (k1_off27 L) S1x1x16.size (k1_off27_inb L), (shapeCast S1x1x16 h shapeCasts_S16_S1x1x16 : FVec F S1x1x16 .f32)⟩,
   ⟨Rect.unit (s := S16x16x256) (k1_off26 L) S1x1x16.size (k1_off26_inb L), (shapeCast S1x1x16 h shapeCasts_S16_S1x1x16 : FVec F S1x1x16 .f32)⟩,
   ⟨Rect.unit (s := S16x16x256) (k1_off25 L) S1x1x16.size (k1_off25_inb L), (shapeCast S1x1x16 h shapeCasts_S16_S1x1x16 : FVec F S1x1x16 .f32)⟩,
   ⟨Rect.unit (s := S16x16x256) (k1_off24 L) S1x1x16.size (k1_off24_inb L), (shapeCast S1x1x16 h shapeCasts_S16_S1x1x16 : FVec F S1x1x16 .f32)⟩,
   ⟨Rect.unit (s := S16x16x256) (k1_off23 L) S1x1x16.size (k1_off23_inb L), (shapeCast S1x1x16 h shapeCasts_S16_S1x1x16 : FVec F S1x1x16 .f32)⟩,
   ⟨Rect.unit (s := S16x16x256) (k1_off22 L) S1x1x16.size (k1_off22_inb L), (shapeCast S1x1x16 h shapeCasts_S16_S1x1x16 : FVec F S1x1x16 .f32)⟩,
   ⟨Rect.unit (s := S16x16x256) (k1_off21 L) S1x1x16.size (k1_off21_inb L), (shapeCast S1x1x16 h shapeCasts_S16_S1x1x16 : FVec F S1x1x16 .f32)⟩,
   ⟨Rect.unit (s := S16x16x256) (k1_off20 L) S1x1x16.size (k1_off20_inb L), (shapeCast S1x1x16 h shapeCasts_S16_S1x1x16 : FVec F S1x1x16 .f32)⟩,
   ⟨Rect.unit (s := S16x16x256) (k1_off19 L) S1x1x16.size (k1_off19_inb L), (shapeCast S1x1x16 h shapeCasts_S16_S1x1x16 : FVec F S1x1x16 .f32)⟩,
   ⟨Rect.unit (s := S16x16x256) (k1_off18 L) S1x1x16.size (k1_off18_inb L), (shapeCast S1x1x16 h shapeCasts_S16_S1x1x16 : FVec F S1x1x16 .f32)⟩,
   ⟨Rect.unit (s := S16x16x256) (k1_off17 L) S1x1x16.size (k1_off17_inb L), (shapeCast S1x1x16 h shapeCasts_S16_S1x1x16 : FVec F S1x1x16 .f32)⟩]

/-- The first of the sixteen lanes a tile's chunks write. -/
@[reducible] def cbOf (L : grid1.Coords) : Nat := 16 * ((2 * (L 1).val + (L 0).val) % 8)

theorem zero_step (fs : S16x16x256.Idx → F .f32) (k : Fin k1_t1_loop.trips) :
    (sV).writes (Elt F) (zfill fs k.val) (zeroPieces k (zeroVec (F := F))) = zfill fs (k.val + 1) := by
  refine zero_writes fs k.val _ ?hpay ?hcov
  case hpay =>
    intro p hp x
    simp only [zeroPieces, List.mem_cons, List.not_mem_nil, or_false] at hp
    rcases hp with rfl | rfl | rfl | rfl | rfl | rfl | rfl | rfl | rfl | rfl | rfl | rfl | rfl | rfl | rfl | rfl
    all_goals exact shapeCast_zero x
  case hcov =>
    intro y
    have h1 : (y 1).val < 16 := (y 1).isLt
    have h2 : (y 2).val < 256 := (y 2).isLt
    simp only [zeroPieces, List.mem_cons, List.not_mem_nil, or_false, exists_eq_or_imp, exists_eq_left,
      mem_unit3 (off1_eq k), mem_unit3 (off2_eq k), mem_unit3 (off3_eq k), mem_unit3 (off4_eq k), mem_unit3 (off5_eq k), mem_unit3 (off6_eq k), mem_unit3 (off7_eq k), mem_unit3 (off8_eq k), mem_unit3 (off9_eq k), mem_unit3 (off10_eq k), mem_unit3 (off11_eq k), mem_unit3 (off12_eq k), mem_unit3 (off13_eq k), mem_unit3 (off14_eq k), mem_unit3 (off15_eq k), mem_unit3 (off16_eq k)]
    omega

theorem chunk_step (L : grid1.Coords) (m : Nat) (hm : m < 16) (B : S16x16x256.Idx → F .f32)
    (hB : ∀ y, ¬ Diag (cbOf L) y → B y = Zw) :
    (sV).writes (Elt F) B (chunkPieces L (hotVec (F := F) m)) = hotBuf (cbOf L) m := by
  refine chunk_writes (cbOf L) m hm B hB _ ?hpay ?hcov
  case hpay =>
    intro p hp x
    simp only [chunkPieces, List.mem_cons, List.not_mem_nil, or_false] at hp
    rcases hp with rfl | rfl | rfl | rfl | rfl | rfl | rfl | rfl | rfl | rfl | rfl | rfl | rfl | rfl | rfl | rfl
    · exact hot_pay 15 (cbOf L) m hm (off32_eq L) (k1_off32_inb L) x
    · exact hot_pay 14 (cbOf L) m hm (off31_eq L) (k1_off31_inb L) x
    · exact hot_pay 13 (cbOf L) m hm (off30_eq L) (k1_off30_inb L) x
    · exact hot_pay 12 (cbOf L) m hm (off29_eq L) (k1_off29_inb L) x
    · exact hot_pay 11 (cbOf L) m hm (off28_eq L) (k1_off28_inb L) x
    · exact hot_pay 10 (cbOf L) m hm (off27_eq L) (k1_off27_inb L) x
    · exact hot_pay 9 (cbOf L) m hm (off26_eq L) (k1_off26_inb L) x
    · exact hot_pay 8 (cbOf L) m hm (off25_eq L) (k1_off25_inb L) x
    · exact hot_pay 7 (cbOf L) m hm (off24_eq L) (k1_off24_inb L) x
    · exact hot_pay 6 (cbOf L) m hm (off23_eq L) (k1_off23_inb L) x
    · exact hot_pay 5 (cbOf L) m hm (off22_eq L) (k1_off22_inb L) x
    · exact hot_pay 4 (cbOf L) m hm (off21_eq L) (k1_off21_inb L) x
    · exact hot_pay 3 (cbOf L) m hm (off20_eq L) (k1_off20_inb L) x
    · exact hot_pay 2 (cbOf L) m hm (off19_eq L) (k1_off19_inb L) x
    · exact hot_pay 1 (cbOf L) m hm (off18_eq L) (k1_off18_inb L) x
    · exact hot_pay 0 (cbOf L) m hm (off17_eq L) (k1_off17_inb L) x
  case hcov =>
    intro y
    have h0 : (y 0).val < 16 := (y 0).isLt
    simp only [chunkPieces, List.mem_cons, List.not_mem_nil, or_false, exists_eq_or_imp, exists_eq_left,
      mem_unit3 (off17_eq L), mem_unit3 (off18_eq L), mem_unit3 (off19_eq L), mem_unit3 (off20_eq L), mem_unit3 (off21_eq L), mem_unit3 (off22_eq L), mem_unit3 (off23_eq L), mem_unit3 (off24_eq L), mem_unit3 (off25_eq L), mem_unit3 (off26_eq L), mem_unit3 (off27_eq L), mem_unit3 (off28_eq L), mem_unit3 (off29_eq L), mem_unit3 (off30_eq L), mem_unit3 (off31_eq L), mem_unit3 (off32_eq L)]
    unfold Diag cbOf
    generalize 16 * ((2 * (L 1).val + (L 0).val) % 8) = cb
    constructor
    · rintro (⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩ | ⟨a, b, c, e⟩)
      all_goals exact ⟨by omega, c, e⟩
    · rintro ⟨e, c, f⟩
      have h : (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 := by omega
      rcases h with h | h | h | h | h | h | h | h | h | h | h | h | h | h | h | h
      · exact Or.inr (Or.inr (Or.inr (Or.inr (Or.inr (Or.inr (Or.inr (Or.inr (Or.inr (Or.inr (Or.inr (Or.inr (Or.inr (Or.inr (Or.inr (⟨h, by omega, c, f⟩)))))))))))))))
      · exact Or.inr (Or.inr (Or.inr (Or.inr (Or.inr (Or.inr (Or.inr (Or.inr (Or.inr (Or.inr (Or.inr (Or.inr (Or.inr (Or.inr (Or.inl ⟨h, by omega, c, f⟩))))))))))))))
      · exact Or.inr (Or.inr (Or.inr (Or.inr (Or.inr (Or.inr (Or.inr (Or.inr (Or.inr (Or.inr (Or.inr (Or.inr (Or.inr (Or.inl ⟨h, by omega, c, f⟩)))))))))))))
      · exact Or.inr (Or.inr (Or.inr (Or.inr (Or.inr (Or.inr (Or.inr (Or.inr (Or.inr (Or.inr (Or.inr (Or.inr (Or.inl ⟨h, by omega, c, f⟩))))))))))))
      · exact Or.inr (Or.inr (Or.inr (Or.inr (Or.inr (Or.inr (Or.inr (Or.inr (Or.inr (Or.inr (Or.inr (Or.inl ⟨h, by omega, c, f⟩)))))))))))
      · exact Or.inr (Or.inr (Or.inr (Or.inr (Or.inr (Or.inr (Or.inr (Or.inr (Or.inr (Or.inr (Or.inl ⟨h, by omega, c, f⟩))))))))))
      · exact Or.inr (Or.inr (Or.inr (Or.inr (Or.inr (Or.inr (Or.inr (Or.inr (Or.inr (Or.inl ⟨h, by omega, c, f⟩)))))))))
      · exact Or.inr (Or.inr (Or.inr (Or.inr (Or.inr (Or.inr (Or.inr (Or.inr (Or.inl ⟨h, by omega, c, f⟩))))))))
      · exact Or.inr (Or.inr (Or.inr (Or.inr (Or.inr (Or.inr (Or.inr (Or.inl ⟨h, by omega, c, f⟩)))))))
      · exact Or.inr (Or.inr (Or.inr (Or.inr (Or.inr (Or.inr (Or.inl ⟨h, by omega, c, f⟩))))))
      · exact Or.inr (Or.inr (Or.inr (Or.inr (Or.inr (Or.inl ⟨h, by omega, c, f⟩)))))
      · exact Or.inr (Or.inr (Or.inr (Or.inr (Or.inl ⟨h, by omega, c, f⟩))))
      · exact Or.inr (Or.inr (Or.inr (Or.inl ⟨h, by omega, c, f⟩)))
      · exact Or.inr (Or.inr (Or.inl ⟨h, by omega, c, f⟩))
      · exact Or.inr (Or.inl ⟨h, by omega, c, f⟩)
      · exact Or.inl ⟨h, by omega, c, f⟩

/-! ## The scratch after the stores of the chunks up to `r`, over the zeroed scratch

Every chunk writes the same places, so the stores of chunk `r` over what the earlier chunks left leave the one-hot
pattern of chunk `r` alone. -/

theorem upto0 (L : grid1.Coords) :
    (sV).writes (Elt F) (fun _ => Zw) (chunkPieces L (hotVec (F := F) 0)) = hotBuf (cbOf L) 0 :=
  chunk_step L 0 (by decide) _ (fun _ _ => rfl)
theorem upto1 (L : grid1.Coords) :
    (sV).writes (Elt F) (fun _ => Zw) (chunkPieces L (hotVec (F := F) 1) ++ (chunkPieces L (hotVec (F := F) 0))) = hotBuf (cbOf L) 1 := by
  rw [View.writes_append, upto0]; exact chunk_step L 1 (by decide) _ (hotBuf_off (cbOf L) 0 (by decide))
theorem upto2 (L : grid1.Coords) :
    (sV).writes (Elt F) (fun _ => Zw) (chunkPieces L (hotVec (F := F) 2) ++ (chunkPieces L (hotVec (F := F) 1) ++ (chunkPieces L (hotVec (F := F) 0)))) = hotBuf (cbOf L) 2 := by
  rw [View.writes_append, upto1]; exact chunk_step L 2 (by decide) _ (hotBuf_off (cbOf L) 1 (by decide))
theorem upto3 (L : grid1.Coords) :
    (sV).writes (Elt F) (fun _ => Zw) (chunkPieces L (hotVec (F := F) 3) ++ (chunkPieces L (hotVec (F := F) 2) ++ (chunkPieces L (hotVec (F := F) 1) ++ (chunkPieces L (hotVec (F := F) 0))))) = hotBuf (cbOf L) 3 := by
  rw [View.writes_append, upto2]; exact chunk_step L 3 (by decide) _ (hotBuf_off (cbOf L) 2 (by decide))
theorem upto4 (L : grid1.Coords) :
    (sV).writes (Elt F) (fun _ => Zw) (chunkPieces L (hotVec (F := F) 4) ++ (chunkPieces L (hotVec (F := F) 3) ++ (chunkPieces L (hotVec (F := F) 2) ++ (chunkPieces L (hotVec (F := F) 1) ++ (chunkPieces L (hotVec (F := F) 0)))))) = hotBuf (cbOf L) 4 := by
  rw [View.writes_append, upto3]; exact chunk_step L 4 (by decide) _ (hotBuf_off (cbOf L) 3 (by decide))
theorem upto5 (L : grid1.Coords) :
    (sV).writes (Elt F) (fun _ => Zw) (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0))))))) = hotBuf (cbOf L) 5 := by
  rw [View.writes_append, upto4]; exact chunk_step L 5 (by decide) _ (hotBuf_off (cbOf L) 4 (by decide))
theorem upto6 (L : grid1.Coords) :
    (sV).writes (Elt F) (fun _ => Zw) (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0)))))))) = hotBuf (cbOf L) 6 := by
  rw [View.writes_append, upto5]; exact chunk_step L 6 (by decide) _ (hotBuf_off (cbOf L) 5 (by decide))
theorem upto7 (L : grid1.Coords) :
    (sV).writes (Elt F) (fun _ => Zw) (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0))))))))) = hotBuf (cbOf L) 7 := by
  rw [View.writes_append, upto6]; exact chunk_step L 7 (by decide) _ (hotBuf_off (cbOf L) 6 (by decide))
theorem upto8 (L : grid1.Coords) :
    (sV).writes (Elt F) (fun _ => Zw) (chunkPieces L (hotVec (F := F) 8) ++ (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0)))))))))) = hotBuf (cbOf L) 8 := by
  rw [View.writes_append, upto7]; exact chunk_step L 8 (by decide) _ (hotBuf_off (cbOf L) 7 (by decide))
theorem upto9 (L : grid1.Coords) :
    (sV).writes (Elt F) (fun _ => Zw) (chunkPieces L (hotVec (F := F) 9) ++ (chunkPieces L (hotVec (F := F) 8) ++ (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0))))))))))) = hotBuf (cbOf L) 9 := by
  rw [View.writes_append, upto8]; exact chunk_step L 9 (by decide) _ (hotBuf_off (cbOf L) 8 (by decide))
theorem upto10 (L : grid1.Coords) :
    (sV).writes (Elt F) (fun _ => Zw) (chunkPieces L (hotVec (F := F) 10) ++ (chunkPieces L (hotVec (F := F) 9) ++ (chunkPieces L (hotVec (F := F) 8) ++ (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0)))))))))))) = hotBuf (cbOf L) 10 := by
  rw [View.writes_append, upto9]; exact chunk_step L 10 (by decide) _ (hotBuf_off (cbOf L) 9 (by decide))
theorem upto11 (L : grid1.Coords) :
    (sV).writes (Elt F) (fun _ => Zw) (chunkPieces L (hotVec (F := F) 11) ++ (chunkPieces L (hotVec (F := F) 10) ++ (chunkPieces L (hotVec (F := F) 9) ++ (chunkPieces L (hotVec (F := F) 8) ++ (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0))))))))))))) = hotBuf (cbOf L) 11 := by
  rw [View.writes_append, upto10]; exact chunk_step L 11 (by decide) _ (hotBuf_off (cbOf L) 10 (by decide))
theorem upto12 (L : grid1.Coords) :
    (sV).writes (Elt F) (fun _ => Zw) (chunkPieces L (hotVec (F := F) 12) ++ (chunkPieces L (hotVec (F := F) 11) ++ (chunkPieces L (hotVec (F := F) 10) ++ (chunkPieces L (hotVec (F := F) 9) ++ (chunkPieces L (hotVec (F := F) 8) ++ (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0)))))))))))))) = hotBuf (cbOf L) 12 := by
  rw [View.writes_append, upto11]; exact chunk_step L 12 (by decide) _ (hotBuf_off (cbOf L) 11 (by decide))
theorem upto13 (L : grid1.Coords) :
    (sV).writes (Elt F) (fun _ => Zw) (chunkPieces L (hotVec (F := F) 13) ++ (chunkPieces L (hotVec (F := F) 12) ++ (chunkPieces L (hotVec (F := F) 11) ++ (chunkPieces L (hotVec (F := F) 10) ++ (chunkPieces L (hotVec (F := F) 9) ++ (chunkPieces L (hotVec (F := F) 8) ++ (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0))))))))))))))) = hotBuf (cbOf L) 13 := by
  rw [View.writes_append, upto12]; exact chunk_step L 13 (by decide) _ (hotBuf_off (cbOf L) 12 (by decide))
theorem upto14 (L : grid1.Coords) :
    (sV).writes (Elt F) (fun _ => Zw) (chunkPieces L (hotVec (F := F) 14) ++ (chunkPieces L (hotVec (F := F) 13) ++ (chunkPieces L (hotVec (F := F) 12) ++ (chunkPieces L (hotVec (F := F) 11) ++ (chunkPieces L (hotVec (F := F) 10) ++ (chunkPieces L (hotVec (F := F) 9) ++ (chunkPieces L (hotVec (F := F) 8) ++ (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0)))))))))))))))) = hotBuf (cbOf L) 14 := by
  rw [View.writes_append, upto13]; exact chunk_step L 14 (by decide) _ (hotBuf_off (cbOf L) 13 (by decide))
theorem upto15 (L : grid1.Coords) :
    (sV).writes (Elt F) (fun _ => Zw) (chunkPieces L (hotVec (F := F) 15) ++ (chunkPieces L (hotVec (F := F) 14) ++ (chunkPieces L (hotVec (F := F) 13) ++ (chunkPieces L (hotVec (F := F) 12) ++ (chunkPieces L (hotVec (F := F) 11) ++ (chunkPieces L (hotVec (F := F) 10) ++ (chunkPieces L (hotVec (F := F) 9) ++ (chunkPieces L (hotVec (F := F) 8) ++ (chunkPieces L (hotVec (F := F) 7) ++ (chunkPieces L (hotVec (F := F) 6) ++ (chunkPieces L (hotVec (F := F) 5) ++ (chunkPieces L (hotVec (F := F) 4) ++ (chunkPieces L (hotVec (F := F) 3) ++ (chunkPieces L (hotVec (F := F) 2) ++ (chunkPieces L (hotVec (F := F) 1) ++ (chunkPieces L (hotVec (F := F) 0))))))))))))))))) = hotBuf (cbOf L) 15 := by
  rw [View.writes_append, upto14]; exact chunk_step L 15 (by decide) _ (hotBuf_off (cbOf L) 14 (by decide))

/-! ## Where a chunk lands -/

theorem whole_emb (s : Shape) (x : (Rect.whole s).shape.Idx) : (Rect.whole s).emb x = x := by
  funext a
  apply Fin.ext
  show 0 + 1 * (x a).val = (x a).val
  omega

/-- Scratch index `y` of chunk `r` in the float result. -/
theorem emb_chunk (L : grid1.Coords) (r : Fin 16) (y : S16x16x256.Idx) :
    (((chunkRef L r).view.emb y) 0).val = wid L / 8
      ∧ (((chunkRef L r).view.emb y) 1).val = (wid L % 8) * 256 + 16 * r.val + (y 0).val
      ∧ (((chunkRef L r).view.emb y) 2).val = (y 1).val
      ∧ (((chunkRef L r).view.emb y) 3).val = (y 2).val := by
  have y0 : (y 0).val < 16 := (y 0).isLt
  have y1 : (y 1).val < 16 := (y 1).isLt
  have y2 : (y 2).val < 256 := (y 2).isLt
  have hn := squeezes_S1x16x16x256_S16x16x256.numel_eq
  have z0 : ((Shape.reshapeEquiv hn y) 0).val < 1 := ((Shape.reshapeEquiv hn y) 0).isLt
  have z1 : ((Shape.reshapeEquiv hn y) 1).val < 16 := ((Shape.reshapeEquiv hn y) 1).isLt
  have z2 : ((Shape.reshapeEquiv hn y) 2).val < 16 := ((Shape.reshapeEquiv hn y) 2).isLt
  have z3 : ((Shape.reshapeEquiv hn y) 3).val < 256 := ((Shape.reshapeEquiv hn y) 3).isLt
  have e3 : (S16x16x256.rowMajor y).val = ((y 0).val * 16 + (y 1).val) * 256 + (y 2).val := Shape.rowMajor_val_three y
  have e4 : (S1x16x16x256.rowMajor (Shape.reshapeEquiv hn y)).val
      = ((((Shape.reshapeEquiv hn y) 0).val * 16 + ((Shape.reshapeEquiv hn y) 1).val) * 16 + ((Shape.reshapeEquiv hn y) 2).val) * 256
        + ((Shape.reshapeEquiv hn y) 3).val := Shape.rowMajor_val_four _
  have er : (S1x16x16x256.rowMajor (Shape.reshapeEquiv hn y)).val = (S16x16x256.rowMajor y).val := Shape.rowMajor_reshapeEquiv hn y
  have he : (chunkRef L r).view.emb y = (chunkRect L r).emb (Shape.reshapeEquiv hn y) := rfl
  have ho := off33_eq L r
  rw [he]
  generalize Shape.reshapeEquiv hn y = z at *
  refine ⟨?_, ?_, ?_, ?_⟩
  · show (k1_off33 L (BitVec.ofNat 32 (16 * r.val))) 0 + 1 * (z 0).val = _
    rw [ho]; show (2 * (L 1).val + (L 0).val) / 8 + 1 * (z 0).val = wid L / 8; unfold wid; omega
  · show (k1_off33 L (BitVec.ofNat 32 (16 * r.val))) 1 + 1 * (z 1).val = _
    rw [ho]; show ((2 * (L 1).val + (L 0).val) % 8) * 256 + 16 * r.val + 1 * (z 1).val = _; unfold wid; omega
  · show (k1_off33 L (BitVec.ofNat 32 (16 * r.val))) 2 + 1 * (z 2).val = _
    rw [ho]; show 0 + 1 * (z 2).val = _; omega
  · show (k1_off33 L (BitVec.ofNat 32 (16 * r.val))) 3 + 1 * (z 3).val = _
    rw [ho]; show 0 + 1 * (z 3).val = _; omega

/-- The scratch after chunk `r`'s stores, copied whole to the chunk, is the specification's mask there. -/
theorem chunk_lands (L : grid1.Coords) (r : Fin 16) (f0 : (chunkRef L r).view.ty.Contents (Elt F)) (j : S4x2048x16x256.Idx)
    (hj : j ∈ (chunkRef L r).view.set) :
    (chunkRef L r).view.writes (Elt F) f0 [⟨Rect.whole S16x16x256, hotBuf (F := F) (cbOf L) r.val⟩] j
      = (Cert.Spec.maskF (F := F) : FVec F Cert.Spec.SOut .f32) j := by
  obtain ⟨y, -, rfl⟩ := Finset.mem_map.mp hj
  have hw := wid_lt L
  have hr := r.isLt
  have y0 : (y 0).val < 16 := (y 0).isLt
  obtain ⟨a0, a1, a2, a3⟩ := emb_chunk L r y
  have hread := View.read_writes_cons_emb (chunkRef L r).view f0 (Rect.whole S16x16x256) (hotBuf (F := F) (cbOf L) r.val) [] y
  rw [whole_emb] at hread
  have hget : (chunkRef L r).view.writes (Elt F) f0 [⟨Rect.whole S16x16x256, hotBuf (F := F) (cbOf L) r.val⟩] ((chunkRef L r).view.emb y)
      = hotBuf (F := F) (cbOf L) r.val y := ((View.read_apply _ _).trans (cast_eq _ _)).symm.trans hread
  rw [hget]
  have hiff : Cert.Spec.Hit ((chunkRef L r).view.emb y) ↔ ((y 0).val = (y 1).val ∧ (y 2).val = cbOf L + r.val) := by
    unfold Cert.Spec.Hit cbOf; unfold wid at a1 hw; rw [a1, a2, a3]; omega
  unfold hotBuf Cert.Spec.maskF
  by_cases h : (y 0).val = (y 1).val ∧ (y 2).val = cbOf L + r.val
  · rw [if_pos h, if_pos (hiff.mpr h)]; rfl
  · rw [if_neg h, if_neg (fun hh => h (hiff.mp hh))]; rfl

end Cert.Proof.KB

end
-- ==== Proof.KBTileRun.lean ====
/-
  The body of a tile, run once at a symbolic grid point with its value.  The tile's sixteen scoped semaphores, its
  scratch and its sixteen chunks of the float result are taken out of its scoped storage one by one; the zeroing loop
  goes by the invariant "the rows before the trip are zero"; each chunk's stores, copy and wait are steps of the
  symbolic run (one copy outstanding at a time, each on a semaphore of its own, nothing touching the scratch between
  the issue and the wait); what each copy moved is the scratch after that chunk's stores, the one-hot pattern of the
  chunk, which lands the specification's mask on the chunk.
-/
import proofs.«214985_g80496277062245_cont_9to1_m_1082_20_alg».proof.Proof.KBPay
import proofs.«214985_g80496277062245_cont_9to1_m_1082_20_alg».proof.Proof.KBChunk
import proofs.«214985_g80496277062245_cont_9to1_m_1082_20_alg».proof.Proof.KBOffsets33

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid1.Coords)

/-! ## The tile's own semaphores, scratch and chunks, one by one -/

/-- The sixteen DMA semaphores of the sixteen scoped regions. -/
abbrev semLocs : List (SemLoc sig) := [.dma cc1_scoped0.sem, .dma cc1_scoped1.sem, .dma cc1_scoped2.sem, .dma cc1_scoped3.sem, .dma cc1_scoped4.sem, .dma cc1_scoped5.sem, .dma cc1_scoped6.sem, .dma cc1_scoped7.sem, .dma cc1_scoped8.sem, .dma cc1_scoped9.sem, .dma cc1_scoped10.sem, .dma cc1_scoped11.sem, .dma cc1_scoped12.sem, .dma cc1_scoped13.sem, .dma cc1_scoped14.sem, .dma cc1_scoped15.sem]

theorem semLocs_nodup : semLocs.Nodup := by decide
theorem semLocs_scoped : ∀ s ∈ semLocs, (s : SemLoc sig).isScoped .scVector = true := by decide

/-- The tile's cells of those semaphores. -/
abbrev cells : List (GSem nD τ sig) := semLocs.map fun s => (V d (cV L) (jV L), s)

theorem cells_nodup : (cells d L).Nodup := semLocs_nodup.map fun _ _ h => (Prod.mk.inj h).2

theorem cells_sub : (cells d L).toFinset ⊆ ownCells (V d (cV L) (jV L)) := by
  intro g hg
  obtain ⟨s, hs, rfl⟩ := List.mem_map.mp (List.mem_toFinset.mp hg)
  exact mem_ownCells.mpr ⟨rfl, semLocs_scoped s hs⟩

theorem ownSems0_V :
    (ownSems0 (V d (cV L) (jV L)) : sProp 𝕄)
      = iprop((semVal (V d (cV L) (jV L), SemLoc.dma cc1_scoped0.sem) 0 ∗ semVal (V d (cV L) (jV L), SemLoc.dma cc1_scoped1.sem) 0 ∗ semVal (V d (cV L) (jV L), SemLoc.dma cc1_scoped2.sem) 0 ∗ semVal (V d (cV L) (jV L), SemLoc.dma cc1_scoped3.sem) 0 ∗ semVal (V d (cV L) (jV L), SemLoc.dma cc1_scoped4.sem) 0 ∗ semVal (V d (cV L) (jV L), SemLoc.dma cc1_scoped5.sem) 0 ∗ semVal (V d (cV L) (jV L), SemLoc.dma cc1_scoped6.sem) 0 ∗ semVal (V d (cV L) (jV L), SemLoc.dma cc1_scoped7.sem) 0 ∗ semVal (V d (cV L) (jV L), SemLoc.dma cc1_scoped8.sem) 0 ∗ semVal (V d (cV L) (jV L), SemLoc.dma cc1_scoped9.sem) 0 ∗ semVal (V d (cV L) (jV L), SemLoc.dma cc1_scoped10.sem) 0 ∗ semVal (V d (cV L) (jV L), SemLoc.dma cc1_scoped11.sem) 0 ∗ semVal (V d (cV L) (jV L), SemLoc.dma cc1_scoped12.sem) 0 ∗ semVal (V d (cV L) (jV L), SemLoc.dma cc1_scoped13.sem) 0 ∗ semVal (V d (cV L) (jV L), SemLoc.dma cc1_scoped14.sem) 0 ∗ semVal (V d (cV L) (jV L), SemLoc.dma cc1_scoped15.sem) 0)
          ∗ bigSep (ownCells (V d (cV L) (jV L)) \ (cells d L).toFinset) fun g => semVal g 0) := by
  unfold SparseCore.Cfg.ownSems0
  rw [SparseCore.bigSep_sdiff_split' (cells_sub d L), bigSep_eq_bigSepL _ (cells_nodup d L)]
  rfl

theorem ownBufs_V :
    (ownBufs (V d (cV L) (jV L)) : sProp 𝕄)
      = iprop((∃ f, (V d (cV L) (jV L)).loc cc1_scratch0 ↦{fullShare} f)
          ∗ bigSep ((ownRefs (τ := τ) (.scVector (cV L) (jV L))).erase ((Proc.scVector (cV L) (jV L)).devRef cc1_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc1_scratch0) rfl)

theorem tileChunks_eq (f : Buf (Elt F) (oLoc d)) :
    tileChunks (F := F) d L f
      = iprop((oLoc d ↦[chunkSet L 0]{fullShare} f) ∗ (oLoc d ↦[chunkSet L 1]{fullShare} f) ∗ (oLoc d ↦[chunkSet L 2]{fullShare} f) ∗ (oLoc d ↦[chunkSet L 3]{fullShare} f) ∗ (oLoc d ↦[chunkSet L 4]{fullShare} f) ∗ (oLoc d ↦[chunkSet L 5]{fullShare} f) ∗ (oLoc d ↦[chunkSet L 6]{fullShare} f) ∗ (oLoc d ↦[chunkSet L 7]{fullShare} f) ∗ (oLoc d ↦[chunkSet L 8]{fullShare} f) ∗ (oLoc d ↦[chunkSet L 9]{fullShare} f) ∗ (oLoc d ↦[chunkSet L 10]{fullShare} f) ∗ (oLoc d ↦[chunkSet L 11]{fullShare} f) ∗ (oLoc d ↦[chunkSet L 12]{fullShare} f) ∗ (oLoc d ↦[chunkSet L 13]{fullShare} f) ∗ (oLoc d ↦[chunkSet L 14]{fullShare} f) ∗ (oLoc d ↦[chunkSet L 15]{fullShare} f)) := by
  unfold tileChunks
  exact (bigSep_univ_eq_bigSepL [0, 1, 2, 3, 4, 5, 6, 7, 8, 9, 10, 11, 12, 13, 14, 15] (by decide) (by decide) _).trans rfl

/-- The scratch as the body addresses it. -/
theorem pts_sB (f : Buf (Elt F) ((V d (cV L) (jV L)).loc cc1_scratch0)) :
    ((sB : Memref sig .scVector .vmem S16x16x256 .f32).view.loc (V d (cV L) (jV L)) ↦{fullShare} f : sProp 𝕄)
      = (V d (cV L) (jV L)).loc cc1_scratch0 ↦{fullShare} f := rfl

/-- A chunk as the body addresses it. -/
theorem pts_chunk (r : Fin 16) (f : Buf (Elt F) (oLoc d)) :
    ((chunkRef L r).view.loc (V d (cV L) (jV L)) ↦[(chunkRef L r).view.set]{fullShare} f : sProp 𝕄)
      = oLoc d ↦[chunkSet L r]{fullShare} f := rfl

variable [FloatOps F]

/-- A chunk of the float result holding the scratch after the chunk's stores holds the specification's mask. -/
theorem land (r : Fin 16) (f0 : Buf (Elt F) (oLoc d)) (w : S16x16x256.Idx → F .f32) (hw : w = hotBuf (F := F) (cbOf L) r.val) :
    ((chunkRef L r).view.loc (V d (cV L) (jV L)) ↦[(chunkRef L r).view.set]{fullShare}
        (chunkRef L r).view.writes (Elt F) f0 [⟨Rect.whole S16x16x256, w⟩] : sProp 𝕄)
      = oLoc d ↦[chunkSet L r]{fullShare} outF d := by
  subst hw
  exact pointsTo_congr fun j hj => chunk_lands (F := F) L r f0 j hj

/-- What the scratch holds before trip `k` of the zeroing loop. -/
def inv (fs : Buf (Elt F) ((V d (cV L) (jV L)).loc cc1_scratch0)) (k : Nat) (_ : Unit) : sProp 𝕄 :=
  iprop((sB : Memref sig .scVector .vmem S16x16x256 .f32).view.loc (V d (cV L) (jV L)) ↦{fullShare} zfill (F := F) fs k)

/-- What a transfer out of the scratch moves is what the scratch holds. -/
theorem read_sV (g : (sV).ty.Contents (Elt F)) : ReadAs.same.apply ((sV).read (Elt F) g) = g := rfl

set_option maxHeartbeats 4000000 in
theorem tile_run (hF : (K (F := F)).Facts) (f0 : Buf (Elt F) (oLoc d)) (O : CellTallies nD τ sig (HIx 1)) (W : Waits sig (HIx 1)) (hO : ∀ g, O g none = 0) :
    iprop(levAts (K (F := F)).L (K (F := F)).lev ∗ tileChunks (F := F) d L f0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L oV (Memref.isWhole_whole _) sB (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15)
          fun _ => iprop(tileChunks (F := F) d L (outF d) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V,
    tileChunks_eq, tileChunks_eq]
  iintro ⟨#Hlv, ⟨Hc0, Hc1, Hc2, Hc3, Hc4, Hc5, Hc6, Hc7, Hc8, Hc9, Hc10, Hc11, Hc12, Hc13, Hc14, Hc15⟩, ⟨⟨%fs, Hs⟩, Hbufs⟩, ⟨⟨Hm0, Hm1, Hm2, Hm3, Hm4, Hm5, Hm6, Hm7, Hm8, Hm9, Hm10, Hm11, Hm12, Hm13, Hm14, Hm15⟩, Hsems⟩, HO⟩
  ihave Hmw := ((K (F := F)).mayWaits_none (thr := V d (cV L) (jV L)) hO) $$ Hlv
  ihave Hs' := (Entails.of_eq (pts_sB (F := F) d L _).symm) $$ Hs
  ihave Hc0' := (Entails.of_eq (pts_chunk (F := F) d L 0 _).symm) $$ Hc0
  ihave Hc1' := (Entails.of_eq (pts_chunk (F := F) d L 1 _).symm) $$ Hc1
  ihave Hc2' := (Entails.of_eq (pts_chunk (F := F) d L 2 _).symm) $$ Hc2
  ihave Hc3' := (Entails.of_eq (pts_chunk (F := F) d L 3 _).symm) $$ Hc3
  ihave Hc4' := (Entails.of_eq (pts_chunk (F := F) d L 4 _).symm) $$ Hc4
  ihave Hc5' := (Entails.of_eq (pts_chunk (F := F) d L 5 _).symm) $$ Hc5
  ihave Hc6' := (Entails.of_eq (pts_chunk (F := F) d L 6 _).symm) $$ Hc6
  ihave Hc7' := (Entails.of_eq (pts_chunk (F := F) d L 7 _).symm) $$ Hc7
  ihave Hc8' := (Entails.of_eq (pts_chunk (F := F) d L 8 _).symm) $$ Hc8
  ihave Hc9' := (Entails.of_eq (pts_chunk (F := F) d L 9 _).symm) $$ Hc9
  ihave Hc10' := (Entails.of_eq (pts_chunk (F := F) d L 10 _).symm) $$ Hc10
  ihave Hc11' := (Entails.of_eq (pts_chunk (F := F) d L 11 _).symm) $$ Hc11
  ihave Hc12' := (Entails.of_eq (pts_chunk (F := F) d L 12 _).symm) $$ Hc12
  ihave Hc13' := (Entails.of_eq (pts_chunk (F := F) d L 13 _).symm) $$ Hc13
  ihave Hc14' := (Entails.of_eq (pts_chunk (F := F) d L 14 _).symm) $$ Hc14
  ihave Hc15' := (Entails.of_eq (pts_chunk (F := F) d L 15 _).symm) $$ Hc15
  sl_exec_parts
  sl_for (inv (F := F) d L fs) $$ [Hs']
  case region =>
    intro k _
    unfold inv
    iintro Hs
    sl_exec_parts
    sl_step
    rw [← zero_step (F := F) fs k]
    iexact Hs
  · unfold inv
    iexact Hs'
  iintro %_ HI
  unfold inv
  rw [show Scf.trips k1_t1_loop.lb k1_t1_loop.ub k1_t1_loop.st = 256 from trips_eq, zfill_all]
  sl_exec_parts
  sl_step
  isplitl [Hc0' Hc1' Hc2' Hc3' Hc4' Hc5' Hc6' Hc7' Hc8' Hc9' Hc10' Hc11' Hc12' Hc13' Hc14' Hc15']
  · isplitl [Hc0']; · iapply (Entails.of_eq (land (F := F) d L 0 f0 _ (upto0 (F := F) L))); iexact Hc0'
    isplitl [Hc1']; · iapply (Entails.of_eq (land (F := F) d L 1 f0 _ (upto1 (F := F) L))); iexact Hc1'
    isplitl [Hc2']; · iapply (Entails.of_eq (land (F := F) d L 2 f0 _ (upto2 (F := F) L))); iexact Hc2'
    isplitl [Hc3']; · iapply (Entails.of_eq (land (F := F) d L 3 f0 _ (upto3 (F := F) L))); iexact Hc3'
    isplitl [Hc4']; · iapply (Entails.of_eq (land (F := F) d L 4 f0 _ (upto4 (F := F) L))); iexact Hc4'
    isplitl [Hc5']; · iapply (Entails.of_eq (land (F := F) d L 5 f0 _ (upto5 (F := F) L))); iexact Hc5'
    isplitl [Hc6']; · iapply (Entails.of_eq (land (F := F) d L 6 f0 _ (upto6 (F := F) L))); iexact Hc6'
    isplitl [Hc7']; · iapply (Entails.of_eq (land (F := F) d L 7 f0 _ (upto7 (F := F) L))); iexact Hc7'
    isplitl [Hc8']; · iapply (Entails.of_eq (land (F := F) d L 8 f0 _ (upto8 (F := F) L))); iexact Hc8'
    isplitl [Hc9']; · iapply (Entails.of_eq (land (F := F) d L 9 f0 _ (upto9 (F := F) L))); iexact Hc9'
    isplitl [Hc10']; · iapply (Entails.of_eq (land (F := F) d L 10 f0 _ (upto10 (F := F) L))); iexact Hc10'
    isplitl [Hc11']; · iapply (Entails.of_eq (land (F := F) d L 11 f0 _ (upto11 (F := F) L))); iexact Hc11'
    isplitl [Hc12']; · iapply (Entails.of_eq (land (F := F) d L 12 f0 _ (upto12 (F := F) L))); iexact Hc12'
    isplitl [Hc13']; · iapply (Entails.of_eq (land (F := F) d L 13 f0 _ (upto13 (F := F) L))); iexact Hc13'
    isplitl [Hc14']; · iapply (Entails.of_eq (land (F := F) d L 14 f0 _ (upto14 (F := F) L))); iexact Hc14'
    iapply (Entails.of_eq (land (F := F) d L 15 f0 _ (upto15 (F := F) L))); iexact Hc15'
  isplitl [HI Hbufs]
  · isplitl [HI]
    · iexists _; iexact HI
    · iexact Hbufs
  isplitl [Hm0 Hm1 Hm2 Hm3 Hm4 Hm5 Hm6 Hm7 Hm8 Hm9 Hm10 Hm11 Hm12 Hm13 Hm14 Hm15 Hsems]
  · isplitl [Hm0 Hm1 Hm2 Hm3 Hm4 Hm5 Hm6 Hm7 Hm8 Hm9 Hm10 Hm11 Hm12 Hm13 Hm14 Hm15]
    · isplitl [Hm0]; · iexact Hm0
      isplitl [Hm1]; · iexact Hm1
      isplitl [Hm2]; · iexact Hm2
      isplitl [Hm3]; · iexact Hm3
      isplitl [Hm4]; · iexact Hm4
      isplitl [Hm5]; · iexact Hm5
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      iexact Hm15
    · iexact Hsems
  iexists _; isplitr
  on_goal 2 => iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp

end Cert.Proof.KB

end
-- ==== Proof.KBTile.lean ====
/-
  The tile's body obligation in the form the launch is built against.
-/
import proofs.«214985_g80496277062245_cont_9to1_m_1082_20_alg».proof.Proof.KBTileRun
import proofs.«214985_g80496277062245_cont_9to1_m_1082_20_alg».proof.Proof.KBLaunch

namespace Cert.Proof.KB

open Cert.Kernel Cert.Kernel.Gen
open Idealize.ShloMosaic

variable {F : FTy → Type} [FloatOps F]

theorem tile_body : TileBody (F := F) := fun hF d L f0 O W hO => tile_run d L hF f0 O W hO

end Cert.Proof.KB
-- ==== Proof.KBBoolValue.lean ====
/-
  The value the TensorCore body stores.  At grid point `i` the body writes one vector into its whole block of
  256 × 16 × 256 bytes: lane `(y0, e, c)` compares `(tok % 16) * 256 + tok / 16`, the token being `tok = 256 * i + y0`,
  with `e * 256 + c`, in 32-bit arithmetic, and widens the bit to a byte.  The remainder and the quotient are the
  signed ones followed by the corrections that turn them into the floor forms; for a token below 2048 nothing is
  negative and every correction is the identity, which is checked lane by lane over the 8 × 256 tokens.  Since the
  quotient is below 256, the two sides agree exactly when `e = tok % 16` and `c = tok / 16`.
-/
import proofs.«214985_g80496277062245_cont_9to1_m_1082_20_alg».proof.Proof.Gen.Kernel.Skeleton
import Idealize.ShloMosaic.Lib.ValueIdx

noncomputable section

namespace Cert.Proof.KB

open Cert.Kernel Cert.Kernel.Gen
open Idealize.ShloMosaic

/-- The token side of the comparison at one lane: from the grid coordinate and the row of the block. -/
def tgtLane (t y0 : BitVec 32) : BitVec 32 :=
  let v3 := IntOp.addi y0 (Scalar.muli t 256#32)
  let v5 := Scalar.select (Scalar.cmpi .eq 16#32 0#32) 1#32 16#32
  let v7 := IntOp.remsi .vector v3 v5
  let v16 := IntOp.andi (IntOp.xori (IntOp.cmpi .slt v7 0#32) (Scalar.cmpi .slt v5 0#32)) (IntOp.cmpi .ne v7 0#32)
  let v21 := IntOp.muli (Scalar.select v16 (IntOp.addi v7 v5) v7) 256#32
  let v23 := IntOp.divsi .vector v3 16#32
  let v30 := IntOp.subi ((IntOp.cmpi .sgt v3 0#32).setWidth 32) ((IntOp.cmpi .slt v3 0#32).setWidth 32)
  let v35 := Scalar.subi (Scalar.extui (Scalar.cmpi .sgt 16#32 0#32)) (Scalar.extui (Scalar.cmpi .slt 16#32 0#32))
  let v42 := IntOp.andi (IntOp.cmpi .ne v30 v35) (IntOp.cmpi .ne (IntOp.remsi .vector v3 16#32) 0#32)
  IntOp.addi v21 (Scalar.select v42 (IntOp.subi v23 1#32) v23)

theorem pay1_lane (i : grid0.Coords) (y : S256x16x256.Idx) :
    k0_pay1 (k0_pay3 i) (k0_pay4 i) (k0_pay5 i) k0_pay6 y
      = (IntOp.cmpi .eq (tgtLane (BitVec.ofNat 32 (i 0).val) (BitVec.ofNat 32 (y 0).val))
          (IntOp.addi (IntOp.muli (BitVec.ofNat 32 (y 1).val) 256#32) (BitVec.ofNat 32 (y 2).val))).setWidth 8 := by
  simp only [k0_pay1, k0_pay2, k0_pay3, k0_pay4, k0_pay5, k0_pay6, tgtLane, extui, cmpi, addi, subi, muli, andi, xori, remsi, divsi, select, broadcast, broadcastTo, iota, List.foldl]
  have e0 : (⟨↑(0 : Fin 3) + (3 - 3), by decide⟩ : Fin 3) = 0 := rfl
  have e1 : (⟨↑(1 : Fin 3) + (3 - 3), by decide⟩ : Fin 3) = 1 := rfl
  have e2 : (⟨↑(2 : Fin 3) + (3 - 3), by decide⟩ : Fin 3) = 2 := rfl
  simp [e0, e1, e2]

/-- The token side, computed: for a token below 2048 every sign correction is the identity. -/
theorem tgtLane_eq : ∀ (t : Fin 8) (y0 : Fin 256),
    tgtLane (BitVec.ofNat 32 t.val) (BitVec.ofNat 32 y0.val)
      = BitVec.ofNat 32 (((256 * t.val + y0.val) % 16) * 256 + (256 * t.val + y0.val) / 16) := by
  decide +kernel

theorem ofNat32_eq_iff {a b : Nat} (ha : a < 4294967296) (hb : b < 4294967296) : (BitVec.ofNat 32 a = BitVec.ofNat 32 b) ↔ a = b := by
  constructor
  · intro h
    have := congrArg BitVec.toNat h
    simp only [BitVec.toNat_ofNat] at this
    omega
  · rintro rfl; rfl

/-- The value the body stores at index `y` of its block at grid point `i`: the byte 1 exactly where the expert is the
    token's residue mod 16 and the slot its quotient by 16, the token being `256 * i + y 0`. -/
theorem pay_value (i : grid0.Coords) (y : S256x16x256.Idx) :
    k0_pay1 (k0_pay3 i) (k0_pay4 i) (k0_pay5 i) k0_pay6 y
      = if (y 1).val = (256 * (i 0).val + (y 0).val) % 16 ∧ (y 2).val = (256 * (i 0).val + (y 0).val) / 16 then 1#8 else 0#8 := by
  rw [pay1_lane]
  have hi : (i 0).val < 8 := (i 0).isLt
  have h0 : (y 0).val < 256 := (y 0).isLt
  have h1 : (y 1).val < 16 := (y 1).isLt
  have h2 : (y 2).val < 256 := (y 2).isLt
  have ht := tgtLane_eq ⟨(i 0).val, hi⟩ ⟨(y 0).val, h0⟩
  simp only at ht
  rw [ht]
  have hr : IntOp.addi (IntOp.muli (BitVec.ofNat 32 (y 1).val) 256#32) (BitVec.ofNat 32 (y 2).val)
      = BitVec.ofNat 32 ((y 1).val * 256 + (y 2).val) := by
    simp [IntOp.addi, IntOp.muli, BitVec.ofNat_add, BitVec.ofNat_mul]
  rw [hr]
  unfold IntOp.cmpi
  simp only []
  by_cases h : (y 1).val = (256 * (i 0).val + (y 0).val) % 16 ∧ (y 2).val = (256 * (i 0).val + (y 0).val) / 16
  · rw [if_pos h]
    have : ((256 * (i 0).val + (y 0).val) % 16) * 256 + (256 * (i 0).val + (y 0).val) / 16 = (y 1).val * 256 + (y 2).val := by omega
    rw [this]; simp
  · rw [if_neg h]
    have hne : ¬ (BitVec.ofNat 32 (((256 * (i 0).val + (y 0).val) % 16) * 256 + (256 * (i 0).val + (y 0).val) / 16)
        = BitVec.ofNat 32 ((y 1).val * 256 + (y 2).val)) := by
      rw [ofNat32_eq_iff (by omega) (by omega)]
      omega
    rw [beq_eq_false_iff_ne.mpr hne]
    rfl

end Cert.Proof.KB
end
-- ==== Proof.KBBoolBody.lean ====
/-
  The TensorCore kernel's body at one grid point.  The body reads nothing it uses and makes one store, of one vector
  computed from the grid point alone, through the rectangle that is its whole block: whatever the staging buffer held,
  it ends holding that vector.
-/
import proofs.«214985_g80496277062245_cont_9to1_m_1082_20_alg».proof.Proof.KBCommon
import proofs.«214985_g80496277062245_cont_9to1_m_1082_20_alg».proof.Proof.KBBoolValue
import Idealize.ShloMosaic.Lib.Pipeline.FrameBody
import Idealize.ShloMosaic.Lib.Pipeline.Value

noncomputable section

namespace Cert.Proof.KB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

variable [FloatOps F] [∀ e, Nonempty (Elt F e)]

/-- The body's one store: the whole block. -/
abbrev rW : Rect S256x16x256 := Rect.unit (s := S256x16x256) ![0, 0, 0] S256x16x256.size inb_S256x16x256_S256x16x256_0_0_0

theorem hzW : (![0, 0, 0] : Fin 3 → Nat) = fun _ => 0 := funext fun a => by fin_cases a <;> rfl

/-- What the body stores at grid point `i`. -/
def pay (i : grid0.Coords) : Vec F S256x16x256 .i8 := k0_pay1 (k0_pay3 i) (k0_pay4 i) (k0_pay5 i) k0_pay6

/-- The body on a whole staging memref held at anything: it runs to its return with the memref at `pay i`. -/
theorem bool_body (c : Dev nD) (i : grid0.Coords) (arg1 : Memref sig .tc .vmem S256x16x256 .i8) (harg1 : arg1.IsWhole)
    (Q : PUnit → sProp 𝕄) :
    iprop((∃ d, owns (c : Thread nD τ) arg1 fullShare d) ∗ (owns (c : Thread nD τ) arg1 fullShare (pay (F := F) i) -∗ Q ⟨⟩))
      ⊢ wp frame (wpE (defs₀ (F := F)) Variants.none c none) Set.univ (cc0__bool_body i arg1 harg1) Q := by
  simp only [cc0__bool_body_eq_skeleton]; unfold cc0__bool_body_skel
  unfold owns
  iintro ⟨⟨%d, %f, -, H⟩, Hk⟩
  sl_exec
  sl_step
  iapply Hk
  iexists _; isplitr
  swap; · iexact H
  ipureintro
  rw [View.read_writes_eq_canon _ _ _ (fun y => ⟨_, List.mem_singleton_self _, View.mem_set_unit_zero hzW inb_S256x16x256_S256x16x256_0_0_0 y⟩), View.canon_unit_zero hzW]
  rfl

end Cert.Proof.KB
end
-- ==== Proof.KBBoolDat.lean ====
/-
  The TensorCore pallas_call's proof data and the array it leaves.  The grid has 8 points; point `t` fills its staging
  block with one vector computed from `t` alone and the block is written back to rows `256 t … 256 t + 255` of the
  byte mask.  The blocks tile the mask, and the vector of point `t` at row `y` is the mask at token `256 t + y`:
  after the last point the mask holds 1 at (token, token % 16, token / 16) and 0 elsewhere.  While the pipeline runs
  the TensorCore goes on owing the start signals of the SparseCore call; its waits are the pipeline's own, at the
  lowest level.
-/
import proofs.«214985_g80496277062245_cont_9to1_m_1082_20_alg».proof.Proof.KBBoolBody
import proofs.«214985_g80496277062245_cont_9to1_m_1082_20_alg».proof.Proof.KBMainDefs
import Idealize.ShloMosaic.Lib.Pipeline.Value
import Idealize.ShloMosaic.Lib.Pipeline.Regions

noncomputable section

namespace Cert.Proof.KB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

variable [FloatOps F] [∀ e, Nonempty (Elt F e)]
variable (m : (ℓ : Loc nD τ sig) → Buf (Elt F) ℓ)

/-- The (semaphore, index) pairs of device `c`'s TensorCore at the lowest level: every pair its waits have recorded
    before and during the pallas_call is one. -/
def lowPairs (c : Dev nD) : Set (SemLoc sig × HIx 1) := {p | (K (F := F)).lev ((T c : Thread nD τ), p.1) p.2 ≤ 0}

/-- The proof data on device `c`: the mask's buffer as launched; after the body at point `t` the staging buffer at the
    body's vector; between points only the scoped buffers that are no staging buffer; the start signals of the
    SparseCore call owed throughout. -/
def dats (_ : Fin 1) (c : Dev nD) : Dat τ (Elt F) (HIx 1) ℕ UU ℕ cfg0 c where
  A w := m ((c : Thread nD τ).loc (Pipeline.arrRef spec0 w))
  after w t := match w with | ⟨0, _⟩ => pay (F := F) (grid0.coords t)
  Φ _ := Pipeline.scopedRest (Ix := HIx 1) (Name := ℕ) (U := UU) (Lvl := ℕ) (Val := Elt F) spec0 c
  q _ := fullShare
  owed _ := (K (F := F)).Otc c 0
  recorded _ := lowPairs (F := F) c

theorem after0 (c : Dev nD) (t : Fin cfg0.N) : (dats m 0 c).after 0 t = pay (F := F) (grid0.coords t) := by dsimp only [dats]

/-! ## The body obligation -/

theorem sound_body (c : Dev nD) (t : Fin cfg0.N) :
    iprop((dats m 0 c).Φ t.castSucc ∗ (dats m 0 c).owesAt none t.castSucc
        ∗ (∃ d, owns (c : Thread nD τ) (st0_0 t) fullShare ((dats m 0 c).before 0 t d)))
      ⊢ wp frame (wpE (defs₀ (F := F)) Variants.none c none) Set.univ (bodyAt0 t) (fun _ =>
          iprop((dats m 0 c).Φ t.succ ∗ (dats m 0 c).owesAt none t.succ
            ∗ owns (c : Thread nD τ) (st0_0 t) fullShare ((dats m 0 c).after 0 t))) := by
  rw [show (dats m 0 c).Φ t.succ = (dats m 0 c).Φ t.castSucc from rfl,
    show (dats m 0 c).owesAt none t.succ = (dats m 0 c).owesAt none t.castSucc from rfl, after0]
  iintro ⟨HΦ, Ho, ⟨%d0, H0⟩⟩
  unfold bodyAt0
  iapply (bool_body c (grid0.coords t) _ _ _)
  isplitl [H0]; · iexists _; iexact H0
  iintro H0
  isplitl [HΦ]; · iexact HΦ
  isplitl [Ho]; · iexact Ho
  iexact H0

theorem body_obligation (c : Dev nD) : BodyObligation (dats (F := F) m 0 c) (defs₀ (F := F)) Variants.none none Set.univ := fun t => by
  rw [bigSep_W0, bigSep_W0]
  exact sound_body m c t

/-! ## From the blocks to the mask -/

/-- The printed index map over the grid: point `t` writes block `t` of the first axis, block 0 of the others, and its
    grid coordinate is `t`. -/
theorem idx_facts : ∀ t : Fin cfg0.N, win0_0.index t (0 : Fin 3) = t.val ∧ win0_0.index t (1 : Fin 3) = 0
    ∧ win0_0.index t (2 : Fin 3) = 0 ∧ ((grid0.coords t) 0).val = t.val :=
  (by decide +kernel : ∀ t : Fin grid0.N, _)

/-- What point `t` writes back is block `t` of the mask. -/
theorem flushed_eq (c : Dev nD) (t : Fin cfg0.N) :
    (dats m 0 c).flushed 0 t = ((cfg0.win 0).blk t).view.read (Elt F) (proxy (F := F) c) := by
  show (cfg0.win 0).cut (grid0.coords t) ((dats m 0 c).after 0 t) = _
  rw [after0]
  obtain ⟨e0, e1, e2, e3⟩ := idx_facts t
  funext j
  show pay (F := F) (grid0.coords t) j = proxy (F := F) c (((cfg0.win 0).blk t).view.emb j)
  have h0 : ((((cfg0.win 0).blk t).view.emb j) 0).val = win0_0.index t (0 : Fin 3) * 256 + 1 * (j 0).val := rfl
  have h1 : ((((cfg0.win 0).blk t).view.emb j) 1).val = win0_0.index t (1 : Fin 3) * 16 + 1 * (j 1).val := rfl
  have h2 : ((((cfg0.win 0).blk t).view.emb j) 2).val = win0_0.index t (2 : Fin 3) * 256 + 1 * (j 2).val := rfl
  have hp : proxy (F := F) c (((cfg0.win 0).blk t).view.emb j)
      = if ((((cfg0.win 0).blk t).view.emb j) 1).val = ((((cfg0.win 0).blk t).view.emb j) 0).val % 16
          ∧ ((((cfg0.win 0).blk t).view.emb j) 2).val = ((((cfg0.win 0).blk t).view.emb j) 0).val / 16 then 1#8 else 0#8 := rfl
  rw [hp, h0, h1, h2, e0, e1, e2]
  unfold pay
  rw [pay_value, e3]
  have hj0 : (j 0).val < 256 := (j 0).isLt
  have hj1 : (j 1).val < 16 := (j 1).isLt
  have hj2 : (j 2).val < 256 := (j 2).isLt
  refine if_congr ?_ rfl rfl
  constructor <;> rintro ⟨a, b⟩ <;> constructor <;> omega

/-- An index of the mask is in point `t`'s block iff each coordinate is in the block's range on its axis. -/
theorem mem_blk (t : Fin cfg0.N) (i : S2048x16x256.Idx) :
    i ∈ ((cfg0.win 0).blk t).view.set ↔ ∀ a : Fin 3, win0_0.index t a * S256x16x256.size a ≤ (i a).val
      ∧ (i a).val < win0_0.index t a * S256x16x256.size a + S256x16x256.size a := by
  show i ∈ ((View.whole main_v0).slice (win0_0.rect t)).set ↔ _
  rw [View.set_slice_whole, Rect.mem_set_unit]
  exact Iff.rfl

/-- Every index of the mask is in the block of the point its token's row falls in. -/
theorem covered (i : S2048x16x256.Idx) :
    ∃ t : Fin cfg0.N, (cfg0.win 0).flush t = true ∧ i ∈ ((cfg0.win 0).blk t).view.set := by
  have hi0 : (i 0).val < 2048 := (i 0).isLt
  have hi1 : (i 1).val < 16 := (i 1).isLt
  have hi2 : (i 2).val < 256 := (i 2).isLt
  have hN : cfg0.N = 8 := N_0
  let t : Fin cfg0.N := ⟨(i 0).val / 256, by rw [hN]; omega⟩
  obtain ⟨e0, e1, e2, -⟩ := idx_facts t
  have et : t.val = (i 0).val / 256 := rfl
  refine ⟨t, flush0_0 t, ?_⟩
  rw [mem_blk]
  intro a
  match a with
  | ⟨0, _⟩ => show win0_0.index t (0 : Fin 3) * 256 ≤ (i 0).val ∧ (i 0).val < win0_0.index t (0 : Fin 3) * 256 + 256; omega
  | ⟨1, _⟩ => show win0_0.index t (1 : Fin 3) * 16 ≤ (i 1).val ∧ (i 1).val < win0_0.index t (1 : Fin 3) * 16 + 16; omega
  | ⟨2, _⟩ => show win0_0.index t (2 : Fin 3) * 256 ≤ (i 2).val ∧ (i 2).val < win0_0.index t (2 : Fin 3) * 256 + 256; omega

/-- The mask after the last point. -/
theorem final (c : Dev nD) : (dats m 0 c).arrAt 0 cfg0.N = proxy (F := F) c :=
  (dats m 0 c).arrAt_eq_of_cover 0 _ (fun t _ => flushed_eq m c t) covered

end Cert.Proof.KB
end
-- ==== Proof.KBRegion.lean ====
/-
  The TensorCore pallas_call as a region of @main.  The pipeline's staging cells are funded at the launch, in their own
  copy of the rounds algebra; the region is entered from the TensorCore's arrays as launched and from what the
  TensorCore owes — the start signals of the SparseCore call, which it goes on owing throughout —, and is left with
  the byte mask at (token, token % 16, token / 16), every other array as it was, the same debts, and every pair its
  waits recorded still at the lowest level.
-/
import proofs.«214985_g80496277062245_cont_9to1_m_1082_20_alg».proof.Proof.KBBoolDat

noncomputable section

namespace Cert.Proof.KB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

variable [FloatOps F] [∀ e, Nonempty (Elt F e)]
variable (m : (ℓ : Loc nD τ sig) → Buf (Elt F) ℓ) (ρ : Dev nD → PrngReg)

/-- No prefetched table. -/
abbrev adm : (p : Fin 1) → (pcfgs (F := F) p).Adm := fun p => (cfgs p).toPCfg_adm

/-! ## The launch element of the staging cells -/

/-- The staging cells' rounds at the launch: each cell at its launch state, a token per transfer the loop issues. -/
def uP₀ : UP := initOf (Pipeline.cells (nD := nD) (τ := τ) cfgs cellOf_inj) (Pipeline.launchToks (nD := nD) (τ := τ) cfgs cellOf_inj)

/-- What device `d`'s TensorCore is dealt of it: its cells' ghost state and its transfers' tokens. -/
def Gp (d : Dev nD) : sProp 𝕄 := iprop(Pipeline.cellsGhost cfgs (EP (F := F)) 0 d ∗ Pipeline.toksInit cfgs (EP (F := F)) 0 d)

omit [FloatOps F] [∀ e, Nonempty (Elt F e)] in
theorem fundP : (BI.own (EP (F := F) uP₀) : sProp 𝕄) ⊢ |={Set.univ}=> bigSep Finset.univ (Gp (F := F)) := by
  have h : iprop((bigSep Finset.univ fun c : Dev nD => bigSep Finset.univ fun p : Fin 1 => Pipeline.cellsGhost cfgs (EP (F := F)) p c)
        ∗ (bigSep Finset.univ fun c : Dev nD => bigSep Finset.univ fun p : Fin 1 => (Pipeline.toksInit cfgs (EP (F := F)) p c : sProp 𝕄)))
      ⊢ bigSep Finset.univ (Gp (F := F)) := by
    unfold Gp
    simp only [bigSep_W0]
    exact BI.Entails.refl _
  unfold uP₀
  exact ((Pipeline.fund_ghost cfgs (EP (F := F)) cellOf_inj).trans (Laws.bupd_mono h)).trans bupd_fupd

/-! ## What the TensorCore owes across the region -/

/-- The start signals of the SparseCore call, every pair its waits recorded at the lowest level. -/
abbrev owesTC (c : Dev nD) : sProp 𝕄 :=
  iprop(∃ W, ⌜(K (F := F)).WBelow (T c) W (8 * 0)⌝ ∗ owes (T c) ((K (F := F)).Otc c 0) W)

omit [FloatOps F] [∀ e, Nonempty (Elt F e)] in
/-- Nothing is owed at the kernels' own index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- The arrays as launched. -/
abbrev V0 (c : Dev nD) : (b : Ref sig .tc) → Buf (Elt F) ((c : Thread nD τ).loc b) := fun b => m ((c : Thread nD τ).loc b)

omit [FloatOps F] [∀ e, Nonempty (Elt F e)] in
/-- The unscoped buffers: the mask's, and the rest. -/
theorem unscopedBufs_eq (c : Dev nD) (W : (b : Ref sig .tc) → Buf (Elt F) ((c : Thread nD τ).loc b)) :
    (unscopedBufs c W : sProp 𝕄) = iprop(((c : Thread nD τ).loc main_v0 ↦{fullShare} W main_v0)
      ∗ Pipeline.unscopedRest spec0 c W) := by
  rw [Pipeline.unscopedBufs_split cfgs (0 : Fin 1) launch0.win.arr_unscoped launch0.win.arr_inj c W, bigSep_W0]

omit [FloatOps F] [∀ e, Nonempty (Elt F e)] in
/-- The rest does not hold the mask's buffer. -/
theorem unscopedRest_W1 (c : Dev nD) :
    (Pipeline.unscopedRest spec0 c (W1 (F := F) m c) : sProp 𝕄) = Pipeline.unscopedRest spec0 c (V0 m c) := by
  unfold Pipeline.unscopedRest
  refine bigSep_congr fun b hb => ?_
  have hne : b ≠ main_v0 := fun e => (Finset.mem_sdiff.mp hb).2 (Finset.mem_image.mpr ⟨0, Finset.mem_univ _, e.symm⟩)
  unfold W1
  rw [Function.update_of_ne hne]

set_option backward.isDefEq.respectTransparency.types false in
/-- THE REGION. -/
def reg0 : Pipeline.RegionSeg (pcfgs (F := F)) adm (dats m) none defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := (body_obligation m c).loose
  hwaits c := Pipeline.cellsWaits_intro cfgs (dats m) none 0 c fun w s t =>
    (K (F := F)).mayWait_none _ (Otc_none c 0)
  pre c := iprop(unscopedBufs c (V0 m c) ∗ owesTC (F := F) c)
  post c := iprop(unscopedBufs c (W1 (F := F) m c) ∗ owesTC (F := F) c)
  X c := iprop(emp)
  Y c := iprop(emp)
  Z c := Pipeline.unscopedRest spec0 c (V0 m c)
  hentry c := by
    have hsplit := Pipeline.arrays_of_unscopedBufs (pcfgs (F := F)) adm (dats m) launch0.win launch0.arr_whole c
      ((dats m 0 c).share_full fun _ => rfl) (V0 m c) fun _ => rfl
    iintro ⟨⟨Hub, ⟨%W, %hW, HO⟩⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hr
  hin c := by
    change iprop(_ ∗ _ ∗ Pipeline.scopedRest spec0 c) ⊢ Pipeline.scopedRest spec0 c
    iintro ⟨-, -, Hr⟩
    iexact Hr
  hout c := by
    change Pipeline.scopedRest spec0 c ⊢ iprop(_ ∗ _ ∗ Pipeline.scopedRest spec0 c)
    rw [Pipeline.ownSems0_none]
    iintro Hr
    isplitr; · iempintro
    isplitr; · iempintro
    iexact Hr
  hexit c := by
    rw [Pipeline.arrays_eq cfgs (dats m) (0 : Fin 1) c launch0.arr_whole ((dats m 0 c).share_full fun _ => rfl), bigSep_W0,
      final, unscopedBufs_eq, unscopedRest_W1]
    iintro ⟨Ha, HO, -, HZ⟩
    imodintro
    isplitl [Ha HZ]
    · isplitl [Ha]
      · rw [show W1 (F := F) m c main_v0 = proxy (F := F) c from Function.update_self _ _ _]; iexact Ha
      · iexact HZ
    · unfold Pipeline.Dat.owesAt Pipeline.owesWithin
      icases HO with ⟨%W, %hW, HO⟩
      iexists W; isplitr
      · ipureintro
        intro p hp
        rcases hW hp with h | ⟨w, s, rfl⟩
        · exact h
        · exact le_of_eq (SparseCore.Cfg.lev_none _ _)
      iexact HO

/-! ## The region inside @main -/

set_option backward.isDefEq.respectTransparency.types false in
/-- The region on device `d`, whatever else the TensorCore's handshake state holds (`R`). -/
theorem region_core (κ : GSem nD τ sig → ℕ) (d : Dev nD) (R : sProp 𝕄) :
    iprop((K (F := F)).ctx EH (P m) κ ∗ (owesTC (F := F) d ∗ R) ∗ (K (F := F)).tcRes m ρ d ∗ Gp (F := F) d)
      ⊢ wp frame (wpE ((K (F := F)).defs (D (F := F))) 𝒱 (SparseCore.T d) none) Set.univ
          (Prog.lift (.customCall (SparseCore.inner (Pipeline.entry 0)) ()))
          fun _ => iprop((owesTC (F := F) d ∗ R) ∗ boundary (SparseCore.T d) ∗ unscopedBufs d (W1 (F := F) m d)) := by
  have hreg := Pipeline.RegionSeg.wp (pcfgs (F := F)) adm (dats m) none cellOf_inj (EP (F := F)) defs₀ 𝒱₀ (K (F := F)).L (K (F := F)).lev
    (reg0 m) d none (fun _ h => nomatch h) (fun _ => Prog.ret PUnit.unit)
    (fun _ => iprop((owesTC (F := F) d ∗ R) ∗ boundary (SparseCore.T d) ∗ unscopedBufs d (W1 (F := F) m d)))
  have hlift := (K (F := F)).wp_liftProg (D (F := F)) 𝒱 (SparseCore.T d) Set.univ none (.op (.customCall (Pipeline.entry 0) ()) .ret)
    (fun _ => iprop((owesTC (F := F) d ∗ R) ∗ boundary (SparseCore.T d) ∗ unscopedBufs d (W1 (F := F) m d)))
  have key : iprop((K (F := F)).ctx EH (P m) κ ∗ (owesTC (F := F) d ∗ R) ∗ (K (F := F)).tcRes m ρ d ∗ Gp (F := F) d)
      ⊢ iprop((iprop(boundary (SparseCore.T d : Thread nD τ) ∗ (unscopedBufs d (W1 (F := F) m d) ∗ owesTC (F := F) d))
            -∗ wp frame (wpE (D (F := F)) 𝒱 (SparseCore.T d) none) Set.univ (Prog.ret PUnit.unit)
              (fun _ => iprop((owesTC (F := F) d ∗ R) ∗ boundary (SparseCore.T d) ∗ unscopedBufs d (W1 (F := F) m d))))
          ∗ boundary (SparseCore.T d : Thread nD τ) ∗ (unscopedBufs d (V0 m d) ∗ owesTC (F := F) d) ∗ levAts (K (F := F)).L (K (F := F)).lev
          ∗ Pipeline.cellsGhost cfgs (EP (F := F)) 0 d ∗ Pipeline.toksInit cfgs (EP (F := F)) 0 d) := by
    unfold SparseCore.Cfg.tcRes Gp
    iintro ⟨#Hctx, ⟨HO, HR⟩, ⟨Hb, Hub, -, -⟩, ⟨Hg, Ht⟩⟩
    ihave Hlev := (SparseCore.Cfg.ctx_levAts κ) $$ Hctx
    isplitl [HR]
    · iintro ⟨Hb, Hub, HO⟩
      rw [wp_ret]
      imodintro
      isplitl [HO HR]
      · isplitl [HO]; · iexact HO
        iexact HR
      isplitl [Hb]; · iexact Hb
      iexact Hub
    isplitl [Hb]; · iexact Hb
    isplitl [Hub HO]
    · isplitl [Hub]; · iexact Hub
      iexact HO
    isplitl [Hlev]; · iexact Hlev
    isplitl [Hg]; · iexact Hg
    iexact Ht
  exact (key.trans hreg).trans hlift

/-- THE REGION'S STATEMENT: the handshake state, the boundary and the arrays around the pallas_call. -/
theorem region : RegionStmt (F := F) m ρ (Gp (F := F)) := fun κ d => by
  unfold SparseCore.Cfg.tcSt
  exact region_core m ρ κ d _

end Cert.Proof.KB
end
-- ==== Proof.KBRun.lean ====
/-
  The kernel program's run: the launch theorem applied to the tile's body, the TensorCore kernel's region and the
  rest of @main.
-/
import proofs.«214985_g80496277062245_cont_9to1_m_1082_20_alg».proof.Proof.KBTail
import proofs.«214985_g80496277062245_cont_9to1_m_1082_20_alg».proof.Proof.KBTile
import proofs.«214985_g80496277062245_cont_9to1_m_1082_20_alg».proof.Proof.KBRegion

noncomputable section

namespace Cert.Proof.KB

open Cert.Kernel Cert.Kernel.Gen
open Idealize.ShloMosaic Idealize.SL.Sem

variable {F : FTy → Type} [FloatOps F] [∀ e, Nonempty (Elt F e)]

/-- Every weakly fair execution of the kernel program's threads terminates, nothing faulting, with the three results
    at the specification's functions and the argument unchanged. -/
theorem run (m : (ℓ : Loc nD τ sig) → Buf (Elt F) ℓ) (ρ : Dev nD → PrngReg) :
    θ_run (Cert.Kernel.defs (F := F)) (Cert.Kernel.threads (F := F)) ⟨m, fun _ => 0, ρ⟩ (QC m) :=
  run_main m ρ (Gp (F := F)) uP₀ tile_body fundP (hmain_of_region m ρ (Gp (F := F)) (region m ρ))

end Cert.Proof.KB

end
-- ==== Proof.RefRun.lean ====
/-
  The reference program's run, read back as a fold.  Its @main is a straight line of host operations once the
  two outlined functions (the remainder and the floored division, each with its own select) are unfolded at
  their calls: seventy-six operations, listed here in order over the buffers each call names, in three
  stretches — the positions and their remainder; the floored quotient; the indices, the scatter and the
  comparison.  Every weakly fair execution terminates with every buffer at the fold of the operations' result
  functions over the launch contents, and the fold at each result buffer is a term over the pure operations.
-/
import proofs.«214985_g80496277062245_cont_9to1_m_1082_20_alg».proof.Proof.Gen.ReferenceIdeal
import Idealize.ShloMosaic.Lib.StableHlo.Run

set_option Elab.async false

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- The first stretch: the positions, the divisor, and the remainder function's operations at its call. -/
abbrev opsA : List (HloOp τ sig (Elt F)) :=
  [ StableHlo.nullary main_v0 (iotaInDim S2048 32 0),
    StableHlo.nullary main_c (constantI S_ 32 16#32),
    StableHlo.TRef.unary (.of main_c) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S2048 ![] bcast_S_S2048),
    StableHlo.TRef.binary (.of main_v0) main_call0.v3 main_call0.v4 Host.remsi,
    StableHlo.TRef.nullary main_call0.c_1 (constantI S_ 32 0#32),
    StableHlo.TRef.unary main_call0.c_1 main_call0.v5 (broadcastInDim S2048 ![] bcast_S_S2048),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S2048 ![] bcast_S_S2048),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S2048 ![] bcast_S_S2048),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S2048 ![] bcast_S_S2048),
    StableHlo.TRef.binary main_call0.v4 main_call0.v13 main_call0.v14 addi,
    StableHlo.TRef.ternary main_call0.v12 main_call0.v14 main_call0.v4 main_call0.v15 select ]

/-- The second stretch: the divisor again, and the floored division's operations at its call. -/
abbrev opsB : List (HloOp τ sig (Elt F)) :=
  [ StableHlo.nullary main_c_0 (constantI S_ 32 16#32),
    StableHlo.TRef.unary (.of main_c_0) main_call1.v0 id,
    StableHlo.TRef.unary main_call1.v0 main_call1.v1 (broadcastInDim S2048 ![] bcast_S_S2048),
    StableHlo.TRef.binary (.of main_v0) main_call1.v1 main_call1.v2 Host.divsi,
    StableHlo.TRef.unary (.of main_v0) main_call1.v3 signi,
    StableHlo.TRef.unary main_call1.v0 main_call1.v4 signi,
    StableHlo.TRef.unary main_call1.v4 main_call1.v5 (broadcastInDim S2048 ![] bcast_S_S2048),
    StableHlo.TRef.binary main_call1.v3 main_call1.v5 main_call1.v6 (cmpi .ne),
    StableHlo.TRef.unary main_call1.v0 main_call1.v7 (broadcastInDim S2048 ![] bcast_S_S2048),
    StableHlo.TRef.binary (.of main_v0) main_call1.v7 main_call1.v8 Host.remsi,
    StableHlo.TRef.nullary main_call1.c (constantI S_ 32 0#32),
    StableHlo.TRef.unary main_call1.c main_call1.v9 (broadcastInDim S2048 ![] bcast_S_S2048),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S2048 ![] bcast_S_S2048),
    StableHlo.TRef.binary main_call1.v2 main_call1.v12 main_call1.v13 subi,
    StableHlo.TRef.ternary main_call1.v11 main_call1.v13 main_call1.v2 main_call1.call0.v0 select ]

/-- The third stretch: the zeros, the three index columns made non-negative and concatenated, the ones, the
    scatter, the comparison with zero and the scalar result. -/
abbrev opsC : List (HloOp τ sig (Elt F)) :=
  [ StableHlo.nullary main_cst (constant S_ .f32 0x00000000#32),
    StableHlo.unary main_cst main_v3 (broadcastInDim S4x2048x16x256 ![] bcast_S_S4x2048x16x256 : (⟨S_, .f32⟩ : BufTy).Contents (Elt F) → (⟨S4x2048x16x256, .f32⟩ : BufTy).Contents (Elt F)),
    StableHlo.nullary main_c_1 (constantI S_ 32 0#32),
    StableHlo.unary main_c_1 main_v4 (broadcastInDim S2048 ![] bcast_S_S2048 : (⟨S_, .i32⟩ : BufTy).Contents (Elt F) → (⟨S2048, .i32⟩ : BufTy).Contents (Elt F)),
    StableHlo.binary main_v0 main_v4 main_v5 (cmpi .slt : (⟨S2048, .i32⟩ : BufTy).Contents (Elt F) → (⟨S2048, .i32⟩ : BufTy).Contents (Elt F) → (⟨S2048, .i1⟩ : BufTy).Contents (Elt F)),
    StableHlo.nullary main_c_2 (constantI S_ 32 2048#32),
    StableHlo.unary main_c_2 main_v6 (broadcastInDim S2048 ![] bcast_S_S2048 : (⟨S_, .i32⟩ : BufTy).Contents (Elt F) → (⟨S2048, .i32⟩ : BufTy).Contents (Elt F)),
    StableHlo.binary main_v0 main_v6 main_v7 (addi : (⟨S2048, .i32⟩ : BufTy).Contents (Elt F) → (⟨S2048, .i32⟩ : BufTy).Contents (Elt F) → (⟨S2048, .i32⟩ : BufTy).Contents (Elt F)),
    StableHlo.ternary main_v5 main_v7 main_v0 main_v8 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_c_3 (constantI S_ 32 0#32),
    StableHlo.unary main_c_3 main_v9 (broadcastInDim S2048 ![] bcast_S_S2048 : (⟨S_, .i32⟩ : BufTy).Contents (Elt F) → (⟨S2048, .i32⟩ : BufTy).Contents (Elt F)),
    StableHlo.binary main_v1 main_v9 main_v10 (cmpi .slt : (⟨S2048, .i32⟩ : BufTy).Contents (Elt F) → (⟨S2048, .i32⟩ : BufTy).Contents (Elt F) → (⟨S2048, .i1⟩ : BufTy).Contents (Elt F)),
    StableHlo.nullary main_c_4 (constantI S_ 32 16#32),
    StableHlo.unary main_c_4 main_v11 (broadcastInDim S2048 ![] bcast_S_S2048 : (⟨S_, .i32⟩ : BufTy).Contents (Elt F) → (⟨S2048, .i32⟩ : BufTy).Contents (Elt F)),
    StableHlo.binary main_v1 main_v11 main_v12 (addi : (⟨S2048, .i32⟩ : BufTy).Contents (Elt F) → (⟨S2048, .i32⟩ : BufTy).Contents (Elt F) → (⟨S2048, .i32⟩ : BufTy).Contents (Elt F)),
    StableHlo.ternary main_v10 main_v12 main_v1 main_v13 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_c_5 (constantI S_ 32 0#32),
    StableHlo.unary main_c_5 main_v14 (broadcastInDim S2048 ![] bcast_S_S2048 : (⟨S_, .i32⟩ : BufTy).Contents (Elt F) → (⟨S2048, .i32⟩ : BufTy).Contents (Elt F)),
    StableHlo.binary main_v2 main_v14 main_v15 (cmpi .slt : (⟨S2048, .i32⟩ : BufTy).Contents (Elt F) → (⟨S2048, .i32⟩ : BufTy).Contents (Elt F) → (⟨S2048, .i1⟩ : BufTy).Contents (Elt F)),
    StableHlo.nullary main_c_6 (constantI S_ 32 256#32),
    StableHlo.unary main_c_6 main_v16 (broadcastInDim S2048 ![] bcast_S_S2048 : (⟨S_, .i32⟩ : BufTy).Contents (Elt F) → (⟨S2048, .i32⟩ : BufTy).Contents (Elt F)),
    StableHlo.binary main_v2 main_v16 main_v17 (addi : (⟨S2048, .i32⟩ : BufTy).Contents (Elt F) → (⟨S2048, .i32⟩ : BufTy).Contents (Elt F) → (⟨S2048, .i32⟩ : BufTy).Contents (Elt F)),
    StableHlo.ternary main_v15 main_v17 main_v2 main_v18 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v8 main_v19 (broadcastInDim S2048x1 ![0] bcast_S2048_S2048x1_0 : (⟨S2048, .i32⟩ : BufTy).Contents (Elt F) → (⟨S2048x1, .i32⟩ : BufTy).Contents (Elt F)),
    StableHlo.unary main_v13 main_v20 (broadcastInDim S2048x1 ![0] bcast_S2048_S2048x1_0 : (⟨S2048, .i32⟩ : BufTy).Contents (Elt F) → (⟨S2048x1, .i32⟩ : BufTy).Contents (Elt F)),
    StableHlo.unary main_v18 main_v21 (broadcastInDim S2048x1 ![0] bcast_S2048_S2048x1_0 : (⟨S2048, .i32⟩ : BufTy).Contents (Elt F) → (⟨S2048x1, .i32⟩ : BufTy).Contents (Elt F)),
    StableHlo.nary ![main_v19, main_v20, main_v21] main_v22 (fun u => concatenate S2048x3 1 [⟨S2048x1, u 0⟩, ⟨S2048x1, u 1⟩, ⟨S2048x1, u 2⟩] concatenates_S2048x1_S2048x1_S2048x1_S2048x3_d1),
    StableHlo.nullary main_cst_7 (constant S_ .f32 0x3F800000#32),
    StableHlo.unary main_cst_7 main_v23 (broadcastInDim S4x2048 ![] bcast_S_S4x2048 : (⟨S_, .f32⟩ : BufTy).Contents (Elt F) → (⟨S4x2048, .f32⟩ : BufTy).Contents (Elt F)),
    StableHlo.ternary main_v3 main_v22 main_v23 main_v24 ((fun x i u => Host.scatter scatter_S4x2048x16x256_S2048x3_S4x2048_0_123_123_1 (fun _ b => b) x i u) : (⟨S4x2048x16x256, .f32⟩ : BufTy).Contents (Elt F) → (⟨S2048x3, .i32⟩ : BufTy).Contents (Elt F) → (⟨S4x2048, .f32⟩ : BufTy).Contents (Elt F) → (⟨S4x2048x16x256, .f32⟩ : BufTy).Contents (Elt F)),
    StableHlo.nullary main_cst_8 (constant S_ .f32 0x00000000#32),
    StableHlo.unary main_cst_8 main_v25 (broadcastInDim S4x2048x16x256 ![] bcast_S_S4x2048x16x256 : (⟨S_, .f32⟩ : BufTy).Contents (Elt F) → (⟨S4x2048x16x256, .f32⟩ : BufTy).Contents (Elt F)),
    StableHlo.binary main_v24 main_v25 main_v26 (cmpf .une : (⟨S4x2048x16x256, .f32⟩ : BufTy).Contents (Elt F) → (⟨S4x2048x16x256, .f32⟩ : BufTy).Contents (Elt F) → (⟨S4x2048x16x256, .i1⟩ : BufTy).Contents (Elt F)),
    StableHlo.unary main_v26 main_v27 (id : (⟨S4x2048x16x256, .i1⟩ : BufTy).Contents (Elt F) → (⟨S4x2048x16x256, .i1⟩ : BufTy).Contents (Elt F)),
    StableHlo.nullary main_cst_9 (constant S_ .f32 0x00000000#32) ]

/-- @main's operations in order, the callees' listed where they are called. -/
abbrev ops : List (HloOp τ sig (Elt F)) := opsA ++ opsB ++ opsC

set_option maxRecDepth 2048 in
/-- @main is that straight line: with the functions' definitions unfolded at their calls, both sides are one chain
    of steps, sequencing re-associating by computation. -/
theorem main_eq (c : Dev nD) : main (F := F) c = seq ops := by
  unfold main fn_remainder.body fn_floor_divide.body fn_where.body fn_where_0.body
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem opsB_sub : (opsB : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem opsC_sub : (opsC : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., nullary_bufs_sub .., unary_bufs_sub .., ternary_bufs_sub .., nullary_bufs_sub .., unary_bufs_sub .., binary_bufs_sub .., unary_bufs_sub .., nullary_bufs_sub ..⟩

theorem ops_sub : (ops : List (HloOp τ sig (Elt F))).Forall fun op => op.bufs ⊆ tcRefs τ sig :=
  List.forall_iff_forall_mem.mpr fun op h => by
    rcases List.mem_append.mp h with h | h
    · rcases List.mem_append.mp h with h | h
      · exact List.forall_iff_forall_mem.mp opsA_sub op h
      · exact List.forall_iff_forall_mem.mp opsB_sub op h
    · exact List.forall_iff_forall_mem.mp opsC_sub op h

/-- From any memory with zero counters every weakly fair execution of @main terminates, and every final state
    has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold over two stretches is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The composed terms

What the result buffers hold, as terms over the pure operations: the token positions, their remainder and floored
quotient by 16 as the two outlined functions compute them, the three index columns made non-negative, their
concatenation, and the scatter of ones into zeros at those indices. -/

/-- A scalar read at every position. -/
abbrev bc {α : Type} (x : S_.Idx → α) : S2048.Idx → α := broadcastInDim S2048 ![] bcast_S_S2048 x

/-- The token positions 0 … 2047. -/
def pos : IVec S2048 32 := iotaInDim S2048 32 0
/-- The divisor 16, converted to its own type. -/
def k16 : IVec S_ 32 := id (constantI S_ 32 16#32)

/-- The remainder's divisor: 1 where the divisor is 0, else the divisor. -/
def remDiv : IVec S_ 32 := select (cmpi .eq k16 (constantI S_ 32 0#32)) (constantI S_ 32 1#32) k16
/-- The truncating remainder of the positions p. -/
def remR (p : IVec S2048 32) : IVec S2048 32 := Host.remsi p (bc remDiv)
/-- jnp's remainder: the truncating one, plus the divisor where it is non-zero and of the other sign. -/
def remOf (p : IVec S2048 32) : IVec S2048 32 :=
  select
    (andi (cmpi .ne (cmpi .slt (remR p) (bc (constantI S_ 32 0#32))) (bc (cmpi .slt remDiv (constantI S_ 32 0#32))))
      (cmpi .ne (remR p) (bc (constantI S_ 32 0#32))))
    (addi (remR p) (bc remDiv)) (remR p)

/-- The truncating quotient of the positions p. -/
def quoQ (p : IVec S2048 32) : IVec S2048 32 := Host.divsi p (bc k16)
/-- jnp's floored quotient: the truncating one, less one where the signs differ and the remainder is non-zero. -/
def quoOf (p : IVec S2048 32) : IVec S2048 32 :=
  select
    (andi (cmpi .ne (signi p) (bc (signi k16))) (cmpi .ne (Host.remsi p (bc k16)) (bc (constantI S_ 32 0#32))))
    (subi (quoQ p) (bc (constantI S_ 32 1#32))) (quoQ p)

/-- An index column made non-negative: the axis size added where the index is negative. -/
def wrap (n : BitVec 32) (x : IVec S2048 32) : IVec S2048 32 :=
  select (cmpi .slt x (bc (constantI S_ 32 0#32))) (addi x (bc (constantI S_ 32 n))) x

/-- A column as a 2048 × 1 array. -/
abbrev col (x : IVec S2048 32) : IVec S2048x1 32 := broadcastInDim S2048x1 ![0] bcast_S2048_S2048x1_0 x

/-- The scatter indices from the positions p, their remainders r and quotients q: row i is (p i, r i, q i), each made
    non-negative. -/
def indicesOf (p r q : IVec S2048 32) : IVec S2048x3 32 :=
  concatenate S2048x3 1 [⟨S2048x1, col (wrap 2048#32 p)⟩, ⟨S2048x1, col (wrap 16#32 r)⟩, ⟨S2048x1, col (wrap 256#32 q)⟩]
    concatenates_S2048x1_S2048x1_S2048x1_S2048x3_d1

/-- The operand of the scatter: zeros. -/
def zerosF : FVec F S4x2048x16x256 .f32 :=
  broadcastInDim S4x2048x16x256 ![] bcast_S_S4x2048x16x256 (constant S_ .f32 0x00000000#32)
/-- The updates of the scatter: ones. -/
def onesF : FVec F S4x2048 .f32 := broadcastInDim S4x2048 ![] bcast_S_S4x2048 (constant S_ .f32 0x3F800000#32)

/-- The float result from the three columns: ones written into zeros at the indices. -/
def outFOf (p r q : IVec S2048 32) : FVec F S4x2048x16x256 .f32 :=
  Host.scatter scatter_S4x2048x16x256_S2048x3_S4x2048_0_123_123_1 (fun _ b => b) zerosF (indicesOf p r q) onesF
/-- The boolean result from the three columns: where the float result differs from zero. -/
def outBOf (p r q : IVec S2048 32) : IVec S4x2048x16x256 1 := id (cmpf .une (outFOf (F := F) p r q) zerosF)

/-- The scatter indices of the program. -/
def indices : IVec S2048x3 32 := indicesOf pos (remOf pos) (quoOf pos)
/-- The float result. -/
def outF : FVec F S4x2048x16x256 .f32 := outFOf pos (remOf pos) (quoOf pos)
/-- The boolean result. -/
def outB : IVec S4x2048x16x256 1 := outBOf (F := F) pos (remOf pos) (quoOf pos)
/-- The scalar result. -/
def outS : FVec F S_ .f32 := constant S_ .f32 0x00000000#32

/-! ## The fold over each stretch, at the buffers read later

Each is a computation: the fold unrolled, each operation's result decides whether the buffer read is the one it
writes, and the typed references' casts are the identity at literal references.  The pure operations are kept
folded meanwhile: the equations never look inside them. -/

attribute [local irreducible] Host.scatter concatenate broadcastInDim Host.remsi Host.divsi select cmpi cmpf addi subi andi signi iotaInDim constantI constant in
set_option maxRecDepth 8192 in
set_option maxHeartbeats 1600000 in
/-- After the first stretch the positions' buffer holds the positions … -/
theorem A_v0 (W : Valuation τ sig (Elt F)) : after opsA W (main_v0 : DevRef τ sig) = pos := by
  simp only [after_cons, after_nil]
  rfl

attribute [local irreducible] Host.scatter concatenate broadcastInDim Host.remsi Host.divsi select cmpi cmpf addi subi andi signi iotaInDim constantI constant in
set_option maxRecDepth 8192 in
set_option maxHeartbeats 1600000 in
/-- … the remainder function's result their remainder … -/
theorem A_v1 (W : Valuation τ sig (Elt F)) : after opsA W (main_v1 : DevRef τ sig) = remOf pos := by
  simp only [after_cons, after_nil]
  rfl

attribute [local irreducible] Host.scatter concatenate broadcastInDim Host.remsi Host.divsi select cmpi cmpf addi subi andi signi iotaInDim constantI constant in
set_option maxRecDepth 8192 in
set_option maxHeartbeats 1600000 in
/-- … and the argument is untouched. -/
theorem A_arg0 (W : Valuation τ sig (Elt F)) : after opsA W (main_arg0 : DevRef τ sig) = W (main_arg0 : DevRef τ sig) := by
  simp only [after_cons, after_nil]
  rfl

attribute [local irreducible] Host.scatter concatenate broadcastInDim Host.remsi Host.divsi select cmpi cmpf addi subi andi signi iotaInDim constantI constant in
set_option maxRecDepth 8192 in
set_option maxHeartbeats 1600000 in
/-- After the second stretch the floored division's result holds the quotient of the positions' buffer … -/
theorem B_v2 (W : Valuation τ sig (Elt F)) : after opsB W (main_v2 : DevRef τ sig) = quoOf (W (main_v0 : DevRef τ sig)) := by
  simp only [after_cons, after_nil]
  rfl

attribute [local irreducible] Host.scatter concatenate broadcastInDim Host.remsi Host.divsi select cmpi cmpf addi subi andi signi iotaInDim constantI constant in
set_option maxRecDepth 8192 in
set_option maxHeartbeats 1600000 in
/-- … and the buffers read later are untouched. -/
theorem B_v0 (W : Valuation τ sig (Elt F)) : after opsB W (main_v0 : DevRef τ sig) = W (main_v0 : DevRef τ sig) := by
  simp only [after_cons, after_nil]
  rfl

attribute [local irreducible] Host.scatter concatenate broadcastInDim Host.remsi Host.divsi select cmpi cmpf addi subi andi signi iotaInDim constantI constant in
set_option maxRecDepth 8192 in
set_option maxHeartbeats 1600000 in
theorem B_v1 (W : Valuation τ sig (Elt F)) : after opsB W (main_v1 : DevRef τ sig) = W (main_v1 : DevRef τ sig) := by
  simp only [after_cons, after_nil]
  rfl

attribute [local irreducible] Host.scatter concatenate broadcastInDim Host.remsi Host.divsi select cmpi cmpf addi subi andi signi iotaInDim constantI constant in
set_option maxRecDepth 8192 in
set_option maxHeartbeats 1600000 in
theorem B_arg0 (W : Valuation τ sig (Elt F)) : after opsB W (main_arg0 : DevRef τ sig) = W (main_arg0 : DevRef τ sig) := by
  simp only [after_cons, after_nil]
  rfl

attribute [local irreducible] Host.scatter concatenate broadcastInDim Host.remsi Host.divsi select cmpi cmpf addi subi andi signi iotaInDim constantI constant in
set_option maxRecDepth 8192 in
set_option maxHeartbeats 1600000 in
/-- After the third stretch the float result is the scatter at the indices built from the three columns … -/
theorem C_v24 (W : Valuation τ sig (Elt F)) : after opsC W (main_v24 : DevRef τ sig) = outFOf (F := F) (W (main_v0 : DevRef τ sig)) (W (main_v1 : DevRef τ sig)) (W (main_v2 : DevRef τ sig)) := by
  simp only [after_cons, after_nil]
  rfl

attribute [local irreducible] Host.scatter concatenate broadcastInDim Host.remsi Host.divsi select cmpi cmpf addi subi andi signi iotaInDim constantI constant in
set_option maxRecDepth 8192 in
set_option maxHeartbeats 1600000 in
/-- … the boolean result its comparison with zero … -/
theorem C_v27 (W : Valuation τ sig (Elt F)) : after opsC W (main_v27 : DevRef τ sig) = outBOf (F := F) (W (main_v0 : DevRef τ sig)) (W (main_v1 : DevRef τ sig)) (W (main_v2 : DevRef τ sig)) := by
  simp only [after_cons, after_nil]
  rfl

attribute [local irreducible] Host.scatter concatenate broadcastInDim Host.remsi Host.divsi select cmpi cmpf addi subi andi signi iotaInDim constantI constant in
set_option maxRecDepth 8192 in
set_option maxHeartbeats 1600000 in
/-- … the scalar result the constant … -/
theorem C_cst9 (W : Valuation τ sig (Elt F)) : after opsC W (main_cst_9 : DevRef τ sig) = outS (F := F) := by
  simp only [after_cons, after_nil]
  rfl

attribute [local irreducible] Host.scatter concatenate broadcastInDim Host.remsi Host.divsi select cmpi cmpf addi subi andi signi iotaInDim constantI constant in
set_option maxRecDepth 8192 in
set_option maxHeartbeats 1600000 in
/-- … and the argument is untouched. -/
theorem C_arg0 (W : Valuation τ sig (Elt F)) : after opsC W (main_arg0 : DevRef τ sig) = W (main_arg0 : DevRef τ sig) := by
  simp only [after_cons, after_nil]
  rfl

/-! ## The fold over the whole line -/

theorem outF_eq (V : Valuation τ sig (Elt F)) : after ops V (main_v24 : DevRef τ sig) = outF (F := F) := by
  show after (opsA ++ opsB ++ opsC) V _ = _
  rw [after_append, after_append, C_v24, B_v0, B_v1, B_v2, A_v0, A_v1]
  rfl

theorem outB_eq (V : Valuation τ sig (Elt F)) : after ops V (main_v27 : DevRef τ sig) = outB (F := F) := by
  show after (opsA ++ opsB ++ opsC) V _ = _
  rw [after_append, after_append, C_v27, B_v0, B_v1, B_v2, A_v0, A_v1]
  rfl

theorem outS_eq (V : Valuation τ sig (Elt F)) : after ops V (main_cst_9 : DevRef τ sig) = outS (F := F) := by
  show after (opsA ++ opsB ++ opsC) V _ = _
  rw [after_append, after_append, C_cst9]

theorem arg0_eq (V : Valuation τ sig (Elt F)) : after ops V (main_arg0 : DevRef τ sig) = V (main_arg0 : DevRef τ sig) := by
  show after (opsA ++ opsB ++ opsC) V _ = _
  rw [after_append, after_append, C_arg0, B_arg0, A_arg0]

end Cert.Proof.RefRun

end
-- ==== Proof.RefScatter.lean ====
/-
  A scatter that overwrites with one constant, read at an index.  The host scatter is the left fold, over the
  update indices in row-major order, of "replace the element at this update's result index by the update".  When
  every update is the same value c the order does not matter: the result at i' is c if some update lands on i',
  and the operand's element otherwise.
-/
import Idealize.ShloMosaic.PureOps
import Idealize.ShloMosaic.Lib.ValueIdx

noncomputable section

namespace Cert.Proof.RefScatter

open Idealize.ShloMosaic

variable {α : Type} {s si u : Shape} {w : Nat}

/-- The fold over any list of update positions: c where one of them lands, the start value elsewhere. -/
theorem foldl_set_const (d : ScatterDims s si u) (idx : IVec si w) (c : α) (i' : s.Idx) :
    ∀ (L : List (Fin u.numel)) (x : s.Idx → α),
      (L.foldl (fun r n =>
          match d.resultIdx? (u.rowMajor.symm n) idx with
          | some i => fun i'' => if i'' = i then c else r i''
          | none => r) x) i'
        = if ∃ n ∈ L, d.resultIdx? (u.rowMajor.symm n) idx = some i' then c else x i'
  | [], x => by simp
  | n :: L, x => by
    rw [List.foldl_cons, foldl_set_const d idx c i' L]
    rcases h : d.resultIdx? (u.rowMajor.symm n) idx with _ | i
    · have hiff : (∃ m ∈ n :: L, d.resultIdx? (u.rowMajor.symm m) idx = some i')
          ↔ ∃ m ∈ L, d.resultIdx? (u.rowMajor.symm m) idx = some i' := by
        simp [h]
      simp only [hiff]
    · by_cases hi : i = i'
      · subst hi
        have h1 : ∃ m ∈ n :: L, d.resultIdx? (u.rowMajor.symm m) idx = some i := ⟨n, List.mem_cons_self, h⟩
        rw [if_pos h1]
        split <;> simp
      · have hiff : (∃ m ∈ n :: L, d.resultIdx? (u.rowMajor.symm m) idx = some i')
            ↔ ∃ m ∈ L, d.resultIdx? (u.rowMajor.symm m) idx = some i' := by
          simp [h, hi]
        have hne : ¬ i' = i := fun e => hi e.symm
        simp only [hiff, if_neg hne]

/-- The scatter that sets the constant c at every update's result index. -/
theorem scatter_set_const (d : ScatterDims s si u) (x : s.Idx → α) (idx : IVec si w) (c : α) (i' : s.Idx) :
    Host.scatter d (fun _ b => b) x idx (fun _ => c) i'
      = if ∃ j : u.Idx, d.resultIdx? j idx = some i' then c else x i' := by
  have hiff : (∃ n ∈ List.finRange u.numel, d.resultIdx? (u.rowMajor.symm n) idx = some i')
      ↔ ∃ j : u.Idx, d.resultIdx? j idx = some i' := by
    constructor
    · rintro ⟨n, _, hn⟩; exact ⟨_, hn⟩
    · rintro ⟨j, hj⟩; exact ⟨u.rowMajor j, List.mem_finRange _, by simpa using hj⟩
  rw [← if_congr hiff rfl rfl, ← foldl_set_const d idx c i' (List.finRange u.numel) x]
  rfl

end Cert.Proof.RefScatter

end
-- ==== Proof.RefWords.lean ====
/-
  The integer arithmetic of the reference on one 32-bit word.  The token position is a word below 2048, the
  divisor is the literal 16.  jnp's remainder and floored division are the truncating ones followed by a
  correction that applies only when the signs of the operands differ; here both are non-negative, so the
  correction is never taken, and the index normalisation that follows (add the axis size to a negative index)
  is never taken either.  Each fact is a finite statement over the 2048 positions.
-/
import Idealize.ShloMosaic.PureOps

namespace Cert.Proof.RefWords

open Idealize.ShloMosaic

/-- jnp.remainder(x, 16) on one word: the truncating remainder r, and r + 16 where r is non-zero and its sign
    differs from the divisor's. -/
def remWord (x : BitVec 32) : BitVec 32 :=
  let dv : BitVec 32 := Scalar.select (IntOp.cmpi .eq 16#32 0#32) 1#32 16#32
  let r := IntOp.remsi .host x dv
  Scalar.select
    (IntOp.andi (IntOp.cmpi .ne (IntOp.cmpi .slt r 0#32) (IntOp.cmpi .slt dv 0#32)) (IntOp.cmpi .ne r 0#32))
    (IntOp.addi r dv) r

/-- The sign of a word: 0, -1 or 1. -/
def signWord (x : BitVec 32) : BitVec 32 := if x = 0 then 0 else if x.msb then -1 else 1

/-- jnp.floor_divide(x, 16) on one word: the truncating quotient q, and q - 1 where the signs differ and the
    remainder is non-zero. -/
def quoWord (x : BitVec 32) : BitVec 32 :=
  let q := IntOp.divsi .host x 16#32
  Scalar.select
    (IntOp.andi (IntOp.cmpi .ne (signWord x) (signWord 16#32)) (IntOp.cmpi .ne (IntOp.remsi .host x 16#32) 0#32))
    (IntOp.subi q 1#32) q

/-- An index made non-negative: x + n where x is negative, x otherwise. -/
def wrapWord (n x : BitVec 32) : BitVec 32 := Scalar.select (IntOp.cmpi .slt x 0#32) (IntOp.addi x n) x

/-- A position below 2048 is not negative. -/
theorem col0 : ∀ n : Fin 2048, wrapWord 2048#32 (BitVec.ofNat 32 n.val) = BitVec.ofNat 32 n.val := by decide +kernel

/-- The expert of position n is n % 16. -/
theorem col1 : ∀ n : Fin 2048, wrapWord 16#32 (remWord (BitVec.ofNat 32 n.val)) = BitVec.ofNat 32 (n.val % 16) := by
  decide +kernel

/-- The slot of position n is n / 16. -/
theorem col2 : ∀ n : Fin 2048, wrapWord 256#32 (quoWord (BitVec.ofNat 32 n.val)) = BitVec.ofNat 32 (n.val / 16) := by
  decide +kernel

end Cert.Proof.RefWords
-- ==== Proof.RefValue.lean ====
/-
  The reference's result terms are the specification.  Token i sits at position i of the iota; its remainder and
  floored quotient by 16, as the outlined functions compute them on 32-bit words, are i % 16 and i / 16 because
  nothing is negative; so row i of the scatter indices is (i, i % 16, i / 16).  Update (g, i) of the scatter lands
  at (g, i, i % 16, i / 16), always inside the operand.  Every update is the word of 1.0, so the result holds that
  word exactly at the places some update lands on — the places the specification calls hits — and the operand's
  0.0 elsewhere.  On the extended reals 1 ≠ 0 and 0 = 0, which gives the boolean mask.
-/
import proofs.«214985_g80496277062245_cont_9to1_m_1082_20_alg».proof.Proof.RefRun
import proofs.«214985_g80496277062245_cont_9to1_m_1082_20_alg».proof.Proof.RefScatter
import proofs.«214985_g80496277062245_cont_9to1_m_1082_20_alg».proof.Proof.RefWords
import proofs.«214985_g80496277062245_cont_9to1_m_1082_20_alg».proof.Proof.Spec
import Idealize.ShloMosaic.Lib.IdealHost

noncomputable section

namespace Cert.Proof.RefValue

open Cert.ReferenceIdeal Cert.ReferenceIdeal.Gen Idealize.ShloMosaic Idealize.ShloMosaic.ValueIdx
open Cert.Proof.RefRun

/-- The scatter's dimension numbers: update axis 0 is the window (the groups), update axis 1 runs over the rows of the
    index array, whose three columns name operand axes 1, 2, 3. -/
abbrev dd : ScatterDims S4x2048x16x256 S2048x3 S4x2048 := scatter_S4x2048x16x256_S2048x3_S4x2048_0_123_123_1

/-! ## The three index columns -/

/-- Position i, made non-negative, is the word of i. -/
theorem wrap_pos (i : S2048.Idx) : wrap 2048#32 pos i = BitVec.ofNat 32 (i 0).val := RefWords.col0 (i 0)
/-- The remainder of position i, made non-negative, is the word of i % 16. -/
theorem wrap_rem (i : S2048.Idx) : wrap 16#32 (remOf pos) i = BitVec.ofNat 32 ((i 0).val % 16) := RefWords.col1 (i 0)
/-- The floored quotient of position i, made non-negative, is the word of i / 16. -/
theorem wrap_quo (i : S2048.Idx) : wrap 256#32 (quoOf pos) i = BitVec.ofNat 32 ((i 0).val / 16) := RefWords.col2 (i 0)

/-! ## The index array: row t is (t, t % 16, t / 16) -/

theorem indices_0 (t : Fin 2048) : indices (ix2 (n0 := 2048) (n1 := 3) t 0) = BitVec.ofNat 32 t.val := by
  show wrap 2048#32 pos _ = _
  rw [wrap_pos]
  rfl
theorem indices_1 (t : Fin 2048) : indices (ix2 (n0 := 2048) (n1 := 3) t 1) = BitVec.ofNat 32 (t.val % 16) := by
  show wrap 16#32 (remOf pos) _ = _
  rw [wrap_rem]
  rfl
theorem indices_2 (t : Fin 2048) : indices (ix2 (n0 := 2048) (n1 := 3) t 2) = BitVec.ofNat 32 (t.val / 16) := by
  show wrap 256#32 (quoOf pos) _ = _
  rw [wrap_quo]
  rfl

/-! ## Where an update lands -/

/-- A word below 2048 read as a signed integer is itself. -/
theorem toInt_small (n : Nat) (h : n < 2048) : (BitVec.ofNat 32 n).toInt = (n : Int) := by
  rw [BitVec.toInt_eq_toNat_cond]; simp; omega

/-- Component c of update j's start index is read at row j 1, column c of the index array. -/
theorem siIdx_eq (j : S4x2048.Idx) (c : Fin 3) :
    dd.siIdx j ⟨c.val, c.isLt⟩ = (ix2 (n0 := 2048) (n1 := 3) (j 1) c : S2048x3.Idx) := by
  funext b
  match b with
  | ⟨0, _⟩ => rfl
  | ⟨1, _⟩ => rfl

theorem window_0 (j : S4x2048.Idx) : dd.window j 0 = (j 0).val := rfl
theorem window_1 (j : S4x2048.Idx) : dd.window j 1 = 0 := rfl
theorem window_2 (j : S4x2048.Idx) : dd.window j 2 = 0 := rfl
theorem window_3 (j : S4x2048.Idx) : dd.window j 3 = 0 := rfl

theorem start_0 (j : S4x2048.Idx) : dd.start j indices 0 = 0 := rfl
theorem start_1 (j : S4x2048.Idx) : dd.start j indices 1 = ((j 1).val : Int) :=
  show (indices (dd.siIdx j ⟨(0 : Fin 3).val, (0 : Fin 3).isLt⟩)).toInt = _ from
    (congrArg BitVec.toInt ((congrArg indices (siIdx_eq j 0)).trans (indices_0 (j 1)))).trans (toInt_small _ (j 1).isLt)
theorem start_2 (j : S4x2048.Idx) : dd.start j indices 2 = (((j 1).val % 16 : Nat) : Int) :=
  show (indices (dd.siIdx j ⟨(1 : Fin 3).val, (1 : Fin 3).isLt⟩)).toInt = _ from
    (congrArg BitVec.toInt ((congrArg indices (siIdx_eq j 1)).trans (indices_1 (j 1)))).trans
      (toInt_small _ (Nat.lt_trans (Nat.mod_lt _ (by decide)) (by decide)))
theorem start_3 (j : S4x2048.Idx) : dd.start j indices 3 = (((j 1).val / 16 : Nat) : Int) :=
  show (indices (dd.siIdx j ⟨(2 : Fin 3).val, (2 : Fin 3).isLt⟩)).toInt = _ from
    (congrArg BitVec.toInt ((congrArg indices (siIdx_eq j 2)).trans (indices_2 (j 1)))).trans
      (toInt_small _ (Nat.lt_of_le_of_lt (Nat.div_le_self _ _) (j 1).isLt))

/-- Update (g, i) lands at (g, i, i % 16, i / 16): always inside the operand. -/
theorem resultIdx_eq (j : S4x2048.Idx) :
    dd.resultIdx? j indices
      = some (ix4 (n0 := 4) (n1 := 2048) (n2 := 16) (n3 := 256) (j 0) (j 1)
          ⟨(j 1).val % 16, Nat.mod_lt _ (by decide)⟩ ⟨(j 1).val / 16, by have h : (j 1).val < 2048 := (j 1).isLt; omega⟩) := by
  have h0 : (j 0).val < 4 := (j 0).isLt
  have h1 : (j 1).val < 2048 := (j 1).isLt
  have hb : ∀ a, 0 ≤ dd.start j indices a + dd.window j a
      ∧ dd.start j indices a + dd.window j a < S4x2048x16x256.size a := by
    intro a
    match a with
    | ⟨0, _⟩ => rw [show (⟨0, _⟩ : Fin 4) = 0 from rfl, start_0, window_0]; show _ ∧ _ < ((4 : Nat) : Int); omega
    | ⟨1, _⟩ => rw [show (⟨1, _⟩ : Fin 4) = 1 from rfl, start_1, window_1]; show _ ∧ _ < ((2048 : Nat) : Int); omega
    | ⟨2, _⟩ => rw [show (⟨2, _⟩ : Fin 4) = 2 from rfl, start_2, window_2]; show _ ∧ _ < ((16 : Nat) : Int); omega
    | ⟨3, _⟩ => rw [show (⟨3, _⟩ : Fin 4) = 3 from rfl, start_3, window_3]; show _ ∧ _ < ((256 : Nat) : Int); omega
  unfold ScatterDims.resultIdx?
  rw [dif_pos hb]
  congr 1
  funext a
  match a with
  | ⟨0, _⟩ =>
    apply Fin.ext
    show (dd.start j indices 0 + dd.window j 0).toNat = (j 0).val
    rw [start_0, window_0]; omega
  | ⟨1, _⟩ =>
    apply Fin.ext
    show (dd.start j indices 1 + dd.window j 1).toNat = (j 1).val
    rw [start_1, window_1]; omega
  | ⟨2, _⟩ =>
    apply Fin.ext
    show (dd.start j indices 2 + dd.window j 2).toNat = (j 1).val % 16
    rw [start_2, window_2]; omega
  | ⟨3, _⟩ =>
    apply Fin.ext
    show (dd.start j indices 3 + dd.window j 3).toNat = (j 1).val / 16
    rw [start_3, window_3]; omega

/-- Some update lands on a place exactly when the place is a hit. -/
theorem exists_iff (i' : S4x2048x16x256.Idx) :
    (∃ j : S4x2048.Idx, dd.resultIdx? j indices = some i') ↔ Cert.Spec.Hit i' := by
  constructor
  · rintro ⟨j, hj⟩
    rw [resultIdx_eq] at hj
    have he := Option.some.inj hj
    subst he
    exact ⟨rfl, rfl⟩
  · rintro ⟨h2, h3⟩
    refine ⟨ix2 (n0 := 4) (n1 := 2048) (i' 0) (i' 1), ?_⟩
    rw [resultIdx_eq]
    congr 1
    funext a
    match a with
    | ⟨0, _⟩ => rfl
    | ⟨1, _⟩ => rfl
    | ⟨2, _⟩ => exact Fin.ext h2.symm
    | ⟨3, _⟩ => exact Fin.ext h3.symm

/-! ## The results -/

variable {F : FTy → Type} [FloatOps F]

/-- Every update is the word of 1.0. -/
theorem onesF_eq : (onesF : FVec F S4x2048 .f32) = fun _ => FloatOps.ofBits .f32 0x3F800000#32 := rfl
/-- Every element of the operand is the word of 0.0. -/
theorem zerosF_apply (i' : S4x2048x16x256.Idx) : (zerosF : FVec F S4x2048x16x256 .f32) i' = FloatOps.ofBits .f32 0x00000000#32 := rfl

/-- The float result at a place: 1.0 where some update lands, the operand's 0.0 elsewhere. -/
theorem outF_apply (i' : S4x2048x16x256.Idx) :
    outF (F := F) i' = if ∃ j : S4x2048.Idx, dd.resultIdx? j indices = some i' then FloatOps.ofBits .f32 0x3F800000#32
      else FloatOps.ofBits .f32 0x00000000#32 := by
  have h := RefScatter.scatter_set_const dd (zerosF (F := F)) indices (FloatOps.ofBits .f32 0x3F800000#32 : F .f32) i'
  rw [zerosF_apply] at h
  rw [← h, ← onesF_eq]
  rfl

/-- The float mask at a place. -/
theorem maskF_apply (i' : S4x2048x16x256.Idx) :
    Cert.Spec.maskF (F := F) i' = if Cert.Spec.Hit i' then FloatOps.ofBits .f32 0x3F800000#32 else FloatOps.ofBits .f32 0x00000000#32 := rfl

/-- The float result is the float mask, at every float instance. -/
theorem outF_eq_maskF : outF (F := F) = Cert.Spec.maskF := by
  funext i'
  rw [outF_apply, maskF_apply]
  exact if_congr (exists_iff i') rfl rfl

/-- On the extended reals 1 differs from 0 and 0 does not. -/
theorem cmp_one_zero : Ideal.cmp .une (Ideal.ofBits .f32 0x3F800000#32) (Ideal.ofBits .f32 0x00000000#32) = 1#1 := by
  rw [Ideal.ofBits_one_f32, Ideal.ofBits_zero_f32]
  simp [Ideal.cmp]
theorem cmp_zero_zero : Ideal.cmp .une (Ideal.ofBits .f32 0x00000000#32) (Ideal.ofBits .f32 0x00000000#32) = 0#1 := by
  simp [Ideal.cmp]

/-- The boolean result compares the float result with the zeros. -/
theorem outB_def : outB (F := F) = cmpf .une (outF (F := F)) (zerosF (F := F)) := rfl

/-- On the extended reals the comparison "differs from zero" of the float mask is the boolean mask. -/
theorem outB_eq_maskB : outB (F := Ideal) = Cert.Spec.maskB := by
  funext i'
  rw [outB_def, cmpf_apply, outF_eq_maskF, maskF_apply, zerosF_apply]
  unfold Cert.Spec.maskB
  by_cases h : Cert.Spec.Hit i'
  · rw [if_pos h, if_pos h]; exact cmp_one_zero
  · rw [if_neg h, if_neg h]; exact cmp_zero_zero

/-- The scalar result is the scalar 0.0. -/
theorem outS_eq_zeroS : outS (F := F) = Cert.Spec.zeroS := rfl

end Cert.Proof.RefValue

end
-- ==== Proof.RefSide.lean ====
/-
  The reference side of the certificate: at the ideal instance, from any memory with zero counters, every weakly
  fair execution of the reference's @main terminates with the scalar result at 0.0, the float result at the float
  mask, the boolean result at the boolean mask, and the argument unchanged.  The run gives each buffer as the fold
  of the operations over the launch contents; the fold at each result is a term over the pure operations; and that
  term is the specification.
-/
import proofs.«214985_g80496277062245_cont_9to1_m_1082_20_alg».proof.Proof.RefRun
import proofs.«214985_g80496277062245_cont_9to1_m_1082_20_alg».proof.Proof.RefValue
import proofs.«214985_g80496277062245_cont_9to1_m_1082_20_alg».proof.Proof.Spec

noncomputable section

namespace Cert.Proof.RefSide

open Idealize.ShloMosaic Idealize.ShloMosaic.TcCoe Idealize.SL.Sem Idealize.ShloMosaic.StableHlo
open Cert.ReferenceIdeal.Gen

theorem run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
          r.2.mem ((c.tc : Thread Cert.ReferenceIdeal.nD Cert.ReferenceIdeal.τ).loc Cert.ReferenceIdeal.main_cst_9) = (Cert.Spec.zeroS (F := Ideal))
        ∧ r.2.mem ((c.tc : Thread Cert.ReferenceIdeal.nD Cert.ReferenceIdeal.τ).loc Cert.ReferenceIdeal.main_v24) = (Cert.Spec.maskF (F := Ideal))
        ∧ r.2.mem ((c.tc : Thread Cert.ReferenceIdeal.nD Cert.ReferenceIdeal.τ).loc Cert.ReferenceIdeal.main_v27) = Cert.Spec.maskB
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)) :=
  (θ_run (Cert.ReferenceIdeal.defs (F := Ideal)) _ _).mono
    (fun _ h c =>
      ⟨(h c Cert.ReferenceIdeal.main_cst_9).trans ((RefRun.outS_eq _).trans RefValue.outS_eq_zeroS),
       (h c Cert.ReferenceIdeal.main_v24).trans ((RefRun.outF_eq _).trans RefValue.outF_eq_maskF),
       (h c Cert.ReferenceIdeal.main_v27).trans ((RefRun.outB_eq _).trans RefValue.outB_eq_maskB),
       (h c Cert.ReferenceIdeal.main_arg0).trans (RefRun.arg0_eq _)⟩)
    (RefRun.run_main m' g')

end Cert.Proof.RefSide

end
-- ==== Proof.lean ====
/-
  The certificate's claim.  Both programs compute the round-robin dispatch masks: token `i` goes to expert
  `i % 16`, slot `i / 16`, in every group.  The kernel program's run (its TensorCore kernel, host operations and the
  tiles of its SparseCore kernel, every interleaving of them) ends with the scalar 0.0, the float mask and the boolean
  mask, its argument unchanged — at the word-level instance and at the ideal one by the same proof —; the reference's
  run ends with the same three functions.  The three frames forget the values; the idealization rewrote nothing; the two
  idealized programs' results are one function each, so they are equal index by index.
-/
import proofs.«214985_g80496277062245_cont_9to1_m_1082_20_alg».proof.Defs
import proofs.«214985_g80496277062245_cont_9to1_m_1082_20_alg».proof.Proof.KIRun
import proofs.«214985_g80496277062245_cont_9to1_m_1082_20_alg».proof.Proof.KBRun
import proofs.«214985_g80496277062245_cont_9to1_m_1082_20_alg».proof.Proof.RefSide
import proofs.«214985_g80496277062245_cont_9to1_m_1082_20_alg».proof.Proof.Gen.Kernel
import proofs.«214985_g80496277062245_cont_9to1_m_1082_20_alg».proof.Proof.Gen.KernelIdeal
import proofs.«214985_g80496277062245_cont_9to1_m_1082_20_alg».proof.Proof.Gen.ReferenceIdeal
import proofs.«214985_g80496277062245_cont_9to1_m_1082_20_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2.2.2) (KB.run (F := Bits) m ρ)

theorem frame_ki : Cert.frame_KernelIdeal := fun m ρ _ =>
  (θ_run Cert.KernelIdeal.defs _ _).mono (fun _ h c => (h c).2.2.2) (KI.run (F := Ideal) m ρ)

theorem frame_ri : Cert.frame_ReferenceIdeal := fun m ρ _ =>
  (θ_run Cert.ReferenceIdeal.defs _ _).mono (fun _ h c => (h c).2.2.2) (RefSide.run m ρ)

/-- Both idealized programs end with the scalar 0.0, the float mask and the boolean mask. -/
theorem algebraic : Cert.algebraic_KernelIdeal_ReferenceIdeal := by
  intro m ρ m' ρ' _ _
  refine ⟨fun c => KI.outZ (F := Ideal) c, fun c => KI.outF (F := Ideal) c, fun c => KI.outB (F := Ideal) c, ?_, ?_⟩
  · exact (θ_run Cert.KernelIdeal.defs _ _).mono (fun _ h c => h c) (KI.run (F := Ideal) m ρ)
  · exact (θ_run Cert.ReferenceIdeal.defs _ _).mono (fun _ h c => ⟨(h c).1, (h c).2.1, (h c).2.2.1, (h c).2.2.2⟩) (RefSide.run m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
